-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S2x100000 : Shape := ⟨2, ![2, 100000]⟩
abbrev S3x128x128 : Shape := ⟨3, ![3, 128, 128]⟩
abbrev S3x128 : Shape := ⟨2, ![3, 128]⟩
abbrev S384x1 : Shape := ⟨2, ![384, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x1 : S_.BroadcastsInDim S384x1 (![] : Fin 0 → Fin S384x1.rank)
  reducesTo_S384x1_S_d0_1 : S384x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S1 .f32) (main_v13 : IVec S_ 1) (main_v16 : IVec S384x1 1) : IVec S_ 1 :=
  let main_c_5 : IVec S_ 1 := constantI S_ 1 1#1
  let main_v17 : IVec S_ 1 := (fun x v => Host.reduce IntOp.andi x v reducesTo_S384x1_S_d0_1 h_S_) main_v16 main_c_5
  let main_v18 : IVec S_ 1 := andi main_v13 main_v17
  let main_v19 : FVec F S1 .f32 := Host.absf main_arg7
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x128 .f32) (main_arg1 : IVec S2x640000 32) (main_arg2 : IVec S2x100000 32) (main_arg3 : IVec S2x100000 32) (main_arg4 : FVec F S3x128x128 .f32) (main_arg5 : FVec F S3x128 .f32) (main_arg6 : FVec F S384x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S384x1 .f32 := Host.absf main_arg6
  let main_cst_4 : FVec F S_ .f32 := constant S_ .f32 0x7F800000#32
  let main_v15 : FVec F S384x1 .f32 := broadcastInDim S384x1 ![] bcast_S_S384x1 main_cst_4
  let main_v16 : IVec S384x1 1 := cmpf .olt main_v14 main_v15
  fn_part1 (F := F) main_arg7 main_v13 main_v16
-- ==== Kernel.lean ====
abbrev S50000x128 : Shape := ⟨2, ![50000, 128]⟩
abbrev S2x640000 : Shape := ⟨2, ![2, 640000]⟩
abbrev S2x100000 : Shape := ⟨2, ![2, 100000]⟩
abbrev S3x128x128 : Shape := ⟨3, ![3, 128, 128]⟩
abbrev S3x128 : Shape := ⟨2, ![3, 128]⟩
abbrev S384x1 : Shape := ⟨2, ![384, 1]⟩
abbrev S1 : Shape := ⟨1, ![1]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S1x128x128 : Shape := ⟨3, ![1, 128, 128]⟩
abbrev S128x128 : Shape := ⟨2, ![128, 128]⟩
abbrev S5000x128 : Shape := ⟨2, ![5000, 128]⟩
abbrev S690000x128 : Shape := ⟨2, ![690000, 128]⟩
abbrev S1x128 : Shape := ⟨2, ![1, 128]⟩
abbrev S128 : Shape := ⟨1, ![128]⟩
abbrev S50000x384 : Shape := ⟨2, ![50000, 384]⟩
abbrev S1x384 : Shape := ⟨2, ![1, 384]⟩
abbrev S1x1 : Shape := ⟨2, ![1, 1]⟩
abbrev S1x100000 : Shape := ⟨2, ![1, 100000]⟩
abbrev S100000 : Shape := ⟨1, ![100000]⟩
abbrev S100000x1 : Shape := ⟨2, ![100000, 1]⟩
abbrev S100000x384 : Shape := ⟨2, ![100000, 384]⟩
abbrev S2000x384 : Shape := ⟨2, ![2000, 384]⟩
abbrev S2000 : Shape := ⟨1, ![2000]⟩
abbrev S2000x1 : Shape := ⟨2, ![2000, 1]⟩

abbrev nBuf : Space → Nat
  | .hbm => 174
  | .vmem => 29
  | .smem => 0
  | _ => 0

abbrev hbmTy0_0 (i : Nat) : BufTy := match i % 128 with
  | 0 => ⟨S50000x128, .f32⟩
  | 1 => ⟨S2x640000, .i32⟩
  | 2 => ⟨S2x100000, .i32⟩
  | 3 => ⟨S2x100000, .i32⟩
  | 4 => ⟨S3x128x128, .f32⟩
  | 5 => ⟨S3x128, .f32⟩
  | 6 => ⟨S384x1, .f32⟩
  | 7 => ⟨S1, .f32⟩
  | 8 => ⟨S50000, .i32⟩
  | 9 => ⟨S1x640000, .i32⟩
  | 10 => ⟨S640000, .i32⟩
  | 11 => ⟨S690000, .i32⟩
  | 12 => ⟨S1x640000, .i32⟩
  | 13 => ⟨S640000, .i32⟩
  | 14 => ⟨S690000, .i32⟩
  | 15 => ⟨S_, .f32⟩
  | 16 => ⟨S690000, .f32⟩
  | 17 => ⟨S_, .f32⟩
  | 18 => ⟨S50000, .f32⟩
  | 19 => ⟨S690000x1, .i32⟩
  | 20 => ⟨S50000, .f32⟩
  | 21 => ⟨S50000, .f32⟩
  | 22 => ⟨S_, .i32⟩
  | 23 => ⟨S690000, .i32⟩
  | 24 => ⟨S690000, .i1⟩
  | 25 => ⟨S_, .i32⟩
  | 26 => ⟨S690000, .i32⟩
  | 27 => ⟨S690000, .i32⟩
  | 28 => ⟨S690000, .i32⟩
  | 29 => ⟨S690000x1, .i32⟩
  | 30 => ⟨S690000, .f32⟩
  | 31 => ⟨S_, .i32⟩
  | 32 => ⟨S690000, .i32⟩
  | 33 => ⟨S690000, .i1⟩
  | 34 => ⟨S_, .i32⟩
  | 35 => ⟨S690000, .i32⟩
  | 36 => ⟨S690000, .i32⟩
  | 37 => ⟨S690000, .i32⟩
  | 38 => ⟨S690000x1, .i32⟩
  | 39 => ⟨S690000, .f32⟩
  | 40 => ⟨S690000, .f32⟩
  | 41 => ⟨S690000x1, .f32⟩
  | 42 => ⟨S1x128x128, .f32⟩
  | 43 => ⟨S128x128, .f32⟩
  | 44 => ⟨S50000x128, .f32⟩
  | 45 => ⟨S_, .i32⟩
  | 46 => ⟨S690000, .i32⟩
  | 47 => ⟨S690000, .i1⟩
  | 48 => ⟨S_, .i32⟩
  | 49 => ⟨S690000, .i32⟩
  | 50 => ⟨S690000, .i32⟩
  | 51 => ⟨S690000, .i32⟩
  | 52 => ⟨S690000x1, .i32⟩
  | 53 => ⟨S690000x128, .f32⟩
  | 54 => ⟨S690000x128, .f32⟩
  | 55 => ⟨S690000x128, .f32⟩
  | 56 => ⟨S_, .f32⟩
  | 57 => ⟨S50000x128, .f32⟩
  | 58 => ⟨S690000x1, .i32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S1x128x128, .f32⟩
  | 69 => ⟨S128x128, .f32⟩
  | 70 => ⟨S50000x128, .f32⟩
  | 71 => ⟨S_, .i32⟩
  | 72 => ⟨S690000, .i32⟩
  | 73 => ⟨S690000, .i1⟩
  | 74 => ⟨S_, .i32⟩
  | 75 => ⟨S690000, .i32⟩
  | 76 => ⟨S690000, .i32⟩
  | 77 => ⟨S690000, .i32⟩
  | 78 => ⟨S690000x1, .i32⟩
  | 79 => ⟨S690000x128, .f32⟩
  | 80 => ⟨S690000x128, .f32⟩
  | 81 => ⟨S690000x128, .f32⟩
  | 82 => ⟨S_, .f32⟩
  | 83 => ⟨S50000x128, .f32⟩
  | 84 => ⟨S690000x1, .i32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S_, .i32⟩
  | 98 => ⟨S690000, .i32⟩
  | 99 => ⟨S690000, .i1⟩
  | 100 => ⟨S_, .i32⟩
  | 101 => ⟨S690000, .i32⟩
  | 102 => ⟨S690000, .i32⟩
  | 103 => ⟨S690000, .i32⟩
  | 104 => ⟨S690000x1, .i32⟩
  | 105 => ⟨S690000x128, .f32⟩
  | 106 => ⟨S690000x128, .f32⟩
  | 107 => ⟨S690000x128, .f32⟩
  | 108 => ⟨S_, .f32⟩
  | 109 => ⟨S50000x128, .f32⟩
  | 110 => ⟨S690000x1, .i32⟩
  | 111 => ⟨S50000x128, .f32⟩
  | 112 => ⟨S1x128, .f32⟩
  | 113 => ⟨S128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x384, .f32⟩
  | 121 => ⟨S1x384, .f32⟩
  | 122 => ⟨S1x1, .f32⟩
  | 123 => ⟨S1x100000, .i32⟩
  | 124 => ⟨S100000, .i32⟩
  | 125 => ⟨S_, .i32⟩
  | 126 => ⟨S100000, .i32⟩
  | 127 => ⟨S100000, .i1⟩
  | _ => ⟨S50000x128, .f32⟩

abbrev hbmTy0_1 (i : Nat) : BufTy := match i % 128 with
  | 0 => ⟨S_, .i32⟩
  | 1 => ⟨S100000, .i32⟩
  | 2 => ⟨S100000, .i32⟩
  | 3 => ⟨S100000, .i32⟩
  | 4 => ⟨S100000x1, .i32⟩
  | 5 => ⟨S100000x384, .f32⟩
  | 6 => ⟨S1x100000, .i32⟩
  | 7 => ⟨S100000, .i32⟩
  | 8 => ⟨S_, .i32⟩
  | 9 => ⟨S100000, .i32⟩
  | 10 => ⟨S100000, .i1⟩
  | 11 => ⟨S_, .i32⟩
  | 12 => ⟨S100000, .i32⟩
  | 13 => ⟨S100000, .i32⟩
  | 14 => ⟨S100000, .i32⟩
  | 15 => ⟨S100000x1, .i32⟩
  | 16 => ⟨S100000x384, .f32⟩
  | 17 => ⟨S1x100000, .i32⟩
  | 18 => ⟨S100000, .i32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x384, .f32⟩
  | 28 => ⟨S1x100000, .i32⟩
  | 29 => ⟨S100000, .i32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S100000x384, .f32⟩
  | 39 => ⟨S1x1, .f32⟩
  | 40 => ⟨S_, .f32⟩
  | 41 => ⟨S1x1, .f32⟩
  | 42 => ⟨S_, .f32⟩
  | 43 => ⟨S_, .f32⟩
  | 44 => ⟨S_, .f32⟩
  | 45 => ⟨S_, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S2000x384, .f32⟩
  | .local _ .vmem, ⟨16, _⟩ => ⟨S2000x384, .f32⟩
  | .local _ .vmem, ⟨17, _⟩ => ⟨S2000x384, .f32⟩
  | .local _ .vmem, ⟨18, _⟩ => ⟨S2000x384, .f32⟩
  | .local _ .vmem, ⟨19, _⟩ => ⟨S1x384, .f32⟩
  | .local _ .vmem, ⟨20, _⟩ => ⟨S1x1, .f32⟩
  | .local _ .vmem, ⟨21, _⟩ => ⟨S1x1, .f32⟩
  | .local _ .vmem, ⟨22, _⟩ => ⟨S2000x384, .f32⟩
  | .local _ .vmem, ⟨23, _⟩ => ⟨S2000x384, .f32⟩
  | .local _ .vmem, ⟨24, _⟩ => ⟨S2000x384, .f32⟩
  | .local _ .vmem, ⟨25, _⟩ => ⟨S2000x384, .f32⟩
  | .local _ .vmem, ⟨26, _⟩ => ⟨S1x384, .f32⟩
  | .local _ .vmem, ⟨27, _⟩ => ⟨S1x1, .f32⟩
  | .local _ .vmem, ⟨28, _⟩ => ⟨S1x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_7 : Ref sig .tc := ⟨.hbm, 71, rfl⟩
abbrev main_v52 : Ref sig .tc := ⟨.hbm, 72, rfl⟩
abbrev main_v53 : Ref sig .tc := ⟨.hbm, 73, rfl⟩
abbrev main_c_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call1_cst : Ref sig .tc := ⟨.hbm, 91, rfl⟩
abbrev main_call1_v0 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_10 : Ref sig .tc := ⟨.hbm, 97, rfl⟩
abbrev main_v73 : Ref sig .tc := ⟨.hbm, 98, rfl⟩
abbrev main_v74 : Ref sig .tc := ⟨.hbm, 99, rfl⟩
abbrev main_c_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_12 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_call2_cst : Ref sig .tc := ⟨.hbm, 117, rfl⟩
abbrev main_call2_v0 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_c_13 : Ref sig .tc := ⟨.hbm, 125, rfl⟩
abbrev main_v96 : Ref sig .tc := ⟨.hbm, 126, rfl⟩
abbrev main_v97 : Ref sig .tc := ⟨.hbm, 127, rfl⟩
abbrev main_c_14 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_c_15 : Ref sig .tc := ⟨.hbm, 136, rfl⟩
abbrev main_v105 : Ref sig .tc := ⟨.hbm, 137, rfl⟩
abbrev main_v106 : Ref sig .tc := ⟨.hbm, 138, rfl⟩
abbrev main_c_16 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_c_17 : Ref sig .tc := ⟨.hbm, 147, rfl⟩
abbrev main_v114 : Ref sig .tc := ⟨.hbm, 148, rfl⟩
abbrev main_v115 : Ref sig .tc := ⟨.hbm, 149, rfl⟩
abbrev main_c_18 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_c_19 : Ref sig .tc := ⟨.hbm, 158, rfl⟩
abbrev main_v123 : Ref sig .tc := ⟨.hbm, 159, rfl⟩
abbrev main_v124 : Ref sig .tc := ⟨.hbm, 160, rfl⟩
abbrev main_c_20 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_21 : Ref sig .tc := ⟨.hbm, 172, rfl⟩
abbrev main_v135 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem4_0 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem3_0 : DmaSem sig := 27
abbrev cc4_sem4_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x384 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x384 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x384 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x384 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  shapeCasts_S5000x128_S5000x128 : S5000x128.ShapeCasts S5000x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x384_d1 : Shape.Concatenates [S50000x128, S50000x128, S50000x128] S50000x384 1
  transposes_S384x1_S1x384_1_0 : S384x1.Transposes [1, 0] S1x384
  shapeCasts_S1_S1x1 : S1.ShapeCasts S1x1
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  inb_S1x1_S1x1_0_0 : ∀ a, (![0, 0] : Fin 2 → Nat) a + S1x1.size a ≤ S1x1.size a
  h_S1x1 : 0 < S1x1.numel
  inb_S2000x384_S2000x384_0_0 : ∀ a, (![0, 0] : Fin 2 → Nat) a + S2000x384.size a ≤ S2000x384.size a
  h_S2000x384 : 0 < S2000x384.numel
  shapeCasts_S2000x384_S2000x384 : S2000x384.ShapeCasts S2000x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  reduces_S2000x384_S2000 : S2000x384.Reduces [1] S2000
  shapeCasts_S2000_S2000x1 : S2000.ShapeCasts S2000x1
  inpos_S1x1_p0_0 : ∀ a, (![0, 0] : Fin 2 → Nat) a < S1x1.size a
  reduces_S2000x1_S1 : S2000x1.Reduces [0] S1
  shapeCasts_S1x1_S1x1 : S1x1.ShapeCasts S1x1
  shapeCasts_S1x1_S_ : S1x1.ShapeCasts S_
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S5000x128_S128x128_S5000x128_1_0_0_1_n_n_wf : DotDims.WF S5000x128 S128x128 S5000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  gather_S50000x384_S100000x1_S100000x384_1_0_n_n_0_1_1384_wf : GatherDims.WF S50000x384 S100000x1 S100000x384 [1] [0] [] [0] [] 1 ![1, 384]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x384.size a ≤ S100000x384.size a
  hwx3_0 : ∀ i : grid3.Coords, EltTy.bits .f32 = 32 ∨ (Rect.block (s := S100000x384) S2000x384.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x384.size a ≤ S100000x384.size a
  hwx3_1 : ∀ i : grid3.Coords, EltTy.bits .f32 = 32 ∨ (Rect.block (s := S100000x384) S2000x384.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x384.size a ≤ S1x384.size a
  hwx3_2 : ∀ i : grid3.Coords, EltTy.bits .f32 = 32 ∨ (Rect.block (s := S1x384) S1x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x384.size a ≤ S100000x384.size a
  hwx4_0 : ∀ i : grid4.Coords, EltTy.bits .f32 = 32 ∨ (Rect.block (s := S100000x384) S2000x384.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x384.size a ≤ S100000x384.size a
  hwx4_1 : ∀ i : grid4.Coords, EltTy.bits .f32 = 32 ∨ (Rect.block (s := S100000x384) S2000x384.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x384.size a ≤ S1x384.size a
  hwx4_2 : ∀ i : grid4.Coords, EltTy.bits .f32 = 32 ∨ (Rect.block (s := S1x384) S1x384.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def gather_S50000x384_S100000x1_S100000x384_1_0_n_n_0_1_1384 : GatherDims S50000x384 S100000x1 S100000x384 where
  offsetDims := [1]
  collapsedSliceDims := [0]
  operandBatchingDims := []
  startIndicesBatchingDims := []
  startIndexMap := [0]
  indexVectorDim := 1
  sliceSizes := ![1, 384]
  wf := gather_S50000x384_S100000x1_S100000x384_1_0_n_n_0_1_1384_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v102) S2000x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v111) S2000x384.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v92) S1x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v130) S1x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v120) S2000x384.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v129) S2000x384.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S1x384.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v132) S1x1.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S2x100000 : Shape := ⟨2, ![2, 100000]⟩
abbrev S3x128x128 : Shape := ⟨3, ![3, 128, 128]⟩
abbrev S3x128 : Shape := ⟨2, ![3, 128]⟩
abbrev S384x1 : Shape := ⟨2, ![384, 1]⟩
abbrev S1 : Shape := ⟨1, ![1]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S1x128x128 : Shape := ⟨3, ![1, 128, 128]⟩
abbrev S128x128 : Shape := ⟨2, ![128, 128]⟩
abbrev S690000x128 : Shape := ⟨2, ![690000, 128]⟩
abbrev S1x128 : Shape := ⟨2, ![1, 128]⟩
abbrev S128 : Shape := ⟨1, ![128]⟩
abbrev S50000x384 : Shape := ⟨2, ![50000, 384]⟩
abbrev S1x100000 : Shape := ⟨2, ![1, 100000]⟩
abbrev S100000 : Shape := ⟨1, ![100000]⟩
abbrev S100000x1 : Shape := ⟨2, ![100000, 1]⟩
abbrev S100000x384 : Shape := ⟨2, ![100000, 384]⟩
abbrev S1x1 : Shape := ⟨2, ![1, 1]⟩

abbrev nBuf : Space → Nat
  | .hbm => 217
  | .vmem => 0
  | .smem => 0
  | _ => 0

abbrev hbmTy0_0 (i : Nat) : BufTy := match i % 128 with
  | 0 => ⟨S50000x128, .f32⟩
  | 1 => ⟨S2x640000, .i32⟩
  | 2 => ⟨S2x100000, .i32⟩
  | 3 => ⟨S2x100000, .i32⟩
  | 4 => ⟨S3x128x128, .f32⟩
  | 5 => ⟨S3x128, .f32⟩
  | 6 => ⟨S384x1, .f32⟩
  | 7 => ⟨S1, .f32⟩
  | 8 => ⟨S50000, .i32⟩
  | 9 => ⟨S1x640000, .i32⟩
  | 10 => ⟨S640000, .i32⟩
  | 11 => ⟨S690000, .i32⟩
  | 12 => ⟨S1x640000, .i32⟩
  | 13 => ⟨S640000, .i32⟩
  | 14 => ⟨S690000, .i32⟩
  | 15 => ⟨S_, .f32⟩
  | 16 => ⟨S690000, .f32⟩
  | 17 => ⟨S_, .f32⟩
  | 18 => ⟨S50000, .f32⟩
  | 19 => ⟨S690000x1, .i32⟩
  | 20 => ⟨S50000, .f32⟩
  | 21 => ⟨S50000, .f32⟩
  | 22 => ⟨S_, .i32⟩
  | 23 => ⟨S690000, .i32⟩
  | 24 => ⟨S690000, .i1⟩
  | 25 => ⟨S_, .i32⟩
  | 26 => ⟨S690000, .i32⟩
  | 27 => ⟨S690000, .i32⟩
  | 28 => ⟨S690000, .i32⟩
  | 29 => ⟨S690000x1, .i32⟩
  | 30 => ⟨S690000, .f32⟩
  | 31 => ⟨S_, .i32⟩
  | 32 => ⟨S690000, .i32⟩
  | 33 => ⟨S690000, .i1⟩
  | 34 => ⟨S_, .i32⟩
  | 35 => ⟨S690000, .i32⟩
  | 36 => ⟨S690000, .i32⟩
  | 37 => ⟨S690000, .i32⟩
  | 38 => ⟨S690000x1, .i32⟩
  | 39 => ⟨S690000, .f32⟩
  | 40 => ⟨S690000, .f32⟩
  | 41 => ⟨S690000x1, .f32⟩
  | 42 => ⟨S1x128x128, .f32⟩
  | 43 => ⟨S128x128, .f32⟩
  | 44 => ⟨S50000x128, .f32⟩
  | 45 => ⟨S_, .i32⟩
  | 46 => ⟨S690000, .i32⟩
  | 47 => ⟨S690000, .i1⟩
  | 48 => ⟨S_, .i32⟩
  | 49 => ⟨S690000, .i32⟩
  | 50 => ⟨S690000, .i32⟩
  | 51 => ⟨S690000, .i32⟩
  | 52 => ⟨S690000x1, .i32⟩
  | 53 => ⟨S690000x128, .f32⟩
  | 54 => ⟨S690000x128, .f32⟩
  | 55 => ⟨S690000x128, .f32⟩
  | 56 => ⟨S_, .f32⟩
  | 57 => ⟨S50000x128, .f32⟩
  | 58 => ⟨S690000x1, .i32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S1x128x128, .f32⟩
  | 69 => ⟨S128x128, .f32⟩
  | 70 => ⟨S50000x128, .f32⟩
  | 71 => ⟨S_, .i32⟩
  | 72 => ⟨S690000, .i32⟩
  | 73 => ⟨S690000, .i1⟩
  | 74 => ⟨S_, .i32⟩
  | 75 => ⟨S690000, .i32⟩
  | 76 => ⟨S690000, .i32⟩
  | 77 => ⟨S690000, .i32⟩
  | 78 => ⟨S690000x1, .i32⟩
  | 79 => ⟨S690000x128, .f32⟩
  | 80 => ⟨S690000x128, .f32⟩
  | 81 => ⟨S690000x128, .f32⟩
  | 82 => ⟨S_, .f32⟩
  | 83 => ⟨S50000x128, .f32⟩
  | 84 => ⟨S690000x1, .i32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S_, .i32⟩
  | 98 => ⟨S690000, .i32⟩
  | 99 => ⟨S690000, .i1⟩
  | 100 => ⟨S_, .i32⟩
  | 101 => ⟨S690000, .i32⟩
  | 102 => ⟨S690000, .i32⟩
  | 103 => ⟨S690000, .i32⟩
  | 104 => ⟨S690000x1, .i32⟩
  | 105 => ⟨S690000x128, .f32⟩
  | 106 => ⟨S690000x128, .f32⟩
  | 107 => ⟨S690000x128, .f32⟩
  | 108 => ⟨S_, .f32⟩
  | 109 => ⟨S50000x128, .f32⟩
  | 110 => ⟨S690000x1, .i32⟩
  | 111 => ⟨S50000x128, .f32⟩
  | 112 => ⟨S1x128, .f32⟩
  | 113 => ⟨S128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x384, .f32⟩
  | 121 => ⟨S1x100000, .i32⟩
  | 122 => ⟨S100000, .i32⟩
  | 123 => ⟨S_, .i32⟩
  | 124 => ⟨S100000, .i32⟩
  | 125 => ⟨S100000, .i1⟩
  | 126 => ⟨S_, .i32⟩
  | 127 => ⟨S100000, .i32⟩
  | _ => ⟨S50000x128, .f32⟩

abbrev hbmTy0_1 (i : Nat) : BufTy := match i % 128 with
  | 0 => ⟨S100000, .i32⟩
  | 1 => ⟨S100000, .i32⟩
  | 2 => ⟨S100000x1, .i32⟩
  | 3 => ⟨S100000x384, .f32⟩
  | 4 => ⟨S1x100000, .i32⟩
  | 5 => ⟨S100000, .i32⟩
  | 6 => ⟨S_, .i32⟩
  | 7 => ⟨S100000, .i32⟩
  | 8 => ⟨S100000, .i1⟩
  | 9 => ⟨S_, .i32⟩
  | 10 => ⟨S100000, .i32⟩
  | 11 => ⟨S100000, .i32⟩
  | 12 => ⟨S100000, .i32⟩
  | 13 => ⟨S100000x1, .i32⟩
  | 14 => ⟨S100000x384, .f32⟩
  | 15 => ⟨S100000x384, .f32⟩
  | 16 => ⟨S100000x1, .f32⟩
  | 17 => ⟨S1x1, .f32⟩
  | 18 => ⟨S100000x1, .f32⟩
  | 19 => ⟨S100000x1, .f32⟩
  | 20 => ⟨S1x100000, .i32⟩
  | 21 => ⟨S100000, .i32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S100000x384, .f32⟩
  | 31 => ⟨S1x100000, .i32⟩
  | 32 => ⟨S100000, .i32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000x384, .f32⟩
  | 42 => ⟨S100000x384, .f32⟩
  | 43 => ⟨S100000x1, .f32⟩
  | 44 => ⟨S1x1, .f32⟩
  | 45 => ⟨S100000x1, .f32⟩
  | 46 => ⟨S100000x1, .f32⟩
  | 47 => ⟨S100000x1, .f32⟩
  | 48 => ⟨S_, .f32⟩
  | 49 => ⟨S100000x1, .f32⟩
  | 50 => ⟨S100000x1, .f32⟩
  | 51 => ⟨S100000x1, .f32⟩
  | 52 => ⟨S100000x1, .f32⟩
  | 53 => ⟨S100000x1, .i1⟩
  | 54 => ⟨S100000x1, .f32⟩
  | 55 => ⟨S100000x1, .f32⟩
  | 56 => ⟨S100000x1, .f32⟩
  | 57 => ⟨S100000x1, .f32⟩
  | 58 => ⟨S100000x1, .f32⟩
  | 59 => ⟨S100000x1, .f32⟩
  | 60 => ⟨S100000x1, .f32⟩
  | 61 => ⟨S100000x1, .f32⟩
  | 62 => ⟨S100000x1, .f32⟩
  | 63 => ⟨S100000x1, .f32⟩
  | 64 => ⟨S_, .f32⟩
  | 65 => ⟨S_, .f32⟩
  | 66 => ⟨S100000x1, .f32⟩
  | 67 => ⟨S100000x1, .f32⟩
  | 68 => ⟨S_, .f32⟩
  | 69 => ⟨S100000x1, .f32⟩
  | 70 => ⟨S100000x1, .f32⟩
  | 71 => ⟨S100000x1, .f32⟩
  | 72 => ⟨S100000x1, .f32⟩
  | 73 => ⟨S100000x1, .i1⟩
  | 74 => ⟨S100000x1, .f32⟩
  | 75 => ⟨S100000x1, .f32⟩
  | 76 => ⟨S100000x1, .f32⟩
  | 77 => ⟨S100000x1, .f32⟩
  | 78 => ⟨S100000x1, .f32⟩
  | 79 => ⟨S100000x1, .f32⟩
  | 80 => ⟨S100000x1, .f32⟩
  | 81 => ⟨S100000x1, .f32⟩
  | 82 => ⟨S100000x1, .f32⟩
  | 83 => ⟨S100000x1, .f32⟩
  | 84 => ⟨S_, .f32⟩
  | 85 => ⟨S_, .f32⟩
  | 86 => ⟨S_, .f32⟩
  | 87 => ⟨S_, .f32⟩
  | 88 => ⟨S_, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_7 : Ref sig .tc := ⟨.hbm, 71, rfl⟩
abbrev main_v52 : Ref sig .tc := ⟨.hbm, 72, rfl⟩
abbrev main_v53 : Ref sig .tc := ⟨.hbm, 73, rfl⟩
abbrev main_c_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call1_cst : Ref sig .tc := ⟨.hbm, 91, rfl⟩
abbrev main_call1_v0 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_10 : Ref sig .tc := ⟨.hbm, 97, rfl⟩
abbrev main_v73 : Ref sig .tc := ⟨.hbm, 98, rfl⟩
abbrev main_v74 : Ref sig .tc := ⟨.hbm, 99, rfl⟩
abbrev main_c_11 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_12 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_call2_cst : Ref sig .tc := ⟨.hbm, 117, rfl⟩
abbrev main_call2_v0 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_13 : Ref sig .tc := ⟨.hbm, 123, rfl⟩
abbrev main_v94 : Ref sig .tc := ⟨.hbm, 124, rfl⟩
abbrev main_v95 : Ref sig .tc := ⟨.hbm, 125, rfl⟩
abbrev main_c_14 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c_15 : Ref sig .tc := ⟨.hbm, 134, rfl⟩
abbrev main_v103 : Ref sig .tc := ⟨.hbm, 135, rfl⟩
abbrev main_v104 : Ref sig .tc := ⟨.hbm, 136, rfl⟩
abbrev main_c_16 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_c_17 : Ref sig .tc := ⟨.hbm, 150, rfl⟩
abbrev main_v117 : Ref sig .tc := ⟨.hbm, 151, rfl⟩
abbrev main_v118 : Ref sig .tc := ⟨.hbm, 152, rfl⟩
abbrev main_c_18 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_c_19 : Ref sig .tc := ⟨.hbm, 161, rfl⟩
abbrev main_v126 : Ref sig .tc := ⟨.hbm, 162, rfl⟩
abbrev main_v127 : Ref sig .tc := ⟨.hbm, 163, rfl⟩
abbrev main_c_20 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_call3_v0 : Ref sig .tc := ⟨.hbm, 175, rfl⟩
abbrev main_call3_call0_cst : Ref sig .tc := ⟨.hbm, 176, rfl⟩
abbrev main_call3_call0_v0 : Ref sig .tc := ⟨.hbm, 177, rfl⟩
abbrev main_call3_call0_v1 : Ref sig .tc := ⟨.hbm, 178, rfl⟩
abbrev main_call3_call0_v2 : Ref sig .tc := ⟨.hbm, 179, rfl⟩
abbrev main_call3_call0_v3 : Ref sig .tc := ⟨.hbm, 180, rfl⟩
abbrev main_call3_call0_v4 : Ref sig .tc := ⟨.hbm, 181, rfl⟩
abbrev main_call3_call0_v5 : Ref sig .tc := ⟨.hbm, 182, rfl⟩
abbrev main_call3_call0_v6 : Ref sig .tc := ⟨.hbm, 183, rfl⟩
abbrev main_call3_call0_v7 : Ref sig .tc := ⟨.hbm, 184, rfl⟩
abbrev main_call3_call0_v8 : Ref sig .tc := ⟨.hbm, 185, rfl⟩
abbrev main_call3_call0_v9 : Ref sig .tc := ⟨.hbm, 186, rfl⟩
abbrev main_call3_call0_v10 : Ref sig .tc := ⟨.hbm, 187, rfl⟩
abbrev main_call3_call0_v11 : Ref sig .tc := ⟨.hbm, 188, rfl⟩
abbrev main_call3_v1 : Ref sig .tc := ⟨.hbm, 189, rfl⟩
abbrev main_v138 : Ref sig .tc := ⟨.hbm, 190, rfl⟩
abbrev main_v139 : Ref sig .tc := ⟨.hbm, 191, rfl⟩
abbrev main_cst_21 : Ref sig .tc := ⟨.hbm, 192, rfl⟩
abbrev main_v140 : Ref sig .tc := ⟨.hbm, 193, rfl⟩
abbrev main_v141 : Ref sig .tc := ⟨.hbm, 194, rfl⟩
abbrev main_call4_v0 : Ref sig .tc := ⟨.hbm, 195, rfl⟩
abbrev main_call4_call0_cst : Ref sig .tc := ⟨.hbm, 196, rfl⟩
abbrev main_call4_call0_v0 : Ref sig .tc := ⟨.hbm, 197, rfl⟩
abbrev main_call4_call0_v1 : Ref sig .tc := ⟨.hbm, 198, rfl⟩
abbrev main_call4_call0_v2 : Ref sig .tc := ⟨.hbm, 199, rfl⟩
abbrev main_call4_call0_v3 : Ref sig .tc := ⟨.hbm, 200, rfl⟩
abbrev main_call4_call0_v4 : Ref sig .tc := ⟨.hbm, 201, rfl⟩
abbrev main_call4_call0_v5 : Ref sig .tc := ⟨.hbm, 202, rfl⟩
abbrev main_call4_call0_v6 : Ref sig .tc := ⟨.hbm, 203, rfl⟩
abbrev main_call4_call0_v7 : Ref sig .tc := ⟨.hbm, 204, rfl⟩
abbrev main_call4_call0_v8 : Ref sig .tc := ⟨.hbm, 205, rfl⟩
abbrev main_call4_call0_v9 : Ref sig .tc := ⟨.hbm, 206, rfl⟩
abbrev main_call4_call0_v10 : Ref sig .tc := ⟨.hbm, 207, rfl⟩
abbrev main_call4_call0_v11 : Ref sig .tc := ⟨.hbm, 208, rfl⟩
abbrev main_call4_v1 : Ref sig .tc := ⟨.hbm, 209, rfl⟩
abbrev main_v142 : Ref sig .tc := ⟨.hbm, 210, rfl⟩
abbrev main_v143 : Ref sig .tc := ⟨.hbm, 211, rfl⟩
abbrev main_cst_22 : Ref sig .tc := ⟨.hbm, 212, rfl⟩
abbrev main_v144 : Ref sig .tc := ⟨.hbm, 213, rfl⟩
abbrev main_v145 : Ref sig .tc := ⟨.hbm, 214, rfl⟩
abbrev main_cst_23 : Ref sig .tc := ⟨.hbm, 215, rfl⟩
abbrev main_v146 : Ref sig .tc := ⟨.hbm, 216, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  slices_S3x128x128_S1x128x128_0_0_0 : S3x128x128.Slices ![0, 0, 0] S1x128x128
  shapeCasts_S1x128x128_S128x128 : S1x128x128.ShapeCasts S128x128
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x384_d1 : Shape.Concatenates [S50000x128, S50000x128, S50000x128] S50000x384 1
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  reducesTo_S100000x1_S_d0_1 : S100000x1.ReducesTo [0, 1] S_
  h_S_ : 0 < S_.numel
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x128_S50000x128_1_0_0_1_n_n_wf : DotDims.WF S50000x128 S128x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  gather_S50000x384_S100000x1_S100000x384_1_0_n_n_0_1_1384_wf : GatherDims.WF S50000x384 S100000x1 S100000x384 [1] [0] [] [0] [] 1 ![1, 384]
  dot_S100000x384_S384x1_S100000x1_1_0_0_1_n_n_wf : DotDims.WF S100000x384 S384x1 S100000x1 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def gather_S50000x384_S100000x1_S100000x384_1_0_n_n_0_1_1384 : GatherDims S50000x384 S100000x1 S100000x384 where
  offsetDims := [1]
  collapsedSliceDims := [0]
  operandBatchingDims := []
  startIndicesBatchingDims := []
  startIndexMap := [0]
  indexVectorDim := 1
  sliceSizes := ![1, 384]
  wf := gather_S50000x384_S100000x1_S100000x384_1_0_n_n_0_1_1384_wf
def dot_S100000x384_S384x1_S100000x1_1_0_0_1_n_n : DotDims S100000x384 S384x1 S100000x1 where
  lhsContracting := [1]
  rhsContracting := [0]
  lhsNonContracting := [0]
  rhsNonContracting := [1]
  lhsBatch := []
  rhsBatch := []
  wf := dot_S100000x384_S384x1_S100000x1_1_0_0_1_n_n_wf

class Facts : Prop extends Facts₀ where

variable [Facts]
-- ==== Proof.K.Mat0.lean ====
/- Region 0 of @main (`cc0__matmul_kernel`, pipeline 0): a row-blocked matrix product. Ten grid points; at
   point `t` the body reads the `t`-th block of 5000 rows of the left operand and the whole 128×128 right operand,
   and stores the product of the two (each first rounded to bf16, accumulated into zero) over the whole output
   block. Stated at the buffer contents `V` the region is entered with: each window's block, what the body
   leaves in the output buffer, the body's triple, the pipeline's proof data and its body obligation. -/
import proofs.«150805_j37804302139719_1_alg».proof.Proof.Gen.Kernel.Launch
import proofs.«150805_j37804302139719_1_alg».proof.Proof.Gen.Kernel.Skeleton
import proofs.«150805_j37804302139719_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.ValueIdx
import Idealize.ShloMosaic.Lib.ValueIdxCoords
import Idealize.ShloMosaic.Lib.Tactic

set_option maxRecDepth 16384

noncomputable section

namespace Cert.Kernel.Hand

open Cert.Kernel.Gen
open Idealize.ShloMosaic Idealize.ShloMosaic.TcCoe Idealize.ShloMosaic.Tactic Idealize.ShloMosaic.ValueIdx
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and what it leaves -/

/-- The whole 5000×128 buffer as a rectangle: every load of the left operand and the one store go through it. -/
abbrev rX0 : Rect S5000x128 := Rect.unit (s := S5000x128) ![0, 0] S5000x128.size inb_S5000x128_S5000x128_0_0
/-- The whole 128×128 buffer as a rectangle: the load of the right operand. -/
abbrev rW0 : Rect S128x128 := Rect.unit (s := S128x128) ![0, 0] S128x128.size inb_S128x128_S128x128_0_0

/-- What the body leaves in the output buffer, from the two input buffers' contents: its one store, through the
    whole-buffer rectangle, of the product payload of what the two loads read. -/
def mm0 (x : Vec F S5000x128 .f32) (w : Vec F S128x128 .f32) : Vec F S5000x128 .f32 :=
  View.canon [⟨rX0, k0_pay1 (View.ld x rX0) (View.ld w rW0)⟩]

/-- The one store covers the buffer: every index lies in the whole-buffer rectangle. -/
theorem cover0 (p0 : Vec F S5000x128 .f32) (y : S5000x128.Idx) :
    ∃ pc ∈ ([⟨rX0, p0⟩] : List (View.Piece (Elt F) S5000x128 .f32)), y ∈ pc.1.set :=
  ⟨_, List.mem_singleton_self _, View.mem_set_unit_zero (by funext a; fin_cases a <;> rfl) inb_S5000x128_S5000x128_0_0 y⟩

/-- Through whole-buffer rectangles a load reads the contents and the one store leaves its payload: the output
    buffer holds the product payload of the two input buffers. -/
theorem mm0_eq (x : Vec F S5000x128 .f32) (w : Vec F S128x128 .f32) : mm0 x w = k0_pay1 x w := by
  unfold mm0
  rw [View.canon_unit_zero (by funext a; fin_cases a <;> rfl), View.ld_unit_zero (by funext a; fin_cases a <;> rfl),
    View.ld_unit_zero (by funext a; fin_cases a <;> rfl)]

/-! ## The body's triple -/

set_option maxHeartbeats 1000000 in
/-- The body on whole staging memrefs — the inputs' holding `x` and `w`, the output's anything — runs to the
    continuation with the inputs' as they were and the output's holding `mm0 x w`: the function is its skeleton
    of three loads and one store, run step by step; the last load (of the output buffer) is dead. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (mm0 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## From blocks to the array: the whole product -/

/-- The `b`-th block of 5000 rows of a 50000×128 array. -/
def rows0 (X : S50000x128.Idx → Elt F .f32) (b : Fin 10) : Vec F S5000x128 .f32 :=
  fun j => X (ix2 (⟨b.val * 5000 + (j 0).val, by have := idx2_lt0 j; have := b.isLt; omega⟩ : Fin 50000) (j 1 : Fin 128))

/-- The whole output array as one function of the two input arrays: row `r` is computed with the block of 5000
    rows that holds it, as row `r % 5000` of that block's product with the right operand. -/
def G0 (X : S50000x128.Idx → Elt F .f32) (W : S128x128.Idx → Elt F .f32) : S50000x128.Idx → Elt F .f32 :=
  fun i => mm0 (rows0 X ⟨(i 0).val / 5000, by have := idx2_lt0 i; omega⟩) W
    (ix2 (⟨(i 0).val % 5000, Nat.mod_lt _ (by decide)⟩ : Fin 5000) (i 1 : Fin 128))

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, for any proof data whose array is `V`'s and
    whose body leaves the block in place: an input window, uncut and never idle, holds what a fetch would put there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of the right operand, fetched at the first point only: where it is not fetched its block index has
    not moved, and the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them; after the body at point `t` each
    input's buffer at its block and the output's at the product of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => mm0 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = mm0 (iblk0 V c 0 t) (iblk0 V c 1 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The arrays after the region -/

/-- The printed index maps, decided over the grid: the left operand's and the output's block index is the point on the
    row axis and 0 on the column axis; the right operand's is 0 on both. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

-- the product's closed forms stay folded below: only their equations are used
attribute [local irreducible] mm0 G0

/-- What point `t` writes back is block `t` of the whole product `G0` of the two input arrays as the region finds
    them: the left operand's block at `t` is rows `5000·t …`, the right operand's block is the whole array, and a
    block's coordinate is index × size + the coordinate inside the block. -/
theorem flushed0_eq (c : Dev nD) (t : Fin cfg0.N) :
    (dat0 V c).flushed 2 t
      = ((cfg0.win 2).blk t).view.read (Elt F) (G0 (V c (Pipeline.arrRef spec0 0)) (V c (Pipeline.arrRef spec0 1))) := by
  show (cfg0.win 2).cut (grid0.coords t) ((dat0 V c).after 2 t) = _
  rw [after0_2]
  obtain ⟨e0, e1, e2, e3, e4, e5, e6⟩ := idx_facts0 t
  funext j
  have hj0 : (j 0).val < 5000 := (j 0).isLt
  have hj1 : (j 1).val < 128 := (j 1).isLt
  show mm0 (iblk0 V c 0 t) (iblk0 V c 1 t) j
    = G0 (V c (Pipeline.arrRef spec0 0)) (V c (Pipeline.arrRef spec0 1)) (((cfg0.win 2).blk t).view.emb j)
  have v0 : ((((cfg0.win 2).blk t).view.emb j) 0).val = win0_2.index t (0 : Fin 2) * 5000 + 1 * (j 0).val := rfl
  have v1 : ((((cfg0.win 2).blk t).view.emb j) 1).val = win0_2.index t (1 : Fin 2) * 128 + 1 * (j 1).val := rfl
  unfold G0
  have hA : iblk0 V c 0 t = rows0 (V c (Pipeline.arrRef spec0 0))
      ⟨((((cfg0.win 2).blk t).view.emb j) 0).val / 5000, by rw [v0]; omega⟩ := by
    funext j'
    have hj'0 : (j' 0).val < 5000 := (j' 0).isLt
    have hj'1 : (j' 1).val < 128 := (j' 1).isLt
    show V c main_arg0 (((cfg0.win 0).blk t).view.emb j') = V c main_arg0 _
    refine congrArg _ (funext fun a => Fin.ext ?_)
    match a with
    | ⟨0, _⟩ =>
      show win0_0.index t (0 : Fin 2) * 5000 + 1 * (j' 0).val = ((((cfg0.win 2).blk t).view.emb j) 0).val / 5000 * 5000 + (j' 0).val
      rw [v0]; omega
    | ⟨1, _⟩ =>
      show win0_0.index t (1 : Fin 2) * 128 + 1 * (j' 1).val = (j' 1).val
      omega
  have hB : iblk0 V c 1 t = V c (Pipeline.arrRef spec0 1) := by
    funext j'
    show V c main_v29 (((cfg0.win 1).blk t).view.emb j') = V c main_v29 j'
    refine congrArg _ (funext fun a => Fin.ext ?_)
    match a with
    | ⟨0, _⟩ => show win0_1.index t (0 : Fin 2) * 128 + 1 * (j' 0).val = (j' 0).val; omega
    | ⟨1, _⟩ => show win0_1.index t (1 : Fin 2) * 128 + 1 * (j' 1).val = (j' 1).val; omega
  have hk : j = ix2 (⟨((((cfg0.win 2).blk t).view.emb j) 0).val % 5000, Nat.mod_lt _ (by decide)⟩ : Fin 5000)
      ((((cfg0.win 2).blk t).view.emb j) 1 : Fin 128) := by
    funext a; apply Fin.ext
    match a with
    | ⟨0, _⟩ => show (j 0).val = ((((cfg0.win 2).blk t).view.emb j) 0).val % 5000; rw [v0]; omega
    | ⟨1, _⟩ => show (j 1).val = ((((cfg0.win 2).blk t).view.emb j) 1).val; rw [v1]; omega
  rw [hA, hB]
  exact congrArg _ hk

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in some point's block, and every point writes back: row `r` is in the block
    of point `r / 5000`. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := Fin.cast N_0.symm ⟨(i 0).val / 5000, by omega⟩
  have ht : t.val = (i 0).val / 5000 := rfl
  obtain ⟨e0, e1, e2, e3, e4, e5, e6⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the region: the whole product `G0` of the two input arrays as the region finds them. -/
theorem final0 (c : Dev nD) :
    (dat0 V c).arrAt 2 cfg0.N = G0 (V c (Pipeline.arrRef spec0 0)) (V c (Pipeline.arrRef spec0 1)) :=
  (dat0 V c).arrAt_eq_of_cover 2 _ (fun t _ => flushed0_eq V c t) (covered0)

/-- The input arrays are never written: after the region they hold what the region found. -/
theorem arr0_0 (c : Dev nD) : (dat0 V c).arrAt 0 cfg0.N = V c (Pipeline.arrRef spec0 0) :=
  ((dat0 V c).arrAt_in 0 rfl _).trans (A_eq0 V c 0)
theorem arr0_1 (c : Dev nD) : (dat0 V c).arrAt 1 cfg0.N = V c (Pipeline.arrRef spec0 1) :=
  ((dat0 V c).arrAt_in 1 rfl _).trans (A_eq0 V c 1)

end Region

end Cert.Kernel.Hand

end
-- ==== Proof.K.Mat1.lean ====
/- Region 1 of @main (`cc1__matmul_kernel`, pipeline 1): a row-blocked matrix product. Ten grid points; at
   point `t` the body reads the `t`-th block of 5000 rows of the left operand and the whole 128×128 right operand,
   and stores the product of the two (each first rounded to bf16, accumulated into zero) over the whole output
   block. Stated at the buffer contents `V` the region is entered with: each window's block, what the body
   leaves in the output buffer, the body's triple, the pipeline's proof data and its body obligation. -/
import proofs.«150805_j37804302139719_1_alg».proof.Proof.Gen.Kernel.Launch
import proofs.«150805_j37804302139719_1_alg».proof.Proof.Gen.Kernel.Skeleton
import proofs.«150805_j37804302139719_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.ValueIdx
import Idealize.ShloMosaic.Lib.ValueIdxCoords
import Idealize.ShloMosaic.Lib.Tactic

set_option maxRecDepth 16384

noncomputable section

namespace Cert.Kernel.Hand

open Cert.Kernel.Gen
open Idealize.ShloMosaic Idealize.ShloMosaic.TcCoe Idealize.ShloMosaic.Tactic Idealize.ShloMosaic.ValueIdx
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and what it leaves -/

/-- The whole 5000×128 buffer as a rectangle: every load of the left operand and the one store go through it. -/
abbrev rX1 : Rect S5000x128 := Rect.unit (s := S5000x128) ![0, 0] S5000x128.size inb_S5000x128_S5000x128_0_0
/-- The whole 128×128 buffer as a rectangle: the load of the right operand. -/
abbrev rW1 : Rect S128x128 := Rect.unit (s := S128x128) ![0, 0] S128x128.size inb_S128x128_S128x128_0_0

/-- What the body leaves in the output buffer, from the two input buffers' contents: its one store, through the
    whole-buffer rectangle, of the product payload of what the two loads read. -/
def mm1 (x : Vec F S5000x128 .f32) (w : Vec F S128x128 .f32) : Vec F S5000x128 .f32 :=
  View.canon [⟨rX1, k1_pay1 (View.ld x rX1) (View.ld w rW1)⟩]

/-- The one store covers the buffer: every index lies in the whole-buffer rectangle. -/
theorem cover1 (p0 : Vec F S5000x128 .f32) (y : S5000x128.Idx) :
    ∃ pc ∈ ([⟨rX1, p0⟩] : List (View.Piece (Elt F) S5000x128 .f32)), y ∈ pc.1.set :=
  ⟨_, List.mem_singleton_self _, View.mem_set_unit_zero (by funext a; fin_cases a <;> rfl) inb_S5000x128_S5000x128_0_0 y⟩

/-- Through whole-buffer rectangles a load reads the contents and the one store leaves its payload: the output
    buffer holds the product payload of the two input buffers. -/
theorem mm1_eq (x : Vec F S5000x128 .f32) (w : Vec F S128x128 .f32) : mm1 x w = k1_pay1 x w := by
  unfold mm1
  rw [View.canon_unit_zero (by funext a; fin_cases a <;> rfl), View.ld_unit_zero (by funext a; fin_cases a <;> rfl),
    View.ld_unit_zero (by funext a; fin_cases a <;> rfl)]

/-! ## The body's triple -/

set_option maxHeartbeats 1000000 in
/-- The body on whole staging memrefs — the inputs' holding `x` and `w`, the output's anything — runs to the
    continuation with the inputs' as they were and the output's holding `mm1 x w`: the function is its skeleton
    of three loads and one store, run step by step; the last load (of the output buffer) is dead. -/
theorem sound_kernel1 (c : Dev nD) (E : Set ℕ) (i : grid1.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (mm1 x w)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## From blocks to the array: the whole product -/

/-- The `b`-th block of 5000 rows of a 50000×128 array. -/
def rows1 (X : S50000x128.Idx → Elt F .f32) (b : Fin 10) : Vec F S5000x128 .f32 :=
  fun j => X (ix2 (⟨b.val * 5000 + (j 0).val, by have := idx2_lt0 j; have := b.isLt; omega⟩ : Fin 50000) (j 1 : Fin 128))

/-- The whole output array as one function of the two input arrays: row `r` is computed with the block of 5000
    rows that holds it, as row `r % 5000` of that block's product with the right operand. -/
def G1 (X : S50000x128.Idx → Elt F .f32) (W : S128x128.Idx → Elt F .f32) : S50000x128.Idx → Elt F .f32 :=
  fun i => mm1 (rows1 X ⟨(i 0).val / 5000, by have := idx2_lt0 i; omega⟩) W
    (ix2 (⟨(i 0).val % 5000, Nat.mod_lt _ (by decide)⟩ : Fin 5000) (i 1 : Fin 128))

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, for any proof data whose array is `V`'s and
    whose body leaves the block in place: an input window, uncut and never idle, holds what a fetch would put there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of the right operand, fetched at the first point only: where it is not fetched its block index has
    not moved, and the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them; after the body at point `t` each
    input's buffer at its block and the output's at the product of the two input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => mm1 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = mm1 (iblk1 V c 0 t) (iblk1 V c 1 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The arrays after the region -/

/-- The printed index maps, decided over the grid: the left operand's and the output's block index is the point on the
    row axis and 0 on the column axis; the right operand's is 0 on both. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

-- the product's closed forms stay folded below: only their equations are used
attribute [local irreducible] mm1 G1

/-- What point `t` writes back is block `t` of the whole product `G1` of the two input arrays as the region finds
    them: the left operand's block at `t` is rows `5000·t …`, the right operand's block is the whole array, and a
    block's coordinate is index × size + the coordinate inside the block. -/
theorem flushed1_eq (c : Dev nD) (t : Fin cfg1.N) :
    (dat1 V c).flushed 2 t
      = ((cfg1.win 2).blk t).view.read (Elt F) (G1 (V c (Pipeline.arrRef spec1 0)) (V c (Pipeline.arrRef spec1 1))) := by
  show (cfg1.win 2).cut (grid1.coords t) ((dat1 V c).after 2 t) = _
  rw [after1_2]
  obtain ⟨e0, e1, e2, e3, e4, e5, e6⟩ := idx_facts1 t
  funext j
  have hj0 : (j 0).val < 5000 := (j 0).isLt
  have hj1 : (j 1).val < 128 := (j 1).isLt
  show mm1 (iblk1 V c 0 t) (iblk1 V c 1 t) j
    = G1 (V c (Pipeline.arrRef spec1 0)) (V c (Pipeline.arrRef spec1 1)) (((cfg1.win 2).blk t).view.emb j)
  have v0 : ((((cfg1.win 2).blk t).view.emb j) 0).val = win1_2.index t (0 : Fin 2) * 5000 + 1 * (j 0).val := rfl
  have v1 : ((((cfg1.win 2).blk t).view.emb j) 1).val = win1_2.index t (1 : Fin 2) * 128 + 1 * (j 1).val := rfl
  unfold G1
  have hA : iblk1 V c 0 t = rows1 (V c (Pipeline.arrRef spec1 0))
      ⟨((((cfg1.win 2).blk t).view.emb j) 0).val / 5000, by rw [v0]; omega⟩ := by
    funext j'
    have hj'0 : (j' 0).val < 5000 := (j' 0).isLt
    have hj'1 : (j' 1).val < 128 := (j' 1).isLt
    show V c main_v48 (((cfg1.win 0).blk t).view.emb j') = V c main_v48 _
    refine congrArg _ (funext fun a => Fin.ext ?_)
    match a with
    | ⟨0, _⟩ =>
      show win1_0.index t (0 : Fin 2) * 5000 + 1 * (j' 0).val = ((((cfg1.win 2).blk t).view.emb j) 0).val / 5000 * 5000 + (j' 0).val
      rw [v0]; omega
    | ⟨1, _⟩ =>
      show win1_0.index t (1 : Fin 2) * 128 + 1 * (j' 1).val = (j' 1).val
      omega
  have hB : iblk1 V c 1 t = V c (Pipeline.arrRef spec1 1) := by
    funext j'
    show V c main_v50 (((cfg1.win 1).blk t).view.emb j') = V c main_v50 j'
    refine congrArg _ (funext fun a => Fin.ext ?_)
    match a with
    | ⟨0, _⟩ => show win1_1.index t (0 : Fin 2) * 128 + 1 * (j' 0).val = (j' 0).val; omega
    | ⟨1, _⟩ => show win1_1.index t (1 : Fin 2) * 128 + 1 * (j' 1).val = (j' 1).val; omega
  have hk : j = ix2 (⟨((((cfg1.win 2).blk t).view.emb j) 0).val % 5000, Nat.mod_lt _ (by decide)⟩ : Fin 5000)
      ((((cfg1.win 2).blk t).view.emb j) 1 : Fin 128) := by
    funext a; apply Fin.ext
    match a with
    | ⟨0, _⟩ => show (j 0).val = ((((cfg1.win 2).blk t).view.emb j) 0).val % 5000; rw [v0]; omega
    | ⟨1, _⟩ => show (j 1).val = ((((cfg1.win 2).blk t).view.emb j) 1).val; rw [v1]; omega
  rw [hA, hB]
  exact congrArg _ hk

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v51).slice (win1_2.rect t)).set ↔ _
  rw [View.set_slice_whole, Rect.mem_set_unit]
  exact Iff.rfl

/-- Every index of the output array is in some point's block, and every point writes back: row `r` is in the block
    of point `r / 5000`. -/
theorem covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := Fin.cast N_1.symm ⟨(i 0).val / 5000, by omega⟩
  have ht : t.val = (i 0).val / 5000 := rfl
  obtain ⟨e0, e1, e2, e3, e4, e5, e6⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the region: the whole product `G1` of the two input arrays as the region finds them. -/
theorem final1 (c : Dev nD) :
    (dat1 V c).arrAt 2 cfg1.N = G1 (V c (Pipeline.arrRef spec1 0)) (V c (Pipeline.arrRef spec1 1)) :=
  (dat1 V c).arrAt_eq_of_cover 2 _ (fun t _ => flushed1_eq V c t) (covered1)

/-- The input arrays are never written: after the region they hold what the region found. -/
theorem arr1_0 (c : Dev nD) : (dat1 V c).arrAt 0 cfg1.N = V c (Pipeline.arrRef spec1 0) :=
  ((dat1 V c).arrAt_in 0 rfl _).trans (A_eq1 V c 0)
theorem arr1_1 (c : Dev nD) : (dat1 V c).arrAt 1 cfg1.N = V c (Pipeline.arrRef spec1 1) :=
  ((dat1 V c).arrAt_in 1 rfl _).trans (A_eq1 V c 1)

end Region

end Cert.Kernel.Hand

end
-- ==== Proof.K.Mat2.lean ====
/- Region 2 of @main (`cc2__matmul_kernel`, pipeline 2): a row-blocked matrix product. Ten grid points; at
   point `t` the body reads the `t`-th block of 5000 rows of the left operand and the whole 128×128 right operand,
   and stores the product of the two (each first rounded to bf16, accumulated into zero) over the whole output
   block. Stated at the buffer contents `V` the region is entered with: each window's block, what the body
   leaves in the output buffer, the body's triple, the pipeline's proof data and its body obligation. -/
import proofs.«150805_j37804302139719_1_alg».proof.Proof.Gen.Kernel.Launch
import proofs.«150805_j37804302139719_1_alg».proof.Proof.Gen.Kernel.Skeleton
import proofs.«150805_j37804302139719_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.ValueIdx
import Idealize.ShloMosaic.Lib.ValueIdxCoords
import Idealize.ShloMosaic.Lib.Tactic

set_option maxRecDepth 16384

noncomputable section

namespace Cert.Kernel.Hand

open Cert.Kernel.Gen
open Idealize.ShloMosaic Idealize.ShloMosaic.TcCoe Idealize.ShloMosaic.Tactic Idealize.ShloMosaic.ValueIdx
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and what it leaves -/

/-- The whole 5000×128 buffer as a rectangle: every load of the left operand and the one store go through it. -/
abbrev rX2 : Rect S5000x128 := Rect.unit (s := S5000x128) ![0, 0] S5000x128.size inb_S5000x128_S5000x128_0_0
/-- The whole 128×128 buffer as a rectangle: the load of the right operand. -/
abbrev rW2 : Rect S128x128 := Rect.unit (s := S128x128) ![0, 0] S128x128.size inb_S128x128_S128x128_0_0

/-- What the body leaves in the output buffer, from the two input buffers' contents: its one store, through the
    whole-buffer rectangle, of the product payload of what the two loads read. -/
def mm2 (x : Vec F S5000x128 .f32) (w : Vec F S128x128 .f32) : Vec F S5000x128 .f32 :=
  View.canon [⟨rX2, k2_pay1 (View.ld x rX2) (View.ld w rW2)⟩]

/-- The one store covers the buffer: every index lies in the whole-buffer rectangle. -/
theorem cover2 (p0 : Vec F S5000x128 .f32) (y : S5000x128.Idx) :
    ∃ pc ∈ ([⟨rX2, p0⟩] : List (View.Piece (Elt F) S5000x128 .f32)), y ∈ pc.1.set :=
  ⟨_, List.mem_singleton_self _, View.mem_set_unit_zero (by funext a; fin_cases a <;> rfl) inb_S5000x128_S5000x128_0_0 y⟩

/-- Through whole-buffer rectangles a load reads the contents and the one store leaves its payload: the output
    buffer holds the product payload of the two input buffers. -/
theorem mm2_eq (x : Vec F S5000x128 .f32) (w : Vec F S128x128 .f32) : mm2 x w = k2_pay1 x w := by
  unfold mm2
  rw [View.canon_unit_zero (by funext a; fin_cases a <;> rfl), View.ld_unit_zero (by funext a; fin_cases a <;> rfl),
    View.ld_unit_zero (by funext a; fin_cases a <;> rfl)]

/-! ## The body's triple -/

set_option maxHeartbeats 1000000 in
/-- The body on whole staging memrefs — the inputs' holding `x` and `w`, the output's anything — runs to the
    continuation with the inputs' as they were and the output's holding `mm2 x w`: the function is its skeleton
    of three loads and one store, run step by step; the last load (of the output buffer) is dead. -/
theorem sound_kernel2 (c : Dev nD) (E : Set ℕ) (i : grid2.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (mm2 x w)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## From blocks to the array: the whole product -/

/-- The `b`-th block of 5000 rows of a 50000×128 array. -/
def rows2 (X : S50000x128.Idx → Elt F .f32) (b : Fin 10) : Vec F S5000x128 .f32 :=
  fun j => X (ix2 (⟨b.val * 5000 + (j 0).val, by have := idx2_lt0 j; have := b.isLt; omega⟩ : Fin 50000) (j 1 : Fin 128))

/-- The whole output array as one function of the two input arrays: row `r` is computed with the block of 5000
    rows that holds it, as row `r % 5000` of that block's product with the right operand. -/
def G2 (X : S50000x128.Idx → Elt F .f32) (W : S128x128.Idx → Elt F .f32) : S50000x128.Idx → Elt F .f32 :=
  fun i => mm2 (rows2 X ⟨(i 0).val / 5000, by have := idx2_lt0 i; omega⟩) W
    (ix2 (⟨(i 0).val % 5000, Nat.mod_lt _ (by decide)⟩ : Fin 5000) (i 1 : Fin 128))

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point, for any proof data whose array is `V`'s and
    whose body leaves the block in place: an input window, uncut and never idle, holds what a fetch would put there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of the right operand, fetched at the first point only: where it is not fetched its block index has
    not moved, and the buffer still holds the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of pipeline 2 on core `c`: the arrays as the region finds them; after the body at point `t` each
    input's buffer at its block and the output's at the product of the two input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => mm2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = mm2 (iblk2 V c 0 t) (iblk2 V c 1 t) := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The arrays after the region -/

/-- The printed index maps, decided over the grid: the left operand's and the output's block index is the point on the
    row axis and 0 on the column axis; the right operand's is 0 on both. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

-- the product's closed forms stay folded below: only their equations are used
attribute [local irreducible] mm2 G2

/-- What point `t` writes back is block `t` of the whole product `G2` of the two input arrays as the region finds
    them: the left operand's block at `t` is rows `5000·t …`, the right operand's block is the whole array, and a
    block's coordinate is index × size + the coordinate inside the block. -/
theorem flushed2_eq (c : Dev nD) (t : Fin cfg2.N) :
    (dat2 V c).flushed 2 t
      = ((cfg2.win 2).blk t).view.read (Elt F) (G2 (V c (Pipeline.arrRef spec2 0)) (V c (Pipeline.arrRef spec2 1))) := by
  show (cfg2.win 2).cut (grid2.coords t) ((dat2 V c).after 2 t) = _
  rw [after2_2]
  obtain ⟨e0, e1, e2, e3, e4, e5, e6⟩ := idx_facts2 t
  funext j
  have hj0 : (j 0).val < 5000 := (j 0).isLt
  have hj1 : (j 1).val < 128 := (j 1).isLt
  show mm2 (iblk2 V c 0 t) (iblk2 V c 1 t) j
    = G2 (V c (Pipeline.arrRef spec2 0)) (V c (Pipeline.arrRef spec2 1)) (((cfg2.win 2).blk t).view.emb j)
  have v0 : ((((cfg2.win 2).blk t).view.emb j) 0).val = win2_2.index t (0 : Fin 2) * 5000 + 1 * (j 0).val := rfl
  have v1 : ((((cfg2.win 2).blk t).view.emb j) 1).val = win2_2.index t (1 : Fin 2) * 128 + 1 * (j 1).val := rfl
  unfold G2
  have hA : iblk2 V c 0 t = rows2 (V c (Pipeline.arrRef spec2 0))
      ⟨((((cfg2.win 2).blk t).view.emb j) 0).val / 5000, by rw [v0]; omega⟩ := by
    funext j'
    have hj'0 : (j' 0).val < 5000 := (j' 0).isLt
    have hj'1 : (j' 1).val < 128 := (j' 1).isLt
    show V c main_v69 (((cfg2.win 0).blk t).view.emb j') = V c main_v69 _
    refine congrArg _ (funext fun a => Fin.ext ?_)
    match a with
    | ⟨0, _⟩ =>
      show win2_0.index t (0 : Fin 2) * 5000 + 1 * (j' 0).val = ((((cfg2.win 2).blk t).view.emb j) 0).val / 5000 * 5000 + (j' 0).val
      rw [v0]; omega
    | ⟨1, _⟩ =>
      show win2_0.index t (1 : Fin 2) * 128 + 1 * (j' 1).val = (j' 1).val
      omega
  have hB : iblk2 V c 1 t = V c (Pipeline.arrRef spec2 1) := by
    funext j'
    show V c main_v71 (((cfg2.win 1).blk t).view.emb j') = V c main_v71 j'
    refine congrArg _ (funext fun a => Fin.ext ?_)
    match a with
    | ⟨0, _⟩ => show win2_1.index t (0 : Fin 2) * 128 + 1 * (j' 0).val = (j' 0).val; omega
    | ⟨1, _⟩ => show win2_1.index t (1 : Fin 2) * 128 + 1 * (j' 1).val = (j' 1).val; omega
  have hk : j = ix2 (⟨((((cfg2.win 2).blk t).view.emb j) 0).val % 5000, Nat.mod_lt _ (by decide)⟩ : Fin 5000)
      ((((cfg2.win 2).blk t).view.emb j) 1 : Fin 128) := by
    funext a; apply Fin.ext
    match a with
    | ⟨0, _⟩ => show (j 0).val = ((((cfg2.win 2).blk t).view.emb j) 0).val % 5000; rw [v0]; omega
    | ⟨1, _⟩ => show (j 1).val = ((((cfg2.win 2).blk t).view.emb j) 1).val; rw [v1]; omega
  rw [hA, hB]
  exact congrArg _ hk

/-- An index of the output array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v72).slice (win2_2.rect t)).set ↔ _
  rw [View.set_slice_whole, Rect.mem_set_unit]
  exact Iff.rfl

/-- Every index of the output array is in some point's block, and every point writes back: row `r` is in the block
    of point `r / 5000`. -/
theorem covered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := Fin.cast N_2.symm ⟨(i 0).val / 5000, by omega⟩
  have ht : t.val = (i 0).val / 5000 := rfl
  obtain ⟨e0, e1, e2, e3, e4, e5, e6⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE OUTPUT ARRAY after the region: the whole product `G2` of the two input arrays as the region finds them. -/
theorem final2 (c : Dev nD) :
    (dat2 V c).arrAt 2 cfg2.N = G2 (V c (Pipeline.arrRef spec2 0)) (V c (Pipeline.arrRef spec2 1)) :=
  (dat2 V c).arrAt_eq_of_cover 2 _ (fun t _ => flushed2_eq V c t) (covered2)

/-- The input arrays are never written: after the region they hold what the region found. -/
theorem arr2_0 (c : Dev nD) : (dat2 V c).arrAt 0 cfg2.N = V c (Pipeline.arrRef spec2 0) :=
  ((dat2 V c).arrAt_in 0 rfl _).trans (A_eq2 V c 0)
theorem arr2_1 (c : Dev nD) : (dat2 V c).arrAt 1 cfg2.N = V c (Pipeline.arrRef spec2 1) :=
  ((dat2 V c).arrAt_in 1 rfl _).trans (A_eq2 V c 1)

end Region

end Cert.Kernel.Hand

end
-- ==== Proof.K.Pred3Body.lean ====
import proofs.«150805_j37804302139719_1_alg».proof.Proof.Gen.Kernel.Launch
import proofs.«150805_j37804302139719_1_alg».proof.Proof.Gen.Kernel.Skeleton
import proofs.«150805_j37804302139719_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The predictor body of region 3: its branch condition and its two runs

The body resets the one-element output block when the grid coordinate is 0, then adds the point's partial sum
to what the block holds. Two control cases: the first point (the reset is taken) and every later point. -/

/-- The condition of the body's conditional, from the grid coordinate: `i = 0`, as the printed scalar chain. -/
abbrev cond3_0 (i : grid3.Coords) : Prop :=
  (Scalar.cmpi .ne (Scalar.extui (Scalar.cmpi .eq (BitVec.ofNat 32 (i 0).val) 0#32)) 0#32) = 1#1

/-- It holds at the first of the 50 points only: decided over the grid. -/
theorem hcond3_0 : ∀ t : Fin cfg3.N, cond3_0 (grid3.coords t) ↔ t.val % 50 = 0 :=
  (by decide +kernel : ∀ t : Fin grid3.N, cond3_0 (grid3.coords t) ↔ t.val % 50 = 0)

set_option maxHeartbeats 2000000 in
/-- THE FIRST POINT. On whole staging memrefs, the four inputs' at their contents and the output's at anything, the body
    runs to the continuation holding the inputs' as they were and the output's with the body's stores written, as
    pieces (last first) the run finds: the reset's zero block, then the sum over it. -/
noncomputable def kernelRun3_A (c : Dev nD) (i : grid3.Coords)
    (arg1 : Memref sig .tc .vmem S2000x384 .f32) (harg1 : arg1.IsWhole)
    (arg2 : Memref sig .tc .vmem S2000x384 .f32) (harg2 : arg2.IsWhole)
    (arg3 : Memref sig .tc .vmem S1x384 .f32) (harg3 : arg3.IsWhole)
    (arg4 : Memref sig .tc .vmem S1x1 .f32) (harg4 : arg4.IsWhole)
    (arg5 : Memref sig .tc .vmem S1x1 .f32) (harg5 : arg5.IsWhole) (hc0 : cond3_0 i)
    (x0 x1 : Vec F S2000x384 .f32) (x2 : Vec F S1x384 .f32) (x3 : Vec F S1x1 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E
              (cc3__predictor_kernel i arg1 harg1 arg2 harg2 arg3 harg3 arg4 harg4 arg5 harg5) K } := by
  refine ⟨?_, fun E K => ?run⟩
  case run =>
    simp only [cc3__predictor_kernel_eq_skeleton]; unfold cc3__predictor_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

set_option maxHeartbeats 2000000 in
/-- EVERY LATER POINT. The same with the output's staging memref at the running contents `xo` (the reset is not
    taken): the one store of the sum over `xo`. -/
noncomputable def kernelRun3_B (c : Dev nD) (i : grid3.Coords)
    (arg1 : Memref sig .tc .vmem S2000x384 .f32) (harg1 : arg1.IsWhole)
    (arg2 : Memref sig .tc .vmem S2000x384 .f32) (harg2 : arg2.IsWhole)
    (arg3 : Memref sig .tc .vmem S1x384 .f32) (harg3 : arg3.IsWhole)
    (arg4 : Memref sig .tc .vmem S1x1 .f32) (harg4 : arg4.IsWhole)
    (arg5 : Memref sig .tc .vmem S1x1 .f32) (harg5 : arg5.IsWhole) (hc0 : ¬cond3_0 i)
    (x0 x1 : Vec F S2000x384 .f32) (x2 : Vec F S1x384 .f32) (x3 : Vec F S1x1 .f32) (xo : Vec F S1x1 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare xo
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E
              (cc3__predictor_kernel i arg1 harg1 arg2 harg2 arg3 harg3 arg4 harg4 arg5 harg5) K } := by
  refine ⟨?_, fun E K => ?run⟩
  case run =>
    simp only [cc3__predictor_kernel_eq_skeleton]; unfold cc3__predictor_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1
    obtain rfl := harg3.eq_unread hf2; obtain rfl := harg4.eq_unread hf3
    obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.K.Pred3.lean ====
import proofs.«150805_j37804302139719_1_alg».proof.Proof.Gen.Kernel.Launch
import proofs.«150805_j37804302139719_1_alg».proof.Proof.Gen.Kernel.Skeleton
import proofs.«150805_j37804302139719_1_alg».proof.Proof.Gen.Kernel.Points
import proofs.«150805_j37804302139719_1_alg».proof.Proof.K.Pred3Body
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the predictor's accumulated output

One-element output block `[1,1]` at block (0,0) at every one of the 50 grid points: an accumulator. After point `t` it
holds the zero block plus the partial sums of points `0..t`, added in point order; the region writes it back once,
after the last point. Everything is stated at a parameter `V`: the buffers' contents when the region is entered. -/

theorem hz3 : (![0, 0] : Fin 2 → Nat) = fun _ => 0 := funext fun a => by fin_cases a <;> rfl

/-- The zero block the first point stores: a broadcast of `+0.0`. -/
abbrev zero3 : Vec F S1x1 .f32 := broadcast S1x1 (Scalar.ofBits .f32 0x00000000#32)

/-- ONE POINT'S PARTIAL SUM, from the point's two `[2000,384]` blocks, the weight row and the bias: per row the
    logit `∑ₖ za·zb·pw + pb`, scaled by the sign constant, through the printed softplus; then summed over the rows. -/
def partial3 (za zb : Vec F S2000x384 .f32) (pw : Vec F S1x384 .f32) (pb : Vec F S1x1 .f32) : Vec F S1x1 .f32 :=
  have v4 : FVec F S2000x384 .f32 := shapeCast S2000x384 za shapeCasts_S2000x384_S2000x384
  have v6 : FVec F S2000x384 .f32 := shapeCast S2000x384 zb shapeCasts_S2000x384_S2000x384
  have v7 : FVec F S2000x384 .f32 := mulf v4 v6
  have v9 : FVec F S1x384 .f32 := shapeCast S1x384 pw shapeCasts_S1x384_S1x384
  have v10 : FVec F S2000x384 .f32 := broadcastTo S2000x384 v9 broadcasts_S1x384_S2000x384
  have v11 : FVec F S2000x384 .f32 := mulf v7 v10
  have v12 : FVec F S2000 .f32 := multiReduction .add [1] S2000 v11 0x00000000#32 reduces_S2000x384_S2000 (.inl rfl) rfl
  have v13 : FVec F S2000x1 .f32 := shapeCast S2000x1 v12 shapeCasts_S2000_S2000x1
  have v15 : F .f32 := extractAt ![0, 0] pb inpos_S1x1_p0_0
  have v16 : FVec F S2000x1 .f32 := broadcast S2000x1 v15
  have v17 : FVec F S2000x1 .f32 := addf v13 v16
  have cst_8 : F .f32 := Scalar.ofBits .f32 0xBF800000#32
  have v18 : FVec F S2000x1 .f32 := broadcast S2000x1 cst_8
  have v19 : FVec F S2000x1 .f32 := mulf v18 v17
  have cst_9 : F .f32 := Scalar.ofBits .f32 0x00000000#32
  have v20 : FVec F S2000x1 .f32 := broadcast S2000x1 cst_9
  have v21 : FVec F S2000x1 .f32 := maximumf v19 v20
  have v22 : FVec F S2000x1 .f32 := broadcast S2000x1 cst_9
  have v23 : FVec F S2000x1 .f32 := subf v19 v22
  have v24 : IVec S2000x1 1 := cmpf .one v23 v23
  have v25 : FVec F S2000x1 .f32 := broadcast S2000x1 cst_9
  have v26 : FVec F S2000x1 .f32 := addf v19 v25
  have v27 : FVec F S2000x1 .f32 := absf v23
  have cst_10 : F .f32 := Scalar.ofBits .f32 0x00000000#32
  have v28 : FVec F S2000x1 .f32 := broadcast S2000x1 cst_10
  have v29 : FVec F S2000x1 .f32 := subf v28 v27
  have v30 : FVec F S2000x1 .f32 := exp v29
  have v31 : FVec F S2000x1 .f32 := log1p v30
  have v32 : FVec F S2000x1 .f32 := addf v21 v31
  have v33 : FVec F S2000x1 .f32 := select v24 v26 v32
  have v34 : FVec F S1 .f32 := multiReduction .add [0] S1 v33 0x00000000#32 reduces_S2000x1_S1 (.inl rfl) rfl
  have v35 : FVec F S1x1 .f32 := shapeCast S1x1 v34 shapeCasts_S1_S1x1
  v35

/-- The body's stored payload is the block it read plus the point's partial sum. -/
theorem pay2_eq3 (za zb : Vec F S2000x384 .f32) (pw : Vec F S1x384 .f32) (pb xo : Vec F S1x1 .f32) :
    k3_pay2 za zb pw pb xo = addf xo (partial3 za zb pw pb) := by
  show addf (shapeCast S1x1 xo shapeCasts_S1x1_S1x1) (partial3 za zb pw pb) = _
  rw [shapeCast_self]

section Region
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## What each control case leaves in the output's staging buffer -/

/-- One staging buffer of the output window, through which its contents are stated (the choice does not matter). -/
abbrev VO3_4 : View sig .tc .vmem S1x1 .f32 := (Memref.whole cc3_stg4_0 : Memref sig .tc .vmem S1x1 .f32).view

/-- The first point's stores cover the one-element block. -/
theorem cover3_A (c : Dev nD) (i : grid3.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : cond3_0 i)
    (x0 x1 : Vec F S2000x384 .f32) (x2 : Vec F S1x384 .f32) (x3 : Vec F S1x1 .f32) (y : S1x1.Idx) :
    ∃ pc ∈ (kernelRun3_A c i a1 h1 a2 h2 a3 h3 a4 h4 a5 h5 hc x0 x1 x2 x3).1, y ∈ pc.1.set :=
  View.cover_of_tiledL (kernelRun3_A c i a1 h1 a2 h2 a3 h3 a4 h4 a5 h5 hc x0 x1 x2 x3).1 S1x1.size (by sl_kernel_rfl) y

/-- What the first point leaves in the output's staging buffer: its pieces read back. -/
def out3_A (c : Dev nD) (i : grid3.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : cond3_0 i)
    (x0 x1 : Vec F S2000x384 .f32) (x2 : Vec F S1x384 .f32) (x3 : Vec F S1x1 .f32) : Vec F S1x1 .f32 :=
  VO3_4.read (Elt F) (VO3_4.writes (Elt F) VO3_4.junk (kernelRun3_A c i a1 h1 a2 h2 a3 h3 a4 h4 a5 h5 hc x0 x1 x2 x3).1)

/-- A later point's one store covers the block. -/
theorem cover3_B (c : Dev nD) (i : grid3.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : ¬cond3_0 i)
    (x0 x1 : Vec F S2000x384 .f32) (x2 : Vec F S1x384 .f32) (x3 xo : Vec F S1x1 .f32) (y : S1x1.Idx) :
    ∃ pc ∈ (kernelRun3_B c i a1 h1 a2 h2 a3 h3 a4 h4 a5 h5 hc x0 x1 x2 x3 xo).1, y ∈ pc.1.set :=
  View.cover_of_tiledL (kernelRun3_B c i a1 h1 a2 h2 a3 h3 a4 h4 a5 h5 hc x0 x1 x2 x3 xo).1 S1x1.size (by sl_kernel_rfl) y

/-- What a later point leaves in the output's staging buffer that held `xo`. -/
def out3_B (c : Dev nD) (i : grid3.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : ¬cond3_0 i)
    (x0 x1 : Vec F S2000x384 .f32) (x2 : Vec F S1x384 .f32) (x3 xo : Vec F S1x1 .f32) : Vec F S1x1 .f32 :=
  VO3_4.read (Elt F) (VO3_4.writes (Elt F) VO3_4.junk (kernelRun3_B c i a1 h1 a2 h2 a3 h3 a4 h4 a5 h5 hc x0 x1 x2 x3 xo).1)

/-- A later point leaves `xo` plus the point's partial sum: its one covering store's payload, whose loads read the
    whole buffers. -/
theorem out3_B_eq (c : Dev nD) (i : grid3.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : ¬cond3_0 i)
    (x0 x1 : Vec F S2000x384 .f32) (x2 : Vec F S1x384 .f32) (x3 xo : Vec F S1x1 .f32) :
    out3_B c i a1 h1 a2 h2 a3 h3 a4 h4 a5 h5 hc x0 x1 x2 x3 xo = addf xo (partial3 x0 x1 x2 x3) := by
  unfold out3_B
  rw [View.read_writes_eq_canon _ _ _ (cover3_B c i a1 h1 a2 h2 a3 h3 a4 h4 a5 h5 hc x0 x1 x2 x3 xo)]
  unfold kernelRun3_B
  dsimp only
  sl_unfold_words
  rw [View.canon_unit_zero hz3]
  simp only [View.readAt_eq_ld, h1.read_unread, h2.read_unread, h3.read_unread, h4.read_unread, h5.read_unread,
    View.ld_unit_zero (S := S2000x384) hz3, View.ld_unit_zero (S := S1x384) hz3, View.ld_unit_zero (S := S1x1) hz3]
  exact pay2_eq3 x0 x1 x2 x3 xo

/-- The first point stores the zero block, reads it back, and leaves the zero block plus the point's partial sum. -/
theorem out3_A_eq (c : Dev nD) (i : grid3.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : cond3_0 i)
    (x0 x1 : Vec F S2000x384 .f32) (x2 : Vec F S1x384 .f32) (x3 : Vec F S1x1 .f32) :
    out3_A c i a1 h1 a2 h2 a3 h3 a4 h4 a5 h5 hc x0 x1 x2 x3 = addf zero3 (partial3 x0 x1 x2 x3) := by
  unfold out3_A
  rw [View.read_writes_eq_canon _ _ _ (cover3_A c i a1 h1 a2 h2 a3 h3 a4 h4 a5 h5 hc x0 x1 x2 x3)]
  unfold kernelRun3_A
  dsimp only
  sl_unfold_words
  rw [View.canon_cons_unit_zero (S := S1x1) hz3]
  rw [View.readCov_unit_zero (S := S1x1) _ hz3]
  simp only [View.readAt_eq_ld, h1.read_unread, h2.read_unread, h3.read_unread, h4.read_unread, h5.read_unread,
    View.ld_unit_zero (S := S2000x384) hz3, View.ld_unit_zero (S := S1x384) hz3, View.ld_unit_zero (S := S1x1) hz3]
  exact pay2_eq3 x0 x1 x2 x3 k3_pay1

/-! ## What the output block holds after each point -/

/-- Position `n` of the grid as one of its 50 points (positions past the grid wrap; only `n < 50` is read). -/
def pt3 (n : ℕ) : Fin cfg3.N := ⟨n % 50, lt_of_lt_of_eq (Nat.mod_lt n (by decide)) N_3.symm⟩

theorem pt3_val (t : Fin cfg3.N) : pt3 t.val = t :=
  Fin.ext (Nat.mod_eq_of_lt (lt_of_lt_of_eq t.isLt N_3))

/-- The point's partial sum over the windows' blocks at point `t`. -/
def part3 (c : Dev nD) (t : Fin cfg3.N) : Vec F S1x1 .f32 :=
  partial3 (iblk3 V c 0 t) (iblk3 V c 1 t) (iblk3 V c 2 t) (iblk3 V c 3 t)

/-- THE ACCUMULATION: what the output's staging buffer holds after point `n` — the zero block plus point 0's partial
    sum, then each later point's added to what the point before left. -/
def acc3 (c : Dev nD) : ℕ → Vec F S1x1 .f32
  | 0 => addf zero3 (part3 V c (pt3 0))
  | n + 1 => addf (acc3 c n) (part3 V c (pt3 (n + 1)))

theorem acc3_first (c : Dev nD) (t : Fin cfg3.N) (h0 : t.val % 50 = 0) :
    acc3 V c t.val = addf zero3 (part3 V c t) := by
  have hN : t.val < 50 := lt_of_lt_of_eq t.isLt N_3
  have ht : t.val = 0 := by omega
  have e : pt3 0 = t := by rw [← ht]; exact pt3_val t
  rw [ht]; show addf zero3 (part3 V c (pt3 0)) = _; rw [e]

theorem acc3_later (c : Dev nD) (t : Fin cfg3.N) (h0 : ¬t.val % 50 = 0) :
    acc3 V c t.val = addf (acc3 V c (t.val - 1)) (part3 V c t) := by
  have hN : t.val < 50 := lt_of_lt_of_eq t.isLt N_3
  obtain ⟨n, hn⟩ : ∃ n, t.val = n + 1 := ⟨t.val - 1, by omega⟩
  have e : pt3 (n + 1) = t := by rw [← hn]; exact pt3_val t
  rw [hn]; show addf (acc3 V c n) (part3 V c (pt3 (n + 1))) = _; rw [e]; rfl

/-! ## The pipeline's proof data -/

/-- The proof data of the region's pipeline on core `c`: the arrays as the region finds them; after the body at point
    `t` each input's buffer at its block and the output's at the accumulation; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => acc3 V c t.val
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = acc3 V c t.val := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- At a later point the output's staging buffer holds what the body left at the point before: the point is not the
    first, the buffer was not written back between (only the last point is), the window is live and uncut. -/
theorem before3_4_later (c : Dev nD) (t : Fin cfg3.N) (h0 : ¬t.val % 50 = 0) (d) :
    (dat3 V c).before 4 t d = acc3 V c (t.val - 1) := by
  have hN : t.val < 50 := lt_of_lt_of_eq t.isLt N_3
  rw [Dat.before_out_kept _ 4 rfl t (by omega) (Bool.eq_false_iff.mpr fun h => by have := (flush3_4 _).mp h; dsimp only at this; omega)
    (fun _ => rfl) (fun _ _ => rfl)]
  dsimp only [dat3]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 1600000 in
/-- The body at any point: the inputs' memrefs hold their blocks; the closed form says which control case the point is
    in; at a later point the output's memref holds what the point before left; so that case's run applies, and what it
    leaves is the accumulation at `t`. The invariant and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  by_cases h0 : t.val % 50 = 0
  · have e : addf zero3 (part3 V c t)
        = out3_A c (grid3.coords t) (st3_0 t) (hstage3_0 ((cfg3.slots t 0).cast nbuf3_0)) (st3_1 t) (hstage3_1 ((cfg3.slots t 1).cast nbuf3_1))
          (st3_2 t) (hstage3_2 ((cfg3.slots t 2).cast nbuf3_2)) (st3_3 t) (hstage3_3 ((cfg3.slots t 3).cast nbuf3_3)) (st3_4 t) (hstage3_4 ((cfg3.slots t 4).cast nbuf3_4))
          ((hcond3_0 t).mpr h0) (iblk3 V c 0 t) (iblk3 V c 1 t) (iblk3 V c 2 t) (iblk3 V c 3 t) :=
      (out3_A_eq c _ _ _ _ _ _ _ _ _ _ _ _ _ _ _ _).symm
    rw [acc3_first V c t h0, e]
    unfold out3_A
    iintro ⟨HΦ, Ho, ⟨%d0, H0⟩, ⟨%d1, H1⟩, ⟨%d2, H2⟩, ⟨%d3, H3⟩, ⟨%d4, H4⟩⟩
    iapply ((kernelRun3_A c (grid3.coords t) _ _ _ _ _ _ _ _ _ _ ((hcond3_0 t).mpr h0)
      (iblk3 V c 0 t) (iblk3 V c 1 t) (iblk3 V c 2 t) (iblk3 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_A c _ _ _ _ _ _ _ _ _ _ _ _ _ _ _ _)
  · have e : addf (acc3 V c (t.val - 1)) (part3 V c t)
        = out3_B c (grid3.coords t) (st3_0 t) (hstage3_0 ((cfg3.slots t 0).cast nbuf3_0)) (st3_1 t) (hstage3_1 ((cfg3.slots t 1).cast nbuf3_1))
          (st3_2 t) (hstage3_2 ((cfg3.slots t 2).cast nbuf3_2)) (st3_3 t) (hstage3_3 ((cfg3.slots t 3).cast nbuf3_3)) (st3_4 t) (hstage3_4 ((cfg3.slots t 4).cast nbuf3_4))
          (fun h => h0 ((hcond3_0 t).mp h)) (iblk3 V c 0 t) (iblk3 V c 1 t) (iblk3 V c 2 t) (iblk3 V c 3 t) (acc3 V c (t.val - 1)) :=
      (out3_B_eq c _ _ _ _ _ _ _ _ _ _ _ _ _ _ _ _ _).symm
    rw [acc3_later V c t h0, e]
    simp only [before3_4_later V c t h0]
    unfold out3_B
    iintro ⟨HΦ, Ho, ⟨%d0, H0⟩, ⟨%d1, H1⟩, ⟨%d2, H2⟩, ⟨%d3, H3⟩, ⟨%d4, H4⟩⟩
    iapply ((kernelRun3_B c (grid3.coords t) _ _ _ _ _ _ _ _ _ _ (fun h => h0 ((hcond3_0 t).mp h))
      (iblk3 V c 0 t) (iblk3 V c 1 t) (iblk3 V c 2 t) (iblk3 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_B c _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Hand

end
-- ==== Proof.K.Pred3Final.lean ====
import proofs.«150805_j37804302139719_1_alg».proof.Proof.K.Pred3
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)
open Idealize.ShloMosaic.ValueIdx

variable {F : FTy → Type} [FloatOps F]

/-! # Region 3: what its arrays hold when it ends, and the accumulated value

The output array `[1,1]` is written back once, after the last point, with the accumulation there; the four input
arrays are as the region found them. -/

section Region
variable (V : (c : Dev nD) → (b : Ref sig .tc) → Buf (Elt F) ((c : Thread nD τ).loc b))

/-- The last of the 50 points. -/
def tl3 : Fin cfg3.N := ⟨49, lt_of_lt_of_eq (by decide) N_3.symm⟩

/-- The one write-back, at the last point, writes the accumulation there: block (0, 0) of the `[1,1]` array read
    through zero offsets is the array. -/
theorem flushed_eq3 (c : Dev nD) (t : Fin cfg3.N) (hf : (cfg3.win 4).flush t = true) :
    (dat3 V c).flushed 4 t = ((cfg3.win 4).blk t).view.read (Elt F) (acc3 V c 49 : Buf (Elt F) ((c : Thread nD τ).loc main_v130)) := by
  have hN : t.val < 50 := lt_of_lt_of_eq t.isLt N_3
  have h49 : t.val = 49 := by have := (flush3_4 t).mp hf; omega
  obtain rfl : t = tl3 := Fin.ext h49
  show (cfg3.win 4).cut (grid3.coords tl3) ((dat3 V c).after 4 tl3) = _
  rw [after3_4]
  have hz' : (fun a => win3_4.index tl3 a * main_v130.ty.shape.size a) = fun _ => 0 := funext fun a => by fin_cases a <;> decide
  exact (Memref.read_access_unit_zero (Elt F) main_v130 hz' (fun a => by rw [congrFun hz' a]; simp) (acc3 V c 49)).symm

/-- So the output array ends holding the accumulation after the last point. -/
theorem final3 (c : Dev nD) : (dat3 V c).arrAt 4 cfg3.N = acc3 V c 49 :=
  (dat3 V c).arrAt_eq_of_cover 4 (acc3 V c 49) (flushed_eq3 V c) fun i =>
    ⟨tl3, (flush3_4 tl3).mpr rfl, by
      show i ∈ ((View.whole main_v130).slice (win3_4.rect tl3)).set
      rw [View.set_slice_whole, Rect.mem_set_unit]
      intro a
      have h0 : (i 0 : Nat) < 1 := (i 0).isLt
      have h1 : (i 1 : Nat) < 1 := (i 1).isLt
      match a with
      | ⟨0, _⟩ => show win3_4.index tl3 0 * win3_4.size 0 ≤ (i 0 : Nat) ∧ (i 0 : Nat) < win3_4.index tl3 0 * win3_4.size 0 + win3_4.xsize (grid3.coords tl3) 0
                  rw [show win3_4.index tl3 0 * win3_4.size 0 = 0 from by decide +kernel, show win3_4.xsize (grid3.coords tl3) 0 = 1 from by decide +kernel]; omega
      | ⟨1, _⟩ => show win3_4.index tl3 1 * win3_4.size 1 ≤ (i 1 : Nat) ∧ (i 1 : Nat) < win3_4.index tl3 1 * win3_4.size 1 + win3_4.xsize (grid3.coords tl3) 1
                  rw [show win3_4.index tl3 1 * win3_4.size 1 = 0 from by decide +kernel, show win3_4.xsize (grid3.coords tl3) 1 = 1 from by decide +kernel]; omega⟩

/-- The four input arrays end as the region found them. -/
theorem arr3_0 (c : Dev nD) : (dat3 V c).arrAt 0 cfg3.N = V c (Pipeline.arrRef spec3 0) :=
  ((dat3 V c).arrAt_in 0 rfl _).trans (A_eq3 V c 0)
theorem arr3_1 (c : Dev nD) : (dat3 V c).arrAt 1 cfg3.N = V c (Pipeline.arrRef spec3 1) :=
  ((dat3 V c).arrAt_in 1 rfl _).trans (A_eq3 V c 1)
theorem arr3_2 (c : Dev nD) : (dat3 V c).arrAt 2 cfg3.N = V c (Pipeline.arrRef spec3 2) :=
  ((dat3 V c).arrAt_in 2 rfl _).trans (A_eq3 V c 2)
theorem arr3_3 (c : Dev nD) : (dat3 V c).arrAt 3 cfg3.N = V c (Pipeline.arrRef spec3 3) :=
  ((dat3 V c).arrAt_in 3 rfl _).trans (A_eq3 V c 3)

/-! ## The input blocks, read at an index of their arrays -/

/-- The two row-block windows' block index at point `t` is `(t, 0)`; the weight row's and the bias's is `(0, 0)`. -/
theorem index3_0 : ∀ t : Fin cfg3.N, win3_0.index t 0 = t.val ∧ win3_0.index t 1 = 0 :=
  (by decide +kernel : ∀ t : Fin grid3.N, win3_0.index t 0 = t.val ∧ win3_0.index t 1 = 0)
theorem index3_1 : ∀ t : Fin cfg3.N, win3_1.index t 0 = t.val ∧ win3_1.index t 1 = 0 :=
  (by decide +kernel : ∀ t : Fin grid3.N, win3_1.index t 0 = t.val ∧ win3_1.index t 1 = 0)
theorem index3_2 : ∀ t : Fin cfg3.N, win3_2.index t 0 = 0 ∧ win3_2.index t 1 = 0 :=
  (by decide +kernel : ∀ t : Fin grid3.N, win3_2.index t 0 = 0 ∧ win3_2.index t 1 = 0)
theorem index3_3 : ∀ t : Fin cfg3.N, win3_3.index t 0 = 0 ∧ win3_3.index t 1 = 0 :=
  (by decide +kernel : ∀ t : Fin grid3.N, win3_3.index t 0 = 0 ∧ win3_3.index t 1 = 0)

/-- Row `r`, lane `k` of the first operand's block at point `t` is row `2000 t + r` of its array. -/
theorem iblk3_0_apply (c : Dev nD) (t : Fin cfg3.N) (r : Fin 2000) (k : Fin 384) :
    iblk3 V c 0 t (ix2 r k) = (V c (Pipeline.arrRef spec3 0) : FVec F S100000x384 .f32)
      (ix2 ⟨2000 * t.val + r.val, by have := lt_of_lt_of_eq t.isLt N_3; have := r.isLt; omega⟩ k) := by
  have hi := index3_0 t
  unfold iblk3
  rw [View.read_apply]
  show V c main_v102 _ = V c main_v102 _
  congr 1
  funext a
  apply Fin.ext
  match a with
  | ⟨0, _⟩ => show win3_0.index t 0 * 2000 + 1 * r.val = 2000 * t.val + r.val; rw [hi.1]; omega
  | ⟨1, _⟩ => show win3_0.index t 1 * 384 + 1 * k.val = k.val; rw [hi.2]; omega

/-- The second operand's likewise. -/
theorem iblk3_1_apply (c : Dev nD) (t : Fin cfg3.N) (r : Fin 2000) (k : Fin 384) :
    iblk3 V c 1 t (ix2 r k) = (V c (Pipeline.arrRef spec3 1) : FVec F S100000x384 .f32)
      (ix2 ⟨2000 * t.val + r.val, by have := lt_of_lt_of_eq t.isLt N_3; have := r.isLt; omega⟩ k) := by
  have hi := index3_1 t
  unfold iblk3
  rw [View.read_apply]
  show V c main_v111 _ = V c main_v111 _
  congr 1
  funext a
  apply Fin.ext
  match a with
  | ⟨0, _⟩ => show win3_1.index t 0 * 2000 + 1 * r.val = 2000 * t.val + r.val; rw [hi.1]; omega
  | ⟨1, _⟩ => show win3_1.index t 1 * 384 + 1 * k.val = k.val; rw [hi.2]; omega

/-- The weight row's block is the whole `[1,384]` array at every point. -/
theorem iblk3_2_apply (c : Dev nD) (t : Fin cfg3.N) (k : Fin 384) :
    iblk3 V c 2 t (ix2 0 k) = (V c (Pipeline.arrRef spec3 2) : FVec F S1x384 .f32) (ix2 0 k) := by
  have hi := index3_2 t
  unfold iblk3
  rw [View.read_apply]
  show V c main_v92 _ = V c main_v92 _
  congr 1
  funext a
  apply Fin.ext
  match a with
  | ⟨0, _⟩ => show win3_2.index t 0 * 1 + 1 * 0 = 0; rw [hi.1]
  | ⟨1, _⟩ => show win3_2.index t 1 * 384 + 1 * k.val = k.val; rw [hi.2]; omega

/-- The bias's block is the whole `[1,1]` array at every point. -/
theorem iblk3_3_apply (c : Dev nD) (t : Fin cfg3.N) :
    iblk3 V c 3 t (ix2 0 0) = (V c (Pipeline.arrRef spec3 3) : FVec F S1x1 .f32) (ix2 0 0) := by
  have hi := index3_3 t
  unfold iblk3
  rw [View.read_apply]
  show V c main_v93 _ = V c main_v93 _
  congr 1
  funext a
  apply Fin.ext
  match a with
  | ⟨0, _⟩ => show win3_3.index t 0 * 1 + 1 * 0 = 0; rw [hi.1]
  | ⟨1, _⟩ => show win3_3.index t 1 * 1 + 1 * 0 = 0; rw [hi.2]

end Region

end Cert.Kernel.Hand

end
-- ==== Proof.K.Pred4Body.lean ====
import proofs.«150805_j37804302139719_1_alg».proof.Proof.Gen.Kernel.Launch
import proofs.«150805_j37804302139719_1_alg».proof.Proof.Gen.Kernel.Skeleton
import proofs.«150805_j37804302139719_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The predictor body of region 4: its branch condition and its two runs

The body resets the one-element output block when the grid coordinate is 0, then adds the point's partial sum
to what the block holds. Two control cases: the first point (the reset is taken) and every later point. -/

/-- The condition of the body's conditional, from the grid coordinate: `i = 0`, as the printed scalar chain. -/
abbrev cond4_0 (i : grid4.Coords) : Prop :=
  (Scalar.cmpi .ne (Scalar.extui (Scalar.cmpi .eq (BitVec.ofNat 32 (i 0).val) 0#32)) 0#32) = 1#1

/-- It holds at the first of the 50 points only: decided over the grid. -/
theorem hcond4_0 : ∀ t : Fin cfg4.N, cond4_0 (grid4.coords t) ↔ t.val % 50 = 0 :=
  (by decide +kernel : ∀ t : Fin grid4.N, cond4_0 (grid4.coords t) ↔ t.val % 50 = 0)

set_option maxHeartbeats 2000000 in
/-- THE FIRST POINT. On whole staging memrefs, the four inputs' at their contents and the output's at anything, the body
    runs to the continuation holding the inputs' as they were and the output's with the body's stores written, as
    pieces (last first) the run finds: the reset's zero block, then the sum over it. -/
noncomputable def kernelRun4_A (c : Dev nD) (i : grid4.Coords)
    (arg1 : Memref sig .tc .vmem S2000x384 .f32) (harg1 : arg1.IsWhole)
    (arg2 : Memref sig .tc .vmem S2000x384 .f32) (harg2 : arg2.IsWhole)
    (arg3 : Memref sig .tc .vmem S1x384 .f32) (harg3 : arg3.IsWhole)
    (arg4 : Memref sig .tc .vmem S1x1 .f32) (harg4 : arg4.IsWhole)
    (arg5 : Memref sig .tc .vmem S1x1 .f32) (harg5 : arg5.IsWhole) (hc0 : cond4_0 i)
    (x0 x1 : Vec F S2000x384 .f32) (x2 : Vec F S1x384 .f32) (x3 : Vec F S1x1 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E
              (cc4__predictor_kernel i arg1 harg1 arg2 harg2 arg3 harg3 arg4 harg4 arg5 harg5) K } := by
  refine ⟨?_, fun E K => ?run⟩
  case run =>
    simp only [cc4__predictor_kernel_eq_skeleton]; unfold cc4__predictor_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

set_option maxHeartbeats 2000000 in
/-- EVERY LATER POINT. The same with the output's staging memref at the running contents `xo` (the reset is not
    taken): the one store of the sum over `xo`. -/
noncomputable def kernelRun4_B (c : Dev nD) (i : grid4.Coords)
    (arg1 : Memref sig .tc .vmem S2000x384 .f32) (harg1 : arg1.IsWhole)
    (arg2 : Memref sig .tc .vmem S2000x384 .f32) (harg2 : arg2.IsWhole)
    (arg3 : Memref sig .tc .vmem S1x384 .f32) (harg3 : arg3.IsWhole)
    (arg4 : Memref sig .tc .vmem S1x1 .f32) (harg4 : arg4.IsWhole)
    (arg5 : Memref sig .tc .vmem S1x1 .f32) (harg5 : arg5.IsWhole) (hc0 : ¬cond4_0 i)
    (x0 x1 : Vec F S2000x384 .f32) (x2 : Vec F S1x384 .f32) (x3 : Vec F S1x1 .f32) (xo : Vec F S1x1 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare xo
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E
              (cc4__predictor_kernel i arg1 harg1 arg2 harg2 arg3 harg3 arg4 harg4 arg5 harg5) K } := by
  refine ⟨?_, fun E K => ?run⟩
  case run =>
    simp only [cc4__predictor_kernel_eq_skeleton]; unfold cc4__predictor_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1
    obtain rfl := harg3.eq_unread hf2; obtain rfl := harg4.eq_unread hf3
    obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.Kernel.Hand

end
-- ==== Proof.K.Pred4.lean ====
import proofs.«150805_j37804302139719_1_alg».proof.Proof.Gen.Kernel.Launch
import proofs.«150805_j37804302139719_1_alg».proof.Proof.Gen.Kernel.Skeleton
import proofs.«150805_j37804302139719_1_alg».proof.Proof.Gen.Kernel.Points
import proofs.«150805_j37804302139719_1_alg».proof.Proof.K.Pred4Body
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the predictor's accumulated output

One-element output block `[1,1]` at block (0,0) at every one of the 50 grid points: an accumulator. After point `t` it
holds the zero block plus the partial sums of points `0..t`, added in point order; the region writes it back once,
after the last point. Everything is stated at a parameter `V`: the buffers' contents when the region is entered. -/

theorem hz4 : (![0, 0] : Fin 2 → Nat) = fun _ => 0 := funext fun a => by fin_cases a <;> rfl

/-- The zero block the first point stores: a broadcast of `+0.0`. -/
abbrev zero4 : Vec F S1x1 .f32 := broadcast S1x1 (Scalar.ofBits .f32 0x00000000#32)

/-- ONE POINT'S PARTIAL SUM, from the point's two `[2000,384]` blocks, the weight row and the bias: per row the
    logit `∑ₖ za·zb·pw + pb`, scaled by the sign constant, through the printed softplus; then summed over the rows. -/
def partial4 (za zb : Vec F S2000x384 .f32) (pw : Vec F S1x384 .f32) (pb : Vec F S1x1 .f32) : Vec F S1x1 .f32 :=
  have v4 : FVec F S2000x384 .f32 := shapeCast S2000x384 za shapeCasts_S2000x384_S2000x384
  have v6 : FVec F S2000x384 .f32 := shapeCast S2000x384 zb shapeCasts_S2000x384_S2000x384
  have v7 : FVec F S2000x384 .f32 := mulf v4 v6
  have v9 : FVec F S1x384 .f32 := shapeCast S1x384 pw shapeCasts_S1x384_S1x384
  have v10 : FVec F S2000x384 .f32 := broadcastTo S2000x384 v9 broadcasts_S1x384_S2000x384
  have v11 : FVec F S2000x384 .f32 := mulf v7 v10
  have v12 : FVec F S2000 .f32 := multiReduction .add [1] S2000 v11 0x00000000#32 reduces_S2000x384_S2000 (.inl rfl) rfl
  have v13 : FVec F S2000x1 .f32 := shapeCast S2000x1 v12 shapeCasts_S2000_S2000x1
  have v15 : F .f32 := extractAt ![0, 0] pb inpos_S1x1_p0_0
  have v16 : FVec F S2000x1 .f32 := broadcast S2000x1 v15
  have v17 : FVec F S2000x1 .f32 := addf v13 v16
  have cst_8 : F .f32 := Scalar.ofBits .f32 0x3F800000#32
  have v18 : FVec F S2000x1 .f32 := broadcast S2000x1 cst_8
  have v19 : FVec F S2000x1 .f32 := mulf v18 v17
  have cst_9 : F .f32 := Scalar.ofBits .f32 0x00000000#32
  have v20 : FVec F S2000x1 .f32 := broadcast S2000x1 cst_9
  have v21 : FVec F S2000x1 .f32 := maximumf v19 v20
  have v22 : FVec F S2000x1 .f32 := broadcast S2000x1 cst_9
  have v23 : FVec F S2000x1 .f32 := subf v19 v22
  have v24 : IVec S2000x1 1 := cmpf .one v23 v23
  have v25 : FVec F S2000x1 .f32 := broadcast S2000x1 cst_9
  have v26 : FVec F S2000x1 .f32 := addf v19 v25
  have v27 : FVec F S2000x1 .f32 := absf v23
  have cst_10 : F .f32 := Scalar.ofBits .f32 0x00000000#32
  have v28 : FVec F S2000x1 .f32 := broadcast S2000x1 cst_10
  have v29 : FVec F S2000x1 .f32 := subf v28 v27
  have v30 : FVec F S2000x1 .f32 := exp v29
  have v31 : FVec F S2000x1 .f32 := log1p v30
  have v32 : FVec F S2000x1 .f32 := addf v21 v31
  have v33 : FVec F S2000x1 .f32 := select v24 v26 v32
  have v34 : FVec F S1 .f32 := multiReduction .add [0] S1 v33 0x00000000#32 reduces_S2000x1_S1 (.inl rfl) rfl
  have v35 : FVec F S1x1 .f32 := shapeCast S1x1 v34 shapeCasts_S1_S1x1
  v35

/-- The body's stored payload is the block it read plus the point's partial sum. -/
theorem pay2_eq4 (za zb : Vec F S2000x384 .f32) (pw : Vec F S1x384 .f32) (pb xo : Vec F S1x1 .f32) :
    k4_pay2 za zb pw pb xo = addf xo (partial4 za zb pw pb) := by
  show addf (shapeCast S1x1 xo shapeCasts_S1x1_S1x1) (partial4 za zb pw pb) = _
  rw [shapeCast_self]

section Region
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is the entry contents and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data
    whose array is the entry contents and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## What each control case leaves in the output's staging buffer -/

/-- One staging buffer of the output window, through which its contents are stated (the choice does not matter). -/
abbrev VO4_4 : View sig .tc .vmem S1x1 .f32 := (Memref.whole cc4_stg4_0 : Memref sig .tc .vmem S1x1 .f32).view

/-- The first point's stores cover the one-element block. -/
theorem cover4_A (c : Dev nD) (i : grid4.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : cond4_0 i)
    (x0 x1 : Vec F S2000x384 .f32) (x2 : Vec F S1x384 .f32) (x3 : Vec F S1x1 .f32) (y : S1x1.Idx) :
    ∃ pc ∈ (kernelRun4_A c i a1 h1 a2 h2 a3 h3 a4 h4 a5 h5 hc x0 x1 x2 x3).1, y ∈ pc.1.set :=
  View.cover_of_tiledL (kernelRun4_A c i a1 h1 a2 h2 a3 h3 a4 h4 a5 h5 hc x0 x1 x2 x3).1 S1x1.size (by sl_kernel_rfl) y

/-- What the first point leaves in the output's staging buffer: its pieces read back. -/
def out4_A (c : Dev nD) (i : grid4.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : cond4_0 i)
    (x0 x1 : Vec F S2000x384 .f32) (x2 : Vec F S1x384 .f32) (x3 : Vec F S1x1 .f32) : Vec F S1x1 .f32 :=
  VO4_4.read (Elt F) (VO4_4.writes (Elt F) VO4_4.junk (kernelRun4_A c i a1 h1 a2 h2 a3 h3 a4 h4 a5 h5 hc x0 x1 x2 x3).1)

/-- A later point's one store covers the block. -/
theorem cover4_B (c : Dev nD) (i : grid4.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : ¬cond4_0 i)
    (x0 x1 : Vec F S2000x384 .f32) (x2 : Vec F S1x384 .f32) (x3 xo : Vec F S1x1 .f32) (y : S1x1.Idx) :
    ∃ pc ∈ (kernelRun4_B c i a1 h1 a2 h2 a3 h3 a4 h4 a5 h5 hc x0 x1 x2 x3 xo).1, y ∈ pc.1.set :=
  View.cover_of_tiledL (kernelRun4_B c i a1 h1 a2 h2 a3 h3 a4 h4 a5 h5 hc x0 x1 x2 x3 xo).1 S1x1.size (by sl_kernel_rfl) y

/-- What a later point leaves in the output's staging buffer that held `xo`. -/
def out4_B (c : Dev nD) (i : grid4.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : ¬cond4_0 i)
    (x0 x1 : Vec F S2000x384 .f32) (x2 : Vec F S1x384 .f32) (x3 xo : Vec F S1x1 .f32) : Vec F S1x1 .f32 :=
  VO4_4.read (Elt F) (VO4_4.writes (Elt F) VO4_4.junk (kernelRun4_B c i a1 h1 a2 h2 a3 h3 a4 h4 a5 h5 hc x0 x1 x2 x3 xo).1)

/-- A later point leaves `xo` plus the point's partial sum: its one covering store's payload, whose loads read the
    whole buffers. -/
theorem out4_B_eq (c : Dev nD) (i : grid4.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : ¬cond4_0 i)
    (x0 x1 : Vec F S2000x384 .f32) (x2 : Vec F S1x384 .f32) (x3 xo : Vec F S1x1 .f32) :
    out4_B c i a1 h1 a2 h2 a3 h3 a4 h4 a5 h5 hc x0 x1 x2 x3 xo = addf xo (partial4 x0 x1 x2 x3) := by
  unfold out4_B
  rw [View.read_writes_eq_canon _ _ _ (cover4_B c i a1 h1 a2 h2 a3 h3 a4 h4 a5 h5 hc x0 x1 x2 x3 xo)]
  unfold kernelRun4_B
  dsimp only
  sl_unfold_words
  rw [View.canon_unit_zero hz4]
  simp only [View.readAt_eq_ld, h1.read_unread, h2.read_unread, h3.read_unread, h4.read_unread, h5.read_unread,
    View.ld_unit_zero (S := S2000x384) hz4, View.ld_unit_zero (S := S1x384) hz4, View.ld_unit_zero (S := S1x1) hz4]
  exact pay2_eq4 x0 x1 x2 x3 xo

/-- The first point stores the zero block, reads it back, and leaves the zero block plus the point's partial sum. -/
theorem out4_A_eq (c : Dev nD) (i : grid4.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : cond4_0 i)
    (x0 x1 : Vec F S2000x384 .f32) (x2 : Vec F S1x384 .f32) (x3 : Vec F S1x1 .f32) :
    out4_A c i a1 h1 a2 h2 a3 h3 a4 h4 a5 h5 hc x0 x1 x2 x3 = addf zero4 (partial4 x0 x1 x2 x3) := by
  unfold out4_A
  rw [View.read_writes_eq_canon _ _ _ (cover4_A c i a1 h1 a2 h2 a3 h3 a4 h4 a5 h5 hc x0 x1 x2 x3)]
  unfold kernelRun4_A
  dsimp only
  sl_unfold_words
  rw [View.canon_cons_unit_zero (S := S1x1) hz4]
  rw [View.readCov_unit_zero (S := S1x1) _ hz4]
  simp only [View.readAt_eq_ld, h1.read_unread, h2.read_unread, h3.read_unread, h4.read_unread, h5.read_unread,
    View.ld_unit_zero (S := S2000x384) hz4, View.ld_unit_zero (S := S1x384) hz4, View.ld_unit_zero (S := S1x1) hz4]
  exact pay2_eq4 x0 x1 x2 x3 k4_pay1

/-! ## What the output block holds after each point -/

/-- Position `n` of the grid as one of its 50 points (positions past the grid wrap; only `n < 50` is read). -/
def pt4 (n : ℕ) : Fin cfg4.N := ⟨n % 50, lt_of_lt_of_eq (Nat.mod_lt n (by decide)) N_4.symm⟩

theorem pt4_val (t : Fin cfg4.N) : pt4 t.val = t :=
  Fin.ext (Nat.mod_eq_of_lt (lt_of_lt_of_eq t.isLt N_4))

/-- The point's partial sum over the windows' blocks at point `t`. -/
def part4 (c : Dev nD) (t : Fin cfg4.N) : Vec F S1x1 .f32 :=
  partial4 (iblk4 V c 0 t) (iblk4 V c 1 t) (iblk4 V c 2 t) (iblk4 V c 3 t)

/-- THE ACCUMULATION: what the output's staging buffer holds after point `n` — the zero block plus point 0's partial
    sum, then each later point's added to what the point before left. -/
def acc4 (c : Dev nD) : ℕ → Vec F S1x1 .f32
  | 0 => addf zero4 (part4 V c (pt4 0))
  | n + 1 => addf (acc4 c n) (part4 V c (pt4 (n + 1)))

theorem acc4_first (c : Dev nD) (t : Fin cfg4.N) (h0 : t.val % 50 = 0) :
    acc4 V c t.val = addf zero4 (part4 V c t) := by
  have hN : t.val < 50 := lt_of_lt_of_eq t.isLt N_4
  have ht : t.val = 0 := by omega
  have e : pt4 0 = t := by rw [← ht]; exact pt4_val t
  rw [ht]; show addf zero4 (part4 V c (pt4 0)) = _; rw [e]

theorem acc4_later (c : Dev nD) (t : Fin cfg4.N) (h0 : ¬t.val % 50 = 0) :
    acc4 V c t.val = addf (acc4 V c (t.val - 1)) (part4 V c t) := by
  have hN : t.val < 50 := lt_of_lt_of_eq t.isLt N_4
  obtain ⟨n, hn⟩ : ∃ n, t.val = n + 1 := ⟨t.val - 1, by omega⟩
  have e : pt4 (n + 1) = t := by rw [← hn]; exact pt4_val t
  rw [hn]; show addf (acc4 V c n) (part4 V c (pt4 (n + 1))) = _; rw [e]; rfl

/-! ## The pipeline's proof data -/

/-- The proof data of the region's pipeline on core `c`: the arrays as the region finds them; after the body at point
    `t` each input's buffer at its block and the output's at the accumulation; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => acc4 V c t.val
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = acc4 V c t.val := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- At a later point the output's staging buffer holds what the body left at the point before: the point is not the
    first, the buffer was not written back between (only the last point is), the window is live and uncut. -/
theorem before4_4_later (c : Dev nD) (t : Fin cfg4.N) (h0 : ¬t.val % 50 = 0) (d) :
    (dat4 V c).before 4 t d = acc4 V c (t.val - 1) := by
  have hN : t.val < 50 := lt_of_lt_of_eq t.isLt N_4
  rw [Dat.before_out_kept _ 4 rfl t (by omega) (Bool.eq_false_iff.mpr fun h => by have := (flush4_4 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

set_option maxHeartbeats 1600000 in
/-- The body at any point: the inputs' memrefs hold their blocks; the closed form says which control case the point is
    in; at a later point the output's memref holds what the point before left; so that case's run applies, and what it
    leaves is the accumulation at `t`. The invariant and the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  by_cases h0 : t.val % 50 = 0
  · have e : addf zero4 (part4 V c t)
        = out4_A c (grid4.coords t) (st4_0 t) (hstage4_0 ((cfg4.slots t 0).cast nbuf4_0)) (st4_1 t) (hstage4_1 ((cfg4.slots t 1).cast nbuf4_1))
          (st4_2 t) (hstage4_2 ((cfg4.slots t 2).cast nbuf4_2)) (st4_3 t) (hstage4_3 ((cfg4.slots t 3).cast nbuf4_3)) (st4_4 t) (hstage4_4 ((cfg4.slots t 4).cast nbuf4_4))
          ((hcond4_0 t).mpr h0) (iblk4 V c 0 t) (iblk4 V c 1 t) (iblk4 V c 2 t) (iblk4 V c 3 t) :=
      (out4_A_eq c _ _ _ _ _ _ _ _ _ _ _ _ _ _ _ _).symm
    rw [acc4_first V c t h0, e]
    unfold out4_A
    iintro ⟨HΦ, Ho, ⟨%d0, H0⟩, ⟨%d1, H1⟩, ⟨%d2, H2⟩, ⟨%d3, H3⟩, ⟨%d4, H4⟩⟩
    iapply ((kernelRun4_A c (grid4.coords t) _ _ _ _ _ _ _ _ _ _ ((hcond4_0 t).mpr h0)
      (iblk4 V c 0 t) (iblk4 V c 1 t) (iblk4 V c 2 t) (iblk4 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover4_A c _ _ _ _ _ _ _ _ _ _ _ _ _ _ _ _)
  · have e : addf (acc4 V c (t.val - 1)) (part4 V c t)
        = out4_B c (grid4.coords t) (st4_0 t) (hstage4_0 ((cfg4.slots t 0).cast nbuf4_0)) (st4_1 t) (hstage4_1 ((cfg4.slots t 1).cast nbuf4_1))
          (st4_2 t) (hstage4_2 ((cfg4.slots t 2).cast nbuf4_2)) (st4_3 t) (hstage4_3 ((cfg4.slots t 3).cast nbuf4_3)) (st4_4 t) (hstage4_4 ((cfg4.slots t 4).cast nbuf4_4))
          (fun h => h0 ((hcond4_0 t).mp h)) (iblk4 V c 0 t) (iblk4 V c 1 t) (iblk4 V c 2 t) (iblk4 V c 3 t) (acc4 V c (t.val - 1)) :=
      (out4_B_eq c _ _ _ _ _ _ _ _ _ _ _ _ _ _ _ _ _).symm
    rw [acc4_later V c t h0, e]
    simp only [before4_4_later V c t h0]
    unfold out4_B
    iintro ⟨HΦ, Ho, ⟨%d0, H0⟩, ⟨%d1, H1⟩, ⟨%d2, H2⟩, ⟨%d3, H3⟩, ⟨%d4, H4⟩⟩
    iapply ((kernelRun4_B c (grid4.coords t) _ _ _ _ _ _ _ _ _ _ (fun h => h0 ((hcond4_0 t).mp h))
      (iblk4 V c 0 t) (iblk4 V c 1 t) (iblk4 V c 2 t) (iblk4 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover4_B c _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.Kernel.Hand

end
-- ==== Proof.K.Pred4Final.lean ====
import proofs.«150805_j37804302139719_1_alg».proof.Proof.K.Pred4
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)
open Idealize.ShloMosaic.ValueIdx

variable {F : FTy → Type} [FloatOps F]

/-! # Region 4: what its arrays hold when it ends, and the accumulated value

The output array `[1,1]` is written back once, after the last point, with the accumulation there; the four input
arrays are as the region found them. -/

section Region
variable (V : (c : Dev nD) → (b : Ref sig .tc) → Buf (Elt F) ((c : Thread nD τ).loc b))

/-- The last of the 50 points. -/
def tl4 : Fin cfg4.N := ⟨49, lt_of_lt_of_eq (by decide) N_4.symm⟩

/-- The one write-back, at the last point, writes the accumulation there: block (0, 0) of the `[1,1]` array read
    through zero offsets is the array. -/
theorem flushed_eq4 (c : Dev nD) (t : Fin cfg4.N) (hf : (cfg4.win 4).flush t = true) :
    (dat4 V c).flushed 4 t = ((cfg4.win 4).blk t).view.read (Elt F) (acc4 V c 49 : Buf (Elt F) ((c : Thread nD τ).loc main_v132)) := by
  have hN : t.val < 50 := lt_of_lt_of_eq t.isLt N_4
  have h49 : t.val = 49 := by have := (flush4_4 t).mp hf; omega
  obtain rfl : t = tl4 := Fin.ext h49
  show (cfg4.win 4).cut (grid4.coords tl4) ((dat4 V c).after 4 tl4) = _
  rw [after4_4]
  have hz' : (fun a => win4_4.index tl4 a * main_v132.ty.shape.size a) = fun _ => 0 := funext fun a => by fin_cases a <;> decide
  exact (Memref.read_access_unit_zero (Elt F) main_v132 hz' (fun a => by rw [congrFun hz' a]; simp) (acc4 V c 49)).symm

/-- So the output array ends holding the accumulation after the last point. -/
theorem final4 (c : Dev nD) : (dat4 V c).arrAt 4 cfg4.N = acc4 V c 49 :=
  (dat4 V c).arrAt_eq_of_cover 4 (acc4 V c 49) (flushed_eq4 V c) fun i =>
    ⟨tl4, (flush4_4 tl4).mpr rfl, by
      show i ∈ ((View.whole main_v132).slice (win4_4.rect tl4)).set
      rw [View.set_slice_whole, Rect.mem_set_unit]
      intro a
      have h0 : (i 0 : Nat) < 1 := (i 0).isLt
      have h1 : (i 1 : Nat) < 1 := (i 1).isLt
      match a with
      | ⟨0, _⟩ => show win4_4.index tl4 0 * win4_4.size 0 ≤ (i 0 : Nat) ∧ (i 0 : Nat) < win4_4.index tl4 0 * win4_4.size 0 + win4_4.xsize (grid4.coords tl4) 0
                  rw [show win4_4.index tl4 0 * win4_4.size 0 = 0 from by decide +kernel, show win4_4.xsize (grid4.coords tl4) 0 = 1 from by decide +kernel]; omega
      | ⟨1, _⟩ => show win4_4.index tl4 1 * win4_4.size 1 ≤ (i 1 : Nat) ∧ (i 1 : Nat) < win4_4.index tl4 1 * win4_4.size 1 + win4_4.xsize (grid4.coords tl4) 1
                  rw [show win4_4.index tl4 1 * win4_4.size 1 = 0 from by decide +kernel, show win4_4.xsize (grid4.coords tl4) 1 = 1 from by decide +kernel]; omega⟩

/-- The four input arrays end as the region found them. -/
theorem arr4_0 (c : Dev nD) : (dat4 V c).arrAt 0 cfg4.N = V c (Pipeline.arrRef spec4 0) :=
  ((dat4 V c).arrAt_in 0 rfl _).trans (A_eq4 V c 0)
theorem arr4_1 (c : Dev nD) : (dat4 V c).arrAt 1 cfg4.N = V c (Pipeline.arrRef spec4 1) :=
  ((dat4 V c).arrAt_in 1 rfl _).trans (A_eq4 V c 1)
theorem arr4_2 (c : Dev nD) : (dat4 V c).arrAt 2 cfg4.N = V c (Pipeline.arrRef spec4 2) :=
  ((dat4 V c).arrAt_in 2 rfl _).trans (A_eq4 V c 2)
theorem arr4_3 (c : Dev nD) : (dat4 V c).arrAt 3 cfg4.N = V c (Pipeline.arrRef spec4 3) :=
  ((dat4 V c).arrAt_in 3 rfl _).trans (A_eq4 V c 3)

/-! ## The input blocks, read at an index of their arrays -/

/-- The two row-block windows' block index at point `t` is `(t, 0)`; the weight row's and the bias's is `(0, 0)`. -/
theorem index4_0 : ∀ t : Fin cfg4.N, win4_0.index t 0 = t.val ∧ win4_0.index t 1 = 0 :=
  (by decide +kernel : ∀ t : Fin grid4.N, win4_0.index t 0 = t.val ∧ win4_0.index t 1 = 0)
theorem index4_1 : ∀ t : Fin cfg4.N, win4_1.index t 0 = t.val ∧ win4_1.index t 1 = 0 :=
  (by decide +kernel : ∀ t : Fin grid4.N, win4_1.index t 0 = t.val ∧ win4_1.index t 1 = 0)
theorem index4_2 : ∀ t : Fin cfg4.N, win4_2.index t 0 = 0 ∧ win4_2.index t 1 = 0 :=
  (by decide +kernel : ∀ t : Fin grid4.N, win4_2.index t 0 = 0 ∧ win4_2.index t 1 = 0)
theorem index4_3 : ∀ t : Fin cfg4.N, win4_3.index t 0 = 0 ∧ win4_3.index t 1 = 0 :=
  (by decide +kernel : ∀ t : Fin grid4.N, win4_3.index t 0 = 0 ∧ win4_3.index t 1 = 0)

/-- Row `r`, lane `k` of the first operand's block at point `t` is row `2000 t + r` of its array. -/
theorem iblk4_0_apply (c : Dev nD) (t : Fin cfg4.N) (r : Fin 2000) (k : Fin 384) :
    iblk4 V c 0 t (ix2 r k) = (V c (Pipeline.arrRef spec4 0) : FVec F S100000x384 .f32)
      (ix2 ⟨2000 * t.val + r.val, by have := lt_of_lt_of_eq t.isLt N_4; have := r.isLt; omega⟩ k) := by
  have hi := index4_0 t
  unfold iblk4
  rw [View.read_apply]
  show V c main_v120 _ = V c main_v120 _
  congr 1
  funext a
  apply Fin.ext
  match a with
  | ⟨0, _⟩ => show win4_0.index t 0 * 2000 + 1 * r.val = 2000 * t.val + r.val; rw [hi.1]; omega
  | ⟨1, _⟩ => show win4_0.index t 1 * 384 + 1 * k.val = k.val; rw [hi.2]; omega

/-- The second operand's likewise. -/
theorem iblk4_1_apply (c : Dev nD) (t : Fin cfg4.N) (r : Fin 2000) (k : Fin 384) :
    iblk4 V c 1 t (ix2 r k) = (V c (Pipeline.arrRef spec4 1) : FVec F S100000x384 .f32)
      (ix2 ⟨2000 * t.val + r.val, by have := lt_of_lt_of_eq t.isLt N_4; have := r.isLt; omega⟩ k) := by
  have hi := index4_1 t
  unfold iblk4
  rw [View.read_apply]
  show V c main_v129 _ = V c main_v129 _
  congr 1
  funext a
  apply Fin.ext
  match a with
  | ⟨0, _⟩ => show win4_1.index t 0 * 2000 + 1 * r.val = 2000 * t.val + r.val; rw [hi.1]; omega
  | ⟨1, _⟩ => show win4_1.index t 1 * 384 + 1 * k.val = k.val; rw [hi.2]; omega

/-- The weight row's block is the whole `[1,384]` array at every point. -/
theorem iblk4_2_apply (c : Dev nD) (t : Fin cfg4.N) (k : Fin 384) :
    iblk4 V c 2 t (ix2 0 k) = (V c (Pipeline.arrRef spec4 2) : FVec F S1x384 .f32) (ix2 0 k) := by
  have hi := index4_2 t
  unfold iblk4
  rw [View.read_apply]
  show V c main_v92 _ = V c main_v92 _
  congr 1
  funext a
  apply Fin.ext
  match a with
  | ⟨0, _⟩ => show win4_2.index t 0 * 1 + 1 * 0 = 0; rw [hi.1]
  | ⟨1, _⟩ => show win4_2.index t 1 * 384 + 1 * k.val = k.val; rw [hi.2]; omega

/-- The bias's block is the whole `[1,1]` array at every point. -/
theorem iblk4_3_apply (c : Dev nD) (t : Fin cfg4.N) :
    iblk4 V c 3 t (ix2 0 0) = (V c (Pipeline.arrRef spec4 3) : FVec F S1x1 .f32) (ix2 0 0) := by
  have hi := index4_3 t
  unfold iblk4
  rw [View.read_apply]
  show V c main_v93 _ = V c main_v93 _
  congr 1
  funext a
  apply Fin.ext
  match a with
  | ⟨0, _⟩ => show win4_3.index t 0 * 1 + 1 * 0 = 0; rw [hi.1]
  | ⟨1, _⟩ => show win4_3.index t 1 * 1 + 1 * 0 = 0; rw [hi.2]

end Region

end Cert.Kernel.Hand

end
-- ==== Proof.K.Bounds.lean ====
/- @main of the kernel program read as seventeen segments, twelve stretches of host operations and five kernel regions,
   with the contents of every unscoped buffer named at each of the eighteen boundaries: a fold from the launch memory in
   which a stretch applies its operations and a region replaces its windows' arrays by what its write-backs leave
   (an input window's array as found, the output window's array block by block). Every weakly fair execution ends with
   each unscoped buffer at the last boundary's contents; the eight argument arrays walk back through the fold to the
   launch memory, which is the frame; the result buffer is read at the last boundary. -/
import proofs.«150805_j37804302139719_1_alg».proof.Proof.Gen.Kernel.Regions
import proofs.«150805_j37804302139719_1_alg».proof.Proof.K.Mat0
import proofs.«150805_j37804302139719_1_alg».proof.Proof.K.Mat1
import proofs.«150805_j37804302139719_1_alg».proof.Proof.K.Mat2
import proofs.«150805_j37804302139719_1_alg».proof.Proof.K.Pred3Final
import proofs.«150805_j37804302139719_1_alg».proof.Proof.K.Pred4Final

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the eighteen boundaries -/

/-- Core `c`'s unscoped buffers at launch. -/
abbrev B0 (c : Dev nD) : Valuation τ sig (Elt F) := fun b => m (c, b)
/-- After the stretch `hostOps0`. -/
abbrev B1 (c : Dev nD) : Valuation τ sig (Elt F) := StableHlo.after hostOps0 (B0 m c)
/-- The stretch writes only its own results. -/
theorem B1_of (c : Dev nD) (r : Ref sig .tc) (h : r ∉ hostOps0_W) : B1 m c r = B0 m c r :=
  StableHlo.after_of_writes_sub hostOps0 _ hostOps0_writes h
/-- The same read at the TensorCore's references: what region 0 finds. -/
abbrev E1 : (c : Dev nD) → (b : Ref sig .tc) → Buf (Elt F) ((c : Thread nD τ).loc b) := fun c b => B1 m c b
/-- After region 0: its windows' arrays at what the pipeline leaves, every other buffer as found. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem left0 (c : Dev nD) (w : Fin cfg0.W) : (dat0 (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the stretch `hostOps1`. -/
abbrev B3 (c : Dev nD) : Valuation τ sig (Elt F) := StableHlo.after hostOps1 (B2 m c)
/-- The stretch writes only its own results. -/
theorem B3_of (c : Dev nD) (r : Ref sig .tc) (h : r ∉ hostOps1_W) : B3 m c r = B2 m c r :=
  StableHlo.after_of_writes_sub hostOps1 _ hostOps1_writes h
/-- After the stretch `hostOps1_1`. -/
abbrev B4 (c : Dev nD) : Valuation τ sig (Elt F) := StableHlo.after hostOps1_1 (B3 m c)
/-- The stretch writes only its own results. -/
theorem B4_of (c : Dev nD) (r : Ref sig .tc) (h : r ∉ hostOps1_1_W) : B4 m c r = B3 m c r :=
  StableHlo.after_of_writes_sub hostOps1_1 _ hostOps1_1_writes h
/-- After the stretch `hostOps1_2`. -/
abbrev B5 (c : Dev nD) : Valuation τ sig (Elt F) := StableHlo.after hostOps1_2 (B4 m c)
/-- The stretch writes only its own results. -/
theorem B5_of (c : Dev nD) (r : Ref sig .tc) (h : r ∉ hostOps1_2_W) : B5 m c r = B4 m c r :=
  StableHlo.after_of_writes_sub hostOps1_2 _ hostOps1_2_writes h
/-- The same read at the TensorCore's references: what region 1 finds. -/
abbrev E5 : (c : Dev nD) → (b : Ref sig .tc) → Buf (Elt F) ((c : Thread nD τ).loc b) := fun c b => B5 m c b
/-- After region 1: its windows' arrays at what the pipeline leaves, every other buffer as found. -/
def B6 (c : Dev nD) : Valuation τ sig (Elt F) :=
  Pipeline.withArrays spec1 c (B5 m c) fun w => (dat1 (E5 m) c).arrAt w cfg1.N
theorem B6_arr (c : Dev nD) (w : Fin cfg1.W) :
    B6 m c (Proc.devRef .tc (Pipeline.arrRef spec1 w)) = (dat1 (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev E6 : (c : Dev nD) → (b : Ref sig .tc) → Buf (Elt F) ((c : Thread nD τ).loc b) := fun c b => B6 m c b
theorem left1 (c : Dev nD) (w : Fin cfg1.W) : (dat1 (E5 m) c).arrAt w cfg1.N = E6 m c (Pipeline.arrRef spec1 w) :=
  (B6_arr m c w).symm
theorem kept1 (c : Dev nD) : ∀ b, b ∉ Finset.univ.image (Pipeline.arrRef spec1) → E6 m c b = E5 m c b :=
  fun b hb => B6_of_ne m c b fun w e => hb (Finset.mem_image.mpr ⟨w, Finset.mem_univ _, e⟩)
/-- After the stretch `hostOps2`. -/
abbrev B7 (c : Dev nD) : Valuation τ sig (Elt F) := StableHlo.after hostOps2 (B6 m c)
/-- The stretch writes only its own results. -/
theorem B7_of (c : Dev nD) (r : Ref sig .tc) (h : r ∉ hostOps2_W) : B7 m c r = B6 m c r :=
  StableHlo.after_of_writes_sub hostOps2 _ hostOps2_writes h
/-- After the stretch `hostOps2_1`. -/
abbrev B8 (c : Dev nD) : Valuation τ sig (Elt F) := StableHlo.after hostOps2_1 (B7 m c)
/-- The stretch writes only its own results. -/
theorem B8_of (c : Dev nD) (r : Ref sig .tc) (h : r ∉ hostOps2_1_W) : B8 m c r = B7 m c r :=
  StableHlo.after_of_writes_sub hostOps2_1 _ hostOps2_1_writes h
/-- After the stretch `hostOps2_2`. -/
abbrev B9 (c : Dev nD) : Valuation τ sig (Elt F) := StableHlo.after hostOps2_2 (B8 m c)
/-- The stretch writes only its own results. -/
theorem B9_of (c : Dev nD) (r : Ref sig .tc) (h : r ∉ hostOps2_2_W) : B9 m c r = B8 m c r :=
  StableHlo.after_of_writes_sub hostOps2_2 _ hostOps2_2_writes h
/-- The same read at the TensorCore's references: what region 2 finds. -/
abbrev E9 : (c : Dev nD) → (b : Ref sig .tc) → Buf (Elt F) ((c : Thread nD τ).loc b) := fun c b => B9 m c b
/-- After region 2: its windows' arrays at what the pipeline leaves, every other buffer as found. -/
def B10 (c : Dev nD) : Valuation τ sig (Elt F) :=
  Pipeline.withArrays spec2 c (B9 m c) fun w => (dat2 (E9 m) c).arrAt w cfg2.N
theorem B10_arr (c : Dev nD) (w : Fin cfg2.W) :
    B10 m c (Proc.devRef .tc (Pipeline.arrRef spec2 w)) = (dat2 (E9 m) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m c (Proc.devRef .tc b) = B9 m c (Proc.devRef .tc b) := by
  unfold B10; exact Pipeline.withArrays_of_ne spec2 c _ _ b hb
abbrev E10 : (c : Dev nD) → (b : Ref sig .tc) → Buf (Elt F) ((c : Thread nD τ).loc b) := fun c b => B10 m c b
theorem left2 (c : Dev nD) (w : Fin cfg2.W) : (dat2 (E9 m) c).arrAt w cfg2.N = E10 m c (Pipeline.arrRef spec2 w) :=
  (B10_arr m c w).symm
theorem kept2 (c : Dev nD) : ∀ b, b ∉ Finset.univ.image (Pipeline.arrRef spec2) → E10 m c b = E9 m c b :=
  fun b hb => B10_of_ne m c b fun w e => hb (Finset.mem_image.mpr ⟨w, Finset.mem_univ _, e⟩)
/-- After the stretch `hostOps3`. -/
abbrev B11 (c : Dev nD) : Valuation τ sig (Elt F) := StableHlo.after hostOps3 (B10 m c)
/-- The stretch writes only its own results. -/
theorem B11_of (c : Dev nD) (r : Ref sig .tc) (h : r ∉ hostOps3_W) : B11 m c r = B10 m c r :=
  StableHlo.after_of_writes_sub hostOps3 _ hostOps3_writes h
/-- After the stretch `hostOps3_1`. -/
abbrev B12 (c : Dev nD) : Valuation τ sig (Elt F) := StableHlo.after hostOps3_1 (B11 m c)
/-- The stretch writes only its own results. -/
theorem B12_of (c : Dev nD) (r : Ref sig .tc) (h : r ∉ hostOps3_1_W) : B12 m c r = B11 m c r :=
  StableHlo.after_of_writes_sub hostOps3_1 _ hostOps3_1_writes h
/-- After the stretch `hostOps3_2`. -/
abbrev B13 (c : Dev nD) : Valuation τ sig (Elt F) := StableHlo.after hostOps3_2 (B12 m c)
/-- The stretch writes only its own results. -/
theorem B13_of (c : Dev nD) (r : Ref sig .tc) (h : r ∉ hostOps3_2_W) : B13 m c r = B12 m c r :=
  StableHlo.after_of_writes_sub hostOps3_2 _ hostOps3_2_writes h
/-- The same read at the TensorCore's references: what region 3 finds. -/
abbrev E13 : (c : Dev nD) → (b : Ref sig .tc) → Buf (Elt F) ((c : Thread nD τ).loc b) := fun c b => B13 m c b
/-- After region 3: its windows' arrays at what the pipeline leaves, every other buffer as found. -/
def B14 (c : Dev nD) : Valuation τ sig (Elt F) :=
  Pipeline.withArrays spec3 c (B13 m c) fun w => (dat3 (E13 m) c).arrAt w cfg3.N
theorem B14_arr (c : Dev nD) (w : Fin cfg3.W) :
    B14 m c (Proc.devRef .tc (Pipeline.arrRef spec3 w)) = (dat3 (E13 m) c).arrAt w cfg3.N := by
  unfold B14; exact Pipeline.withArrays_arr spec3 launch3.win.arr_inj c _ _ w
theorem B14_of_ne (c : Dev nD) (b : Ref sig .tc) (hb : ∀ w, Pipeline.arrRef spec3 w ≠ b) :
    B14 m c (Proc.devRef .tc b) = B13 m c (Proc.devRef .tc b) := by
  unfold B14; exact Pipeline.withArrays_of_ne spec3 c _ _ b hb
abbrev E14 : (c : Dev nD) → (b : Ref sig .tc) → Buf (Elt F) ((c : Thread nD τ).loc b) := fun c b => B14 m c b
theorem left3 (c : Dev nD) (w : Fin cfg3.W) : (dat3 (E13 m) c).arrAt w cfg3.N = E14 m c (Pipeline.arrRef spec3 w) :=
  (B14_arr m c w).symm
theorem kept3 (c : Dev nD) : ∀ b, b ∉ Finset.univ.image (Pipeline.arrRef spec3) → E14 m c b = E13 m c b :=
  fun b hb => B14_of_ne m c b fun w e => hb (Finset.mem_image.mpr ⟨w, Finset.mem_univ _, e⟩)
/-- After the stretch `hostOps4`. -/
abbrev B15 (c : Dev nD) : Valuation τ sig (Elt F) := StableHlo.after hostOps4 (B14 m c)
/-- The stretch writes only its own results. -/
theorem B15_of (c : Dev nD) (r : Ref sig .tc) (h : r ∉ hostOps4_W) : B15 m c r = B14 m c r :=
  StableHlo.after_of_writes_sub hostOps4 _ hostOps4_writes h
/-- The same read at the TensorCore's references: what region 4 finds. -/
abbrev E15 : (c : Dev nD) → (b : Ref sig .tc) → Buf (Elt F) ((c : Thread nD τ).loc b) := fun c b => B15 m c b
/-- After region 4: its windows' arrays at what the pipeline leaves, every other buffer as found. -/
def B16 (c : Dev nD) : Valuation τ sig (Elt F) :=
  Pipeline.withArrays spec4 c (B15 m c) fun w => (dat4 (E15 m) c).arrAt w cfg4.N
theorem B16_arr (c : Dev nD) (w : Fin cfg4.W) :
    B16 m c (Proc.devRef .tc (Pipeline.arrRef spec4 w)) = (dat4 (E15 m) c).arrAt w cfg4.N := by
  unfold B16; exact Pipeline.withArrays_arr spec4 launch4.win.arr_inj c _ _ w
theorem B16_of_ne (c : Dev nD) (b : Ref sig .tc) (hb : ∀ w, Pipeline.arrRef spec4 w ≠ b) :
    B16 m c (Proc.devRef .tc b) = B15 m c (Proc.devRef .tc b) := by
  unfold B16; exact Pipeline.withArrays_of_ne spec4 c _ _ b hb
abbrev E16 : (c : Dev nD) → (b : Ref sig .tc) → Buf (Elt F) ((c : Thread nD τ).loc b) := fun c b => B16 m c b
theorem left4 (c : Dev nD) (w : Fin cfg4.W) : (dat4 (E15 m) c).arrAt w cfg4.N = E16 m c (Pipeline.arrRef spec4 w) :=
  (B16_arr m c w).symm
theorem kept4 (c : Dev nD) : ∀ b, b ∉ Finset.univ.image (Pipeline.arrRef spec4) → E16 m c b = E15 m c b :=
  fun b hb => B16_of_ne m c b fun w e => hb (Finset.mem_image.mpr ⟨w, Finset.mem_univ _, e⟩)
/-- After the stretch `hostOps5`. -/
abbrev B17 (c : Dev nD) : Valuation τ sig (Elt F) := StableHlo.after hostOps5 (B16 m c)
/-- The stretch writes only its own results. -/
theorem B17_of (c : Dev nD) (r : Ref sig .tc) (h : r ∉ hostOps5_W) : B17 m c r = B16 m c r :=
  StableHlo.after_of_writes_sub hostOps5 _ hostOps5_writes h

/-! ## The arguments end as launched

No host operation writes an argument array, and no region changes one: region 0 reads `main_arg0` through an input
window, whose array the pipeline leaves as found; no other region stages an argument. -/
theorem B17_main_arg0 (c : Dev nD) : B17 m c (Proc.devRef .tc main_arg0) = m ((c : Thread nD τ).loc main_arg0) :=
  (B17_of m c main_arg0 (by decide)).trans <|
  (B16_of_ne m c main_arg0 (by decide)).trans <|
  (B15_of m c main_arg0 (by decide)).trans <|
  (B14_of_ne m c main_arg0 (by decide)).trans <|
  (B13_of m c main_arg0 (by decide)).trans <|
  (B12_of m c main_arg0 (by decide)).trans <|
  (B11_of m c main_arg0 (by decide)).trans <|
  (B10_of_ne m c main_arg0 (by decide)).trans <|
  (B9_of m c main_arg0 (by decide)).trans <|
  (B8_of m c main_arg0 (by decide)).trans <|
  (B7_of m c main_arg0 (by decide)).trans <|
  (B6_of_ne m c main_arg0 (by decide)).trans <|
  (B5_of m c main_arg0 (by decide)).trans <|
  (B4_of m c main_arg0 (by decide)).trans <|
  (B3_of m c main_arg0 (by decide)).trans <|
  ((B2_arr m c 0).trans (((dat0 (E1 m) c).arrAt_in 0 rfl _).trans (A_eq0 (E1 m) c 0))).trans <|
  (B1_of m c main_arg0 (by decide)).trans rfl
theorem B17_main_arg1 (c : Dev nD) : B17 m c (Proc.devRef .tc main_arg1) = m ((c : Thread nD τ).loc main_arg1) :=
  (B17_of m c main_arg1 (by decide)).trans <|
  (B16_of_ne m c main_arg1 (by decide)).trans <|
  (B15_of m c main_arg1 (by decide)).trans <|
  (B14_of_ne m c main_arg1 (by decide)).trans <|
  (B13_of m c main_arg1 (by decide)).trans <|
  (B12_of m c main_arg1 (by decide)).trans <|
  (B11_of m c main_arg1 (by decide)).trans <|
  (B10_of_ne m c main_arg1 (by decide)).trans <|
  (B9_of m c main_arg1 (by decide)).trans <|
  (B8_of m c main_arg1 (by decide)).trans <|
  (B7_of m c main_arg1 (by decide)).trans <|
  (B6_of_ne m c main_arg1 (by decide)).trans <|
  (B5_of m c main_arg1 (by decide)).trans <|
  (B4_of m c main_arg1 (by decide)).trans <|
  (B3_of m c main_arg1 (by decide)).trans <|
  (B2_of_ne m c main_arg1 (by decide)).trans <|
  (B1_of m c main_arg1 (by decide)).trans rfl
theorem B17_main_arg2 (c : Dev nD) : B17 m c (Proc.devRef .tc main_arg2) = m ((c : Thread nD τ).loc main_arg2) :=
  (B17_of m c main_arg2 (by decide)).trans <|
  (B16_of_ne m c main_arg2 (by decide)).trans <|
  (B15_of m c main_arg2 (by decide)).trans <|
  (B14_of_ne m c main_arg2 (by decide)).trans <|
  (B13_of m c main_arg2 (by decide)).trans <|
  (B12_of m c main_arg2 (by decide)).trans <|
  (B11_of m c main_arg2 (by decide)).trans <|
  (B10_of_ne m c main_arg2 (by decide)).trans <|
  (B9_of m c main_arg2 (by decide)).trans <|
  (B8_of m c main_arg2 (by decide)).trans <|
  (B7_of m c main_arg2 (by decide)).trans <|
  (B6_of_ne m c main_arg2 (by decide)).trans <|
  (B5_of m c main_arg2 (by decide)).trans <|
  (B4_of m c main_arg2 (by decide)).trans <|
  (B3_of m c main_arg2 (by decide)).trans <|
  (B2_of_ne m c main_arg2 (by decide)).trans <|
  (B1_of m c main_arg2 (by decide)).trans rfl
theorem B17_main_arg3 (c : Dev nD) : B17 m c (Proc.devRef .tc main_arg3) = m ((c : Thread nD τ).loc main_arg3) :=
  (B17_of m c main_arg3 (by decide)).trans <|
  (B16_of_ne m c main_arg3 (by decide)).trans <|
  (B15_of m c main_arg3 (by decide)).trans <|
  (B14_of_ne m c main_arg3 (by decide)).trans <|
  (B13_of m c main_arg3 (by decide)).trans <|
  (B12_of m c main_arg3 (by decide)).trans <|
  (B11_of m c main_arg3 (by decide)).trans <|
  (B10_of_ne m c main_arg3 (by decide)).trans <|
  (B9_of m c main_arg3 (by decide)).trans <|
  (B8_of m c main_arg3 (by decide)).trans <|
  (B7_of m c main_arg3 (by decide)).trans <|
  (B6_of_ne m c main_arg3 (by decide)).trans <|
  (B5_of m c main_arg3 (by decide)).trans <|
  (B4_of m c main_arg3 (by decide)).trans <|
  (B3_of m c main_arg3 (by decide)).trans <|
  (B2_of_ne m c main_arg3 (by decide)).trans <|
  (B1_of m c main_arg3 (by decide)).trans rfl
theorem B17_main_arg4 (c : Dev nD) : B17 m c (Proc.devRef .tc main_arg4) = m ((c : Thread nD τ).loc main_arg4) :=
  (B17_of m c main_arg4 (by decide)).trans <|
  (B16_of_ne m c main_arg4 (by decide)).trans <|
  (B15_of m c main_arg4 (by decide)).trans <|
  (B14_of_ne m c main_arg4 (by decide)).trans <|
  (B13_of m c main_arg4 (by decide)).trans <|
  (B12_of m c main_arg4 (by decide)).trans <|
  (B11_of m c main_arg4 (by decide)).trans <|
  (B10_of_ne m c main_arg4 (by decide)).trans <|
  (B9_of m c main_arg4 (by decide)).trans <|
  (B8_of m c main_arg4 (by decide)).trans <|
  (B7_of m c main_arg4 (by decide)).trans <|
  (B6_of_ne m c main_arg4 (by decide)).trans <|
  (B5_of m c main_arg4 (by decide)).trans <|
  (B4_of m c main_arg4 (by decide)).trans <|
  (B3_of m c main_arg4 (by decide)).trans <|
  (B2_of_ne m c main_arg4 (by decide)).trans <|
  (B1_of m c main_arg4 (by decide)).trans rfl
theorem B17_main_arg5 (c : Dev nD) : B17 m c (Proc.devRef .tc main_arg5) = m ((c : Thread nD τ).loc main_arg5) :=
  (B17_of m c main_arg5 (by decide)).trans <|
  (B16_of_ne m c main_arg5 (by decide)).trans <|
  (B15_of m c main_arg5 (by decide)).trans <|
  (B14_of_ne m c main_arg5 (by decide)).trans <|
  (B13_of m c main_arg5 (by decide)).trans <|
  (B12_of m c main_arg5 (by decide)).trans <|
  (B11_of m c main_arg5 (by decide)).trans <|
  (B10_of_ne m c main_arg5 (by decide)).trans <|
  (B9_of m c main_arg5 (by decide)).trans <|
  (B8_of m c main_arg5 (by decide)).trans <|
  (B7_of m c main_arg5 (by decide)).trans <|
  (B6_of_ne m c main_arg5 (by decide)).trans <|
  (B5_of m c main_arg5 (by decide)).trans <|
  (B4_of m c main_arg5 (by decide)).trans <|
  (B3_of m c main_arg5 (by decide)).trans <|
  (B2_of_ne m c main_arg5 (by decide)).trans <|
  (B1_of m c main_arg5 (by decide)).trans rfl
theorem B17_main_arg6 (c : Dev nD) : B17 m c (Proc.devRef .tc main_arg6) = m ((c : Thread nD τ).loc main_arg6) :=
  (B17_of m c main_arg6 (by decide)).trans <|
  (B16_of_ne m c main_arg6 (by decide)).trans <|
  (B15_of m c main_arg6 (by decide)).trans <|
  (B14_of_ne m c main_arg6 (by decide)).trans <|
  (B13_of m c main_arg6 (by decide)).trans <|
  (B12_of m c main_arg6 (by decide)).trans <|
  (B11_of m c main_arg6 (by decide)).trans <|
  (B10_of_ne m c main_arg6 (by decide)).trans <|
  (B9_of m c main_arg6 (by decide)).trans <|
  (B8_of m c main_arg6 (by decide)).trans <|
  (B7_of m c main_arg6 (by decide)).trans <|
  (B6_of_ne m c main_arg6 (by decide)).trans <|
  (B5_of m c main_arg6 (by decide)).trans <|
  (B4_of m c main_arg6 (by decide)).trans <|
  (B3_of m c main_arg6 (by decide)).trans <|
  (B2_of_ne m c main_arg6 (by decide)).trans <|
  (B1_of m c main_arg6 (by decide)).trans rfl
theorem B17_main_arg7 (c : Dev nD) : B17 m c (Proc.devRef .tc main_arg7) = m ((c : Thread nD τ).loc main_arg7) :=
  (B17_of m c main_arg7 (by decide)).trans <|
  (B16_of_ne m c main_arg7 (by decide)).trans <|
  (B15_of m c main_arg7 (by decide)).trans <|
  (B14_of_ne m c main_arg7 (by decide)).trans <|
  (B13_of m c main_arg7 (by decide)).trans <|
  (B12_of m c main_arg7 (by decide)).trans <|
  (B11_of m c main_arg7 (by decide)).trans <|
  (B10_of_ne m c main_arg7 (by decide)).trans <|
  (B9_of m c main_arg7 (by decide)).trans <|
  (B8_of m c main_arg7 (by decide)).trans <|
  (B7_of m c main_arg7 (by decide)).trans <|
  (B6_of_ne m c main_arg7 (by decide)).trans <|
  (B5_of m c main_arg7 (by decide)).trans <|
  (B4_of m c main_arg7 (by decide)).trans <|
  (B3_of m c main_arg7 (by decide)).trans <|
  (B2_of_ne m c main_arg7 (by decide)).trans <|
  (B1_of m c main_arg7 (by decide)).trans rfl

end Cert.Kernel.Hand

end
-- ==== Proof.K.Chain.lean ====
/- The five kernel regions as segments of @main and the run of the whole program: each region is entered from the thread
   state "every unscoped buffer at the boundary's contents, the generator register at some state, nothing owed", its
   windows' arrays are split out of the unscoped buffers on entry and put back at what the write-backs leave on exit, and
   the class invariant carries the generator register through. The launch over the seventeen segments ends with every
   unscoped buffer at the last boundary's contents. -/
import proofs.«150805_j37804302139719_1_alg».proof.Proof.K.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- No pipeline of this program reads a prefetched table. -/
abbrev adm : (p : Fin 5) → (pcfgs (F := F) p).Adm := fun p => (cfgs p).toPCfg_adm
/-- Every pipeline's proof data at the contents its region is entered from. -/
def pdats : (p : Fin 5) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E5 m) c
  | ⟨2, _⟩ => fun c => dat2 (E9 m) c
  | ⟨3, _⟩ => fun c => dat3 (E13 m) c
  | ⟨4, _⟩ => fun c => dat4 (E15 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev Rd (c : Dev nD) : sProp 𝕄 := iprop((∃ r, prngReg c r) ∗ ∃ W, owes (c : Thread nD τ) (0 : CellTallies nD τ sig Unit) W)
/-- A stretch of host operations as a segment from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0: entered with every unscoped buffer at `B1`, left with every one at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ Rd c)
  post c := iprop(StableHlo.held (c : Thread nD τ) (Pipeline.ucRefs τ sig) (B2 m c) ∗ Rd c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `B5`, left with every one at `B6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (B5 m c) ∗ Rd c)
  post c := iprop(StableHlo.held (c : Thread nD τ) (Pipeline.ucRefs τ sig) (B6 m c) ∗ Rd c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `B9`, left with every one at `B10`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (B9 m c) ∗ Rd c)
  post c := iprop(StableHlo.held (c : Thread nD τ) (Pipeline.ucRefs τ sig) (B10 m c) ∗ Rd c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E9 m c) (E10 m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at `B13`, left with every one at `B14`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E13 m) c).loose
  hwaits := Pipeline.hwaits_of_owed_zero _ _ _ _ L lv 3 fun _ _ => rfl
  pre c := iprop(StableHlo.held (c : Thread nD τ) (Pipeline.ucRefs τ sig) (B13 m c) ∗ Rd c)
  post c := iprop(StableHlo.held (c : Thread nD τ) (Pipeline.ucRefs τ sig) (B14 m c) ∗ Rd c)
  X c := iprop(∃ r, prngReg c r)
  Y c := iprop(∃ r, prngReg c r)
  Z c := Pipeline.unscopedRest (Ix := Unit) (Name := ℕ) (U := UR sig nD τ) (Lvl := ℕ) spec3 c (E13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E13 m c) (E14 m c) ((pdats m 3 c).arrAt · cfg3.N) (left3 m c) (kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at `B15`, left with every one at `B16`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E15 m) c).loose
  hwaits := Pipeline.hwaits_of_owed_zero _ _ _ _ L lv 4 fun _ _ => rfl
  pre c := iprop(StableHlo.held (c : Thread nD τ) (Pipeline.ucRefs τ sig) (B15 m c) ∗ Rd c)
  post c := iprop(StableHlo.held (c : Thread nD τ) (Pipeline.ucRefs τ sig) (B16 m c) ∗ Rd c)
  X c := iprop(∃ r, prngReg c r)
  Y c := iprop(∃ r, prngReg c r)
  Z c := Pipeline.unscopedRest (Ix := Unit) (Name := ℕ) (U := UR sig nD τ) (Lvl := ℕ) spec4 c (E15 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E15 m c) (E16 m c) ((pdats m 4 c).arrAt · cfg4.N) (left4 m c) (kept4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seventeen segments in order. -/
abbrev segs : List (Pipeline.Seg (pcfgs (F := F)) adm (pdats m) () defs₀ 𝒱₀ L lv) :=
  [ .host (stretch hostOps0 hostOps0_sub hostOps0_fresh (B0 m)),
    .region (reg0 m),
    .host (stretch hostOps1 hostOps1_sub hostOps1_fresh (B2 m)),
    .host (stretch hostOps1_1 hostOps1_1_sub hostOps1_1_fresh (B3 m)),
    .host (stretch hostOps1_2 hostOps1_2_sub hostOps1_2_fresh (B4 m)),
    .region (reg1 m),
    .host (stretch hostOps2 hostOps2_sub hostOps2_fresh (B6 m)),
    .host (stretch hostOps2_1 hostOps2_1_sub hostOps2_1_fresh (B7 m)),
    .host (stretch hostOps2_2 hostOps2_2_sub hostOps2_2_fresh (B8 m)),
    .region (reg2 m),
    .host (stretch hostOps3 hostOps3_sub hostOps3_fresh (B10 m)),
    .host (stretch hostOps3_1 hostOps3_1_sub hostOps3_1_fresh (B11 m)),
    .host (stretch hostOps3_2 hostOps3_2_sub hostOps3_2_fresh (B12 m)),
    .region (reg3 m),
    .host (stretch hostOps4 hostOps4_sub hostOps4_fresh (B14 m)),
    .region (reg4 m),
    .host (stretch hostOps5 hostOps5_sub hostOps5_fresh (B16 m)) ]

/-- The last thread state without the `owes`. -/
abbrev Tend (c : Dev nD) : sProp 𝕄 := iprop(StableHlo.held (c : Thread nD τ) (Pipeline.ucRefs τ sig) (B17 m c) ∗ ∃ r, prngReg c r)

set_option backward.isDefEq.respectTransparency.types false in
/-- From any memory with zero counters every weakly fair execution of @main terminates, nothing faulting, and the final
    memory holds every unscoped buffer at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = B17 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rd c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B17 m c) ∗ Rd c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B17 m c b)
    (hfin := fun c s' => by
      iintro ⟨⟨Hh, -⟩, HSI⟩
      unfold StableHlo.held
      imodintro
      iapply (pointsTo_read_all (Pipeline.ucRefs τ sig) (fun b => (((c : Thread nD τ)).1, b)) (B17 m c) s')
      isplitl [Hh] <;> iassumption)
    (hQ := fun s h c => h c)

/-- The run with the result buffer and the eight arguments read: the result at the last boundary's contents, each
    argument as launched. -/
theorem run_result (ρ : Dev nD → PrngReg) :
    θ_run defs (onTc (τ := τ) (main (F := F))) ⟨m, fun _ => 0, ρ⟩ (fun r => ∀ c : Dev nD,
      r.2.mem ((c.tc : Thread nD τ).loc main_v135) = B17 m c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v135 (by decide)),
     (h c _ (mem_uc main_arg0 (by decide))).trans (B17_main_arg0 m c),
     (h c _ (mem_uc main_arg1 (by decide))).trans (B17_main_arg1 m c),
     (h c _ (mem_uc main_arg2 (by decide))).trans (B17_main_arg2 m c),
     (h c _ (mem_uc main_arg3 (by decide))).trans (B17_main_arg3 m c),
     (h c _ (mem_uc main_arg4 (by decide))).trans (B17_main_arg4 m c),
     (h c _ (mem_uc main_arg5 (by decide))).trans (B17_main_arg5 m c),
     (h c _ (mem_uc main_arg6 (by decide))).trans (B17_main_arg6 m c),
     (h c _ (mem_uc main_arg7 (by decide))).trans (B17_main_arg7 m c)⟩)
    (run_all m ρ)

/-- The frame: the eight arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_result m ρ)

end Cert.Kernel.Hand

end
-- ==== Proof.KI.Mat0.lean ====
/- Region 0 of @main (`cc0__matmul_kernel`, pipeline 0): a row-blocked matrix product. Ten grid points; at
   point `t` the body reads the `t`-th block of 5000 rows of the left operand and the whole 128×128 right operand,
   and stores the product of the two (each first rounded to bf16, accumulated into zero) over the whole output
   block. Stated at the buffer contents `V` the region is entered with: each window's block, what the body
   leaves in the output buffer, the body's triple, the pipeline's proof data and its body obligation. -/
import proofs.«150805_j37804302139719_1_alg».proof.Proof.Gen.KernelIdeal.Launch
import proofs.«150805_j37804302139719_1_alg».proof.Proof.Gen.KernelIdeal.Skeleton
import proofs.«150805_j37804302139719_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.ValueIdx
import Idealize.ShloMosaic.Lib.ValueIdxCoords
import Idealize.ShloMosaic.PureOps.Ideal.Laws
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and what it leaves -/

/-- The whole 5000×128 buffer as a rectangle: every load of the left operand and the one store go through it. -/
abbrev rX0 : Rect S5000x128 := Rect.unit (s := S5000x128) ![0, 0] S5000x128.size inb_S5000x128_S5000x128_0_0
/-- The whole 128×128 buffer as a rectangle: the load of the right operand. -/
abbrev rW0 : Rect S128x128 := Rect.unit (s := S128x128) ![0, 0] S128x128.size inb_S128x128_S128x128_0_0

/-- What the body leaves in the output buffer, from the two input buffers' contents: its one store, through the
    whole-buffer rectangle, of the product payload of what the two loads read. -/
def mm0 (x : Vec F S5000x128 .f32) (w : Vec F S128x128 .f32) : Vec F S5000x128 .f32 :=
  View.canon [⟨rX0, k0_pay1 (View.ld x rX0) (View.ld w rW0)⟩]

/-- The one store covers the buffer: every index lies in the whole-buffer rectangle. -/
theorem cover0 (p0 : Vec F S5000x128 .f32) (y : S5000x128.Idx) :
    ∃ pc ∈ ([⟨rX0, p0⟩] : List (View.Piece (Elt F) S5000x128 .f32)), y ∈ pc.1.set :=
  ⟨_, List.mem_singleton_self _, View.mem_set_unit_zero (by funext a; fin_cases a <;> rfl) inb_S5000x128_S5000x128_0_0 y⟩

/-- Through whole-buffer rectangles a load reads the contents and the one store leaves its payload: the output
    buffer holds the product payload of the two input buffers. -/
theorem mm0_eq (x : Vec F S5000x128 .f32) (w : Vec F S128x128 .f32) : mm0 x w = k0_pay1 x w := by
  unfold mm0
  rw [View.canon_unit_zero (by funext a; fin_cases a <;> rfl), View.ld_unit_zero (by funext a; fin_cases a <;> rfl),
    View.ld_unit_zero (by funext a; fin_cases a <;> rfl)]

/-! ## The body's triple -/

set_option maxHeartbeats 1000000 in
/-- The body on whole staging memrefs — the inputs' holding `x` and `w`, the output's anything — runs to the
    continuation with the inputs' as they were and the output's holding `mm0 x w`: the function is its skeleton
    of three loads and one store, run step by step; the last load (of the output buffer) is dead. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (mm0 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-! ## From blocks to the array: the whole product -/

/-- The `b`-th block of 5000 rows of a 50000×128 array. -/
def rows0 (X : S50000x128.Idx → Elt F .f32) (b : Fin 10) : Vec F S5000x128 .f32 :=
  fun j => X (ix2 (⟨b.val * 5000 + (j 0).val, by have := idx2_lt0 j; have := b.isLt; omega⟩ : Fin 50000) (j 1 : Fin 128))

/-- The whole output array as one function of the two input arrays: row `r` is computed with the block of 5000
    rows that holds it, as row `r % 5000` of that block's product with the right operand. -/
def G0 (X : S50000x128.Idx → Elt F .f32) (W : S128x128.Idx → Elt F .f32) : S50000x128.Idx → Elt F .f32 :=
  fun i => mm0 (rows0 X ⟨(i 0).val / 5000, by have := idx2_lt0 i; omega⟩) W
    (ix2 (⟨(i 0).val % 5000, Nat.mod_lt _ (by decide)⟩ : Fin 5000) (i 1 : Fin 128))

/-! ## The product at the ideal values -/

/-- At the ideal values the rounding to bf16 is the identity and the product accumulated into the zero splat is the
    plain sum over the contracted coordinate: entry (p, q) of what the body leaves is `∑ k, x (p, k) · w (k, q)`. -/
theorem mm0_apply (x : Vec Ideal S5000x128 .f32) (w : Vec Ideal S128x128 .f32) (p : Fin 5000) (q : Fin 128) :
    mm0 (F := Ideal) x w (ix2 p q) = ∑ k : Fin 128, x (ix2 p k) * w (ix2 k q) := by
  rw [mm0_eq]
  unfold k0_pay1
  simp only [shapeCast_self]
  show FloatOps.matmul dot_S5000x128_S128x128_S5000x128_1_0_0_1_n_n none _ _ (constant (F := Ideal) S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have hl : dot_S5000x128_S128x128_S5000x128_1_0_0_1_n_n.lhsIdx (ix2 p q) ((contrEquiv1 _ 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact ck
  have hr : dot_S5000x128_S128x128_S5000x128_1_0_0_1_n_n.rhsIdx (ix2 p q) ((contrEquiv1 _ 128 rfl rfl).symm k) = ix2 k q := by
    funext ax; apply Fin.ext
    match ax with
    | ⟨0, _⟩ => simp [DotDims.rhsIdx, dot_S5000x128_S128x128_S5000x128_1_0_0_1_n_n]; exact ck
    | ⟨1, _⟩ => simp [DotDims.rhsIdx, dot_S5000x128_S128x128_S5000x128_1_0_0_1_n_n]; rfl
  rw [truncf_apply, truncf_apply, hl, hr]

/-- At the ideal values the whole output array is the plain matrix product: entry (r, q) is
    `∑ k, X (r, k) · W (k, q)` — the block a row falls in plays no part. -/
theorem G0_apply (X : S50000x128.Idx → Elt Ideal .f32) (W : S128x128.Idx → Elt Ideal .f32) (r : Fin 50000) (q : Fin 128) :
    G0 (F := Ideal) X W (ix2 r q) = ∑ k : Fin 128, X (ix2 r k) * W (ix2 k q) := by
  unfold G0
  rw [mm0_apply]
  refine Finset.sum_congr rfl fun k _ => ?_
  unfold rows0
  have e : (⟨(⟨r.val / 5000, by have := r.isLt; omega⟩ : Fin 10).val * 5000 + r.val % 5000, by have := r.isLt; omega⟩ : Fin 50000) = r :=
    Fin.ext (Nat.div_add_mod' r.val 5000)
  exact congrArg (fun z => X (ix2 z k) * W (ix2 k q)) e

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, for any proof data whose array is `V`'s and
    whose body leaves the block in place: an input window, uncut and never idle, holds what a fetch would put there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of the right operand, fetched at the first point only: where it is not fetched its block index has
    not moved, and the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of pipeline 0 on core `c`: the arrays as the region finds them; after the body at point `t` each
    input's buffer at its block and the output's at the product of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => mm0 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = mm0 (iblk0 V c 0 t) (iblk0 V c 1 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The arrays after the region -/

/-- The printed index maps, decided over the grid: the left operand's and the output's block index is the point on the
    row axis and 0 on the column axis; the right operand's is 0 on both. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

-- the product's closed forms stay folded below: only their equations are used
attribute [local irreducible] mm0 G0

/-- What point `t` writes back is block `t` of the whole product `G0` of the two input arrays as the region finds
    them: the left operand's block at `t` is rows `5000·t …`, the right operand's block is the whole array, and a
    block's coordinate is index × size + the coordinate inside the block. -/
theorem flushed0_eq (c : Dev nD) (t : Fin cfg0.N) :
    (dat0 V c).flushed 2 t
      = ((cfg0.win 2).blk t).view.read (Elt F) (G0 (V c (Pipeline.arrRef spec0 0)) (V c (Pipeline.arrRef spec0 1))) := by
  show (cfg0.win 2).cut (grid0.coords t) ((dat0 V c).after 2 t) = _
  rw [after0_2]
  obtain ⟨e0, e1, e2, e3, e4, e5, e6⟩ := idx_facts0 t
  funext j
  have hj0 : (j 0).val < 5000 := (j 0).isLt
  have hj1 : (j 1).val < 128 := (j 1).isLt
  show mm0 (iblk0 V c 0 t) (iblk0 V c 1 t) j
    = G0 (V c (Pipeline.arrRef spec0 0)) (V c (Pipeline.arrRef spec0 1)) (((cfg0.win 2).blk t).view.emb j)
  have v0 : ((((cfg0.win 2).blk t).view.emb j) 0).val = win0_2.index t (0 : Fin 2) * 5000 + 1 * (j 0).val := rfl
  have v1 : ((((cfg0.win 2).blk t).view.emb j) 1).val = win0_2.index t (1 : Fin 2) * 128 + 1 * (j 1).val := rfl
  unfold G0
  have hA : iblk0 V c 0 t = rows0 (V c (Pipeline.arrRef spec0 0))
      ⟨((((cfg0.win 2).blk t).view.emb j) 0).val / 5000, by rw [v0]; omega⟩ := by
    funext j'
    have hj'0 : (j' 0).val < 5000 := (j' 0).isLt
    have hj'1 : (j' 1).val < 128 := (j' 1).isLt
    show V c main_arg0 (((cfg0.win 0).blk t).view.emb j') = V c main_arg0 _
    refine congrArg _ (funext fun a => Fin.ext ?_)
    match a with
    | ⟨0, _⟩ =>
      show win0_0.index t (0 : Fin 2) * 5000 + 1 * (j' 0).val = ((((cfg0.win 2).blk t).view.emb j) 0).val / 5000 * 5000 + (j' 0).val
      rw [v0]; omega
    | ⟨1, _⟩ =>
      show win0_0.index t (1 : Fin 2) * 128 + 1 * (j' 1).val = (j' 1).val
      omega
  have hB : iblk0 V c 1 t = V c (Pipeline.arrRef spec0 1) := by
    funext j'
    show V c main_v29 (((cfg0.win 1).blk t).view.emb j') = V c main_v29 j'
    refine congrArg _ (funext fun a => Fin.ext ?_)
    match a with
    | ⟨0, _⟩ => show win0_1.index t (0 : Fin 2) * 128 + 1 * (j' 0).val = (j' 0).val; omega
    | ⟨1, _⟩ => show win0_1.index t (1 : Fin 2) * 128 + 1 * (j' 1).val = (j' 1).val; omega
  have hk : j = ix2 (⟨((((cfg0.win 2).blk t).view.emb j) 0).val % 5000, Nat.mod_lt _ (by decide)⟩ : Fin 5000)
      ((((cfg0.win 2).blk t).view.emb j) 1 : Fin 128) := by
    funext a; apply Fin.ext
    match a with
    | ⟨0, _⟩ => show (j 0).val = ((((cfg0.win 2).blk t).view.emb j) 0).val % 5000; rw [v0]; omega
    | ⟨1, _⟩ => show (j 1).val = ((((cfg0.win 2).blk t).view.emb j) 1).val; rw [v1]; omega
  rw [hA, hB]
  exact congrArg _ hk

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in some point's block, and every point writes back: row `r` is in the block
    of point `r / 5000`. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := Fin.cast N_0.symm ⟨(i 0).val / 5000, by omega⟩
  have ht : t.val = (i 0).val / 5000 := rfl
  obtain ⟨e0, e1, e2, e3, e4, e5, e6⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the region: the whole product `G0` of the two input arrays as the region finds them. -/
theorem final0 (c : Dev nD) :
    (dat0 V c).arrAt 2 cfg0.N = G0 (V c (Pipeline.arrRef spec0 0)) (V c (Pipeline.arrRef spec0 1)) :=
  (dat0 V c).arrAt_eq_of_cover 2 _ (fun t _ => flushed0_eq V c t) (covered0)

/-- The input arrays are never written: after the region they hold what the region found. -/
theorem arr0_0 (c : Dev nD) : (dat0 V c).arrAt 0 cfg0.N = V c (Pipeline.arrRef spec0 0) :=
  ((dat0 V c).arrAt_in 0 rfl _).trans (A_eq0 V c 0)
theorem arr0_1 (c : Dev nD) : (dat0 V c).arrAt 1 cfg0.N = V c (Pipeline.arrRef spec0 1) :=
  ((dat0 V c).arrAt_in 1 rfl _).trans (A_eq0 V c 1)

end Region

end Cert.KernelIdeal.Hand

end
-- ==== Proof.KI.Mat1.lean ====
/- Region 1 of @main (`cc1__matmul_kernel`, pipeline 1): a row-blocked matrix product. Ten grid points; at
   point `t` the body reads the `t`-th block of 5000 rows of the left operand and the whole 128×128 right operand,
   and stores the product of the two (each first rounded to bf16, accumulated into zero) over the whole output
   block. Stated at the buffer contents `V` the region is entered with: each window's block, what the body
   leaves in the output buffer, the body's triple, the pipeline's proof data and its body obligation. -/
import proofs.«150805_j37804302139719_1_alg».proof.Proof.Gen.KernelIdeal.Launch
import proofs.«150805_j37804302139719_1_alg».proof.Proof.Gen.KernelIdeal.Skeleton
import proofs.«150805_j37804302139719_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.ValueIdx
import Idealize.ShloMosaic.Lib.ValueIdxCoords
import Idealize.ShloMosaic.PureOps.Ideal.Laws
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and what it leaves -/

/-- The whole 5000×128 buffer as a rectangle: every load of the left operand and the one store go through it. -/
abbrev rX1 : Rect S5000x128 := Rect.unit (s := S5000x128) ![0, 0] S5000x128.size inb_S5000x128_S5000x128_0_0
/-- The whole 128×128 buffer as a rectangle: the load of the right operand. -/
abbrev rW1 : Rect S128x128 := Rect.unit (s := S128x128) ![0, 0] S128x128.size inb_S128x128_S128x128_0_0

/-- What the body leaves in the output buffer, from the two input buffers' contents: its one store, through the
    whole-buffer rectangle, of the product payload of what the two loads read. -/
def mm1 (x : Vec F S5000x128 .f32) (w : Vec F S128x128 .f32) : Vec F S5000x128 .f32 :=
  View.canon [⟨rX1, k1_pay1 (View.ld x rX1) (View.ld w rW1)⟩]

/-- The one store covers the buffer: every index lies in the whole-buffer rectangle. -/
theorem cover1 (p0 : Vec F S5000x128 .f32) (y : S5000x128.Idx) :
    ∃ pc ∈ ([⟨rX1, p0⟩] : List (View.Piece (Elt F) S5000x128 .f32)), y ∈ pc.1.set :=
  ⟨_, List.mem_singleton_self _, View.mem_set_unit_zero (by funext a; fin_cases a <;> rfl) inb_S5000x128_S5000x128_0_0 y⟩

/-- Through whole-buffer rectangles a load reads the contents and the one store leaves its payload: the output
    buffer holds the product payload of the two input buffers. -/
theorem mm1_eq (x : Vec F S5000x128 .f32) (w : Vec F S128x128 .f32) : mm1 x w = k1_pay1 x w := by
  unfold mm1
  rw [View.canon_unit_zero (by funext a; fin_cases a <;> rfl), View.ld_unit_zero (by funext a; fin_cases a <;> rfl),
    View.ld_unit_zero (by funext a; fin_cases a <;> rfl)]

/-! ## The body's triple -/

set_option maxHeartbeats 1000000 in
/-- The body on whole staging memrefs — the inputs' holding `x` and `w`, the output's anything — runs to the
    continuation with the inputs' as they were and the output's holding `mm1 x w`: the function is its skeleton
    of three loads and one store, run step by step; the last load (of the output buffer) is dead. -/
theorem sound_kernel1 (c : Dev nD) (E : Set ℕ) (i : grid1.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (mm1 x w)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## From blocks to the array: the whole product -/

/-- The `b`-th block of 5000 rows of a 50000×128 array. -/
def rows1 (X : S50000x128.Idx → Elt F .f32) (b : Fin 10) : Vec F S5000x128 .f32 :=
  fun j => X (ix2 (⟨b.val * 5000 + (j 0).val, by have := idx2_lt0 j; have := b.isLt; omega⟩ : Fin 50000) (j 1 : Fin 128))

/-- The whole output array as one function of the two input arrays: row `r` is computed with the block of 5000
    rows that holds it, as row `r % 5000` of that block's product with the right operand. -/
def G1 (X : S50000x128.Idx → Elt F .f32) (W : S128x128.Idx → Elt F .f32) : S50000x128.Idx → Elt F .f32 :=
  fun i => mm1 (rows1 X ⟨(i 0).val / 5000, by have := idx2_lt0 i; omega⟩) W
    (ix2 (⟨(i 0).val % 5000, Nat.mod_lt _ (by decide)⟩ : Fin 5000) (i 1 : Fin 128))

/-! ## The product at the ideal values -/

/-- At the ideal values the rounding to bf16 is the identity and the product accumulated into the zero splat is the
    plain sum over the contracted coordinate: entry (p, q) of what the body leaves is `∑ k, x (p, k) · w (k, q)`. -/
theorem mm1_apply (x : Vec Ideal S5000x128 .f32) (w : Vec Ideal S128x128 .f32) (p : Fin 5000) (q : Fin 128) :
    mm1 (F := Ideal) x w (ix2 p q) = ∑ k : Fin 128, x (ix2 p k) * w (ix2 k q) := by
  rw [mm1_eq]
  unfold k1_pay1
  simp only [shapeCast_self]
  show FloatOps.matmul dot_S5000x128_S128x128_S5000x128_1_0_0_1_n_n none _ _ (constant (F := Ideal) S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have hl : dot_S5000x128_S128x128_S5000x128_1_0_0_1_n_n.lhsIdx (ix2 p q) ((contrEquiv1 _ 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact ck
  have hr : dot_S5000x128_S128x128_S5000x128_1_0_0_1_n_n.rhsIdx (ix2 p q) ((contrEquiv1 _ 128 rfl rfl).symm k) = ix2 k q := by
    funext ax; apply Fin.ext
    match ax with
    | ⟨0, _⟩ => simp [DotDims.rhsIdx, dot_S5000x128_S128x128_S5000x128_1_0_0_1_n_n]; exact ck
    | ⟨1, _⟩ => simp [DotDims.rhsIdx, dot_S5000x128_S128x128_S5000x128_1_0_0_1_n_n]; rfl
  rw [truncf_apply, truncf_apply, hl, hr]

/-- At the ideal values the whole output array is the plain matrix product: entry (r, q) is
    `∑ k, X (r, k) · W (k, q)` — the block a row falls in plays no part. -/
theorem G1_apply (X : S50000x128.Idx → Elt Ideal .f32) (W : S128x128.Idx → Elt Ideal .f32) (r : Fin 50000) (q : Fin 128) :
    G1 (F := Ideal) X W (ix2 r q) = ∑ k : Fin 128, X (ix2 r k) * W (ix2 k q) := by
  unfold G1
  rw [mm1_apply]
  refine Finset.sum_congr rfl fun k _ => ?_
  unfold rows1
  have e : (⟨(⟨r.val / 5000, by have := r.isLt; omega⟩ : Fin 10).val * 5000 + r.val % 5000, by have := r.isLt; omega⟩ : Fin 50000) = r :=
    Fin.ext (Nat.div_add_mod' r.val 5000)
  exact congrArg (fun z => X (ix2 z k) * W (ix2 k q)) e

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, for any proof data whose array is `V`'s and
    whose body leaves the block in place: an input window, uncut and never idle, holds what a fetch would put there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of the right operand, fetched at the first point only: where it is not fetched its block index has
    not moved, and the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The proof data of pipeline 1 on core `c`: the arrays as the region finds them; after the body at point `t` each
    input's buffer at its block and the output's at the product of the two input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => mm1 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = mm1 (iblk1 V c 0 t) (iblk1 V c 1 t) := by dsimp only [dat1]

/-- Each input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The arrays after the region -/

/-- The printed index maps, decided over the grid: the left operand's and the output's block index is the point on the
    row axis and 0 on the column axis; the right operand's is 0 on both. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

-- the product's closed forms stay folded below: only their equations are used
attribute [local irreducible] mm1 G1

/-- What point `t` writes back is block `t` of the whole product `G1` of the two input arrays as the region finds
    them: the left operand's block at `t` is rows `5000·t …`, the right operand's block is the whole array, and a
    block's coordinate is index × size + the coordinate inside the block. -/
theorem flushed1_eq (c : Dev nD) (t : Fin cfg1.N) :
    (dat1 V c).flushed 2 t
      = ((cfg1.win 2).blk t).view.read (Elt F) (G1 (V c (Pipeline.arrRef spec1 0)) (V c (Pipeline.arrRef spec1 1))) := by
  show (cfg1.win 2).cut (grid1.coords t) ((dat1 V c).after 2 t) = _
  rw [after1_2]
  obtain ⟨e0, e1, e2, e3, e4, e5, e6⟩ := idx_facts1 t
  funext j
  have hj0 : (j 0).val < 5000 := (j 0).isLt
  have hj1 : (j 1).val < 128 := (j 1).isLt
  show mm1 (iblk1 V c 0 t) (iblk1 V c 1 t) j
    = G1 (V c (Pipeline.arrRef spec1 0)) (V c (Pipeline.arrRef spec1 1)) (((cfg1.win 2).blk t).view.emb j)
  have v0 : ((((cfg1.win 2).blk t).view.emb j) 0).val = win1_2.index t (0 : Fin 2) * 5000 + 1 * (j 0).val := rfl
  have v1 : ((((cfg1.win 2).blk t).view.emb j) 1).val = win1_2.index t (1 : Fin 2) * 128 + 1 * (j 1).val := rfl
  unfold G1
  have hA : iblk1 V c 0 t = rows1 (V c (Pipeline.arrRef spec1 0))
      ⟨((((cfg1.win 2).blk t).view.emb j) 0).val / 5000, by rw [v0]; omega⟩ := by
    funext j'
    have hj'0 : (j' 0).val < 5000 := (j' 0).isLt
    have hj'1 : (j' 1).val < 128 := (j' 1).isLt
    show V c main_v48 (((cfg1.win 0).blk t).view.emb j') = V c main_v48 _
    refine congrArg _ (funext fun a => Fin.ext ?_)
    match a with
    | ⟨0, _⟩ =>
      show win1_0.index t (0 : Fin 2) * 5000 + 1 * (j' 0).val = ((((cfg1.win 2).blk t).view.emb j) 0).val / 5000 * 5000 + (j' 0).val
      rw [v0]; omega
    | ⟨1, _⟩ =>
      show win1_0.index t (1 : Fin 2) * 128 + 1 * (j' 1).val = (j' 1).val
      omega
  have hB : iblk1 V c 1 t = V c (Pipeline.arrRef spec1 1) := by
    funext j'
    show V c main_v50 (((cfg1.win 1).blk t).view.emb j') = V c main_v50 j'
    refine congrArg _ (funext fun a => Fin.ext ?_)
    match a with
    | ⟨0, _⟩ => show win1_1.index t (0 : Fin 2) * 128 + 1 * (j' 0).val = (j' 0).val; omega
    | ⟨1, _⟩ => show win1_1.index t (1 : Fin 2) * 128 + 1 * (j' 1).val = (j' 1).val; omega
  have hk : j = ix2 (⟨((((cfg1.win 2).blk t).view.emb j) 0).val % 5000, Nat.mod_lt _ (by decide)⟩ : Fin 5000)
      ((((cfg1.win 2).blk t).view.emb j) 1 : Fin 128) := by
    funext a; apply Fin.ext
    match a with
    | ⟨0, _⟩ => show (j 0).val = ((((cfg1.win 2).blk t).view.emb j) 0).val % 5000; rw [v0]; omega
    | ⟨1, _⟩ => show (j 1).val = ((((cfg1.win 2).blk t).view.emb j) 1).val; rw [v1]; omega
  rw [hA, hB]
  exact congrArg _ hk

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v51).slice (win1_2.rect t)).set ↔ _
  rw [View.set_slice_whole, Rect.mem_set_unit]
  exact Iff.rfl

/-- Every index of the output array is in some point's block, and every point writes back: row `r` is in the block
    of point `r / 5000`. -/
theorem covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := Fin.cast N_1.symm ⟨(i 0).val / 5000, by omega⟩
  have ht : t.val = (i 0).val / 5000 := rfl
  obtain ⟨e0, e1, e2, e3, e4, e5, e6⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the region: the whole product `G1` of the two input arrays as the region finds them. -/
theorem final1 (c : Dev nD) :
    (dat1 V c).arrAt 2 cfg1.N = G1 (V c (Pipeline.arrRef spec1 0)) (V c (Pipeline.arrRef spec1 1)) :=
  (dat1 V c).arrAt_eq_of_cover 2 _ (fun t _ => flushed1_eq V c t) (covered1)

/-- The input arrays are never written: after the region they hold what the region found. -/
theorem arr1_0 (c : Dev nD) : (dat1 V c).arrAt 0 cfg1.N = V c (Pipeline.arrRef spec1 0) :=
  ((dat1 V c).arrAt_in 0 rfl _).trans (A_eq1 V c 0)
theorem arr1_1 (c : Dev nD) : (dat1 V c).arrAt 1 cfg1.N = V c (Pipeline.arrRef spec1 1) :=
  ((dat1 V c).arrAt_in 1 rfl _).trans (A_eq1 V c 1)

end Region

end Cert.KernelIdeal.Hand

end
-- ==== Proof.KI.Mat2.lean ====
/- Region 2 of @main (`cc2__matmul_kernel`, pipeline 2): a row-blocked matrix product. Ten grid points; at
   point `t` the body reads the `t`-th block of 5000 rows of the left operand and the whole 128×128 right operand,
   and stores the product of the two (each first rounded to bf16, accumulated into zero) over the whole output
   block. Stated at the buffer contents `V` the region is entered with: each window's block, what the body
   leaves in the output buffer, the body's triple, the pipeline's proof data and its body obligation. -/
import proofs.«150805_j37804302139719_1_alg».proof.Proof.Gen.KernelIdeal.Launch
import proofs.«150805_j37804302139719_1_alg».proof.Proof.Gen.KernelIdeal.Skeleton
import proofs.«150805_j37804302139719_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.ValueIdx
import Idealize.ShloMosaic.Lib.ValueIdxCoords
import Idealize.ShloMosaic.PureOps.Ideal.Laws
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI BigOperators
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses and what it leaves -/

/-- The whole 5000×128 buffer as a rectangle: every load of the left operand and the one store go through it. -/
abbrev rX2 : Rect S5000x128 := Rect.unit (s := S5000x128) ![0, 0] S5000x128.size inb_S5000x128_S5000x128_0_0
/-- The whole 128×128 buffer as a rectangle: the load of the right operand. -/
abbrev rW2 : Rect S128x128 := Rect.unit (s := S128x128) ![0, 0] S128x128.size inb_S128x128_S128x128_0_0

/-- What the body leaves in the output buffer, from the two input buffers' contents: its one store, through the
    whole-buffer rectangle, of the product payload of what the two loads read. -/
def mm2 (x : Vec F S5000x128 .f32) (w : Vec F S128x128 .f32) : Vec F S5000x128 .f32 :=
  View.canon [⟨rX2, k2_pay1 (View.ld x rX2) (View.ld w rW2)⟩]

/-- The one store covers the buffer: every index lies in the whole-buffer rectangle. -/
theorem cover2 (p0 : Vec F S5000x128 .f32) (y : S5000x128.Idx) :
    ∃ pc ∈ ([⟨rX2, p0⟩] : List (View.Piece (Elt F) S5000x128 .f32)), y ∈ pc.1.set :=
  ⟨_, List.mem_singleton_self _, View.mem_set_unit_zero (by funext a; fin_cases a <;> rfl) inb_S5000x128_S5000x128_0_0 y⟩

/-- Through whole-buffer rectangles a load reads the contents and the one store leaves its payload: the output
    buffer holds the product payload of the two input buffers. -/
theorem mm2_eq (x : Vec F S5000x128 .f32) (w : Vec F S128x128 .f32) : mm2 x w = k2_pay1 x w := by
  unfold mm2
  rw [View.canon_unit_zero (by funext a; fin_cases a <;> rfl), View.ld_unit_zero (by funext a; fin_cases a <;> rfl),
    View.ld_unit_zero (by funext a; fin_cases a <;> rfl)]

/-! ## The body's triple -/

set_option maxHeartbeats 1000000 in
/-- The body on whole staging memrefs — the inputs' holding `x` and `w`, the output's anything — runs to the
    continuation with the inputs' as they were and the output's holding `mm2 x w`: the function is its skeleton
    of three loads and one store, run step by step; the last load (of the output buffer) is dead. -/
theorem sound_kernel2 (c : Dev nD) (E : Set ℕ) (i : grid2.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x : Vec F S5000x128 .f32) (w : Vec F S128x128 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (mm2 x w)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## From blocks to the array: the whole product -/

/-- The `b`-th block of 5000 rows of a 50000×128 array. -/
def rows2 (X : S50000x128.Idx → Elt F .f32) (b : Fin 10) : Vec F S5000x128 .f32 :=
  fun j => X (ix2 (⟨b.val * 5000 + (j 0).val, by have := idx2_lt0 j; have := b.isLt; omega⟩ : Fin 50000) (j 1 : Fin 128))

/-- The whole output array as one function of the two input arrays: row `r` is computed with the block of 5000
    rows that holds it, as row `r % 5000` of that block's product with the right operand. -/
def G2 (X : S50000x128.Idx → Elt F .f32) (W : S128x128.Idx → Elt F .f32) : S50000x128.Idx → Elt F .f32 :=
  fun i => mm2 (rows2 X ⟨(i 0).val / 5000, by have := idx2_lt0 i; omega⟩) W
    (ix2 (⟨(i 0).val % 5000, Nat.mod_lt _ (by decide)⟩ : Fin 5000) (i 1 : Fin 128))

/-! ## The product at the ideal values -/

/-- At the ideal values the rounding to bf16 is the identity and the product accumulated into the zero splat is the
    plain sum over the contracted coordinate: entry (p, q) of what the body leaves is `∑ k, x (p, k) · w (k, q)`. -/
theorem mm2_apply (x : Vec Ideal S5000x128 .f32) (w : Vec Ideal S128x128 .f32) (p : Fin 5000) (q : Fin 128) :
    mm2 (F := Ideal) x w (ix2 p q) = ∑ k : Fin 128, x (ix2 p k) * w (ix2 k q) := by
  rw [mm2_eq]
  unfold k2_pay1
  simp only [shapeCast_self]
  show FloatOps.matmul dot_S5000x128_S128x128_S5000x128_1_0_0_1_n_n none _ _ (constant (F := Ideal) S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have hl : dot_S5000x128_S128x128_S5000x128_1_0_0_1_n_n.lhsIdx (ix2 p q) ((contrEquiv1 _ 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact ck
  have hr : dot_S5000x128_S128x128_S5000x128_1_0_0_1_n_n.rhsIdx (ix2 p q) ((contrEquiv1 _ 128 rfl rfl).symm k) = ix2 k q := by
    funext ax; apply Fin.ext
    match ax with
    | ⟨0, _⟩ => simp [DotDims.rhsIdx, dot_S5000x128_S128x128_S5000x128_1_0_0_1_n_n]; exact ck
    | ⟨1, _⟩ => simp [DotDims.rhsIdx, dot_S5000x128_S128x128_S5000x128_1_0_0_1_n_n]; rfl
  rw [truncf_apply, truncf_apply, hl, hr]

/-- At the ideal values the whole output array is the plain matrix product: entry (r, q) is
    `∑ k, X (r, k) · W (k, q)` — the block a row falls in plays no part. -/
theorem G2_apply (X : S50000x128.Idx → Elt Ideal .f32) (W : S128x128.Idx → Elt Ideal .f32) (r : Fin 50000) (q : Fin 128) :
    G2 (F := Ideal) X W (ix2 r q) = ∑ k : Fin 128, X (ix2 r k) * W (ix2 k q) := by
  unfold G2
  rw [mm2_apply]
  refine Finset.sum_congr rfl fun k _ => ?_
  unfold rows2
  have e : (⟨(⟨r.val / 5000, by have := r.isLt; omega⟩ : Fin 10).val * 5000 + r.val % 5000, by have := r.isLt; omega⟩ : Fin 50000) = r :=
    Fin.ext (Nat.div_add_mod' r.val 5000)
  exact congrArg (fun z => X (ix2 z k) * W (ix2 k q)) e

section Region
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point, for any proof data whose array is `V`'s and
    whose body leaves the block in place: an input window, uncut and never idle, holds what a fetch would put there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of the right operand, fetched at the first point only: where it is not fetched its block index has
    not moved, and the buffer still holds the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of pipeline 2 on core `c`: the arrays as the region finds them; after the body at point `t` each
    input's buffer at its block and the output's at the product of the two input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => mm2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = mm2 (iblk2 V c 0 t) (iblk2 V c 1 t) := by dsimp only [dat2]

/-- Each input's staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The arrays after the region -/

/-- The printed index maps, decided over the grid: the left operand's and the output's block index is the point on the
    row axis and 0 on the column axis; the right operand's is 0 on both. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

-- the product's closed forms stay folded below: only their equations are used
attribute [local irreducible] mm2 G2

/-- What point `t` writes back is block `t` of the whole product `G2` of the two input arrays as the region finds
    them: the left operand's block at `t` is rows `5000·t …`, the right operand's block is the whole array, and a
    block's coordinate is index × size + the coordinate inside the block. -/
theorem flushed2_eq (c : Dev nD) (t : Fin cfg2.N) :
    (dat2 V c).flushed 2 t
      = ((cfg2.win 2).blk t).view.read (Elt F) (G2 (V c (Pipeline.arrRef spec2 0)) (V c (Pipeline.arrRef spec2 1))) := by
  show (cfg2.win 2).cut (grid2.coords t) ((dat2 V c).after 2 t) = _
  rw [after2_2]
  obtain ⟨e0, e1, e2, e3, e4, e5, e6⟩ := idx_facts2 t
  funext j
  have hj0 : (j 0).val < 5000 := (j 0).isLt
  have hj1 : (j 1).val < 128 := (j 1).isLt
  show mm2 (iblk2 V c 0 t) (iblk2 V c 1 t) j
    = G2 (V c (Pipeline.arrRef spec2 0)) (V c (Pipeline.arrRef spec2 1)) (((cfg2.win 2).blk t).view.emb j)
  have v0 : ((((cfg2.win 2).blk t).view.emb j) 0).val = win2_2.index t (0 : Fin 2) * 5000 + 1 * (j 0).val := rfl
  have v1 : ((((cfg2.win 2).blk t).view.emb j) 1).val = win2_2.index t (1 : Fin 2) * 128 + 1 * (j 1).val := rfl
  unfold G2
  have hA : iblk2 V c 0 t = rows2 (V c (Pipeline.arrRef spec2 0))
      ⟨((((cfg2.win 2).blk t).view.emb j) 0).val / 5000, by rw [v0]; omega⟩ := by
    funext j'
    have hj'0 : (j' 0).val < 5000 := (j' 0).isLt
    have hj'1 : (j' 1).val < 128 := (j' 1).isLt
    show V c main_v69 (((cfg2.win 0).blk t).view.emb j') = V c main_v69 _
    refine congrArg _ (funext fun a => Fin.ext ?_)
    match a with
    | ⟨0, _⟩ =>
      show win2_0.index t (0 : Fin 2) * 5000 + 1 * (j' 0).val = ((((cfg2.win 2).blk t).view.emb j) 0).val / 5000 * 5000 + (j' 0).val
      rw [v0]; omega
    | ⟨1, _⟩ =>
      show win2_0.index t (1 : Fin 2) * 128 + 1 * (j' 1).val = (j' 1).val
      omega
  have hB : iblk2 V c 1 t = V c (Pipeline.arrRef spec2 1) := by
    funext j'
    show V c main_v71 (((cfg2.win 1).blk t).view.emb j') = V c main_v71 j'
    refine congrArg _ (funext fun a => Fin.ext ?_)
    match a with
    | ⟨0, _⟩ => show win2_1.index t (0 : Fin 2) * 128 + 1 * (j' 0).val = (j' 0).val; omega
    | ⟨1, _⟩ => show win2_1.index t (1 : Fin 2) * 128 + 1 * (j' 1).val = (j' 1).val; omega
  have hk : j = ix2 (⟨((((cfg2.win 2).blk t).view.emb j) 0).val % 5000, Nat.mod_lt _ (by decide)⟩ : Fin 5000)
      ((((cfg2.win 2).blk t).view.emb j) 1 : Fin 128) := by
    funext a; apply Fin.ext
    match a with
    | ⟨0, _⟩ => show (j 0).val = ((((cfg2.win 2).blk t).view.emb j) 0).val % 5000; rw [v0]; omega
    | ⟨1, _⟩ => show (j 1).val = ((((cfg2.win 2).blk t).view.emb j) 1).val; rw [v1]; omega
  rw [hA, hB]
  exact congrArg _ hk

/-- An index of the output array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v72).slice (win2_2.rect t)).set ↔ _
  rw [View.set_slice_whole, Rect.mem_set_unit]
  exact Iff.rfl

/-- Every index of the output array is in some point's block, and every point writes back: row `r` is in the block
    of point `r / 5000`. -/
theorem covered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := Fin.cast N_2.symm ⟨(i 0).val / 5000, by omega⟩
  have ht : t.val = (i 0).val / 5000 := rfl
  obtain ⟨e0, e1, e2, e3, e4, e5, e6⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE OUTPUT ARRAY after the region: the whole product `G2` of the two input arrays as the region finds them. -/
theorem final2 (c : Dev nD) :
    (dat2 V c).arrAt 2 cfg2.N = G2 (V c (Pipeline.arrRef spec2 0)) (V c (Pipeline.arrRef spec2 1)) :=
  (dat2 V c).arrAt_eq_of_cover 2 _ (fun t _ => flushed2_eq V c t) (covered2)

/-- The input arrays are never written: after the region they hold what the region found. -/
theorem arr2_0 (c : Dev nD) : (dat2 V c).arrAt 0 cfg2.N = V c (Pipeline.arrRef spec2 0) :=
  ((dat2 V c).arrAt_in 0 rfl _).trans (A_eq2 V c 0)
theorem arr2_1 (c : Dev nD) : (dat2 V c).arrAt 1 cfg2.N = V c (Pipeline.arrRef spec2 1) :=
  ((dat2 V c).arrAt_in 1 rfl _).trans (A_eq2 V c 1)

end Region

end Cert.KernelIdeal.Hand

end
-- ==== Proof.KI.Pred3Body.lean ====
import proofs.«150805_j37804302139719_1_alg».proof.Proof.Gen.KernelIdeal.Launch
import proofs.«150805_j37804302139719_1_alg».proof.Proof.Gen.KernelIdeal.Skeleton
import proofs.«150805_j37804302139719_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The predictor body of region 3: its branch condition and its two runs

The body resets the one-element output block when the grid coordinate is 0, then adds the point's partial sum
to what the block holds. Two control cases: the first point (the reset is taken) and every later point. -/

/-- The condition of the body's conditional, from the grid coordinate: `i = 0`, as the printed scalar chain. -/
abbrev cond3_0 (i : grid3.Coords) : Prop :=
  (Scalar.cmpi .ne (Scalar.extui (Scalar.cmpi .eq (BitVec.ofNat 32 (i 0).val) 0#32)) 0#32) = 1#1

/-- It holds at the first of the 50 points only: decided over the grid. -/
theorem hcond3_0 : ∀ t : Fin cfg3.N, cond3_0 (grid3.coords t) ↔ t.val % 50 = 0 :=
  (by decide +kernel : ∀ t : Fin grid3.N, cond3_0 (grid3.coords t) ↔ t.val % 50 = 0)

set_option maxHeartbeats 2000000 in
/-- THE FIRST POINT. On whole staging memrefs, the four inputs' at their contents and the output's at anything, the body
    runs to the continuation holding the inputs' as they were and the output's with the body's stores written, as
    pieces (last first) the run finds: the reset's zero block, then the sum over it. -/
noncomputable def kernelRun3_A (c : Dev nD) (i : grid3.Coords)
    (arg1 : Memref sig .tc .vmem S2000x384 .f32) (harg1 : arg1.IsWhole)
    (arg2 : Memref sig .tc .vmem S2000x384 .f32) (harg2 : arg2.IsWhole)
    (arg3 : Memref sig .tc .vmem S1x384 .f32) (harg3 : arg3.IsWhole)
    (arg4 : Memref sig .tc .vmem S1x1 .f32) (harg4 : arg4.IsWhole)
    (arg5 : Memref sig .tc .vmem S1x1 .f32) (harg5 : arg5.IsWhole) (hc0 : cond3_0 i)
    (x0 x1 : Vec F S2000x384 .f32) (x2 : Vec F S1x384 .f32) (x3 : Vec F S1x1 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E
              (cc3__predictor_kernel i arg1 harg1 arg2 harg2 arg3 harg3 arg4 harg4 arg5 harg5) K } := by
  refine ⟨?_, fun E K => ?run⟩
  case run =>
    simp only [cc3__predictor_kernel_eq_skeleton]; unfold cc3__predictor_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

set_option maxHeartbeats 2000000 in
/-- EVERY LATER POINT. The same with the output's staging memref at the running contents `xo` (the reset is not
    taken): the one store of the sum over `xo`. -/
noncomputable def kernelRun3_B (c : Dev nD) (i : grid3.Coords)
    (arg1 : Memref sig .tc .vmem S2000x384 .f32) (harg1 : arg1.IsWhole)
    (arg2 : Memref sig .tc .vmem S2000x384 .f32) (harg2 : arg2.IsWhole)
    (arg3 : Memref sig .tc .vmem S1x384 .f32) (harg3 : arg3.IsWhole)
    (arg4 : Memref sig .tc .vmem S1x1 .f32) (harg4 : arg4.IsWhole)
    (arg5 : Memref sig .tc .vmem S1x1 .f32) (harg5 : arg5.IsWhole) (hc0 : ¬cond3_0 i)
    (x0 x1 : Vec F S2000x384 .f32) (x2 : Vec F S1x384 .f32) (x3 : Vec F S1x1 .f32) (xo : Vec F S1x1 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare xo
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E
              (cc3__predictor_kernel i arg1 harg1 arg2 harg2 arg3 harg3 arg4 harg4 arg5 harg5) K } := by
  refine ⟨?_, fun E K => ?run⟩
  case run =>
    simp only [cc3__predictor_kernel_eq_skeleton]; unfold cc3__predictor_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1
    obtain rfl := harg3.eq_unread hf2; obtain rfl := harg4.eq_unread hf3
    obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.KI.Pred3.lean ====
import proofs.«150805_j37804302139719_1_alg».proof.Proof.Gen.KernelIdeal.Launch
import proofs.«150805_j37804302139719_1_alg».proof.Proof.Gen.KernelIdeal.Skeleton
import proofs.«150805_j37804302139719_1_alg».proof.Proof.Gen.KernelIdeal.Points
import proofs.«150805_j37804302139719_1_alg».proof.Proof.KI.Pred3Body
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the predictor's accumulated output

One-element output block `[1,1]` at block (0,0) at every one of the 50 grid points: an accumulator. After point `t` it
holds the zero block plus the partial sums of points `0..t`, added in point order; the region writes it back once,
after the last point. Everything is stated at a parameter `V`: the buffers' contents when the region is entered. -/

theorem hz3 : (![0, 0] : Fin 2 → Nat) = fun _ => 0 := funext fun a => by fin_cases a <;> rfl

/-- The zero block the first point stores: a broadcast of `+0.0`. -/
abbrev zero3 : Vec F S1x1 .f32 := broadcast S1x1 (Scalar.ofBits .f32 0x00000000#32)

/-- ONE POINT'S PARTIAL SUM, from the point's two `[2000,384]` blocks, the weight row and the bias: per row the
    logit `∑ₖ za·zb·pw + pb`, scaled by the sign constant, through the printed softplus; then summed over the rows. -/
def partial3 (za zb : Vec F S2000x384 .f32) (pw : Vec F S1x384 .f32) (pb : Vec F S1x1 .f32) : Vec F S1x1 .f32 :=
  have v4 : FVec F S2000x384 .f32 := shapeCast S2000x384 za shapeCasts_S2000x384_S2000x384
  have v6 : FVec F S2000x384 .f32 := shapeCast S2000x384 zb shapeCasts_S2000x384_S2000x384
  have v7 : FVec F S2000x384 .f32 := mulf v4 v6
  have v9 : FVec F S1x384 .f32 := shapeCast S1x384 pw shapeCasts_S1x384_S1x384
  have v10 : FVec F S2000x384 .f32 := broadcastTo S2000x384 v9 broadcasts_S1x384_S2000x384
  have v11 : FVec F S2000x384 .f32 := mulf v7 v10
  have v12 : FVec F S2000 .f32 := multiReduction .add [1] S2000 v11 0x00000000#32 reduces_S2000x384_S2000 (.inl rfl) rfl
  have v13 : FVec F S2000x1 .f32 := shapeCast S2000x1 v12 shapeCasts_S2000_S2000x1
  have v15 : F .f32 := extractAt ![0, 0] pb inpos_S1x1_p0_0
  have v16 : FVec F S2000x1 .f32 := broadcast S2000x1 v15
  have v17 : FVec F S2000x1 .f32 := addf v13 v16
  have cst_8 : F .f32 := Scalar.ofBits .f32 0xBF800000#32
  have v18 : FVec F S2000x1 .f32 := broadcast S2000x1 cst_8
  have v19 : FVec F S2000x1 .f32 := mulf v18 v17
  have cst_9 : F .f32 := Scalar.ofBits .f32 0x00000000#32
  have v20 : FVec F S2000x1 .f32 := broadcast S2000x1 cst_9
  have v21 : FVec F S2000x1 .f32 := maximumf v19 v20
  have v22 : FVec F S2000x1 .f32 := broadcast S2000x1 cst_9
  have v23 : FVec F S2000x1 .f32 := subf v19 v22
  have v24 : IVec S2000x1 1 := cmpf .one v23 v23
  have v25 : FVec F S2000x1 .f32 := broadcast S2000x1 cst_9
  have v26 : FVec F S2000x1 .f32 := addf v19 v25
  have v27 : FVec F S2000x1 .f32 := absf v23
  have cst_10 : F .f32 := Scalar.ofBits .f32 0x00000000#32
  have v28 : FVec F S2000x1 .f32 := broadcast S2000x1 cst_10
  have v29 : FVec F S2000x1 .f32 := subf v28 v27
  have v30 : FVec F S2000x1 .f32 := exp v29
  have v31 : FVec F S2000x1 .f32 := log1p v30
  have v32 : FVec F S2000x1 .f32 := addf v21 v31
  have v33 : FVec F S2000x1 .f32 := select v24 v26 v32
  have v34 : FVec F S1 .f32 := multiReduction .add [0] S1 v33 0x00000000#32 reduces_S2000x1_S1 (.inl rfl) rfl
  have v35 : FVec F S1x1 .f32 := shapeCast S1x1 v34 shapeCasts_S1_S1x1
  v35

/-- The body's stored payload is the block it read plus the point's partial sum. -/
theorem pay2_eq3 (za zb : Vec F S2000x384 .f32) (pw : Vec F S1x384 .f32) (pb xo : Vec F S1x1 .f32) :
    k3_pay2 za zb pw pb xo = addf xo (partial3 za zb pw pb) := by
  show addf (shapeCast S1x1 xo shapeCasts_S1x1_S1x1) (partial3 za zb pw pb) = _
  rw [shapeCast_self]

section Region
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## What each control case leaves in the output's staging buffer -/

/-- One staging buffer of the output window, through which its contents are stated (the choice does not matter). -/
abbrev VO3_4 : View sig .tc .vmem S1x1 .f32 := (Memref.whole cc3_stg4_0 : Memref sig .tc .vmem S1x1 .f32).view

/-- The first point's stores cover the one-element block. -/
theorem cover3_A (c : Dev nD) (i : grid3.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : cond3_0 i)
    (x0 x1 : Vec F S2000x384 .f32) (x2 : Vec F S1x384 .f32) (x3 : Vec F S1x1 .f32) (y : S1x1.Idx) :
    ∃ pc ∈ (kernelRun3_A c i a1 h1 a2 h2 a3 h3 a4 h4 a5 h5 hc x0 x1 x2 x3).1, y ∈ pc.1.set :=
  View.cover_of_tiledL (kernelRun3_A c i a1 h1 a2 h2 a3 h3 a4 h4 a5 h5 hc x0 x1 x2 x3).1 S1x1.size (by sl_kernel_rfl) y

/-- What the first point leaves in the output's staging buffer: its pieces read back. -/
def out3_A (c : Dev nD) (i : grid3.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : cond3_0 i)
    (x0 x1 : Vec F S2000x384 .f32) (x2 : Vec F S1x384 .f32) (x3 : Vec F S1x1 .f32) : Vec F S1x1 .f32 :=
  VO3_4.read (Elt F) (VO3_4.writes (Elt F) VO3_4.junk (kernelRun3_A c i a1 h1 a2 h2 a3 h3 a4 h4 a5 h5 hc x0 x1 x2 x3).1)

/-- A later point's one store covers the block. -/
theorem cover3_B (c : Dev nD) (i : grid3.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : ¬cond3_0 i)
    (x0 x1 : Vec F S2000x384 .f32) (x2 : Vec F S1x384 .f32) (x3 xo : Vec F S1x1 .f32) (y : S1x1.Idx) :
    ∃ pc ∈ (kernelRun3_B c i a1 h1 a2 h2 a3 h3 a4 h4 a5 h5 hc x0 x1 x2 x3 xo).1, y ∈ pc.1.set :=
  View.cover_of_tiledL (kernelRun3_B c i a1 h1 a2 h2 a3 h3 a4 h4 a5 h5 hc x0 x1 x2 x3 xo).1 S1x1.size (by sl_kernel_rfl) y

/-- What a later point leaves in the output's staging buffer that held `xo`. -/
def out3_B (c : Dev nD) (i : grid3.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : ¬cond3_0 i)
    (x0 x1 : Vec F S2000x384 .f32) (x2 : Vec F S1x384 .f32) (x3 xo : Vec F S1x1 .f32) : Vec F S1x1 .f32 :=
  VO3_4.read (Elt F) (VO3_4.writes (Elt F) VO3_4.junk (kernelRun3_B c i a1 h1 a2 h2 a3 h3 a4 h4 a5 h5 hc x0 x1 x2 x3 xo).1)

/-- A later point leaves `xo` plus the point's partial sum: its one covering store's payload, whose loads read the
    whole buffers. -/
theorem out3_B_eq (c : Dev nD) (i : grid3.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : ¬cond3_0 i)
    (x0 x1 : Vec F S2000x384 .f32) (x2 : Vec F S1x384 .f32) (x3 xo : Vec F S1x1 .f32) :
    out3_B c i a1 h1 a2 h2 a3 h3 a4 h4 a5 h5 hc x0 x1 x2 x3 xo = addf xo (partial3 x0 x1 x2 x3) := by
  unfold out3_B
  rw [View.read_writes_eq_canon _ _ _ (cover3_B c i a1 h1 a2 h2 a3 h3 a4 h4 a5 h5 hc x0 x1 x2 x3 xo)]
  unfold kernelRun3_B
  dsimp only
  sl_unfold_words
  rw [View.canon_unit_zero hz3]
  simp only [View.readAt_eq_ld, h1.read_unread, h2.read_unread, h3.read_unread, h4.read_unread, h5.read_unread,
    View.ld_unit_zero (S := S2000x384) hz3, View.ld_unit_zero (S := S1x384) hz3, View.ld_unit_zero (S := S1x1) hz3]
  exact pay2_eq3 x0 x1 x2 x3 xo

/-- The first point stores the zero block, reads it back, and leaves the zero block plus the point's partial sum. -/
theorem out3_A_eq (c : Dev nD) (i : grid3.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : cond3_0 i)
    (x0 x1 : Vec F S2000x384 .f32) (x2 : Vec F S1x384 .f32) (x3 : Vec F S1x1 .f32) :
    out3_A c i a1 h1 a2 h2 a3 h3 a4 h4 a5 h5 hc x0 x1 x2 x3 = addf zero3 (partial3 x0 x1 x2 x3) := by
  unfold out3_A
  rw [View.read_writes_eq_canon _ _ _ (cover3_A c i a1 h1 a2 h2 a3 h3 a4 h4 a5 h5 hc x0 x1 x2 x3)]
  unfold kernelRun3_A
  dsimp only
  sl_unfold_words
  rw [View.canon_cons_unit_zero (S := S1x1) hz3]
  rw [View.readCov_unit_zero (S := S1x1) _ hz3]
  simp only [View.readAt_eq_ld, h1.read_unread, h2.read_unread, h3.read_unread, h4.read_unread, h5.read_unread,
    View.ld_unit_zero (S := S2000x384) hz3, View.ld_unit_zero (S := S1x384) hz3, View.ld_unit_zero (S := S1x1) hz3]
  exact pay2_eq3 x0 x1 x2 x3 k3_pay1

/-! ## What the output block holds after each point -/

/-- Position `n` of the grid as one of its 50 points (positions past the grid wrap; only `n < 50` is read). -/
def pt3 (n : ℕ) : Fin cfg3.N := ⟨n % 50, lt_of_lt_of_eq (Nat.mod_lt n (by decide)) N_3.symm⟩

theorem pt3_val (t : Fin cfg3.N) : pt3 t.val = t :=
  Fin.ext (Nat.mod_eq_of_lt (lt_of_lt_of_eq t.isLt N_3))

/-- The point's partial sum over the windows' blocks at point `t`. -/
def part3 (c : Dev nD) (t : Fin cfg3.N) : Vec F S1x1 .f32 :=
  partial3 (iblk3 V c 0 t) (iblk3 V c 1 t) (iblk3 V c 2 t) (iblk3 V c 3 t)

/-- THE ACCUMULATION: what the output's staging buffer holds after point `n` — the zero block plus point 0's partial
    sum, then each later point's added to what the point before left. -/
def acc3 (c : Dev nD) : ℕ → Vec F S1x1 .f32
  | 0 => addf zero3 (part3 V c (pt3 0))
  | n + 1 => addf (acc3 c n) (part3 V c (pt3 (n + 1)))

theorem acc3_first (c : Dev nD) (t : Fin cfg3.N) (h0 : t.val % 50 = 0) :
    acc3 V c t.val = addf zero3 (part3 V c t) := by
  have hN : t.val < 50 := lt_of_lt_of_eq t.isLt N_3
  have ht : t.val = 0 := by omega
  have e : pt3 0 = t := by rw [← ht]; exact pt3_val t
  rw [ht]; show addf zero3 (part3 V c (pt3 0)) = _; rw [e]

theorem acc3_later (c : Dev nD) (t : Fin cfg3.N) (h0 : ¬t.val % 50 = 0) :
    acc3 V c t.val = addf (acc3 V c (t.val - 1)) (part3 V c t) := by
  have hN : t.val < 50 := lt_of_lt_of_eq t.isLt N_3
  obtain ⟨n, hn⟩ : ∃ n, t.val = n + 1 := ⟨t.val - 1, by omega⟩
  have e : pt3 (n + 1) = t := by rw [← hn]; exact pt3_val t
  rw [hn]; show addf (acc3 V c n) (part3 V c (pt3 (n + 1))) = _; rw [e]; rfl

/-! ## The pipeline's proof data -/

/-- The proof data of the region's pipeline on core `c`: the arrays as the region finds them; after the body at point
    `t` each input's buffer at its block and the output's at the accumulation; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => acc3 V c t.val
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = acc3 V c t.val := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- At a later point the output's staging buffer holds what the body left at the point before: the point is not the
    first, the buffer was not written back between (only the last point is), the window is live and uncut. -/
theorem before3_4_later (c : Dev nD) (t : Fin cfg3.N) (h0 : ¬t.val % 50 = 0) (d) :
    (dat3 V c).before 4 t d = acc3 V c (t.val - 1) := by
  have hN : t.val < 50 := lt_of_lt_of_eq t.isLt N_3
  rw [Dat.before_out_kept _ 4 rfl t (by omega) (Bool.eq_false_iff.mpr fun h => by have := (flush3_4 _).mp h; dsimp only at this; omega)
    (fun _ => rfl) (fun _ _ => rfl)]
  dsimp only [dat3]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

set_option maxHeartbeats 1600000 in
/-- The body at any point: the inputs' memrefs hold their blocks; the closed form says which control case the point is
    in; at a later point the output's memref holds what the point before left; so that case's run applies, and what it
    leaves is the accumulation at `t`. The invariant and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  by_cases h0 : t.val % 50 = 0
  · have e : addf zero3 (part3 V c t)
        = out3_A c (grid3.coords t) (st3_0 t) (hstage3_0 ((cfg3.slots t 0).cast nbuf3_0)) (st3_1 t) (hstage3_1 ((cfg3.slots t 1).cast nbuf3_1))
          (st3_2 t) (hstage3_2 ((cfg3.slots t 2).cast nbuf3_2)) (st3_3 t) (hstage3_3 ((cfg3.slots t 3).cast nbuf3_3)) (st3_4 t) (hstage3_4 ((cfg3.slots t 4).cast nbuf3_4))
          ((hcond3_0 t).mpr h0) (iblk3 V c 0 t) (iblk3 V c 1 t) (iblk3 V c 2 t) (iblk3 V c 3 t) :=
      (out3_A_eq c _ _ _ _ _ _ _ _ _ _ _ _ _ _ _ _).symm
    rw [acc3_first V c t h0, e]
    unfold out3_A
    iintro ⟨HΦ, Ho, ⟨%d0, H0⟩, ⟨%d1, H1⟩, ⟨%d2, H2⟩, ⟨%d3, H3⟩, ⟨%d4, H4⟩⟩
    iapply ((kernelRun3_A c (grid3.coords t) _ _ _ _ _ _ _ _ _ _ ((hcond3_0 t).mpr h0)
      (iblk3 V c 0 t) (iblk3 V c 1 t) (iblk3 V c 2 t) (iblk3 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_A c _ _ _ _ _ _ _ _ _ _ _ _ _ _ _ _)
  · have e : addf (acc3 V c (t.val - 1)) (part3 V c t)
        = out3_B c (grid3.coords t) (st3_0 t) (hstage3_0 ((cfg3.slots t 0).cast nbuf3_0)) (st3_1 t) (hstage3_1 ((cfg3.slots t 1).cast nbuf3_1))
          (st3_2 t) (hstage3_2 ((cfg3.slots t 2).cast nbuf3_2)) (st3_3 t) (hstage3_3 ((cfg3.slots t 3).cast nbuf3_3)) (st3_4 t) (hstage3_4 ((cfg3.slots t 4).cast nbuf3_4))
          (fun h => h0 ((hcond3_0 t).mp h)) (iblk3 V c 0 t) (iblk3 V c 1 t) (iblk3 V c 2 t) (iblk3 V c 3 t) (acc3 V c (t.val - 1)) :=
      (out3_B_eq c _ _ _ _ _ _ _ _ _ _ _ _ _ _ _ _ _).symm
    rw [acc3_later V c t h0, e]
    simp only [before3_4_later V c t h0]
    unfold out3_B
    iintro ⟨HΦ, Ho, ⟨%d0, H0⟩, ⟨%d1, H1⟩, ⟨%d2, H2⟩, ⟨%d3, H3⟩, ⟨%d4, H4⟩⟩
    iapply ((kernelRun3_B c (grid3.coords t) _ _ _ _ _ _ _ _ _ _ (fun h => h0 ((hcond3_0 t).mp h))
      (iblk3 V c 0 t) (iblk3 V c 1 t) (iblk3 V c 2 t) (iblk3 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover3_B c _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Hand

end
-- ==== Proof.KI.Softplus.lean ====
import Idealize.ShloMosaic.PureOps.Ideal.Laws
import Idealize.ShloMosaic.Lib.ValueIdx

noncomputable section

namespace Cert.KernelIdeal.Hand

open Idealize.ShloMosaic

variable {F : FTy → Type} [FloatOps F]

/-- THE PRINTED SOFTPLUS of one scalar `y`, with `z` the word `+0.0`:
    `select (y - z ≠ y - z) (y + z) (max y z + log1p (exp (z - |y - z|)))` — the stable form
    `max(y, 0) + log1p(exp(-|y|))`, with the not-a-number guard the lowering adds. Kept as printed. -/
def softplusF (y : F .f32) : F .f32 :=
  Scalar.select
    (FloatOps.cmpf .one (FloatOps.subf y (FloatOps.ofBits .f32 0x00000000#32)) (FloatOps.subf y (FloatOps.ofBits .f32 0x00000000#32)))
    (FloatOps.addf y (FloatOps.ofBits .f32 0x00000000#32))
    (FloatOps.addf (FloatOps.maximumf y (FloatOps.ofBits .f32 0x00000000#32))
      (FloatOps.log1p (FloatOps.exp (FloatOps.subf (FloatOps.ofBits .f32 0x00000000#32)
        (FloatOps.absf (FloatOps.subf y (FloatOps.ofBits .f32 0x00000000#32)))))))

end Cert.KernelIdeal.Hand

end
-- ==== Proof.KI.Pred3Final.lean ====
import proofs.«150805_j37804302139719_1_alg».proof.Proof.KI.Pred3
import proofs.«150805_j37804302139719_1_alg».proof.Proof.KI.Softplus
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-! # Region 3: what its arrays hold when it ends, and the accumulated value

The output array `[1,1]` is written back once, after the last point, with the accumulation there; the four input
arrays are as the region found them. At the ideal values the accumulation is the sum over the 50 points of the
points' partial sums, and a partial sum is the sum over the block's 2000 rows of the softplus of the signed logit. -/

section Region
variable (V : (c : Dev nD) → (b : Ref sig .tc) → Buf (Elt F) ((c : Thread nD τ).loc b))

/-- The last of the 50 points. -/
def tl3 : Fin cfg3.N := ⟨49, lt_of_lt_of_eq (by decide) N_3.symm⟩

/-- The one write-back, at the last point, writes the accumulation there: block (0, 0) of the `[1,1]` array read
    through zero offsets is the array. -/
theorem flushed_eq3 (c : Dev nD) (t : Fin cfg3.N) (hf : (cfg3.win 4).flush t = true) :
    (dat3 V c).flushed 4 t = ((cfg3.win 4).blk t).view.read (Elt F) (acc3 V c 49 : Buf (Elt F) ((c : Thread nD τ).loc main_v130)) := by
  have hN : t.val < 50 := lt_of_lt_of_eq t.isLt N_3
  have h49 : t.val = 49 := by have := (flush3_4 t).mp hf; omega
  obtain rfl : t = tl3 := Fin.ext h49
  show (cfg3.win 4).cut (grid3.coords tl3) ((dat3 V c).after 4 tl3) = _
  rw [after3_4]
  have hz' : (fun a => win3_4.index tl3 a * main_v130.ty.shape.size a) = fun _ => 0 := funext fun a => by fin_cases a <;> decide
  exact (Memref.read_access_unit_zero (Elt F) main_v130 hz' (fun a => by rw [congrFun hz' a]; simp) (acc3 V c 49)).symm

/-- So the output array ends holding the accumulation after the last point. -/
theorem final3 (c : Dev nD) : (dat3 V c).arrAt 4 cfg3.N = acc3 V c 49 :=
  (dat3 V c).arrAt_eq_of_cover 4 (acc3 V c 49) (flushed_eq3 V c) fun i =>
    ⟨tl3, (flush3_4 tl3).mpr rfl, by
      show i ∈ ((View.whole main_v130).slice (win3_4.rect tl3)).set
      rw [View.set_slice_whole, Rect.mem_set_unit]
      intro a
      have h0 : (i 0 : Nat) < 1 := (i 0).isLt
      have h1 : (i 1 : Nat) < 1 := (i 1).isLt
      match a with
      | ⟨0, _⟩ => show win3_4.index tl3 0 * win3_4.size 0 ≤ (i 0 : Nat) ∧ (i 0 : Nat) < win3_4.index tl3 0 * win3_4.size 0 + win3_4.xsize (grid3.coords tl3) 0
                  rw [show win3_4.index tl3 0 * win3_4.size 0 = 0 from by decide +kernel, show win3_4.xsize (grid3.coords tl3) 0 = 1 from by decide +kernel]; omega
      | ⟨1, _⟩ => show win3_4.index tl3 1 * win3_4.size 1 ≤ (i 1 : Nat) ∧ (i 1 : Nat) < win3_4.index tl3 1 * win3_4.size 1 + win3_4.xsize (grid3.coords tl3) 1
                  rw [show win3_4.index tl3 1 * win3_4.size 1 = 0 from by decide +kernel, show win3_4.xsize (grid3.coords tl3) 1 = 1 from by decide +kernel]; omega⟩

/-- The four input arrays end as the region found them. -/
theorem arr3_0 (c : Dev nD) : (dat3 V c).arrAt 0 cfg3.N = V c (Pipeline.arrRef spec3 0) :=
  ((dat3 V c).arrAt_in 0 rfl _).trans (A_eq3 V c 0)
theorem arr3_1 (c : Dev nD) : (dat3 V c).arrAt 1 cfg3.N = V c (Pipeline.arrRef spec3 1) :=
  ((dat3 V c).arrAt_in 1 rfl _).trans (A_eq3 V c 1)
theorem arr3_2 (c : Dev nD) : (dat3 V c).arrAt 2 cfg3.N = V c (Pipeline.arrRef spec3 2) :=
  ((dat3 V c).arrAt_in 2 rfl _).trans (A_eq3 V c 2)
theorem arr3_3 (c : Dev nD) : (dat3 V c).arrAt 3 cfg3.N = V c (Pipeline.arrRef spec3 3) :=
  ((dat3 V c).arrAt_in 3 rfl _).trans (A_eq3 V c 3)

/-! ## The input blocks, read at an index of their arrays -/

/-- The two row-block windows' block index at point `t` is `(t, 0)`; the weight row's and the bias's is `(0, 0)`. -/
theorem index3_0 : ∀ t : Fin cfg3.N, win3_0.index t 0 = t.val ∧ win3_0.index t 1 = 0 :=
  (by decide +kernel : ∀ t : Fin grid3.N, win3_0.index t 0 = t.val ∧ win3_0.index t 1 = 0)
theorem index3_1 : ∀ t : Fin cfg3.N, win3_1.index t 0 = t.val ∧ win3_1.index t 1 = 0 :=
  (by decide +kernel : ∀ t : Fin grid3.N, win3_1.index t 0 = t.val ∧ win3_1.index t 1 = 0)
theorem index3_2 : ∀ t : Fin cfg3.N, win3_2.index t 0 = 0 ∧ win3_2.index t 1 = 0 :=
  (by decide +kernel : ∀ t : Fin grid3.N, win3_2.index t 0 = 0 ∧ win3_2.index t 1 = 0)
theorem index3_3 : ∀ t : Fin cfg3.N, win3_3.index t 0 = 0 ∧ win3_3.index t 1 = 0 :=
  (by decide +kernel : ∀ t : Fin grid3.N, win3_3.index t 0 = 0 ∧ win3_3.index t 1 = 0)

/-- Row `r`, lane `k` of the first operand's block at point `t` is row `2000 t + r` of its array. -/
theorem iblk3_0_apply (c : Dev nD) (t : Fin cfg3.N) (r : Fin 2000) (k : Fin 384) :
    iblk3 V c 0 t (ix2 r k) = (V c (Pipeline.arrRef spec3 0) : FVec F S100000x384 .f32)
      (ix2 ⟨2000 * t.val + r.val, by have := lt_of_lt_of_eq t.isLt N_3; have := r.isLt; omega⟩ k) := by
  have hi := index3_0 t
  unfold iblk3
  rw [View.read_apply]
  show V c main_v102 _ = V c main_v102 _
  congr 1
  funext a
  apply Fin.ext
  match a with
  | ⟨0, _⟩ => show win3_0.index t 0 * 2000 + 1 * r.val = 2000 * t.val + r.val; rw [hi.1]; omega
  | ⟨1, _⟩ => show win3_0.index t 1 * 384 + 1 * k.val = k.val; rw [hi.2]; omega

/-- The second operand's likewise. -/
theorem iblk3_1_apply (c : Dev nD) (t : Fin cfg3.N) (r : Fin 2000) (k : Fin 384) :
    iblk3 V c 1 t (ix2 r k) = (V c (Pipeline.arrRef spec3 1) : FVec F S100000x384 .f32)
      (ix2 ⟨2000 * t.val + r.val, by have := lt_of_lt_of_eq t.isLt N_3; have := r.isLt; omega⟩ k) := by
  have hi := index3_1 t
  unfold iblk3
  rw [View.read_apply]
  show V c main_v111 _ = V c main_v111 _
  congr 1
  funext a
  apply Fin.ext
  match a with
  | ⟨0, _⟩ => show win3_1.index t 0 * 2000 + 1 * r.val = 2000 * t.val + r.val; rw [hi.1]; omega
  | ⟨1, _⟩ => show win3_1.index t 1 * 384 + 1 * k.val = k.val; rw [hi.2]; omega

/-- The weight row's block is the whole `[1,384]` array at every point. -/
theorem iblk3_2_apply (c : Dev nD) (t : Fin cfg3.N) (k : Fin 384) :
    iblk3 V c 2 t (ix2 0 k) = (V c (Pipeline.arrRef spec3 2) : FVec F S1x384 .f32) (ix2 0 k) := by
  have hi := index3_2 t
  unfold iblk3
  rw [View.read_apply]
  show V c main_v92 _ = V c main_v92 _
  congr 1
  funext a
  apply Fin.ext
  match a with
  | ⟨0, _⟩ => show win3_2.index t 0 * 1 + 1 * 0 = 0; rw [hi.1]
  | ⟨1, _⟩ => show win3_2.index t 1 * 384 + 1 * k.val = k.val; rw [hi.2]; omega

/-- The bias's block is the whole `[1,1]` array at every point. -/
theorem iblk3_3_apply (c : Dev nD) (t : Fin cfg3.N) :
    iblk3 V c 3 t (ix2 0 0) = (V c (Pipeline.arrRef spec3 3) : FVec F S1x1 .f32) (ix2 0 0) := by
  have hi := index3_3 t
  unfold iblk3
  rw [View.read_apply]
  show V c main_v93 _ = V c main_v93 _
  congr 1
  funext a
  apply Fin.ext
  match a with
  | ⟨0, _⟩ => show win3_3.index t 0 * 1 + 1 * 0 = 0; rw [hi.1]
  | ⟨1, _⟩ => show win3_3.index t 1 * 1 + 1 * 0 = 0; rw [hi.2]

end Region

/-! ## The point's partial sum, stage by stage -/

/-- The elementwise product `za · zb · pw` (the weight row broadcast over the rows). -/
def prod3 (za zb : Vec F S2000x384 .f32) (pw : Vec F S1x384 .f32) : FVec F S2000x384 .f32 :=
  mulf (mulf (shapeCast S2000x384 za shapeCasts_S2000x384_S2000x384) (shapeCast S2000x384 zb shapeCasts_S2000x384_S2000x384))
    (broadcastTo S2000x384 (shapeCast S1x384 pw shapeCasts_S1x384_S1x384) broadcasts_S1x384_S2000x384)

/-- The rows' logits: the product summed along the lanes, plus the bias. -/
def logit3 (za zb : Vec F S2000x384 .f32) (pw : Vec F S1x384 .f32) (pb : Vec F S1x1 .f32) : FVec F S2000x1 .f32 :=
  addf (shapeCast S2000x1 (multiReduction .add [1] S2000 (prod3 za zb pw) 0x00000000#32 reduces_S2000x384_S2000 (.inl rfl) rfl) shapeCasts_S2000_S2000x1)
    (broadcast S2000x1 (extractAt ![0, 0] pb inpos_S1x1_p0_0))

/-- The logits scaled by the sign constant. -/
def sgn3 (za zb : Vec F S2000x384 .f32) (pw : Vec F S1x384 .f32) (pb : Vec F S1x1 .f32) : FVec F S2000x1 .f32 :=
  mulf (broadcast S2000x1 (Scalar.ofBits .f32 0xBF800000#32)) (logit3 za zb pw pb)

/-- The partial sum is the rows' softplus of the signed logits, summed over the rows. -/
theorem partial3_eq (za zb : Vec F S2000x384 .f32) (pw : Vec F S1x384 .f32) (pb : Vec F S1x1 .f32) :
    partial3 za zb pw pb
      = shapeCast S1x1 (multiReduction .add [0] S1 (fun i => softplusF (sgn3 za zb pw pb i)) 0x00000000#32 reduces_S2000x1_S1 (.inl rfl) rfl) shapeCasts_S1_S1x1 := rfl

/-- Inserting lane `k` into row index `r` gives `(r, k)`; -/
theorem lift_row3 (r : Fin 2000) (k : Fin 384) : reduces_S2000x384_S2000.lift (ix1 r) k = ix2 r k := by
  funext a
  match a with
  | ⟨0, _⟩ => rfl
  | ⟨1, _⟩ => rfl

/-- and inserting row `r` into the one reduced index gives `(r, 0)`. -/
theorem lift_col3 (r : Fin 2000) : reduces_S2000x1_S1.lift (ix1 (0 : Fin 1)) r = ix2 r (0 : Fin 1) := by
  funext a
  match a with
  | ⟨0, _⟩ => rfl
  | ⟨1, _⟩ => rfl

/-! ## The value at the ideal instance -/

section AtIdeal
open scoped BigOperators

/-- The sign constant: the printed word's value. -/
abbrev σ3 : EReal := Ideal.ofBits .f32 0xBF800000#32

/-- The printed softplus of an extended real. -/
abbrev sp3 : EReal → EReal := softplusF (F := Ideal)

theorem prod3_apply (za zb : Vec Ideal S2000x384 .f32) (pw : Vec Ideal S1x384 .f32) (r : Fin 2000) (k : Fin 384) :
    prod3 (F := Ideal) za zb pw (ix2 r k) = za (ix2 r k) * zb (ix2 r k) * pw (ix2 0 k) := by
  unfold prod3
  rw [mulf_apply, mulf_apply, shapeCast_self, shapeCast_self, broadcastTo_1b_ab_apply, shapeCast_self]

/-- Row `r`'s logit: `∑ₖ za·zb·pw + pb`. -/
theorem logit3_apply (za zb : Vec Ideal S2000x384 .f32) (pw : Vec Ideal S1x384 .f32) (pb : Vec Ideal S1x1 .f32) (r : Fin 2000) :
    logit3 (F := Ideal) za zb pw pb (ix2 r 0)
      = (∑ k : Fin 384, za (ix2 r k) * zb (ix2 r k) * pw (ix2 0 k)) + pb (ix2 0 0) := by
  unfold logit3
  rw [addf_apply, broadcast_apply]
  refine congrArg₂ (· + ·) ?_ ?_
  · refine (shapeCast_apply _ _ (ix2 r (0 : Fin 1)) (ix1 r) (by
      rw [Shape.rowMajor_val_two, Shape.rowMajor_val_one]
      show r.val = r.val * 1 + 0
      omega)).trans ?_
    refine (Ideal.multiReduction_add_single _ _ reduces_S2000x384_S2000 (.inl rfl) rfl (ix1 r)).trans ?_
    refine Finset.sum_congr rfl fun (k : Fin 384) _ => ?_
    exact (congrArg (prod3 (F := Ideal) za zb pw) (lift_row3 r k)).trans (prod3_apply za zb pw r k)
  · show pb _ = pb _
    congr 1
    funext a
    match a with
    | ⟨0, _⟩ => rfl
    | ⟨1, _⟩ => rfl

/-- THE PARTIAL SUM at the ideal values: over the block's 2000 rows, the softplus of the signed logit. -/
theorem partial3_apply (za zb : Vec Ideal S2000x384 .f32) (pw : Vec Ideal S1x384 .f32) (pb : Vec Ideal S1x1 .f32) :
    partial3 (F := Ideal) za zb pw pb (ix2 0 0)
      = ∑ r : Fin 2000, sp3 (σ3 * ((∑ k : Fin 384, za (ix2 r k) * zb (ix2 r k) * pw (ix2 0 k)) + pb (ix2 0 0))) := by
  rw [partial3_eq]
  refine (shapeCast_a_1a_apply _ _ (0 : Fin 1) (0 : Fin 1)).trans ?_
  refine (Ideal.multiReduction_add_single _ _ reduces_S2000x1_S1 (.inl rfl) rfl (ix1 0)).trans ?_
  refine Finset.sum_congr rfl fun (r : Fin 2000) _ => ?_
  refine (congrArg (fun i => softplusF (F := Ideal) (sgn3 za zb pw pb i)) (lift_col3 r)).trans ?_
  show sp3 (σ3 * logit3 (F := Ideal) za zb pw pb (ix2 r 0)) = _
  exact congrArg (fun y => sp3 (σ3 * y)) (logit3_apply za zb pw pb r)

variable (VI : (c : Dev nD) → (b : Ref sig .tc) → Buf (Elt Ideal) ((c : Thread nD τ).loc b))

/-- The accumulation after point `n` is the sum of the partial sums of points `0..n`: the zero block is the extended
    real 0, and the additions re-associate. -/
theorem acc3_range (c : Dev nD) : ∀ n : ℕ,
    acc3 (F := Ideal) VI c n (ix2 0 0) = ∑ t ∈ Finset.range (n + 1), part3 VI c (pt3 t) (ix2 0 0)
  | 0 => by
    show Ideal.ofBits .f32 0x00000000#32 + part3 VI c (pt3 0) (ix2 0 0) = _
    rw [Finset.sum_range_one, Ideal.ofBits_zero_f32, zero_add]
  | n + 1 => by
    show acc3 VI c n (ix2 0 0) + part3 VI c (pt3 (n + 1)) (ix2 0 0) = _
    rw [acc3_range c n, Finset.sum_range_succ _ (n + 1)]

/-- THE ACCUMULATED VALUE: after the last point, the sum over the 50 points of their partial sums. -/
theorem acc3_eq (c : Dev nD) :
    acc3 (F := Ideal) VI c 49 (ix2 0 0) = ∑ t : Fin 50, part3 VI c (pt3 t.val) (ix2 0 0) :=
  (acc3_range VI c 49).trans (Finset.sum_range fun t => part3 VI c (pt3 t) (ix2 0 0))

end AtIdeal

end Cert.KernelIdeal.Hand

end
-- ==== Proof.KI.Pred4Body.lean ====
import proofs.«150805_j37804302139719_1_alg».proof.Proof.Gen.KernelIdeal.Launch
import proofs.«150805_j37804302139719_1_alg».proof.Proof.Gen.KernelIdeal.Skeleton
import proofs.«150805_j37804302139719_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The predictor body of region 4: its branch condition and its two runs

The body resets the one-element output block when the grid coordinate is 0, then adds the point's partial sum
to what the block holds. Two control cases: the first point (the reset is taken) and every later point. -/

/-- The condition of the body's conditional, from the grid coordinate: `i = 0`, as the printed scalar chain. -/
abbrev cond4_0 (i : grid4.Coords) : Prop :=
  (Scalar.cmpi .ne (Scalar.extui (Scalar.cmpi .eq (BitVec.ofNat 32 (i 0).val) 0#32)) 0#32) = 1#1

/-- It holds at the first of the 50 points only: decided over the grid. -/
theorem hcond4_0 : ∀ t : Fin cfg4.N, cond4_0 (grid4.coords t) ↔ t.val % 50 = 0 :=
  (by decide +kernel : ∀ t : Fin grid4.N, cond4_0 (grid4.coords t) ↔ t.val % 50 = 0)

set_option maxHeartbeats 2000000 in
/-- THE FIRST POINT. On whole staging memrefs, the four inputs' at their contents and the output's at anything, the body
    runs to the continuation holding the inputs' as they were and the output's with the body's stores written, as
    pieces (last first) the run finds: the reset's zero block, then the sum over it. -/
noncomputable def kernelRun4_A (c : Dev nD) (i : grid4.Coords)
    (arg1 : Memref sig .tc .vmem S2000x384 .f32) (harg1 : arg1.IsWhole)
    (arg2 : Memref sig .tc .vmem S2000x384 .f32) (harg2 : arg2.IsWhole)
    (arg3 : Memref sig .tc .vmem S1x384 .f32) (harg3 : arg3.IsWhole)
    (arg4 : Memref sig .tc .vmem S1x1 .f32) (harg4 : arg4.IsWhole)
    (arg5 : Memref sig .tc .vmem S1x1 .f32) (harg5 : arg5.IsWhole) (hc0 : cond4_0 i)
    (x0 x1 : Vec F S2000x384 .f32) (x2 : Vec F S1x384 .f32) (x3 : Vec F S1x1 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E
              (cc4__predictor_kernel i arg1 harg1 arg2 harg2 arg3 harg3 arg4 harg4 arg5 harg5) K } := by
  refine ⟨?_, fun E K => ?run⟩
  case run =>
    simp only [cc4__predictor_kernel_eq_skeleton]; unfold cc4__predictor_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1
    obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

set_option maxHeartbeats 2000000 in
/-- EVERY LATER POINT. The same with the output's staging memref at the running contents `xo` (the reset is not
    taken): the one store of the sum over `xo`. -/
noncomputable def kernelRun4_B (c : Dev nD) (i : grid4.Coords)
    (arg1 : Memref sig .tc .vmem S2000x384 .f32) (harg1 : arg1.IsWhole)
    (arg2 : Memref sig .tc .vmem S2000x384 .f32) (harg2 : arg2.IsWhole)
    (arg3 : Memref sig .tc .vmem S1x384 .f32) (harg3 : arg3.IsWhole)
    (arg4 : Memref sig .tc .vmem S1x1 .f32) (harg4 : arg4.IsWhole)
    (arg5 : Memref sig .tc .vmem S1x1 .f32) (harg5 : arg5.IsWhole) (hc0 : ¬cond4_0 i)
    (x0 x1 : Vec F S2000x384 .f32) (x2 : Vec F S1x384 .f32) (x3 : Vec F S1x1 .f32) (xo : Vec F S1x1 .f32) :
    { L4 : List (View.Piece (Elt F) S1x1 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare xo
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L4)) -∗ K ⟨⟩))
          ⊢ wp frame (wpE (defs₀ (F := F)) Variants.none c none) E
              (cc4__predictor_kernel i arg1 harg1 arg2 harg2 arg3 harg3 arg4 harg4 arg5 harg5) K } := by
  refine ⟨?_, fun E K => ?run⟩
  case run =>
    simp only [cc4__predictor_kernel_eq_skeleton]; unfold cc4__predictor_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1
    obtain rfl := harg3.eq_unread hf2; obtain rfl := harg4.eq_unread hf3
    obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

end Cert.KernelIdeal.Hand

end
-- ==== Proof.KI.Pred4.lean ====
import proofs.«150805_j37804302139719_1_alg».proof.Proof.Gen.KernelIdeal.Launch
import proofs.«150805_j37804302139719_1_alg».proof.Proof.Gen.KernelIdeal.Skeleton
import proofs.«150805_j37804302139719_1_alg».proof.Proof.Gen.KernelIdeal.Points
import proofs.«150805_j37804302139719_1_alg».proof.Proof.KI.Pred4Body
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the predictor's accumulated output

One-element output block `[1,1]` at block (0,0) at every one of the 50 grid points: an accumulator. After point `t` it
holds the zero block plus the partial sums of points `0..t`, added in point order; the region writes it back once,
after the last point. Everything is stated at a parameter `V`: the buffers' contents when the region is entered. -/

theorem hz4 : (![0, 0] : Fin 2 → Nat) = fun _ => 0 := funext fun a => by fin_cases a <;> rfl

/-- The zero block the first point stores: a broadcast of `+0.0`. -/
abbrev zero4 : Vec F S1x1 .f32 := broadcast S1x1 (Scalar.ofBits .f32 0x00000000#32)

/-- ONE POINT'S PARTIAL SUM, from the point's two `[2000,384]` blocks, the weight row and the bias: per row the
    logit `∑ₖ za·zb·pw + pb`, scaled by the sign constant, through the printed softplus; then summed over the rows. -/
def partial4 (za zb : Vec F S2000x384 .f32) (pw : Vec F S1x384 .f32) (pb : Vec F S1x1 .f32) : Vec F S1x1 .f32 :=
  have v4 : FVec F S2000x384 .f32 := shapeCast S2000x384 za shapeCasts_S2000x384_S2000x384
  have v6 : FVec F S2000x384 .f32 := shapeCast S2000x384 zb shapeCasts_S2000x384_S2000x384
  have v7 : FVec F S2000x384 .f32 := mulf v4 v6
  have v9 : FVec F S1x384 .f32 := shapeCast S1x384 pw shapeCasts_S1x384_S1x384
  have v10 : FVec F S2000x384 .f32 := broadcastTo S2000x384 v9 broadcasts_S1x384_S2000x384
  have v11 : FVec F S2000x384 .f32 := mulf v7 v10
  have v12 : FVec F S2000 .f32 := multiReduction .add [1] S2000 v11 0x00000000#32 reduces_S2000x384_S2000 (.inl rfl) rfl
  have v13 : FVec F S2000x1 .f32 := shapeCast S2000x1 v12 shapeCasts_S2000_S2000x1
  have v15 : F .f32 := extractAt ![0, 0] pb inpos_S1x1_p0_0
  have v16 : FVec F S2000x1 .f32 := broadcast S2000x1 v15
  have v17 : FVec F S2000x1 .f32 := addf v13 v16
  have cst_8 : F .f32 := Scalar.ofBits .f32 0x3F800000#32
  have v18 : FVec F S2000x1 .f32 := broadcast S2000x1 cst_8
  have v19 : FVec F S2000x1 .f32 := mulf v18 v17
  have cst_9 : F .f32 := Scalar.ofBits .f32 0x00000000#32
  have v20 : FVec F S2000x1 .f32 := broadcast S2000x1 cst_9
  have v21 : FVec F S2000x1 .f32 := maximumf v19 v20
  have v22 : FVec F S2000x1 .f32 := broadcast S2000x1 cst_9
  have v23 : FVec F S2000x1 .f32 := subf v19 v22
  have v24 : IVec S2000x1 1 := cmpf .one v23 v23
  have v25 : FVec F S2000x1 .f32 := broadcast S2000x1 cst_9
  have v26 : FVec F S2000x1 .f32 := addf v19 v25
  have v27 : FVec F S2000x1 .f32 := absf v23
  have cst_10 : F .f32 := Scalar.ofBits .f32 0x00000000#32
  have v28 : FVec F S2000x1 .f32 := broadcast S2000x1 cst_10
  have v29 : FVec F S2000x1 .f32 := subf v28 v27
  have v30 : FVec F S2000x1 .f32 := exp v29
  have v31 : FVec F S2000x1 .f32 := log1p v30
  have v32 : FVec F S2000x1 .f32 := addf v21 v31
  have v33 : FVec F S2000x1 .f32 := select v24 v26 v32
  have v34 : FVec F S1 .f32 := multiReduction .add [0] S1 v33 0x00000000#32 reduces_S2000x1_S1 (.inl rfl) rfl
  have v35 : FVec F S1x1 .f32 := shapeCast S1x1 v34 shapeCasts_S1_S1x1
  v35

/-- The body's stored payload is the block it read plus the point's partial sum. -/
theorem pay2_eq4 (za zb : Vec F S2000x384 .f32) (pw : Vec F S1x384 .f32) (pb xo : Vec F S1x1 .f32) :
    k4_pay2 za zb pw pb xo = addf xo (partial4 za zb pw pb) := by
  show addf (shapeCast S1x1 xo shapeCasts_S1x1_S1x1) (partial4 za zb pw pb) = _
  rw [shapeCast_self]

section Region
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is the entry contents and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data
    whose array is the entry contents and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## What each control case leaves in the output's staging buffer -/

/-- One staging buffer of the output window, through which its contents are stated (the choice does not matter). -/
abbrev VO4_4 : View sig .tc .vmem S1x1 .f32 := (Memref.whole cc4_stg4_0 : Memref sig .tc .vmem S1x1 .f32).view

/-- The first point's stores cover the one-element block. -/
theorem cover4_A (c : Dev nD) (i : grid4.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : cond4_0 i)
    (x0 x1 : Vec F S2000x384 .f32) (x2 : Vec F S1x384 .f32) (x3 : Vec F S1x1 .f32) (y : S1x1.Idx) :
    ∃ pc ∈ (kernelRun4_A c i a1 h1 a2 h2 a3 h3 a4 h4 a5 h5 hc x0 x1 x2 x3).1, y ∈ pc.1.set :=
  View.cover_of_tiledL (kernelRun4_A c i a1 h1 a2 h2 a3 h3 a4 h4 a5 h5 hc x0 x1 x2 x3).1 S1x1.size (by sl_kernel_rfl) y

/-- What the first point leaves in the output's staging buffer: its pieces read back. -/
def out4_A (c : Dev nD) (i : grid4.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : cond4_0 i)
    (x0 x1 : Vec F S2000x384 .f32) (x2 : Vec F S1x384 .f32) (x3 : Vec F S1x1 .f32) : Vec F S1x1 .f32 :=
  VO4_4.read (Elt F) (VO4_4.writes (Elt F) VO4_4.junk (kernelRun4_A c i a1 h1 a2 h2 a3 h3 a4 h4 a5 h5 hc x0 x1 x2 x3).1)

/-- A later point's one store covers the block. -/
theorem cover4_B (c : Dev nD) (i : grid4.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : ¬cond4_0 i)
    (x0 x1 : Vec F S2000x384 .f32) (x2 : Vec F S1x384 .f32) (x3 xo : Vec F S1x1 .f32) (y : S1x1.Idx) :
    ∃ pc ∈ (kernelRun4_B c i a1 h1 a2 h2 a3 h3 a4 h4 a5 h5 hc x0 x1 x2 x3 xo).1, y ∈ pc.1.set :=
  View.cover_of_tiledL (kernelRun4_B c i a1 h1 a2 h2 a3 h3 a4 h4 a5 h5 hc x0 x1 x2 x3 xo).1 S1x1.size (by sl_kernel_rfl) y

/-- What a later point leaves in the output's staging buffer that held `xo`. -/
def out4_B (c : Dev nD) (i : grid4.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : ¬cond4_0 i)
    (x0 x1 : Vec F S2000x384 .f32) (x2 : Vec F S1x384 .f32) (x3 xo : Vec F S1x1 .f32) : Vec F S1x1 .f32 :=
  VO4_4.read (Elt F) (VO4_4.writes (Elt F) VO4_4.junk (kernelRun4_B c i a1 h1 a2 h2 a3 h3 a4 h4 a5 h5 hc x0 x1 x2 x3 xo).1)

/-- A later point leaves `xo` plus the point's partial sum: its one covering store's payload, whose loads read the
    whole buffers. -/
theorem out4_B_eq (c : Dev nD) (i : grid4.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : ¬cond4_0 i)
    (x0 x1 : Vec F S2000x384 .f32) (x2 : Vec F S1x384 .f32) (x3 xo : Vec F S1x1 .f32) :
    out4_B c i a1 h1 a2 h2 a3 h3 a4 h4 a5 h5 hc x0 x1 x2 x3 xo = addf xo (partial4 x0 x1 x2 x3) := by
  unfold out4_B
  rw [View.read_writes_eq_canon _ _ _ (cover4_B c i a1 h1 a2 h2 a3 h3 a4 h4 a5 h5 hc x0 x1 x2 x3 xo)]
  unfold kernelRun4_B
  dsimp only
  sl_unfold_words
  rw [View.canon_unit_zero hz4]
  simp only [View.readAt_eq_ld, h1.read_unread, h2.read_unread, h3.read_unread, h4.read_unread, h5.read_unread,
    View.ld_unit_zero (S := S2000x384) hz4, View.ld_unit_zero (S := S1x384) hz4, View.ld_unit_zero (S := S1x1) hz4]
  exact pay2_eq4 x0 x1 x2 x3 xo

/-- The first point stores the zero block, reads it back, and leaves the zero block plus the point's partial sum. -/
theorem out4_A_eq (c : Dev nD) (i : grid4.Coords)
    (a1 : Memref sig .tc .vmem S2000x384 .f32) (h1 : a1.IsWhole) (a2 : Memref sig .tc .vmem S2000x384 .f32) (h2 : a2.IsWhole)
    (a3 : Memref sig .tc .vmem S1x384 .f32) (h3 : a3.IsWhole) (a4 : Memref sig .tc .vmem S1x1 .f32) (h4 : a4.IsWhole)
    (a5 : Memref sig .tc .vmem S1x1 .f32) (h5 : a5.IsWhole) (hc : cond4_0 i)
    (x0 x1 : Vec F S2000x384 .f32) (x2 : Vec F S1x384 .f32) (x3 : Vec F S1x1 .f32) :
    out4_A c i a1 h1 a2 h2 a3 h3 a4 h4 a5 h5 hc x0 x1 x2 x3 = addf zero4 (partial4 x0 x1 x2 x3) := by
  unfold out4_A
  rw [View.read_writes_eq_canon _ _ _ (cover4_A c i a1 h1 a2 h2 a3 h3 a4 h4 a5 h5 hc x0 x1 x2 x3)]
  unfold kernelRun4_A
  dsimp only
  sl_unfold_words
  rw [View.canon_cons_unit_zero (S := S1x1) hz4]
  rw [View.readCov_unit_zero (S := S1x1) _ hz4]
  simp only [View.readAt_eq_ld, h1.read_unread, h2.read_unread, h3.read_unread, h4.read_unread, h5.read_unread,
    View.ld_unit_zero (S := S2000x384) hz4, View.ld_unit_zero (S := S1x384) hz4, View.ld_unit_zero (S := S1x1) hz4]
  exact pay2_eq4 x0 x1 x2 x3 k4_pay1

/-! ## What the output block holds after each point -/

/-- Position `n` of the grid as one of its 50 points (positions past the grid wrap; only `n < 50` is read). -/
def pt4 (n : ℕ) : Fin cfg4.N := ⟨n % 50, lt_of_lt_of_eq (Nat.mod_lt n (by decide)) N_4.symm⟩

theorem pt4_val (t : Fin cfg4.N) : pt4 t.val = t :=
  Fin.ext (Nat.mod_eq_of_lt (lt_of_lt_of_eq t.isLt N_4))

/-- The point's partial sum over the windows' blocks at point `t`. -/
def part4 (c : Dev nD) (t : Fin cfg4.N) : Vec F S1x1 .f32 :=
  partial4 (iblk4 V c 0 t) (iblk4 V c 1 t) (iblk4 V c 2 t) (iblk4 V c 3 t)

/-- THE ACCUMULATION: what the output's staging buffer holds after point `n` — the zero block plus point 0's partial
    sum, then each later point's added to what the point before left. -/
def acc4 (c : Dev nD) : ℕ → Vec F S1x1 .f32
  | 0 => addf zero4 (part4 V c (pt4 0))
  | n + 1 => addf (acc4 c n) (part4 V c (pt4 (n + 1)))

theorem acc4_first (c : Dev nD) (t : Fin cfg4.N) (h0 : t.val % 50 = 0) :
    acc4 V c t.val = addf zero4 (part4 V c t) := by
  have hN : t.val < 50 := lt_of_lt_of_eq t.isLt N_4
  have ht : t.val = 0 := by omega
  have e : pt4 0 = t := by rw [← ht]; exact pt4_val t
  rw [ht]; show addf zero4 (part4 V c (pt4 0)) = _; rw [e]

theorem acc4_later (c : Dev nD) (t : Fin cfg4.N) (h0 : ¬t.val % 50 = 0) :
    acc4 V c t.val = addf (acc4 V c (t.val - 1)) (part4 V c t) := by
  have hN : t.val < 50 := lt_of_lt_of_eq t.isLt N_4
  obtain ⟨n, hn⟩ : ∃ n, t.val = n + 1 := ⟨t.val - 1, by omega⟩
  have e : pt4 (n + 1) = t := by rw [← hn]; exact pt4_val t
  rw [hn]; show addf (acc4 V c n) (part4 V c (pt4 (n + 1))) = _; rw [e]; rfl

/-! ## The pipeline's proof data -/

/-- The proof data of the region's pipeline on core `c`: the arrays as the region finds them; after the body at point
    `t` each input's buffer at its block and the output's at the accumulation; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => acc4 V c t.val
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = acc4 V c t.val := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- At a later point the output's staging buffer holds what the body left at the point before: the point is not the
    first, the buffer was not written back between (only the last point is), the window is live and uncut. -/
theorem before4_4_later (c : Dev nD) (t : Fin cfg4.N) (h0 : ¬t.val % 50 = 0) (d) :
    (dat4 V c).before 4 t d = acc4 V c (t.val - 1) := by
  have hN : t.val < 50 := lt_of_lt_of_eq t.isLt N_4
  rw [Dat.before_out_kept _ 4 rfl t (by omega) (Bool.eq_false_iff.mpr fun h => by have := (flush4_4 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

set_option maxHeartbeats 1600000 in
/-- The body at any point: the inputs' memrefs hold their blocks; the closed form says which control case the point is
    in; at a later point the output's memref holds what the point before left; so that case's run applies, and what it
    leaves is the accumulation at `t`. The invariant and the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  by_cases h0 : t.val % 50 = 0
  · have e : addf zero4 (part4 V c t)
        = out4_A c (grid4.coords t) (st4_0 t) (hstage4_0 ((cfg4.slots t 0).cast nbuf4_0)) (st4_1 t) (hstage4_1 ((cfg4.slots t 1).cast nbuf4_1))
          (st4_2 t) (hstage4_2 ((cfg4.slots t 2).cast nbuf4_2)) (st4_3 t) (hstage4_3 ((cfg4.slots t 3).cast nbuf4_3)) (st4_4 t) (hstage4_4 ((cfg4.slots t 4).cast nbuf4_4))
          ((hcond4_0 t).mpr h0) (iblk4 V c 0 t) (iblk4 V c 1 t) (iblk4 V c 2 t) (iblk4 V c 3 t) :=
      (out4_A_eq c _ _ _ _ _ _ _ _ _ _ _ _ _ _ _ _).symm
    rw [acc4_first V c t h0, e]
    unfold out4_A
    iintro ⟨HΦ, Ho, ⟨%d0, H0⟩, ⟨%d1, H1⟩, ⟨%d2, H2⟩, ⟨%d3, H3⟩, ⟨%d4, H4⟩⟩
    iapply ((kernelRun4_A c (grid4.coords t) _ _ _ _ _ _ _ _ _ _ ((hcond4_0 t).mpr h0)
      (iblk4 V c 0 t) (iblk4 V c 1 t) (iblk4 V c 2 t) (iblk4 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover4_A c _ _ _ _ _ _ _ _ _ _ _ _ _ _ _ _)
  · have e : addf (acc4 V c (t.val - 1)) (part4 V c t)
        = out4_B c (grid4.coords t) (st4_0 t) (hstage4_0 ((cfg4.slots t 0).cast nbuf4_0)) (st4_1 t) (hstage4_1 ((cfg4.slots t 1).cast nbuf4_1))
          (st4_2 t) (hstage4_2 ((cfg4.slots t 2).cast nbuf4_2)) (st4_3 t) (hstage4_3 ((cfg4.slots t 3).cast nbuf4_3)) (st4_4 t) (hstage4_4 ((cfg4.slots t 4).cast nbuf4_4))
          (fun h => h0 ((hcond4_0 t).mp h)) (iblk4 V c 0 t) (iblk4 V c 1 t) (iblk4 V c 2 t) (iblk4 V c 3 t) (acc4 V c (t.val - 1)) :=
      (out4_B_eq c _ _ _ _ _ _ _ _ _ _ _ _ _ _ _ _ _).symm
    rw [acc4_later V c t h0, e]
    simp only [before4_4_later V c t h0]
    unfold out4_B
    iintro ⟨HΦ, Ho, ⟨%d0, H0⟩, ⟨%d1, H1⟩, ⟨%d2, H2⟩, ⟨%d3, H3⟩, ⟨%d4, H4⟩⟩
    iapply ((kernelRun4_B c (grid4.coords t) _ _ _ _ _ _ _ _ _ _ (fun h => h0 ((hcond4_0 t).mp h))
      (iblk4 V c 0 t) (iblk4 V c 1 t) (iblk4 V c 2 t) (iblk4 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover4_B c _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region

end Cert.KernelIdeal.Hand

end
-- ==== Proof.KI.Pred4Final.lean ====
import proofs.«150805_j37804302139719_1_alg».proof.Proof.KI.Pred4
import proofs.«150805_j37804302139719_1_alg».proof.Proof.KI.Softplus
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-! # Region 4: what its arrays hold when it ends, and the accumulated value

The output array `[1,1]` is written back once, after the last point, with the accumulation there; the four input
arrays are as the region found them. At the ideal values the accumulation is the sum over the 50 points of the
points' partial sums, and a partial sum is the sum over the block's 2000 rows of the softplus of the signed logit. -/

section Region
variable (V : (c : Dev nD) → (b : Ref sig .tc) → Buf (Elt F) ((c : Thread nD τ).loc b))

/-- The last of the 50 points. -/
def tl4 : Fin cfg4.N := ⟨49, lt_of_lt_of_eq (by decide) N_4.symm⟩

/-- The one write-back, at the last point, writes the accumulation there: block (0, 0) of the `[1,1]` array read
    through zero offsets is the array. -/
theorem flushed_eq4 (c : Dev nD) (t : Fin cfg4.N) (hf : (cfg4.win 4).flush t = true) :
    (dat4 V c).flushed 4 t = ((cfg4.win 4).blk t).view.read (Elt F) (acc4 V c 49 : Buf (Elt F) ((c : Thread nD τ).loc main_v132)) := by
  have hN : t.val < 50 := lt_of_lt_of_eq t.isLt N_4
  have h49 : t.val = 49 := by have := (flush4_4 t).mp hf; omega
  obtain rfl : t = tl4 := Fin.ext h49
  show (cfg4.win 4).cut (grid4.coords tl4) ((dat4 V c).after 4 tl4) = _
  rw [after4_4]
  have hz' : (fun a => win4_4.index tl4 a * main_v132.ty.shape.size a) = fun _ => 0 := funext fun a => by fin_cases a <;> decide
  exact (Memref.read_access_unit_zero (Elt F) main_v132 hz' (fun a => by rw [congrFun hz' a]; simp) (acc4 V c 49)).symm

/-- So the output array ends holding the accumulation after the last point. -/
theorem final4 (c : Dev nD) : (dat4 V c).arrAt 4 cfg4.N = acc4 V c 49 :=
  (dat4 V c).arrAt_eq_of_cover 4 (acc4 V c 49) (flushed_eq4 V c) fun i =>
    ⟨tl4, (flush4_4 tl4).mpr rfl, by
      show i ∈ ((View.whole main_v132).slice (win4_4.rect tl4)).set
      rw [View.set_slice_whole, Rect.mem_set_unit]
      intro a
      have h0 : (i 0 : Nat) < 1 := (i 0).isLt
      have h1 : (i 1 : Nat) < 1 := (i 1).isLt
      match a with
      | ⟨0, _⟩ => show win4_4.index tl4 0 * win4_4.size 0 ≤ (i 0 : Nat) ∧ (i 0 : Nat) < win4_4.index tl4 0 * win4_4.size 0 + win4_4.xsize (grid4.coords tl4) 0
                  rw [show win4_4.index tl4 0 * win4_4.size 0 = 0 from by decide +kernel, show win4_4.xsize (grid4.coords tl4) 0 = 1 from by decide +kernel]; omega
      | ⟨1, _⟩ => show win4_4.index tl4 1 * win4_4.size 1 ≤ (i 1 : Nat) ∧ (i 1 : Nat) < win4_4.index tl4 1 * win4_4.size 1 + win4_4.xsize (grid4.coords tl4) 1
                  rw [show win4_4.index tl4 1 * win4_4.size 1 = 0 from by decide +kernel, show win4_4.xsize (grid4.coords tl4) 1 = 1 from by decide +kernel]; omega⟩

/-- The four input arrays end as the region found them. -/
theorem arr4_0 (c : Dev nD) : (dat4 V c).arrAt 0 cfg4.N = V c (Pipeline.arrRef spec4 0) :=
  ((dat4 V c).arrAt_in 0 rfl _).trans (A_eq4 V c 0)
theorem arr4_1 (c : Dev nD) : (dat4 V c).arrAt 1 cfg4.N = V c (Pipeline.arrRef spec4 1) :=
  ((dat4 V c).arrAt_in 1 rfl _).trans (A_eq4 V c 1)
theorem arr4_2 (c : Dev nD) : (dat4 V c).arrAt 2 cfg4.N = V c (Pipeline.arrRef spec4 2) :=
  ((dat4 V c).arrAt_in 2 rfl _).trans (A_eq4 V c 2)
theorem arr4_3 (c : Dev nD) : (dat4 V c).arrAt 3 cfg4.N = V c (Pipeline.arrRef spec4 3) :=
  ((dat4 V c).arrAt_in 3 rfl _).trans (A_eq4 V c 3)

/-! ## The input blocks, read at an index of their arrays -/

/-- The two row-block windows' block index at point `t` is `(t, 0)`; the weight row's and the bias's is `(0, 0)`. -/
theorem index4_0 : ∀ t : Fin cfg4.N, win4_0.index t 0 = t.val ∧ win4_0.index t 1 = 0 :=
  (by decide +kernel : ∀ t : Fin grid4.N, win4_0.index t 0 = t.val ∧ win4_0.index t 1 = 0)
theorem index4_1 : ∀ t : Fin cfg4.N, win4_1.index t 0 = t.val ∧ win4_1.index t 1 = 0 :=
  (by decide +kernel : ∀ t : Fin grid4.N, win4_1.index t 0 = t.val ∧ win4_1.index t 1 = 0)
theorem index4_2 : ∀ t : Fin cfg4.N, win4_2.index t 0 = 0 ∧ win4_2.index t 1 = 0 :=
  (by decide +kernel : ∀ t : Fin grid4.N, win4_2.index t 0 = 0 ∧ win4_2.index t 1 = 0)
theorem index4_3 : ∀ t : Fin cfg4.N, win4_3.index t 0 = 0 ∧ win4_3.index t 1 = 0 :=
  (by decide +kernel : ∀ t : Fin grid4.N, win4_3.index t 0 = 0 ∧ win4_3.index t 1 = 0)

/-- Row `r`, lane `k` of the first operand's block at point `t` is row `2000 t + r` of its array. -/
theorem iblk4_0_apply (c : Dev nD) (t : Fin cfg4.N) (r : Fin 2000) (k : Fin 384) :
    iblk4 V c 0 t (ix2 r k) = (V c (Pipeline.arrRef spec4 0) : FVec F S100000x384 .f32)
      (ix2 ⟨2000 * t.val + r.val, by have := lt_of_lt_of_eq t.isLt N_4; have := r.isLt; omega⟩ k) := by
  have hi := index4_0 t
  unfold iblk4
  rw [View.read_apply]
  show V c main_v120 _ = V c main_v120 _
  congr 1
  funext a
  apply Fin.ext
  match a with
  | ⟨0, _⟩ => show win4_0.index t 0 * 2000 + 1 * r.val = 2000 * t.val + r.val; rw [hi.1]; omega
  | ⟨1, _⟩ => show win4_0.index t 1 * 384 + 1 * k.val = k.val; rw [hi.2]; omega

/-- The second operand's likewise. -/
theorem iblk4_1_apply (c : Dev nD) (t : Fin cfg4.N) (r : Fin 2000) (k : Fin 384) :
    iblk4 V c 1 t (ix2 r k) = (V c (Pipeline.arrRef spec4 1) : FVec F S100000x384 .f32)
      (ix2 ⟨2000 * t.val + r.val, by have := lt_of_lt_of_eq t.isLt N_4; have := r.isLt; omega⟩ k) := by
  have hi := index4_1 t
  unfold iblk4
  rw [View.read_apply]
  show V c main_v129 _ = V c main_v129 _
  congr 1
  funext a
  apply Fin.ext
  match a with
  | ⟨0, _⟩ => show win4_1.index t 0 * 2000 + 1 * r.val = 2000 * t.val + r.val; rw [hi.1]; omega
  | ⟨1, _⟩ => show win4_1.index t 1 * 384 + 1 * k.val = k.val; rw [hi.2]; omega

/-- The weight row's block is the whole `[1,384]` array at every point. -/
theorem iblk4_2_apply (c : Dev nD) (t : Fin cfg4.N) (k : Fin 384) :
    iblk4 V c 2 t (ix2 0 k) = (V c (Pipeline.arrRef spec4 2) : FVec F S1x384 .f32) (ix2 0 k) := by
  have hi := index4_2 t
  unfold iblk4
  rw [View.read_apply]
  show V c main_v92 _ = V c main_v92 _
  congr 1
  funext a
  apply Fin.ext
  match a with
  | ⟨0, _⟩ => show win4_2.index t 0 * 1 + 1 * 0 = 0; rw [hi.1]
  | ⟨1, _⟩ => show win4_2.index t 1 * 384 + 1 * k.val = k.val; rw [hi.2]; omega

/-- The bias's block is the whole `[1,1]` array at every point. -/
theorem iblk4_3_apply (c : Dev nD) (t : Fin cfg4.N) :
    iblk4 V c 3 t (ix2 0 0) = (V c (Pipeline.arrRef spec4 3) : FVec F S1x1 .f32) (ix2 0 0) := by
  have hi := index4_3 t
  unfold iblk4
  rw [View.read_apply]
  show V c main_v93 _ = V c main_v93 _
  congr 1
  funext a
  apply Fin.ext
  match a with
  | ⟨0, _⟩ => show win4_3.index t 0 * 1 + 1 * 0 = 0; rw [hi.1]
  | ⟨1, _⟩ => show win4_3.index t 1 * 1 + 1 * 0 = 0; rw [hi.2]

end Region

/-! ## The point's partial sum, stage by stage -/

/-- The elementwise product `za · zb · pw` (the weight row broadcast over the rows). -/
def prod4 (za zb : Vec F S2000x384 .f32) (pw : Vec F S1x384 .f32) : FVec F S2000x384 .f32 :=
  mulf (mulf (shapeCast S2000x384 za shapeCasts_S2000x384_S2000x384) (shapeCast S2000x384 zb shapeCasts_S2000x384_S2000x384))
    (broadcastTo S2000x384 (shapeCast S1x384 pw shapeCasts_S1x384_S1x384) broadcasts_S1x384_S2000x384)

/-- The rows' logits: the product summed along the lanes, plus the bias. -/
def logit4 (za zb : Vec F S2000x384 .f32) (pw : Vec F S1x384 .f32) (pb : Vec F S1x1 .f32) : FVec F S2000x1 .f32 :=
  addf (shapeCast S2000x1 (multiReduction .add [1] S2000 (prod4 za zb pw) 0x00000000#32 reduces_S2000x384_S2000 (.inl rfl) rfl) shapeCasts_S2000_S2000x1)
    (broadcast S2000x1 (extractAt ![0, 0] pb inpos_S1x1_p0_0))

/-- The logits scaled by the sign constant. -/
def sgn4 (za zb : Vec F S2000x384 .f32) (pw : Vec F S1x384 .f32) (pb : Vec F S1x1 .f32) : FVec F S2000x1 .f32 :=
  mulf (broadcast S2000x1 (Scalar.ofBits .f32 0x3F800000#32)) (logit4 za zb pw pb)

/-- The partial sum is the rows' softplus of the signed logits, summed over the rows. -/
theorem partial4_eq (za zb : Vec F S2000x384 .f32) (pw : Vec F S1x384 .f32) (pb : Vec F S1x1 .f32) :
    partial4 za zb pw pb
      = shapeCast S1x1 (multiReduction .add [0] S1 (fun i => softplusF (sgn4 za zb pw pb i)) 0x00000000#32 reduces_S2000x1_S1 (.inl rfl) rfl) shapeCasts_S1_S1x1 := rfl

/-- Inserting lane `k` into row index `r` gives `(r, k)`; -/
theorem lift_row4 (r : Fin 2000) (k : Fin 384) : reduces_S2000x384_S2000.lift (ix1 r) k = ix2 r k := by
  funext a
  match a with
  | ⟨0, _⟩ => rfl
  | ⟨1, _⟩ => rfl

/-- and inserting row `r` into the one reduced index gives `(r, 0)`. -/
theorem lift_col4 (r : Fin 2000) : reduces_S2000x1_S1.lift (ix1 (0 : Fin 1)) r = ix2 r (0 : Fin 1) := by
  funext a
  match a with
  | ⟨0, _⟩ => rfl
  | ⟨1, _⟩ => rfl

/-! ## The value at the ideal instance -/

section AtIdeal
open scoped BigOperators

/-- The sign constant: the printed word's value. -/
abbrev σ4 : EReal := Ideal.ofBits .f32 0x3F800000#32

/-- The printed softplus of an extended real. -/
abbrev sp4 : EReal → EReal := softplusF (F := Ideal)

theorem prod4_apply (za zb : Vec Ideal S2000x384 .f32) (pw : Vec Ideal S1x384 .f32) (r : Fin 2000) (k : Fin 384) :
    prod4 (F := Ideal) za zb pw (ix2 r k) = za (ix2 r k) * zb (ix2 r k) * pw (ix2 0 k) := by
  unfold prod4
  rw [mulf_apply, mulf_apply, shapeCast_self, shapeCast_self, broadcastTo_1b_ab_apply, shapeCast_self]

/-- Row `r`'s logit: `∑ₖ za·zb·pw + pb`. -/
theorem logit4_apply (za zb : Vec Ideal S2000x384 .f32) (pw : Vec Ideal S1x384 .f32) (pb : Vec Ideal S1x1 .f32) (r : Fin 2000) :
    logit4 (F := Ideal) za zb pw pb (ix2 r 0)
      = (∑ k : Fin 384, za (ix2 r k) * zb (ix2 r k) * pw (ix2 0 k)) + pb (ix2 0 0) := by
  unfold logit4
  rw [addf_apply, broadcast_apply]
  refine congrArg₂ (· + ·) ?_ ?_
  · refine (shapeCast_apply _ _ (ix2 r (0 : Fin 1)) (ix1 r) (by
      rw [Shape.rowMajor_val_two, Shape.rowMajor_val_one]
      show r.val = r.val * 1 + 0
      omega)).trans ?_
    refine (Ideal.multiReduction_add_single _ _ reduces_S2000x384_S2000 (.inl rfl) rfl (ix1 r)).trans ?_
    refine Finset.sum_congr rfl fun (k : Fin 384) _ => ?_
    exact (congrArg (prod4 (F := Ideal) za zb pw) (lift_row4 r k)).trans (prod4_apply za zb pw r k)
  · show pb _ = pb _
    congr 1
    funext a
    match a with
    | ⟨0, _⟩ => rfl
    | ⟨1, _⟩ => rfl

/-- THE PARTIAL SUM at the ideal values: over the block's 2000 rows, the softplus of the signed logit. -/
theorem partial4_apply (za zb : Vec Ideal S2000x384 .f32) (pw : Vec Ideal S1x384 .f32) (pb : Vec Ideal S1x1 .f32) :
    partial4 (F := Ideal) za zb pw pb (ix2 0 0)
      = ∑ r : Fin 2000, sp4 (σ4 * ((∑ k : Fin 384, za (ix2 r k) * zb (ix2 r k) * pw (ix2 0 k)) + pb (ix2 0 0))) := by
  rw [partial4_eq]
  refine (shapeCast_a_1a_apply _ _ (0 : Fin 1) (0 : Fin 1)).trans ?_
  refine (Ideal.multiReduction_add_single _ _ reduces_S2000x1_S1 (.inl rfl) rfl (ix1 0)).trans ?_
  refine Finset.sum_congr rfl fun (r : Fin 2000) _ => ?_
  refine (congrArg (fun i => softplusF (F := Ideal) (sgn4 za zb pw pb i)) (lift_col4 r)).trans ?_
  show sp4 (σ4 * logit4 (F := Ideal) za zb pw pb (ix2 r 0)) = _
  exact congrArg (fun y => sp4 (σ4 * y)) (logit4_apply za zb pw pb r)

variable (VI : (c : Dev nD) → (b : Ref sig .tc) → Buf (Elt Ideal) ((c : Thread nD τ).loc b))

/-- The accumulation after point `n` is the sum of the partial sums of points `0..n`: the zero block is the extended
    real 0, and the additions re-associate. -/
theorem acc4_range (c : Dev nD) : ∀ n : ℕ,
    acc4 (F := Ideal) VI c n (ix2 0 0) = ∑ t ∈ Finset.range (n + 1), part4 VI c (pt4 t) (ix2 0 0)
  | 0 => by
    show Ideal.ofBits .f32 0x00000000#32 + part4 VI c (pt4 0) (ix2 0 0) = _
    rw [Finset.sum_range_one, Ideal.ofBits_zero_f32, zero_add]
  | n + 1 => by
    show acc4 VI c n (ix2 0 0) + part4 VI c (pt4 (n + 1)) (ix2 0 0) = _
    rw [acc4_range c n, Finset.sum_range_succ _ (n + 1)]

/-- THE ACCUMULATED VALUE: after the last point, the sum over the 50 points of their partial sums. -/
theorem acc4_eq (c : Dev nD) :
    acc4 (F := Ideal) VI c 49 (ix2 0 0) = ∑ t : Fin 50, part4 VI c (pt4 t.val) (ix2 0 0) :=
  (acc4_range VI c 49).trans (Finset.sum_range fun t => part4 VI c (pt4 t) (ix2 0 0))

end AtIdeal

end Cert.KernelIdeal.Hand

end
-- ==== Proof.KI.Bounds.lean ====
/- @main of the kernel program read as seventeen segments, twelve stretches of host operations and five kernel regions,
   with the contents of every unscoped buffer named at each of the eighteen boundaries: a fold from the launch memory in
   which a stretch applies its operations and a region replaces its windows' arrays by what its write-backs leave
   (an input window's array as found, the output window's array block by block). Every weakly fair execution ends with
   each unscoped buffer at the last boundary's contents; the eight argument arrays walk back through the fold to the
   launch memory, which is the frame; the result buffer is read at the last boundary. -/
import proofs.«150805_j37804302139719_1_alg».proof.Proof.Gen.KernelIdeal.Regions
import proofs.«150805_j37804302139719_1_alg».proof.Proof.KI.Mat0
import proofs.«150805_j37804302139719_1_alg».proof.Proof.KI.Mat1
import proofs.«150805_j37804302139719_1_alg».proof.Proof.KI.Mat2
import proofs.«150805_j37804302139719_1_alg».proof.Proof.KI.Pred3Final
import proofs.«150805_j37804302139719_1_alg».proof.Proof.KI.Pred4Final

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the eighteen boundaries -/

/-- Core `c`'s unscoped buffers at launch. -/
abbrev B0 (c : Dev nD) : Valuation τ sig (Elt F) := fun b => m (c, b)
/-- After the stretch `hostOps0`. -/
abbrev B1 (c : Dev nD) : Valuation τ sig (Elt F) := StableHlo.after hostOps0 (B0 m c)
/-- The stretch writes only its own results. -/
theorem B1_of (c : Dev nD) (r : Ref sig .tc) (h : r ∉ hostOps0_W) : B1 m c r = B0 m c r :=
  StableHlo.after_of_writes_sub hostOps0 _ hostOps0_writes h
/-- The same read at the TensorCore's references: what region 0 finds. -/
abbrev E1 : (c : Dev nD) → (b : Ref sig .tc) → Buf (Elt F) ((c : Thread nD τ).loc b) := fun c b => B1 m c b
/-- After region 0: its windows' arrays at what the pipeline leaves, every other buffer as found. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem left0 (c : Dev nD) (w : Fin cfg0.W) : (dat0 (E1 m) c).arrAt w cfg0.N = E2 m c (Pipeline.arrRef spec0 w) :=
  (B2_arr m c w).symm
theorem kept0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the stretch `hostOps1`. -/
abbrev B3 (c : Dev nD) : Valuation τ sig (Elt F) := StableHlo.after hostOps1 (B2 m c)
/-- The stretch writes only its own results. -/
theorem B3_of (c : Dev nD) (r : Ref sig .tc) (h : r ∉ hostOps1_W) : B3 m c r = B2 m c r :=
  StableHlo.after_of_writes_sub hostOps1 _ hostOps1_writes h
/-- After the stretch `hostOps1_1`. -/
abbrev B4 (c : Dev nD) : Valuation τ sig (Elt F) := StableHlo.after hostOps1_1 (B3 m c)
/-- The stretch writes only its own results. -/
theorem B4_of (c : Dev nD) (r : Ref sig .tc) (h : r ∉ hostOps1_1_W) : B4 m c r = B3 m c r :=
  StableHlo.after_of_writes_sub hostOps1_1 _ hostOps1_1_writes h
/-- After the stretch `hostOps1_2`. -/
abbrev B5 (c : Dev nD) : Valuation τ sig (Elt F) := StableHlo.after hostOps1_2 (B4 m c)
/-- The stretch writes only its own results. -/
theorem B5_of (c : Dev nD) (r : Ref sig .tc) (h : r ∉ hostOps1_2_W) : B5 m c r = B4 m c r :=
  StableHlo.after_of_writes_sub hostOps1_2 _ hostOps1_2_writes h
/-- The same read at the TensorCore's references: what region 1 finds. -/
abbrev E5 : (c : Dev nD) → (b : Ref sig .tc) → Buf (Elt F) ((c : Thread nD τ).loc b) := fun c b => B5 m c b
/-- After region 1: its windows' arrays at what the pipeline leaves, every other buffer as found. -/
def B6 (c : Dev nD) : Valuation τ sig (Elt F) :=
  Pipeline.withArrays spec1 c (B5 m c) fun w => (dat1 (E5 m) c).arrAt w cfg1.N
theorem B6_arr (c : Dev nD) (w : Fin cfg1.W) :
    B6 m c (Proc.devRef .tc (Pipeline.arrRef spec1 w)) = (dat1 (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev E6 : (c : Dev nD) → (b : Ref sig .tc) → Buf (Elt F) ((c : Thread nD τ).loc b) := fun c b => B6 m c b
theorem left1 (c : Dev nD) (w : Fin cfg1.W) : (dat1 (E5 m) c).arrAt w cfg1.N = E6 m c (Pipeline.arrRef spec1 w) :=
  (B6_arr m c w).symm
theorem kept1 (c : Dev nD) : ∀ b, b ∉ Finset.univ.image (Pipeline.arrRef spec1) → E6 m c b = E5 m c b :=
  fun b hb => B6_of_ne m c b fun w e => hb (Finset.mem_image.mpr ⟨w, Finset.mem_univ _, e⟩)
/-- After the stretch `hostOps2`. -/
abbrev B7 (c : Dev nD) : Valuation τ sig (Elt F) := StableHlo.after hostOps2 (B6 m c)
/-- The stretch writes only its own results. -/
theorem B7_of (c : Dev nD) (r : Ref sig .tc) (h : r ∉ hostOps2_W) : B7 m c r = B6 m c r :=
  StableHlo.after_of_writes_sub hostOps2 _ hostOps2_writes h
/-- After the stretch `hostOps2_1`. -/
abbrev B8 (c : Dev nD) : Valuation τ sig (Elt F) := StableHlo.after hostOps2_1 (B7 m c)
/-- The stretch writes only its own results. -/
theorem B8_of (c : Dev nD) (r : Ref sig .tc) (h : r ∉ hostOps2_1_W) : B8 m c r = B7 m c r :=
  StableHlo.after_of_writes_sub hostOps2_1 _ hostOps2_1_writes h
/-- After the stretch `hostOps2_2`. -/
abbrev B9 (c : Dev nD) : Valuation τ sig (Elt F) := StableHlo.after hostOps2_2 (B8 m c)
/-- The stretch writes only its own results. -/
theorem B9_of (c : Dev nD) (r : Ref sig .tc) (h : r ∉ hostOps2_2_W) : B9 m c r = B8 m c r :=
  StableHlo.after_of_writes_sub hostOps2_2 _ hostOps2_2_writes h
/-- The same read at the TensorCore's references: what region 2 finds. -/
abbrev E9 : (c : Dev nD) → (b : Ref sig .tc) → Buf (Elt F) ((c : Thread nD τ).loc b) := fun c b => B9 m c b
/-- After region 2: its windows' arrays at what the pipeline leaves, every other buffer as found. -/
def B10 (c : Dev nD) : Valuation τ sig (Elt F) :=
  Pipeline.withArrays spec2 c (B9 m c) fun w => (dat2 (E9 m) c).arrAt w cfg2.N
theorem B10_arr (c : Dev nD) (w : Fin cfg2.W) :
    B10 m c (Proc.devRef .tc (Pipeline.arrRef spec2 w)) = (dat2 (E9 m) c).arrAt w cfg2.N := by
  unfold B10; exact Pipeline.withArrays_arr spec2 launch2.win.arr_inj c _ _ w
theorem B10_of_ne (c : Dev nD) (b : Ref sig .tc) (hb : ∀ w, Pipeline.arrRef spec2 w ≠ b) :
    B10 m c (Proc.devRef .tc b) = B9 m c (Proc.devRef .tc b) := by
  unfold B10; exact Pipeline.withArrays_of_ne spec2 c _ _ b hb
abbrev E10 : (c : Dev nD) → (b : Ref sig .tc) → Buf (Elt F) ((c : Thread nD τ).loc b) := fun c b => B10 m c b
theorem left2 (c : Dev nD) (w : Fin cfg2.W) : (dat2 (E9 m) c).arrAt w cfg2.N = E10 m c (Pipeline.arrRef spec2 w) :=
  (B10_arr m c w).symm
theorem kept2 (c : Dev nD) : ∀ b, b ∉ Finset.univ.image (Pipeline.arrRef spec2) → E10 m c b = E9 m c b :=
  fun b hb => B10_of_ne m c b fun w e => hb (Finset.mem_image.mpr ⟨w, Finset.mem_univ _, e⟩)
/-- After the stretch `hostOps3`. -/
abbrev B11 (c : Dev nD) : Valuation τ sig (Elt F) := StableHlo.after hostOps3 (B10 m c)
/-- The stretch writes only its own results. -/
theorem B11_of (c : Dev nD) (r : Ref sig .tc) (h : r ∉ hostOps3_W) : B11 m c r = B10 m c r :=
  StableHlo.after_of_writes_sub hostOps3 _ hostOps3_writes h
/-- After the stretch `hostOps3_1`. -/
abbrev B12 (c : Dev nD) : Valuation τ sig (Elt F) := StableHlo.after hostOps3_1 (B11 m c)
/-- The stretch writes only its own results. -/
theorem B12_of (c : Dev nD) (r : Ref sig .tc) (h : r ∉ hostOps3_1_W) : B12 m c r = B11 m c r :=
  StableHlo.after_of_writes_sub hostOps3_1 _ hostOps3_1_writes h
/-- After the stretch `hostOps3_2`. -/
abbrev B13 (c : Dev nD) : Valuation τ sig (Elt F) := StableHlo.after hostOps3_2 (B12 m c)
/-- The stretch writes only its own results. -/
theorem B13_of (c : Dev nD) (r : Ref sig .tc) (h : r ∉ hostOps3_2_W) : B13 m c r = B12 m c r :=
  StableHlo.after_of_writes_sub hostOps3_2 _ hostOps3_2_writes h
/-- The same read at the TensorCore's references: what region 3 finds. -/
abbrev E13 : (c : Dev nD) → (b : Ref sig .tc) → Buf (Elt F) ((c : Thread nD τ).loc b) := fun c b => B13 m c b
/-- After region 3: its windows' arrays at what the pipeline leaves, every other buffer as found. -/
def B14 (c : Dev nD) : Valuation τ sig (Elt F) :=
  Pipeline.withArrays spec3 c (B13 m c) fun w => (dat3 (E13 m) c).arrAt w cfg3.N
theorem B14_arr (c : Dev nD) (w : Fin cfg3.W) :
    B14 m c (Proc.devRef .tc (Pipeline.arrRef spec3 w)) = (dat3 (E13 m) c).arrAt w cfg3.N := by
  unfold B14; exact Pipeline.withArrays_arr spec3 launch3.win.arr_inj c _ _ w
theorem B14_of_ne (c : Dev nD) (b : Ref sig .tc) (hb : ∀ w, Pipeline.arrRef spec3 w ≠ b) :
    B14 m c (Proc.devRef .tc b) = B13 m c (Proc.devRef .tc b) := by
  unfold B14; exact Pipeline.withArrays_of_ne spec3 c _ _ b hb
abbrev E14 : (c : Dev nD) → (b : Ref sig .tc) → Buf (Elt F) ((c : Thread nD τ).loc b) := fun c b => B14 m c b
theorem left3 (c : Dev nD) (w : Fin cfg3.W) : (dat3 (E13 m) c).arrAt w cfg3.N = E14 m c (Pipeline.arrRef spec3 w) :=
  (B14_arr m c w).symm
theorem kept3 (c : Dev nD) : ∀ b, b ∉ Finset.univ.image (Pipeline.arrRef spec3) → E14 m c b = E13 m c b :=
  fun b hb => B14_of_ne m c b fun w e => hb (Finset.mem_image.mpr ⟨w, Finset.mem_univ _, e⟩)
/-- After the stretch `hostOps4`. -/
abbrev B15 (c : Dev nD) : Valuation τ sig (Elt F) := StableHlo.after hostOps4 (B14 m c)
/-- The stretch writes only its own results. -/
theorem B15_of (c : Dev nD) (r : Ref sig .tc) (h : r ∉ hostOps4_W) : B15 m c r = B14 m c r :=
  StableHlo.after_of_writes_sub hostOps4 _ hostOps4_writes h
/-- The same read at the TensorCore's references: what region 4 finds. -/
abbrev E15 : (c : Dev nD) → (b : Ref sig .tc) → Buf (Elt F) ((c : Thread nD τ).loc b) := fun c b => B15 m c b
/-- After region 4: its windows' arrays at what the pipeline leaves, every other buffer as found. -/
def B16 (c : Dev nD) : Valuation τ sig (Elt F) :=
  Pipeline.withArrays spec4 c (B15 m c) fun w => (dat4 (E15 m) c).arrAt w cfg4.N
theorem B16_arr (c : Dev nD) (w : Fin cfg4.W) :
    B16 m c (Proc.devRef .tc (Pipeline.arrRef spec4 w)) = (dat4 (E15 m) c).arrAt w cfg4.N := by
  unfold B16; exact Pipeline.withArrays_arr spec4 launch4.win.arr_inj c _ _ w
theorem B16_of_ne (c : Dev nD) (b : Ref sig .tc) (hb : ∀ w, Pipeline.arrRef spec4 w ≠ b) :
    B16 m c (Proc.devRef .tc b) = B15 m c (Proc.devRef .tc b) := by
  unfold B16; exact Pipeline.withArrays_of_ne spec4 c _ _ b hb
abbrev E16 : (c : Dev nD) → (b : Ref sig .tc) → Buf (Elt F) ((c : Thread nD τ).loc b) := fun c b => B16 m c b
theorem left4 (c : Dev nD) (w : Fin cfg4.W) : (dat4 (E15 m) c).arrAt w cfg4.N = E16 m c (Pipeline.arrRef spec4 w) :=
  (B16_arr m c w).symm
theorem kept4 (c : Dev nD) : ∀ b, b ∉ Finset.univ.image (Pipeline.arrRef spec4) → E16 m c b = E15 m c b :=
  fun b hb => B16_of_ne m c b fun w e => hb (Finset.mem_image.mpr ⟨w, Finset.mem_univ _, e⟩)
/-- After the stretch `hostOps5`. -/
abbrev B17 (c : Dev nD) : Valuation τ sig (Elt F) := StableHlo.after hostOps5 (B16 m c)
/-- The stretch writes only its own results. -/
theorem B17_of (c : Dev nD) (r : Ref sig .tc) (h : r ∉ hostOps5_W) : B17 m c r = B16 m c r :=
  StableHlo.after_of_writes_sub hostOps5 _ hostOps5_writes h

/-! ## The arguments end as launched

No host operation writes an argument array, and no region changes one: region 0 reads `main_arg0` through an input
window, whose array the pipeline leaves as found; no other region stages an argument. -/
theorem B17_main_arg0 (c : Dev nD) : B17 m c (Proc.devRef .tc main_arg0) = m ((c : Thread nD τ).loc main_arg0) :=
  (B17_of m c main_arg0 (by decide)).trans <|
  (B16_of_ne m c main_arg0 (by decide)).trans <|
  (B15_of m c main_arg0 (by decide)).trans <|
  (B14_of_ne m c main_arg0 (by decide)).trans <|
  (B13_of m c main_arg0 (by decide)).trans <|
  (B12_of m c main_arg0 (by decide)).trans <|
  (B11_of m c main_arg0 (by decide)).trans <|
  (B10_of_ne m c main_arg0 (by decide)).trans <|
  (B9_of m c main_arg0 (by decide)).trans <|
  (B8_of m c main_arg0 (by decide)).trans <|
  (B7_of m c main_arg0 (by decide)).trans <|
  (B6_of_ne m c main_arg0 (by decide)).trans <|
  (B5_of m c main_arg0 (by decide)).trans <|
  (B4_of m c main_arg0 (by decide)).trans <|
  (B3_of m c main_arg0 (by decide)).trans <|
  ((B2_arr m c 0).trans (((dat0 (E1 m) c).arrAt_in 0 rfl _).trans (A_eq0 (E1 m) c 0))).trans <|
  (B1_of m c main_arg0 (by decide)).trans rfl
theorem B17_main_arg1 (c : Dev nD) : B17 m c (Proc.devRef .tc main_arg1) = m ((c : Thread nD τ).loc main_arg1) :=
  (B17_of m c main_arg1 (by decide)).trans <|
  (B16_of_ne m c main_arg1 (by decide)).trans <|
  (B15_of m c main_arg1 (by decide)).trans <|
  (B14_of_ne m c main_arg1 (by decide)).trans <|
  (B13_of m c main_arg1 (by decide)).trans <|
  (B12_of m c main_arg1 (by decide)).trans <|
  (B11_of m c main_arg1 (by decide)).trans <|
  (B10_of_ne m c main_arg1 (by decide)).trans <|
  (B9_of m c main_arg1 (by decide)).trans <|
  (B8_of m c main_arg1 (by decide)).trans <|
  (B7_of m c main_arg1 (by decide)).trans <|
  (B6_of_ne m c main_arg1 (by decide)).trans <|
  (B5_of m c main_arg1 (by decide)).trans <|
  (B4_of m c main_arg1 (by decide)).trans <|
  (B3_of m c main_arg1 (by decide)).trans <|
  (B2_of_ne m c main_arg1 (by decide)).trans <|
  (B1_of m c main_arg1 (by decide)).trans rfl
theorem B17_main_arg2 (c : Dev nD) : B17 m c (Proc.devRef .tc main_arg2) = m ((c : Thread nD τ).loc main_arg2) :=
  (B17_of m c main_arg2 (by decide)).trans <|
  (B16_of_ne m c main_arg2 (by decide)).trans <|
  (B15_of m c main_arg2 (by decide)).trans <|
  (B14_of_ne m c main_arg2 (by decide)).trans <|
  (B13_of m c main_arg2 (by decide)).trans <|
  (B12_of m c main_arg2 (by decide)).trans <|
  (B11_of m c main_arg2 (by decide)).trans <|
  (B10_of_ne m c main_arg2 (by decide)).trans <|
  (B9_of m c main_arg2 (by decide)).trans <|
  (B8_of m c main_arg2 (by decide)).trans <|
  (B7_of m c main_arg2 (by decide)).trans <|
  (B6_of_ne m c main_arg2 (by decide)).trans <|
  (B5_of m c main_arg2 (by decide)).trans <|
  (B4_of m c main_arg2 (by decide)).trans <|
  (B3_of m c main_arg2 (by decide)).trans <|
  (B2_of_ne m c main_arg2 (by decide)).trans <|
  (B1_of m c main_arg2 (by decide)).trans rfl
theorem B17_main_arg3 (c : Dev nD) : B17 m c (Proc.devRef .tc main_arg3) = m ((c : Thread nD τ).loc main_arg3) :=
  (B17_of m c main_arg3 (by decide)).trans <|
  (B16_of_ne m c main_arg3 (by decide)).trans <|
  (B15_of m c main_arg3 (by decide)).trans <|
  (B14_of_ne m c main_arg3 (by decide)).trans <|
  (B13_of m c main_arg3 (by decide)).trans <|
  (B12_of m c main_arg3 (by decide)).trans <|
  (B11_of m c main_arg3 (by decide)).trans <|
  (B10_of_ne m c main_arg3 (by decide)).trans <|
  (B9_of m c main_arg3 (by decide)).trans <|
  (B8_of m c main_arg3 (by decide)).trans <|
  (B7_of m c main_arg3 (by decide)).trans <|
  (B6_of_ne m c main_arg3 (by decide)).trans <|
  (B5_of m c main_arg3 (by decide)).trans <|
  (B4_of m c main_arg3 (by decide)).trans <|
  (B3_of m c main_arg3 (by decide)).trans <|
  (B2_of_ne m c main_arg3 (by decide)).trans <|
  (B1_of m c main_arg3 (by decide)).trans rfl
theorem B17_main_arg4 (c : Dev nD) : B17 m c (Proc.devRef .tc main_arg4) = m ((c : Thread nD τ).loc main_arg4) :=
  (B17_of m c main_arg4 (by decide)).trans <|
  (B16_of_ne m c main_arg4 (by decide)).trans <|
  (B15_of m c main_arg4 (by decide)).trans <|
  (B14_of_ne m c main_arg4 (by decide)).trans <|
  (B13_of m c main_arg4 (by decide)).trans <|
  (B12_of m c main_arg4 (by decide)).trans <|
  (B11_of m c main_arg4 (by decide)).trans <|
  (B10_of_ne m c main_arg4 (by decide)).trans <|
  (B9_of m c main_arg4 (by decide)).trans <|
  (B8_of m c main_arg4 (by decide)).trans <|
  (B7_of m c main_arg4 (by decide)).trans <|
  (B6_of_ne m c main_arg4 (by decide)).trans <|
  (B5_of m c main_arg4 (by decide)).trans <|
  (B4_of m c main_arg4 (by decide)).trans <|
  (B3_of m c main_arg4 (by decide)).trans <|
  (B2_of_ne m c main_arg4 (by decide)).trans <|
  (B1_of m c main_arg4 (by decide)).trans rfl
theorem B17_main_arg5 (c : Dev nD) : B17 m c (Proc.devRef .tc main_arg5) = m ((c : Thread nD τ).loc main_arg5) :=
  (B17_of m c main_arg5 (by decide)).trans <|
  (B16_of_ne m c main_arg5 (by decide)).trans <|
  (B15_of m c main_arg5 (by decide)).trans <|
  (B14_of_ne m c main_arg5 (by decide)).trans <|
  (B13_of m c main_arg5 (by decide)).trans <|
  (B12_of m c main_arg5 (by decide)).trans <|
  (B11_of m c main_arg5 (by decide)).trans <|
  (B10_of_ne m c main_arg5 (by decide)).trans <|
  (B9_of m c main_arg5 (by decide)).trans <|
  (B8_of m c main_arg5 (by decide)).trans <|
  (B7_of m c main_arg5 (by decide)).trans <|
  (B6_of_ne m c main_arg5 (by decide)).trans <|
  (B5_of m c main_arg5 (by decide)).trans <|
  (B4_of m c main_arg5 (by decide)).trans <|
  (B3_of m c main_arg5 (by decide)).trans <|
  (B2_of_ne m c main_arg5 (by decide)).trans <|
  (B1_of m c main_arg5 (by decide)).trans rfl
theorem B17_main_arg6 (c : Dev nD) : B17 m c (Proc.devRef .tc main_arg6) = m ((c : Thread nD τ).loc main_arg6) :=
  (B17_of m c main_arg6 (by decide)).trans <|
  (B16_of_ne m c main_arg6 (by decide)).trans <|
  (B15_of m c main_arg6 (by decide)).trans <|
  (B14_of_ne m c main_arg6 (by decide)).trans <|
  (B13_of m c main_arg6 (by decide)).trans <|
  (B12_of m c main_arg6 (by decide)).trans <|
  (B11_of m c main_arg6 (by decide)).trans <|
  (B10_of_ne m c main_arg6 (by decide)).trans <|
  (B9_of m c main_arg6 (by decide)).trans <|
  (B8_of m c main_arg6 (by decide)).trans <|
  (B7_of m c main_arg6 (by decide)).trans <|
  (B6_of_ne m c main_arg6 (by decide)).trans <|
  (B5_of m c main_arg6 (by decide)).trans <|
  (B4_of m c main_arg6 (by decide)).trans <|
  (B3_of m c main_arg6 (by decide)).trans <|
  (B2_of_ne m c main_arg6 (by decide)).trans <|
  (B1_of m c main_arg6 (by decide)).trans rfl
theorem B17_main_arg7 (c : Dev nD) : B17 m c (Proc.devRef .tc main_arg7) = m ((c : Thread nD τ).loc main_arg7) :=
  (B17_of m c main_arg7 (by decide)).trans <|
  (B16_of_ne m c main_arg7 (by decide)).trans <|
  (B15_of m c main_arg7 (by decide)).trans <|
  (B14_of_ne m c main_arg7 (by decide)).trans <|
  (B13_of m c main_arg7 (by decide)).trans <|
  (B12_of m c main_arg7 (by decide)).trans <|
  (B11_of m c main_arg7 (by decide)).trans <|
  (B10_of_ne m c main_arg7 (by decide)).trans <|
  (B9_of m c main_arg7 (by decide)).trans <|
  (B8_of m c main_arg7 (by decide)).trans <|
  (B7_of m c main_arg7 (by decide)).trans <|
  (B6_of_ne m c main_arg7 (by decide)).trans <|
  (B5_of m c main_arg7 (by decide)).trans <|
  (B4_of m c main_arg7 (by decide)).trans <|
  (B3_of m c main_arg7 (by decide)).trans <|
  (B2_of_ne m c main_arg7 (by decide)).trans <|
  (B1_of m c main_arg7 (by decide)).trans rfl

end Cert.KernelIdeal.Hand

end
-- ==== Proof.KI.Chain.lean ====
/- The five kernel regions as segments of @main and the run of the whole program: each region is entered from the thread
   state "every unscoped buffer at the boundary's contents, the generator register at some state, nothing owed", its
   windows' arrays are split out of the unscoped buffers on entry and put back at what the write-backs leave on exit, and
   the class invariant carries the generator register through. The launch over the seventeen segments ends with every
   unscoped buffer at the last boundary's contents. -/
import proofs.«150805_j37804302139719_1_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and the thread state -/

/-- No pipeline of this program reads a prefetched table. -/
abbrev adm : (p : Fin 5) → (pcfgs (F := F) p).Adm := fun p => (cfgs p).toPCfg_adm
/-- Every pipeline's proof data at the contents its region is entered from. -/
def pdats : (p : Fin 5) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E5 m) c
  | ⟨2, _⟩ => fun c => dat2 (E9 m) c
  | ⟨3, _⟩ => fun c => dat3 (E13 m) c
  | ⟨4, _⟩ => fun c => dat4 (E15 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev Rd (c : Dev nD) : sProp 𝕄 := iprop((∃ r, prngReg c r) ∗ ∃ W, owes (c : Thread nD τ) (0 : CellTallies nD τ sig Unit) W)
/-- A stretch of host operations as a segment from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0: entered with every unscoped buffer at `B1`, left with every one at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ Rd c)
  post c := iprop(StableHlo.held (c : Thread nD τ) (Pipeline.ucRefs τ sig) (B2 m c) ∗ Rd c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `B5`, left with every one at `B6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (B5 m c) ∗ Rd c)
  post c := iprop(StableHlo.held (c : Thread nD τ) (Pipeline.ucRefs τ sig) (B6 m c) ∗ Rd c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `B9`, left with every one at `B10`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E9 m) c).loose
  hwaits := Pipeline.hwaits_of_owed_zero _ _ _ _ L lv 2 fun _ _ => rfl
  pre c := iprop(StableHlo.held (c : Thread nD τ) (Pipeline.ucRefs τ sig) (B9 m c) ∗ Rd c)
  post c := iprop(StableHlo.held (c : Thread nD τ) (Pipeline.ucRefs τ sig) (B10 m c) ∗ Rd c)
  X c := iprop(∃ r, prngReg c r)
  Y c := iprop(∃ r, prngReg c r)
  Z c := Pipeline.unscopedRest (Ix := Unit) (Name := ℕ) (U := UR sig nD τ) (Lvl := ℕ) spec2 c (E9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E9 m c) (E10 m c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at `B13`, left with every one at `B14`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E13 m) c).loose
  hwaits := Pipeline.hwaits_of_owed_zero _ _ _ _ L lv 3 fun _ _ => rfl
  pre c := iprop(StableHlo.held (c : Thread nD τ) (Pipeline.ucRefs τ sig) (B13 m c) ∗ Rd c)
  post c := iprop(StableHlo.held (c : Thread nD τ) (Pipeline.ucRefs τ sig) (B14 m c) ∗ Rd c)
  X c := iprop(∃ r, prngReg c r)
  Y c := iprop(∃ r, prngReg c r)
  Z c := Pipeline.unscopedRest (Ix := Unit) (Name := ℕ) (U := UR sig nD τ) (Lvl := ℕ) spec3 c (E13 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E13 m c) (E14 m c) ((pdats m 3 c).arrAt · cfg3.N) (left3 m c) (kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at `B15`, left with every one at `B16`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E15 m) c).loose
  hwaits := Pipeline.hwaits_of_owed_zero _ _ _ _ L lv 4 fun _ _ => rfl
  pre c := iprop(StableHlo.held (c : Thread nD τ) (Pipeline.ucRefs τ sig) (B15 m c) ∗ Rd c)
  post c := iprop(StableHlo.held (c : Thread nD τ) (Pipeline.ucRefs τ sig) (B16 m c) ∗ Rd c)
  X c := iprop(∃ r, prngReg c r)
  Y c := iprop(∃ r, prngReg c r)
  Z c := Pipeline.unscopedRest (Ix := Unit) (Name := ℕ) (U := UR sig nD τ) (Lvl := ℕ) spec4 c (E15 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E15 m c) (E16 m c) ((pdats m 4 c).arrAt · cfg4.N) (left4 m c) (kept4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seventeen segments in order. -/
abbrev segs : List (Pipeline.Seg (pcfgs (F := F)) adm (pdats m) () defs₀ 𝒱₀ L lv) :=
  [ .host (stretch hostOps0 hostOps0_sub hostOps0_fresh (B0 m)),
    .region (reg0 m),
    .host (stretch hostOps1 hostOps1_sub hostOps1_fresh (B2 m)),
    .host (stretch hostOps1_1 hostOps1_1_sub hostOps1_1_fresh (B3 m)),
    .host (stretch hostOps1_2 hostOps1_2_sub hostOps1_2_fresh (B4 m)),
    .region (reg1 m),
    .host (stretch hostOps2 hostOps2_sub hostOps2_fresh (B6 m)),
    .host (stretch hostOps2_1 hostOps2_1_sub hostOps2_1_fresh (B7 m)),
    .host (stretch hostOps2_2 hostOps2_2_sub hostOps2_2_fresh (B8 m)),
    .region (reg2 m),
    .host (stretch hostOps3 hostOps3_sub hostOps3_fresh (B10 m)),
    .host (stretch hostOps3_1 hostOps3_1_sub hostOps3_1_fresh (B11 m)),
    .host (stretch hostOps3_2 hostOps3_2_sub hostOps3_2_fresh (B12 m)),
    .region (reg3 m),
    .host (stretch hostOps4 hostOps4_sub hostOps4_fresh (B14 m)),
    .region (reg4 m),
    .host (stretch hostOps5 hostOps5_sub hostOps5_fresh (B16 m)) ]

/-- The last thread state without the `owes`. -/
abbrev Tend (c : Dev nD) : sProp 𝕄 := iprop(StableHlo.held (c : Thread nD τ) (Pipeline.ucRefs τ sig) (B17 m c) ∗ ∃ r, prngReg c r)

set_option backward.isDefEq.respectTransparency.types false in
/-- From any memory with zero counters every weakly fair execution of @main terminates, nothing faulting, and the final
    memory holds every unscoped buffer at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = B17 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rd c)) (Tₙ := Tend m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B17 m c) ∗ Rd c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B17 m c b)
    (hfin := fun c s' => by
      iintro ⟨⟨Hh, -⟩, HSI⟩
      unfold StableHlo.held
      imodintro
      iapply (pointsTo_read_all (Pipeline.ucRefs τ sig) (fun b => (((c : Thread nD τ)).1, b)) (B17 m c) s')
      isplitl [Hh] <;> iassumption)
    (hQ := fun s h c => h c)

/-- The run with the result buffer and the eight arguments read: the result at the last boundary's contents, each
    argument as launched. -/
theorem run_result (ρ : Dev nD → PrngReg) :
    θ_run defs (onTc (τ := τ) (main (F := F))) ⟨m, fun _ => 0, ρ⟩ (fun r => ∀ c : Dev nD,
      r.2.mem ((c.tc : Thread nD τ).loc main_v135) = B17 m c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v135 (by decide)),
     (h c _ (mem_uc main_arg0 (by decide))).trans (B17_main_arg0 m c),
     (h c _ (mem_uc main_arg1 (by decide))).trans (B17_main_arg1 m c),
     (h c _ (mem_uc main_arg2 (by decide))).trans (B17_main_arg2 m c),
     (h c _ (mem_uc main_arg3 (by decide))).trans (B17_main_arg3 m c),
     (h c _ (mem_uc main_arg4 (by decide))).trans (B17_main_arg4 m c),
     (h c _ (mem_uc main_arg5 (by decide))).trans (B17_main_arg5 m c),
     (h c _ (mem_uc main_arg6 (by decide))).trans (B17_main_arg6 m c),
     (h c _ (mem_uc main_arg7 (by decide))).trans (B17_main_arg7 m c)⟩)
    (run_all m ρ)

/-- The frame: the eight arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_result m ρ)

end Cert.KernelIdeal.Hand

end
-- ==== Proof.RefRun.Basic.lean ====
/- Facts about a straight line of host operations cut into consecutive stretches: a property of every operation
   of two stretches holds of their concatenation; the references a concatenation writes are those its stretches
   write; a reference outside the written ones keeps its contents across the line. -/
import Idealize.ShloMosaic.Lib.StableHlo.Run
import Idealize.ShloMosaic.Lib.Pipeline.Frame

noncomputable section

namespace Cert.ReferenceIdeal.RefRun

open Idealize.ShloMosaic Idealize.SL.Sem Idealize.ShloMosaic.StableHlo

variable {τ : Topo} {sig : RefSig} {Val : EltTy → Type}

/-- A property of every element of two lists holds of every element of their concatenation. -/
theorem forall_append {α : Type} {p : α → Prop} {l₁ l₂ : List α} (h₁ : ∀ x ∈ l₁, p x) (h₂ : ∀ x ∈ l₂, p x) :
    ∀ x ∈ l₁ ++ l₂, p x :=
  List.forall_mem_append.mpr ⟨h₁, h₂⟩

/-- The references of a list, as the set of device buffers they name. -/
abbrev refSet (τ : Topo) {sig : RefSig} (W : List (Ref sig .tc)) : Finset (DevRef τ sig) :=
  (W.map (Proc.devRef (τ := τ) .tc)).toFinset

theorem refSet_mono {W W' : List (Ref sig .tc)} (h : W ⊆ W') : refSet τ W ⊆ refSet τ W' := by
  intro b hb
  rw [refSet, List.mem_toFinset] at hb ⊢
  exact List.map_subset _ h hb

/-- An operation that writes exactly the buffer of `y` writes inside any list of references holding `y`. -/
theorem writes_sub_of {op : HloOp τ sig Val} {W : List (Ref sig .tc)} {y : Ref sig .tc}
    (hw : op.writes = {Proc.devRef .tc y}) (hy : y ∈ W) : op.writes ⊆ refSet τ W := by
  rw [hw, Finset.singleton_subset_iff, refSet, List.mem_toFinset]
  exact List.mem_map.mpr ⟨y, hy, rfl⟩

/-- Two stretches writing inside `W₁` and `W₂`: their concatenation writes inside `W₁ ++ W₂`. -/
theorem writes_append {l₁ l₂ : List (HloOp τ sig Val)} {W₁ W₂ : List (Ref sig .tc)}
    (h₁ : ∀ op ∈ l₁, op.writes ⊆ refSet τ W₁) (h₂ : ∀ op ∈ l₂, op.writes ⊆ refSet τ W₂) :
    ∀ op ∈ l₁ ++ l₂, op.writes ⊆ refSet τ (W₁ ++ W₂) :=
  forall_append (fun op h => (h₁ op h).trans (refSet_mono (List.subset_append_left _ _)))
    (fun op h => (h₂ op h).trans (refSet_mono (List.subset_append_right _ _)))

/-- A reference a line does not write keeps its contents across the line. -/
theorem after_keep {l : List (HloOp τ sig Val)} {W : List (Ref sig .tc)}
    (hW : ∀ op ∈ l, op.writes ⊆ refSet τ W) (V : Valuation τ sig Val) {r : Ref sig .tc} (hr : r ∉ W) :
    after l V (Proc.devRef .tc r) = V (Proc.devRef .tc r) :=
  after_of_writes_sub l V (List.forall_iff_forall_mem.mpr hW) hr

end Cert.ReferenceIdeal.RefRun

end
-- ==== Proof.RefRun.Ops0.lean ====
/- The reference program's @main read as a LIST of host operations, window 0 of 3 (statements 1 to 60: the edge lists with self loops appended, the degree normalisation, the first layer (matrix product, gather, scale, scatter-add, bias, maximum with zero inlined from its function) and the second layer's weight slice),
   cut into consecutive named stretches. Each entry is the operation the printed statement runs, in program order; a
   call is replaced by its callee's operations over that call's own buffers. The list is checked against the program
   by `part0_eq`. -/
import proofs.«150805_j37804302139719_1_alg».proof.Proof.Gen.ReferenceIdeal
import proofs.«150805_j37804302139719_1_alg».proof.Proof.RefRun.Basic

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 36 operations: the two edge rows with the self loops appended (sources main_v3, targets main_v6), the in-degree by a scatter-add of ones, its reciprocal square root gathered at both ends of every edge and multiplied (the edge coefficient main_v27), and the first layer's weight matrix main_v29. -/
abbrev r0 : List (HloOp τ sig (Elt F)) :=
  [ StableHlo.nullary main_v0 (iotaInDim S50000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F)),
    StableHlo.nullary main_cst (constant S_ .f32 0x3F800000#32),
    StableHlo.unary main_cst main_v7 (broadcastInDim S690000 ![] bcast_S_S690000 : (⟨S_, .f32⟩ : BufTy).Contents (Elt F) → (⟨S690000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S690000x1 ![0] bcast_S690000_S690000x1_0 : (⟨S690000, .i32⟩ : BufTy).Contents (Elt F) → (⟨S690000x1, .i32⟩ : BufTy).Contents (Elt F)),
    StableHlo.ternary main_v8 main_v9 main_v7 main_v10 ((fun x i u => Host.scatterAdd scatter_S50000_S690000x1_S690000_n_0_0_1 x i u) : (⟨S50000, .f32⟩ : BufTy).Contents (Elt F) → (⟨S690000x1, .i32⟩ : BufTy).Contents (Elt F) → (⟨S690000, .f32⟩ : BufTy).Contents (Elt F) → (⟨S50000, .f32⟩ : BufTy).Contents (Elt F)),
    StableHlo.unary main_v10 main_v11 (Host.rsqrt : (⟨S50000, .f32⟩ : BufTy).Contents (Elt F) → (⟨S50000, .f32⟩ : BufTy).Contents (Elt F)),
    StableHlo.nullary main_c (constantI S_ 32 0#32),
    StableHlo.unary main_c main_v12 (broadcastInDim S690000 ![] bcast_S_S690000 : (⟨S_, .i32⟩ : BufTy).Contents (Elt F) → (⟨S690000, .i32⟩ : BufTy).Contents (Elt F)),
    StableHlo.binary main_v3 main_v12 main_v13 (cmpi .slt : (⟨S690000, .i32⟩ : BufTy).Contents (Elt F) → (⟨S690000, .i32⟩ : BufTy).Contents (Elt F) → (⟨S690000, .i1⟩ : BufTy).Contents (Elt F)),
    StableHlo.nullary main_c_1 (constantI S_ 32 50000#32),
    StableHlo.unary main_c_1 main_v14 (broadcastInDim S690000 ![] bcast_S_S690000 : (⟨S_, .i32⟩ : BufTy).Contents (Elt F) → (⟨S690000, .i32⟩ : BufTy).Contents (Elt F)),
    StableHlo.binary main_v3 main_v14 main_v15 (addi : (⟨S690000, .i32⟩ : BufTy).Contents (Elt F) → (⟨S690000, .i32⟩ : BufTy).Contents (Elt F) → (⟨S690000, .i32⟩ : BufTy).Contents (Elt F)),
    StableHlo.ternary main_v13 main_v15 main_v3 main_v16 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v16 main_v17 (broadcastInDim S690000x1 ![0] bcast_S690000_S690000x1_0 : (⟨S690000, .i32⟩ : BufTy).Contents (Elt F) → (⟨S690000x1, .i32⟩ : BufTy).Contents (Elt F)),
    StableHlo.binary main_v11 main_v17 main_v18 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    StableHlo.nullary main_c_2 (constantI S_ 32 0#32),
    StableHlo.unary main_c_2 main_v19 (broadcastInDim S690000 ![] bcast_S_S690000 : (⟨S_, .i32⟩ : BufTy).Contents (Elt F) → (⟨S690000, .i32⟩ : BufTy).Contents (Elt F)),
    StableHlo.binary main_v6 main_v19 main_v20 (cmpi .slt : (⟨S690000, .i32⟩ : BufTy).Contents (Elt F) → (⟨S690000, .i32⟩ : BufTy).Contents (Elt F) → (⟨S690000, .i1⟩ : BufTy).Contents (Elt F)),
    StableHlo.nullary main_c_3 (constantI S_ 32 50000#32),
    StableHlo.unary main_c_3 main_v21 (broadcastInDim S690000 ![] bcast_S_S690000 : (⟨S_, .i32⟩ : BufTy).Contents (Elt F) → (⟨S690000, .i32⟩ : BufTy).Contents (Elt F)),
    StableHlo.binary main_v6 main_v21 main_v22 (addi : (⟨S690000, .i32⟩ : BufTy).Contents (Elt F) → (⟨S690000, .i32⟩ : BufTy).Contents (Elt F) → (⟨S690000, .i32⟩ : BufTy).Contents (Elt F)),
    StableHlo.ternary main_v20 main_v22 main_v6 main_v23 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v23 main_v24 (broadcastInDim S690000x1 ![0] bcast_S690000_S690000x1_0 : (⟨S690000, .i32⟩ : BufTy).Contents (Elt F) → (⟨S690000x1, .i32⟩ : BufTy).Contents (Elt F)),
    StableHlo.binary main_v11 main_v24 main_v25 ((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F)),
    StableHlo.binary main_v18 main_v25 main_v26 (mulf : (⟨S690000, .f32⟩ : BufTy).Contents (Elt F) → (⟨S690000, .f32⟩ : BufTy).Contents (Elt F) → (⟨S690000, .f32⟩ : BufTy).Contents (Elt F)),
    StableHlo.unary main_v26 main_v27 (broadcastInDim S690000x1 ![0] bcast_S690000_S690000x1_0 : (⟨S690000, .f32⟩ : BufTy).Contents (Elt F) → (⟨S690000x1, .f32⟩ : BufTy).Contents (Elt F)),
    StableHlo.unary main_arg4 main_v28 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v28 main_v29 rfl shapeCasts_S1x128x128_S128x128 ]

/-- The references `r0` writes, in order. -/
abbrev r0_w : List (Ref sig .tc) :=
  [main_v0, main_v1, main_v2, main_v3, main_v4, main_v5, main_v6, main_cst,
   main_v7, main_cst_0, main_v8, main_v9, main_v10, main_v11, main_c, main_v12,
   main_v13, main_c_1, main_v14, main_v15, main_v16, main_v17, main_v18, main_c_2,
   main_v19, main_v20, main_c_3, main_v21, main_v22, main_v23, main_v24, main_v25,
   main_v26, main_v27, main_v28, main_v29]

theorem r0_sub : ∀ op ∈ (r0 : List (HloOp τ sig (Elt F))), op.bufs ⊆ tcRefs τ sig :=
  List.forall_iff_forall_mem.mp
    ⟨nullary_bufs_sub .., unary_bufs_sub .., reshape_bufs_sub .., binary_bufs_sub .., unary_bufs_sub .., reshape_bufs_sub ..,
     binary_bufs_sub .., nullary_bufs_sub .., unary_bufs_sub .., nullary_bufs_sub .., unary_bufs_sub .., unary_bufs_sub ..,
     ternary_bufs_sub .., unary_bufs_sub .., nullary_bufs_sub .., unary_bufs_sub .., binary_bufs_sub .., nullary_bufs_sub ..,
     unary_bufs_sub .., binary_bufs_sub .., ternary_bufs_sub .., unary_bufs_sub .., binary_bufs_sub .., nullary_bufs_sub ..,
     unary_bufs_sub .., binary_bufs_sub .., nullary_bufs_sub .., unary_bufs_sub .., binary_bufs_sub .., ternary_bufs_sub ..,
     unary_bufs_sub .., binary_bufs_sub .., binary_bufs_sub .., unary_bufs_sub .., unary_bufs_sub .., reshape_bufs_sub ..⟩

theorem r0_fresh : ∀ op ∈ (r0 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl,
     rfl, rfl, rfl, rfl, rfl, rfl, rfl, rfl, rfl, rfl, rfl, rfl, rfl, rfl, rfl, rfl⟩

theorem r0_writes : ∀ op ∈ (r0 : List (HloOp τ sig (Elt F))), op.writes ⊆ refSet τ r0_w :=
  List.forall_iff_forall_mem.mp
    ⟨writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide)⟩

/-- A reference `r0` does not write keeps its contents across it. -/
theorem r0_keep (V : Valuation τ sig (Elt F)) {r : Ref sig .tc} (hr : r ∉ r0_w) :
    after r0 V (Proc.devRef .tc r) = V (Proc.devRef .tc r) :=
  after_keep r0_writes V hr

/-- 1 operation: the first layer's matrix product main_v30. -/
abbrev rdot0 : List (HloOp τ sig (Elt F)) :=
  [ StableHlo.binary main_arg0 main_v29 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The references `rdot0` writes, in order. -/
abbrev rdot0_w : List (Ref sig .tc) :=
  [main_v30]

theorem rdot0_sub : ∀ op ∈ (rdot0 : List (HloOp τ sig (Elt F))), op.bufs ⊆ tcRefs τ sig :=
  List.forall_mem_singleton.mpr (binary_bufs_sub ..)

theorem rdot0_fresh : ∀ op ∈ (rdot0 : List (HloOp τ sig (Elt F))), op.fresh = ∅ :=
  List.forall_mem_singleton.mpr (rfl)

theorem rdot0_writes : ∀ op ∈ (rdot0 : List (HloOp τ sig (Elt F))), op.writes ⊆ refSet τ rdot0_w :=
  List.forall_mem_singleton.mpr (writes_sub_of rfl (by decide))

/-- A reference `rdot0` does not write keeps its contents across it. -/
theorem rdot0_keep (V : Valuation τ sig (Elt F)) {r : Ref sig .tc} (hr : r ∉ rdot0_w) :
    after rdot0 V (Proc.devRef .tc r) = V (Proc.devRef .tc r) :=
  after_keep rdot0_writes V hr

/-- 20 operations: the first layer after its matrix product: rows gathered at the sources, scaled by the edge coefficient, scatter-added at the targets, the bias added (main_v47). -/
abbrev r1 : List (HloOp τ sig (Elt F)) :=
  [ StableHlo.nullary main_c_4 (constantI S_ 32 0#32),
    StableHlo.unary main_c_4 main_v31 (broadcastInDim S690000 ![] bcast_S_S690000 : (⟨S_, .i32⟩ : BufTy).Contents (Elt F) → (⟨S690000, .i32⟩ : BufTy).Contents (Elt F)),
    StableHlo.binary main_v3 main_v31 main_v32 (cmpi .slt : (⟨S690000, .i32⟩ : BufTy).Contents (Elt F) → (⟨S690000, .i32⟩ : BufTy).Contents (Elt F) → (⟨S690000, .i1⟩ : BufTy).Contents (Elt F)),
    StableHlo.nullary main_c_5 (constantI S_ 32 50000#32),
    StableHlo.unary main_c_5 main_v33 (broadcastInDim S690000 ![] bcast_S_S690000 : (⟨S_, .i32⟩ : BufTy).Contents (Elt F) → (⟨S690000, .i32⟩ : BufTy).Contents (Elt F)),
    StableHlo.binary main_v3 main_v33 main_v34 (addi : (⟨S690000, .i32⟩ : BufTy).Contents (Elt F) → (⟨S690000, .i32⟩ : BufTy).Contents (Elt F) → (⟨S690000, .i32⟩ : BufTy).Contents (Elt F)),
    StableHlo.ternary main_v32 main_v34 main_v3 main_v35 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v35 main_v36 (broadcastInDim S690000x1 ![0] bcast_S690000_S690000x1_0 : (⟨S690000, .i32⟩ : BufTy).Contents (Elt F) → (⟨S690000x1, .i32⟩ : BufTy).Contents (Elt F)),
    StableHlo.binary main_v30 main_v36 main_v37 ((fun x i => Host.gather gather_S50000x128_S690000x1_S690000x128_1_0_n_n_0_1_1128 x i) : (⟨S50000x128, .f32⟩ : BufTy).Contents (Elt F) → (⟨S690000x1, .i32⟩ : BufTy).Contents (Elt F) → (⟨S690000x128, .f32⟩ : BufTy).Contents (Elt F)),
    StableHlo.unary main_v27 main_v38 (broadcastInDim S690000x128 ![0, 1] bcast_S690000x1_S690000x128_0_1 : (⟨S690000x1, .f32⟩ : BufTy).Contents (Elt F) → (⟨S690000x128, .f32⟩ : BufTy).Contents (Elt F)),
    StableHlo.binary main_v37 main_v38 main_v39 (mulf : (⟨S690000x128, .f32⟩ : BufTy).Contents (Elt F) → (⟨S690000x128, .f32⟩ : BufTy).Contents (Elt F) → (⟨S690000x128, .f32⟩ : BufTy).Contents (Elt F)),
    StableHlo.nullary main_cst_6 (constant S_ .f32 0x00000000#32),
    StableHlo.unary main_cst_6 main_v40 (broadcastInDim S50000x128 ![] bcast_S_S50000x128 : (⟨S_, .f32⟩ : BufTy).Contents (Elt F) → (⟨S50000x128, .f32⟩ : BufTy).Contents (Elt F)),
    StableHlo.unary main_v6 main_v41 (broadcastInDim S690000x1 ![0] bcast_S690000_S690000x1_0 : (⟨S690000, .i32⟩ : BufTy).Contents (Elt F) → (⟨S690000x1, .i32⟩ : BufTy).Contents (Elt F)),
    StableHlo.ternary main_v40 main_v41 main_v39 main_v42 ((fun x i u => Host.scatterAdd scatter_S50000x128_S690000x1_S690000x128_1_0_0_1 x i u) : (⟨S50000x128, .f32⟩ : BufTy).Contents (Elt F) → (⟨S690000x1, .i32⟩ : BufTy).Contents (Elt F) → (⟨S690000x128, .f32⟩ : BufTy).Contents (Elt F) → (⟨S50000x128, .f32⟩ : BufTy).Contents (Elt F)),
    StableHlo.unary main_arg5 main_v43 ((extractStridedSlice S1x128 ![0, 0] · slices_S3x128_S1x128_0_0) : (⟨S3x128, .f32⟩ : BufTy).Contents (Elt F) → (⟨S1x128, .f32⟩ : BufTy).Contents (Elt F)),
    StableHlo.reshape main_v43 main_v44 rfl shapeCasts_S1x128_S128,
    StableHlo.unary main_v44 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v46 main_v47 (addf : (⟨S50000x128, .f32⟩ : BufTy).Contents (Elt F) → (⟨S50000x128, .f32⟩ : BufTy).Contents (Elt F) → (⟨S50000x128, .f32⟩ : BufTy).Contents (Elt F)) ]

/-- The references `r1` writes, in order. -/
abbrev r1_w : List (Ref sig .tc) :=
  [main_c_4, main_v31, main_v32, main_c_5, main_v33, main_v34, main_v35, main_v36,
   main_v37, main_v38, main_v39, main_cst_6, main_v40, main_v41, main_v42, main_v43,
   main_v44, main_v45, main_v46, main_v47]

theorem r1_sub : ∀ op ∈ (r1 : List (HloOp τ sig (Elt F))), op.bufs ⊆ tcRefs τ sig :=
  List.forall_iff_forall_mem.mp
    ⟨nullary_bufs_sub .., unary_bufs_sub .., binary_bufs_sub .., nullary_bufs_sub .., unary_bufs_sub .., binary_bufs_sub ..,
     ternary_bufs_sub .., unary_bufs_sub .., binary_bufs_sub .., unary_bufs_sub .., binary_bufs_sub .., nullary_bufs_sub ..,
     unary_bufs_sub .., unary_bufs_sub .., ternary_bufs_sub .., unary_bufs_sub .., reshape_bufs_sub .., unary_bufs_sub ..,
     unary_bufs_sub .., binary_bufs_sub ..⟩

theorem r1_fresh : ∀ op ∈ (r1 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl⟩

theorem r1_writes : ∀ op ∈ (r1 : List (HloOp τ sig (Elt F))), op.writes ⊆ refSet τ r1_w :=
  List.forall_iff_forall_mem.mp
    ⟨writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide)⟩

/-- A reference `r1` does not write keeps its contents across it. -/
theorem r1_keep (V : Valuation τ sig (Elt F)) {r : Ref sig .tc} (hr : r ∉ r1_w) :
    after r1 V (Proc.devRef .tc r) = V (Proc.devRef .tc r) :=
  after_keep r1_writes V hr

/-- 3 operations: the first layer's maximum with zero (main_v48), its function's three operations over that call's buffers. -/
abbrev r1c : List (HloOp τ sig (Elt F)) :=
  [ StableHlo.TRef.nullary main_call0.cst (constant S_ .f32 0x00000000#32),
    StableHlo.TRef.unary main_call0.cst main_call0.v0 (broadcastInDim S50000x128 ![] bcast_S_S50000x128),
    StableHlo.TRef.binary (.of main_v47 : StableHlo.TRef sig ⟨S50000x128, .f32⟩) main_call0.v0 main_call0.v1 maximumf ]

/-- The references `r1c` writes, in order. -/
abbrev r1c_w : List (Ref sig .tc) :=
  [main_call0_cst, main_call0_v0, main_v48]

theorem r1c_sub : ∀ op ∈ (r1c : List (HloOp τ sig (Elt F))), op.bufs ⊆ tcRefs τ sig :=
  List.forall_iff_forall_mem.mp
    ⟨nullary_bufs_sub .., unary_bufs_sub .., binary_bufs_sub ..⟩

theorem r1c_fresh : ∀ op ∈ (r1c : List (HloOp τ sig (Elt F))), op.fresh = ∅ :=
  List.forall_iff_forall_mem.mp
    ⟨rfl, rfl, rfl⟩

theorem r1c_writes : ∀ op ∈ (r1c : List (HloOp τ sig (Elt F))), op.writes ⊆ refSet τ r1c_w :=
  List.forall_iff_forall_mem.mp
    ⟨writes_sub_of rfl (by decide), writes_sub_of rfl (by decide), writes_sub_of rfl (by decide)⟩

/-- A reference `r1c` does not write keeps its contents across it. -/
theorem r1c_keep (V : Valuation τ sig (Elt F)) {r : Ref sig .tc} (hr : r ∉ r1c_w) :
    after r1c V (Proc.devRef .tc r) = V (Proc.devRef .tc r) :=
  after_keep r1c_writes V hr

/-- 2 operations: the second layer's weight matrix main_v50. -/
abbrev r1w : List (HloOp τ sig (Elt F)) :=
  [ StableHlo.unary main_arg4 main_v49 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v49 main_v50 rfl shapeCasts_S1x128x128_S128x128 ]

/-- The references `r1w` writes, in order. -/
abbrev r1w_w : List (Ref sig .tc) :=
  [main_v49, main_v50]

theorem r1w_sub : ∀ op ∈ (r1w : List (HloOp τ sig (Elt F))), op.bufs ⊆ tcRefs τ sig :=
  List.forall_iff_forall_mem.mp
    ⟨unary_bufs_sub .., reshape_bufs_sub ..⟩

theorem r1w_fresh : ∀ op ∈ (r1w : List (HloOp τ sig (Elt F))), op.fresh = ∅ :=
  List.forall_iff_forall_mem.mp
    ⟨rfl, rfl⟩

theorem r1w_writes : ∀ op ∈ (r1w : List (HloOp τ sig (Elt F))), op.writes ⊆ refSet τ r1w_w :=
  List.forall_iff_forall_mem.mp
    ⟨writes_sub_of rfl (by decide), writes_sub_of rfl (by decide)⟩

/-- A reference `r1w` does not write keeps its contents across it. -/
theorem r1w_keep (V : Valuation τ sig (Elt F)) {r : Ref sig .tc} (hr : r ∉ r1w_w) :
    after r1w V (Proc.devRef .tc r) = V (Proc.devRef .tc r) :=
  after_keep r1w_writes V hr

/-- Window 0: its stretches in order. -/
abbrev ops0 : List (HloOp τ sig (Elt F)) := r0 ++ rdot0 ++ r1 ++ r1c ++ r1w

/-- The window is that straight line: with the callees' definitions unfolded at their calls, both sides are one
    chain of host steps. -/
theorem part0_eq (c : Dev nD) : main_part0 (F := F) c = seq ops0 := rfl

end Cert.ReferenceIdeal.RefRun

end
-- ==== Proof.RefRun.Ops1.lean ====
/- The reference program's @main read as a LIST of host operations, window 1 of 3 (statements 61 to 120: the second and third layers (each maximum with zero inlined from its function), the concatenation of the three layers' outputs, and the first score's index arithmetic),
   cut into consecutive named stretches. Each entry is the operation the printed statement runs, in program order; a
   call is replaced by its callee's operations over that call's own buffers. The list is checked against the program
   by `part1_eq`. -/
import proofs.«150805_j37804302139719_1_alg».proof.Proof.Gen.ReferenceIdeal
import proofs.«150805_j37804302139719_1_alg».proof.Proof.RefRun.Basic

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 1 operation: the second layer's matrix product main_v51. -/
abbrev rdot1 : List (HloOp τ sig (Elt F)) :=
  [ StableHlo.binary main_v48 main_v50 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The references `rdot1` writes, in order. -/
abbrev rdot1_w : List (Ref sig .tc) :=
  [main_v51]

theorem rdot1_sub : ∀ op ∈ (rdot1 : List (HloOp τ sig (Elt F))), op.bufs ⊆ tcRefs τ sig :=
  List.forall_mem_singleton.mpr (binary_bufs_sub ..)

theorem rdot1_fresh : ∀ op ∈ (rdot1 : List (HloOp τ sig (Elt F))), op.fresh = ∅ :=
  List.forall_mem_singleton.mpr (rfl)

theorem rdot1_writes : ∀ op ∈ (rdot1 : List (HloOp τ sig (Elt F))), op.writes ⊆ refSet τ rdot1_w :=
  List.forall_mem_singleton.mpr (writes_sub_of rfl (by decide))

/-- A reference `rdot1` does not write keeps its contents across it. -/
theorem rdot1_keep (V : Valuation τ sig (Elt F)) {r : Ref sig .tc} (hr : r ∉ rdot1_w) :
    after rdot1 V (Proc.devRef .tc r) = V (Proc.devRef .tc r) :=
  after_keep rdot1_writes V hr

/-- 20 operations: the second layer after its matrix product (main_v68). -/
abbrev r2 : List (HloOp τ sig (Elt F)) :=
  [ StableHlo.nullary main_c_7 (constantI S_ 32 0#32),
    StableHlo.unary main_c_7 main_v52 (broadcastInDim S690000 ![] bcast_S_S690000 : (⟨S_, .i32⟩ : BufTy).Contents (Elt F) → (⟨S690000, .i32⟩ : BufTy).Contents (Elt F)),
    StableHlo.binary main_v3 main_v52 main_v53 (cmpi .slt : (⟨S690000, .i32⟩ : BufTy).Contents (Elt F) → (⟨S690000, .i32⟩ : BufTy).Contents (Elt F) → (⟨S690000, .i1⟩ : BufTy).Contents (Elt F)),
    StableHlo.nullary main_c_8 (constantI S_ 32 50000#32),
    StableHlo.unary main_c_8 main_v54 (broadcastInDim S690000 ![] bcast_S_S690000 : (⟨S_, .i32⟩ : BufTy).Contents (Elt F) → (⟨S690000, .i32⟩ : BufTy).Contents (Elt F)),
    StableHlo.binary main_v3 main_v54 main_v55 (addi : (⟨S690000, .i32⟩ : BufTy).Contents (Elt F) → (⟨S690000, .i32⟩ : BufTy).Contents (Elt F) → (⟨S690000, .i32⟩ : BufTy).Contents (Elt F)),
    StableHlo.ternary main_v53 main_v55 main_v3 main_v56 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v56 main_v57 (broadcastInDim S690000x1 ![0] bcast_S690000_S690000x1_0 : (⟨S690000, .i32⟩ : BufTy).Contents (Elt F) → (⟨S690000x1, .i32⟩ : BufTy).Contents (Elt F)),
    StableHlo.binary main_v51 main_v57 main_v58 ((fun x i => Host.gather gather_S50000x128_S690000x1_S690000x128_1_0_n_n_0_1_1128 x i) : (⟨S50000x128, .f32⟩ : BufTy).Contents (Elt F) → (⟨S690000x1, .i32⟩ : BufTy).Contents (Elt F) → (⟨S690000x128, .f32⟩ : BufTy).Contents (Elt F)),
    StableHlo.unary main_v27 main_v59 (broadcastInDim S690000x128 ![0, 1] bcast_S690000x1_S690000x128_0_1 : (⟨S690000x1, .f32⟩ : BufTy).Contents (Elt F) → (⟨S690000x128, .f32⟩ : BufTy).Contents (Elt F)),
    StableHlo.binary main_v58 main_v59 main_v60 (mulf : (⟨S690000x128, .f32⟩ : BufTy).Contents (Elt F) → (⟨S690000x128, .f32⟩ : BufTy).Contents (Elt F) → (⟨S690000x128, .f32⟩ : BufTy).Contents (Elt F)),
    StableHlo.nullary main_cst_9 (constant S_ .f32 0x00000000#32),
    StableHlo.unary main_cst_9 main_v61 (broadcastInDim S50000x128 ![] bcast_S_S50000x128 : (⟨S_, .f32⟩ : BufTy).Contents (Elt F) → (⟨S50000x128, .f32⟩ : BufTy).Contents (Elt F)),
    StableHlo.unary main_v6 main_v62 (broadcastInDim S690000x1 ![0] bcast_S690000_S690000x1_0 : (⟨S690000, .i32⟩ : BufTy).Contents (Elt F) → (⟨S690000x1, .i32⟩ : BufTy).Contents (Elt F)),
    StableHlo.ternary main_v61 main_v62 main_v60 main_v63 ((fun x i u => Host.scatterAdd scatter_S50000x128_S690000x1_S690000x128_1_0_0_1 x i u) : (⟨S50000x128, .f32⟩ : BufTy).Contents (Elt F) → (⟨S690000x1, .i32⟩ : BufTy).Contents (Elt F) → (⟨S690000x128, .f32⟩ : BufTy).Contents (Elt F) → (⟨S50000x128, .f32⟩ : BufTy).Contents (Elt F)),
    StableHlo.unary main_arg5 main_v64 ((extractStridedSlice S1x128 ![1, 0] · slices_S3x128_S1x128_1_0) : (⟨S3x128, .f32⟩ : BufTy).Contents (Elt F) → (⟨S1x128, .f32⟩ : BufTy).Contents (Elt F)),
    StableHlo.reshape main_v64 main_v65 rfl shapeCasts_S1x128_S128,
    StableHlo.unary main_v65 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v67 main_v68 (addf : (⟨S50000x128, .f32⟩ : BufTy).Contents (Elt F) → (⟨S50000x128, .f32⟩ : BufTy).Contents (Elt F) → (⟨S50000x128, .f32⟩ : BufTy).Contents (Elt F)) ]

/-- The references `r2` writes, in order. -/
abbrev r2_w : List (Ref sig .tc) :=
  [main_c_7, main_v52, main_v53, main_c_8, main_v54, main_v55, main_v56, main_v57,
   main_v58, main_v59, main_v60, main_cst_9, main_v61, main_v62, main_v63, main_v64,
   main_v65, main_v66, main_v67, main_v68]

theorem r2_sub : ∀ op ∈ (r2 : List (HloOp τ sig (Elt F))), op.bufs ⊆ tcRefs τ sig :=
  List.forall_iff_forall_mem.mp
    ⟨nullary_bufs_sub .., unary_bufs_sub .., binary_bufs_sub .., nullary_bufs_sub .., unary_bufs_sub .., binary_bufs_sub ..,
     ternary_bufs_sub .., unary_bufs_sub .., binary_bufs_sub .., unary_bufs_sub .., binary_bufs_sub .., nullary_bufs_sub ..,
     unary_bufs_sub .., unary_bufs_sub .., ternary_bufs_sub .., unary_bufs_sub .., reshape_bufs_sub .., unary_bufs_sub ..,
     unary_bufs_sub .., binary_bufs_sub ..⟩

theorem r2_fresh : ∀ op ∈ (r2 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl⟩

theorem r2_writes : ∀ op ∈ (r2 : List (HloOp τ sig (Elt F))), op.writes ⊆ refSet τ r2_w :=
  List.forall_iff_forall_mem.mp
    ⟨writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide)⟩

/-- A reference `r2` does not write keeps its contents across it. -/
theorem r2_keep (V : Valuation τ sig (Elt F)) {r : Ref sig .tc} (hr : r ∉ r2_w) :
    after r2 V (Proc.devRef .tc r) = V (Proc.devRef .tc r) :=
  after_keep r2_writes V hr

/-- 3 operations: the second layer's maximum with zero (main_v69). -/
abbrev r2c : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (.of main_v68 : StableHlo.TRef sig ⟨S50000x128, .f32⟩) main_call1.v0 main_call1.v1 maximumf ]

/-- The references `r2c` writes, in order. -/
abbrev r2c_w : List (Ref sig .tc) :=
  [main_call1_cst, main_call1_v0, main_v69]

theorem r2c_sub : ∀ op ∈ (r2c : List (HloOp τ sig (Elt F))), op.bufs ⊆ tcRefs τ sig :=
  List.forall_iff_forall_mem.mp
    ⟨nullary_bufs_sub .., unary_bufs_sub .., binary_bufs_sub ..⟩

theorem r2c_fresh : ∀ op ∈ (r2c : List (HloOp τ sig (Elt F))), op.fresh = ∅ :=
  List.forall_iff_forall_mem.mp
    ⟨rfl, rfl, rfl⟩

theorem r2c_writes : ∀ op ∈ (r2c : List (HloOp τ sig (Elt F))), op.writes ⊆ refSet τ r2c_w :=
  List.forall_iff_forall_mem.mp
    ⟨writes_sub_of rfl (by decide), writes_sub_of rfl (by decide), writes_sub_of rfl (by decide)⟩

/-- A reference `r2c` does not write keeps its contents across it. -/
theorem r2c_keep (V : Valuation τ sig (Elt F)) {r : Ref sig .tc} (hr : r ∉ r2c_w) :
    after r2c V (Proc.devRef .tc r) = V (Proc.devRef .tc r) :=
  after_keep r2c_writes V hr

/-- 2 operations: the third layer's weight matrix main_v71. -/
abbrev r2w : List (HloOp τ sig (Elt F)) :=
  [ StableHlo.unary main_arg4 main_v70 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v70 main_v71 rfl shapeCasts_S1x128x128_S128x128 ]

/-- The references `r2w` writes, in order. -/
abbrev r2w_w : List (Ref sig .tc) :=
  [main_v70, main_v71]

theorem r2w_sub : ∀ op ∈ (r2w : List (HloOp τ sig (Elt F))), op.bufs ⊆ tcRefs τ sig :=
  List.forall_iff_forall_mem.mp
    ⟨unary_bufs_sub .., reshape_bufs_sub ..⟩

theorem r2w_fresh : ∀ op ∈ (r2w : List (HloOp τ sig (Elt F))), op.fresh = ∅ :=
  List.forall_iff_forall_mem.mp
    ⟨rfl, rfl⟩

theorem r2w_writes : ∀ op ∈ (r2w : List (HloOp τ sig (Elt F))), op.writes ⊆ refSet τ r2w_w :=
  List.forall_iff_forall_mem.mp
    ⟨writes_sub_of rfl (by decide), writes_sub_of rfl (by decide)⟩

/-- A reference `r2w` does not write keeps its contents across it. -/
theorem r2w_keep (V : Valuation τ sig (Elt F)) {r : Ref sig .tc} (hr : r ∉ r2w_w) :
    after r2w V (Proc.devRef .tc r) = V (Proc.devRef .tc r) :=
  after_keep r2w_writes V hr

/-- 1 operation: the third layer's matrix product main_v72. -/
abbrev rdot2 : List (HloOp τ sig (Elt F)) :=
  [ StableHlo.binary main_v69 main_v71 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The references `rdot2` writes, in order. -/
abbrev rdot2_w : List (Ref sig .tc) :=
  [main_v72]

theorem rdot2_sub : ∀ op ∈ (rdot2 : List (HloOp τ sig (Elt F))), op.bufs ⊆ tcRefs τ sig :=
  List.forall_mem_singleton.mpr (binary_bufs_sub ..)

theorem rdot2_fresh : ∀ op ∈ (rdot2 : List (HloOp τ sig (Elt F))), op.fresh = ∅ :=
  List.forall_mem_singleton.mpr (rfl)

theorem rdot2_writes : ∀ op ∈ (rdot2 : List (HloOp τ sig (Elt F))), op.writes ⊆ refSet τ rdot2_w :=
  List.forall_mem_singleton.mpr (writes_sub_of rfl (by decide))

/-- A reference `rdot2` does not write keeps its contents across it. -/
theorem rdot2_keep (V : Valuation τ sig (Elt F)) {r : Ref sig .tc} (hr : r ∉ rdot2_w) :
    after rdot2 V (Proc.devRef .tc r) = V (Proc.devRef .tc r) :=
  after_keep rdot2_writes V hr

/-- 20 operations: the third layer after its matrix product (main_v89). -/
abbrev r3 : List (HloOp τ sig (Elt F)) :=
  [ StableHlo.nullary main_c_10 (constantI S_ 32 0#32),
    StableHlo.unary main_c_10 main_v73 (broadcastInDim S690000 ![] bcast_S_S690000 : (⟨S_, .i32⟩ : BufTy).Contents (Elt F) → (⟨S690000, .i32⟩ : BufTy).Contents (Elt F)),
    StableHlo.binary main_v3 main_v73 main_v74 (cmpi .slt : (⟨S690000, .i32⟩ : BufTy).Contents (Elt F) → (⟨S690000, .i32⟩ : BufTy).Contents (Elt F) → (⟨S690000, .i1⟩ : BufTy).Contents (Elt F)),
    StableHlo.nullary main_c_11 (constantI S_ 32 50000#32),
    StableHlo.unary main_c_11 main_v75 (broadcastInDim S690000 ![] bcast_S_S690000 : (⟨S_, .i32⟩ : BufTy).Contents (Elt F) → (⟨S690000, .i32⟩ : BufTy).Contents (Elt F)),
    StableHlo.binary main_v3 main_v75 main_v76 (addi : (⟨S690000, .i32⟩ : BufTy).Contents (Elt F) → (⟨S690000, .i32⟩ : BufTy).Contents (Elt F) → (⟨S690000, .i32⟩ : BufTy).Contents (Elt F)),
    StableHlo.ternary main_v74 main_v76 main_v3 main_v77 (select : (⟨S690000, .i1⟩ : BufTy).Contents (Elt F) → (⟨S690000, .i32⟩ : BufTy).Contents (Elt F) → (⟨S690000, .i32⟩ : BufTy).Contents (Elt F) → (⟨S690000, .i32⟩ : BufTy).Contents (Elt F)),
    StableHlo.unary main_v77 main_v78 (broadcastInDim S690000x1 ![0] bcast_S690000_S690000x1_0 : (⟨S690000, .i32⟩ : BufTy).Contents (Elt F) → (⟨S690000x1, .i32⟩ : BufTy).Contents (Elt F)),
    StableHlo.binary main_v72 main_v78 main_v79 ((fun x i => Host.gather gather_S50000x128_S690000x1_S690000x128_1_0_n_n_0_1_1128 x i) : (⟨S50000x128, .f32⟩ : BufTy).Contents (Elt F) → (⟨S690000x1, .i32⟩ : BufTy).Contents (Elt F) → (⟨S690000x128, .f32⟩ : BufTy).Contents (Elt F)),
    StableHlo.unary main_v27 main_v80 (broadcastInDim S690000x128 ![0, 1] bcast_S690000x1_S690000x128_0_1 : (⟨S690000x1, .f32⟩ : BufTy).Contents (Elt F) → (⟨S690000x128, .f32⟩ : BufTy).Contents (Elt F)),
    StableHlo.binary main_v79 main_v80 main_v81 (mulf : (⟨S690000x128, .f32⟩ : BufTy).Contents (Elt F) → (⟨S690000x128, .f32⟩ : BufTy).Contents (Elt F) → (⟨S690000x128, .f32⟩ : BufTy).Contents (Elt F)),
    StableHlo.nullary main_cst_12 (constant S_ .f32 0x00000000#32),
    StableHlo.unary main_cst_12 main_v82 (broadcastInDim S50000x128 ![] bcast_S_S50000x128 : (⟨S_, .f32⟩ : BufTy).Contents (Elt F) → (⟨S50000x128, .f32⟩ : BufTy).Contents (Elt F)),
    StableHlo.unary main_v6 main_v83 (broadcastInDim S690000x1 ![0] bcast_S690000_S690000x1_0 : (⟨S690000, .i32⟩ : BufTy).Contents (Elt F) → (⟨S690000x1, .i32⟩ : BufTy).Contents (Elt F)),
    StableHlo.ternary main_v82 main_v83 main_v81 main_v84 ((fun x i u => Host.scatterAdd scatter_S50000x128_S690000x1_S690000x128_1_0_0_1 x i u) : (⟨S50000x128, .f32⟩ : BufTy).Contents (Elt F) → (⟨S690000x1, .i32⟩ : BufTy).Contents (Elt F) → (⟨S690000x128, .f32⟩ : BufTy).Contents (Elt F) → (⟨S50000x128, .f32⟩ : BufTy).Contents (Elt F)),
    StableHlo.unary main_arg5 main_v85 ((extractStridedSlice S1x128 ![2, 0] · slices_S3x128_S1x128_2_0) : (⟨S3x128, .f32⟩ : BufTy).Contents (Elt F) → (⟨S1x128, .f32⟩ : BufTy).Contents (Elt F)),
    StableHlo.reshape main_v85 main_v86 rfl shapeCasts_S1x128_S128,
    StableHlo.unary main_v86 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v88 main_v89 (addf : (⟨S50000x128, .f32⟩ : BufTy).Contents (Elt F) → (⟨S50000x128, .f32⟩ : BufTy).Contents (Elt F) → (⟨S50000x128, .f32⟩ : BufTy).Contents (Elt F)) ]

/-- The references `r3` writes, in order. -/
abbrev r3_w : List (Ref sig .tc) :=
  [main_c_10, main_v73, main_v74, main_c_11, main_v75, main_v76, main_v77, main_v78,
   main_v79, main_v80, main_v81, main_cst_12, main_v82, main_v83, main_v84, main_v85,
   main_v86, main_v87, main_v88, main_v89]

theorem r3_sub : ∀ op ∈ (r3 : List (HloOp τ sig (Elt F))), op.bufs ⊆ tcRefs τ sig :=
  List.forall_iff_forall_mem.mp
    ⟨nullary_bufs_sub .., unary_bufs_sub .., binary_bufs_sub .., nullary_bufs_sub .., unary_bufs_sub .., binary_bufs_sub ..,
     ternary_bufs_sub .., unary_bufs_sub .., binary_bufs_sub .., unary_bufs_sub .., binary_bufs_sub .., nullary_bufs_sub ..,
     unary_bufs_sub .., unary_bufs_sub .., ternary_bufs_sub .., unary_bufs_sub .., reshape_bufs_sub .., unary_bufs_sub ..,
     unary_bufs_sub .., binary_bufs_sub ..⟩

theorem r3_fresh : ∀ op ∈ (r3 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl⟩

theorem r3_writes : ∀ op ∈ (r3 : List (HloOp τ sig (Elt F))), op.writes ⊆ refSet τ r3_w :=
  List.forall_iff_forall_mem.mp
    ⟨writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide)⟩

/-- A reference `r3` does not write keeps its contents across it. -/
theorem r3_keep (V : Valuation τ sig (Elt F)) {r : Ref sig .tc} (hr : r ∉ r3_w) :
    after r3 V (Proc.devRef .tc r) = V (Proc.devRef .tc r) :=
  after_keep r3_writes V hr

/-- 3 operations: the third layer's maximum with zero (main_v90). -/
abbrev r3c : List (HloOp τ sig (Elt F)) :=
  [ StableHlo.TRef.nullary main_call2.cst (constant S_ .f32 0x00000000#32),
    StableHlo.TRef.unary main_call2.cst main_call2.v0 (broadcastInDim S50000x128 ![] bcast_S_S50000x128),
    StableHlo.TRef.binary (.of main_v89 : StableHlo.TRef sig ⟨S50000x128, .f32⟩) main_call2.v0 main_call2.v1 maximumf ]

/-- The references `r3c` writes, in order. -/
abbrev r3c_w : List (Ref sig .tc) :=
  [main_call2_cst, main_call2_v0, main_v90]

theorem r3c_sub : ∀ op ∈ (r3c : List (HloOp τ sig (Elt F))), op.bufs ⊆ tcRefs τ sig :=
  List.forall_iff_forall_mem.mp
    ⟨nullary_bufs_sub .., unary_bufs_sub .., binary_bufs_sub ..⟩

theorem r3c_fresh : ∀ op ∈ (r3c : List (HloOp τ sig (Elt F))), op.fresh = ∅ :=
  List.forall_iff_forall_mem.mp
    ⟨rfl, rfl, rfl⟩

theorem r3c_writes : ∀ op ∈ (r3c : List (HloOp τ sig (Elt F))), op.writes ⊆ refSet τ r3c_w :=
  List.forall_iff_forall_mem.mp
    ⟨writes_sub_of rfl (by decide), writes_sub_of rfl (by decide), writes_sub_of rfl (by decide)⟩

/-- A reference `r3c` does not write keeps its contents across it. -/
theorem r3c_keep (V : Valuation τ sig (Elt F)) {r : Ref sig .tc} (hr : r ∉ r3c_w) :
    after r3c V (Proc.devRef .tc r) = V (Proc.devRef .tc r) :=
  after_keep r3c_writes V hr

/-- 1 operation: the three layers' outputs concatenated along the feature axis (main_v91). -/
abbrev rt0 : List (HloOp τ sig (Elt F)) :=
  [ StableHlo.nary ![main_v48, main_v69, main_v90] main_v91 (fun u => concatenate S50000x384 1 [⟨S50000x128, u 0⟩, ⟨S50000x128, u 1⟩, ⟨S50000x128, u 2⟩] concatenates_S50000x128_S50000x128_S50000x128_S50000x384_d1) ]

/-- The references `rt0` writes, in order. -/
abbrev rt0_w : List (Ref sig .tc) :=
  [main_v91]

theorem rt0_sub : ∀ op ∈ (rt0 : List (HloOp τ sig (Elt F))), op.bufs ⊆ tcRefs τ sig :=
  List.forall_mem_singleton.mpr (nary_bufs_sub ..)

theorem rt0_fresh : ∀ op ∈ (rt0 : List (HloOp τ sig (Elt F))), op.fresh = ∅ :=
  List.forall_mem_singleton.mpr (rfl)

theorem rt0_writes : ∀ op ∈ (rt0 : List (HloOp τ sig (Elt F))), op.writes ⊆ refSet τ rt0_w :=
  List.forall_mem_singleton.mpr (writes_sub_of rfl (by decide))

/-- A reference `rt0` does not write keeps its contents across it. -/
theorem rt0_keep (V : Valuation τ sig (Elt F)) {r : Ref sig .tc} (hr : r ∉ rt0_w) :
    after rt0 V (Proc.devRef .tc r) = V (Proc.devRef .tc r) :=
  after_keep rt0_writes V hr

/-- 11 operations: the rows of the concatenation gathered at the positive pairs' first ends (main_v100). -/
abbrev rt1 : List (HloOp τ sig (Elt F)) :=
  [ StableHlo.unary main_arg2 main_v92 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v92 main_v93 rfl shapeCasts_S1x100000_S100000,
    StableHlo.nullary main_c_13 (constantI S_ 32 0#32),
    StableHlo.unary main_c_13 main_v94 (broadcastInDim S100000 ![] bcast_S_S100000 : (⟨S_, .i32⟩ : BufTy).Contents (Elt F) → (⟨S100000, .i32⟩ : BufTy).Contents (Elt F)),
    StableHlo.binary main_v93 main_v94 main_v95 (cmpi .slt : (⟨S100000, .i32⟩ : BufTy).Contents (Elt F) → (⟨S100000, .i32⟩ : BufTy).Contents (Elt F) → (⟨S100000, .i1⟩ : BufTy).Contents (Elt F)),
    StableHlo.nullary main_c_14 (constantI S_ 32 50000#32),
    StableHlo.unary main_c_14 main_v96 (broadcastInDim S100000 ![] bcast_S_S100000 : (⟨S_, .i32⟩ : BufTy).Contents (Elt F) → (⟨S100000, .i32⟩ : BufTy).Contents (Elt F)),
    StableHlo.binary main_v93 main_v96 main_v97 (addi : (⟨S100000, .i32⟩ : BufTy).Contents (Elt F) → (⟨S100000, .i32⟩ : BufTy).Contents (Elt F) → (⟨S100000, .i32⟩ : BufTy).Contents (Elt F)),
    StableHlo.ternary main_v95 main_v97 main_v93 main_v98 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v98 main_v99 (broadcastInDim S100000x1 ![0] bcast_S100000_S100000x1_0 : (⟨S100000, .i32⟩ : BufTy).Contents (Elt F) → (⟨S100000x1, .i32⟩ : BufTy).Contents (Elt F)),
    StableHlo.binary main_v91 main_v99 main_v100 ((fun x i => Host.gather gather_S50000x384_S100000x1_S100000x384_1_0_n_n_0_1_1384 x i) : (⟨S50000x384, .f32⟩ : BufTy).Contents (Elt F) → (⟨S100000x1, .i32⟩ : BufTy).Contents (Elt F) → (⟨S100000x384, .f32⟩ : BufTy).Contents (Elt F)) ]

/-- The references `rt1` writes, in order. -/
abbrev rt1_w : List (Ref sig .tc) :=
  [main_v92, main_v93, main_c_13, main_v94, main_v95, main_c_14, main_v96, main_v97,
   main_v98, main_v99, main_v100]

theorem rt1_sub : ∀ op ∈ (rt1 : List (HloOp τ sig (Elt F))), op.bufs ⊆ tcRefs τ sig :=
  List.forall_iff_forall_mem.mp
    ⟨unary_bufs_sub .., reshape_bufs_sub .., nullary_bufs_sub .., unary_bufs_sub .., binary_bufs_sub .., nullary_bufs_sub ..,
     unary_bufs_sub .., binary_bufs_sub .., ternary_bufs_sub .., unary_bufs_sub .., binary_bufs_sub ..⟩

theorem rt1_fresh : ∀ op ∈ (rt1 : List (HloOp τ sig (Elt F))), op.fresh = ∅ :=
  List.forall_iff_forall_mem.mp
    ⟨rfl, rfl, rfl, rfl, rfl, rfl, rfl, rfl, rfl, rfl, rfl⟩

theorem rt1_writes : ∀ op ∈ (rt1 : List (HloOp τ sig (Elt F))), op.writes ⊆ refSet τ rt1_w :=
  List.forall_iff_forall_mem.mp
    ⟨writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide)⟩

/-- A reference `rt1` does not write keeps its contents across it. -/
theorem rt1_keep (V : Valuation τ sig (Elt F)) {r : Ref sig .tc} (hr : r ∉ rt1_w) :
    after rt1 V (Proc.devRef .tc r) = V (Proc.devRef .tc r) :=
  after_keep rt1_writes V hr

/-- 2 operations: the positive pairs' second ends as a vector (main_v102). -/
abbrev rt2a : List (HloOp τ sig (Elt F)) :=
  [ StableHlo.unary main_arg2 main_v101 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v101 main_v102 rfl shapeCasts_S1x100000_S100000 ]

/-- The references `rt2a` writes, in order. -/
abbrev rt2a_w : List (Ref sig .tc) :=
  [main_v101, main_v102]

theorem rt2a_sub : ∀ op ∈ (rt2a : List (HloOp τ sig (Elt F))), op.bufs ⊆ tcRefs τ sig :=
  List.forall_iff_forall_mem.mp
    ⟨unary_bufs_sub .., reshape_bufs_sub ..⟩

theorem rt2a_fresh : ∀ op ∈ (rt2a : List (HloOp τ sig (Elt F))), op.fresh = ∅ :=
  List.forall_iff_forall_mem.mp
    ⟨rfl, rfl⟩

theorem rt2a_writes : ∀ op ∈ (rt2a : List (HloOp τ sig (Elt F))), op.writes ⊆ refSet τ rt2a_w :=
  List.forall_iff_forall_mem.mp
    ⟨writes_sub_of rfl (by decide), writes_sub_of rfl (by decide)⟩

/-- A reference `rt2a` does not write keeps its contents across it. -/
theorem rt2a_keep (V : Valuation τ sig (Elt F)) {r : Ref sig .tc} (hr : r ∉ rt2a_w) :
    after rt2a V (Proc.devRef .tc r) = V (Proc.devRef .tc r) :=
  after_keep rt2a_writes V hr

/-- Window 1: its stretches in order. -/
abbrev ops1 : List (HloOp τ sig (Elt F)) := rdot1 ++ r2 ++ r2c ++ r2w ++ rdot2 ++ r3 ++ r3c ++ rt0 ++ rt1 ++ rt2a

/-- The window is that straight line: with the callees' definitions unfolded at their calls, both sides are one
    chain of host steps. -/
theorem part1_eq (c : Dev nD) : main_part1 (F := F) c = seq ops1 := rfl

end Cert.ReferenceIdeal.RefRun

end
-- ==== Proof.RefRun.Ops2.lean ====
/- The reference program's @main read as a LIST of host operations, window 2 of 3 (statements 121 to 173: the two scores (gathers, product, matrix product with the output weights, bias), each log-sigmoid inlined from its function (its softplus inlined in turn), the two sums and the mean),
   cut into consecutive named stretches. Each entry is the operation the printed statement runs, in program order; a
   call is replaced by its callee's operations over that call's own buffers. The list is checked against the program
   by `part2_eq`. -/
import proofs.«150805_j37804302139719_1_alg».proof.Proof.Gen.ReferenceIdeal
import proofs.«150805_j37804302139719_1_alg».proof.Proof.RefRun.Basic

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 9 operations: the rows gathered at the positive pairs' second ends (main_v109). -/
abbrev rt2b : List (HloOp τ sig (Elt F)) :=
  [ StableHlo.nullary main_c_15 (constantI S_ 32 0#32),
    StableHlo.unary main_c_15 main_v103 (broadcastInDim S100000 ![] bcast_S_S100000 : (⟨S_, .i32⟩ : BufTy).Contents (Elt F) → (⟨S100000, .i32⟩ : BufTy).Contents (Elt F)),
    StableHlo.binary main_v102 main_v103 main_v104 (cmpi .slt : (⟨S100000, .i32⟩ : BufTy).Contents (Elt F) → (⟨S100000, .i32⟩ : BufTy).Contents (Elt F) → (⟨S100000, .i1⟩ : BufTy).Contents (Elt F)),
    StableHlo.nullary main_c_16 (constantI S_ 32 50000#32),
    StableHlo.unary main_c_16 main_v105 (broadcastInDim S100000 ![] bcast_S_S100000 : (⟨S_, .i32⟩ : BufTy).Contents (Elt F) → (⟨S100000, .i32⟩ : BufTy).Contents (Elt F)),
    StableHlo.binary main_v102 main_v105 main_v106 (addi : (⟨S100000, .i32⟩ : BufTy).Contents (Elt F) → (⟨S100000, .i32⟩ : BufTy).Contents (Elt F) → (⟨S100000, .i32⟩ : BufTy).Contents (Elt F)),
    StableHlo.ternary main_v104 main_v106 main_v102 main_v107 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v107 main_v108 (broadcastInDim S100000x1 ![0] bcast_S100000_S100000x1_0 : (⟨S100000, .i32⟩ : BufTy).Contents (Elt F) → (⟨S100000x1, .i32⟩ : BufTy).Contents (Elt F)),
    StableHlo.binary main_v91 main_v108 main_v109 ((fun x i => Host.gather gather_S50000x384_S100000x1_S100000x384_1_0_n_n_0_1_1384 x i) : (⟨S50000x384, .f32⟩ : BufTy).Contents (Elt F) → (⟨S100000x1, .i32⟩ : BufTy).Contents (Elt F) → (⟨S100000x384, .f32⟩ : BufTy).Contents (Elt F)) ]

/-- The references `rt2b` writes, in order. -/
abbrev rt2b_w : List (Ref sig .tc) :=
  [main_c_15, main_v103, main_v104, main_c_16, main_v105, main_v106, main_v107, main_v108,
   main_v109]

theorem rt2b_sub : ∀ op ∈ (rt2b : List (HloOp τ sig (Elt F))), op.bufs ⊆ tcRefs τ sig :=
  List.forall_iff_forall_mem.mp
    ⟨nullary_bufs_sub .., unary_bufs_sub .., binary_bufs_sub .., nullary_bufs_sub .., unary_bufs_sub .., binary_bufs_sub ..,
     ternary_bufs_sub .., unary_bufs_sub .., binary_bufs_sub ..⟩

theorem rt2b_fresh : ∀ op ∈ (rt2b : List (HloOp τ sig (Elt F))), op.fresh = ∅ :=
  List.forall_iff_forall_mem.mp
    ⟨rfl, rfl, rfl, rfl, rfl, rfl, rfl, rfl, rfl⟩

theorem rt2b_writes : ∀ op ∈ (rt2b : List (HloOp τ sig (Elt F))), op.writes ⊆ refSet τ rt2b_w :=
  List.forall_iff_forall_mem.mp
    ⟨writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide)⟩

/-- A reference `rt2b` does not write keeps its contents across it. -/
theorem rt2b_keep (V : Valuation τ sig (Elt F)) {r : Ref sig .tc} (hr : r ∉ rt2b_w) :
    after rt2b V (Proc.devRef .tc r) = V (Proc.devRef .tc r) :=
  after_keep rt2b_writes V hr

/-- 5 operations: the positive score: the product of the two gathered rows against the output weights, the bias added (main_v114). -/
abbrev rt3 : List (HloOp τ sig (Elt F)) :=
  [ StableHlo.binary main_v100 main_v109 main_v110 (mulf : (⟨S100000x384, .f32⟩ : BufTy).Contents (Elt F) → (⟨S100000x384, .f32⟩ : BufTy).Contents (Elt F) → (⟨S100000x384, .f32⟩ : BufTy).Contents (Elt F)),
    StableHlo.binary main_v110 main_arg6 main_v111 ((fun l r => Host.dotGeneral dot_S100000x384_S384x1_S100000x1_1_0_0_1_n_n none l r) : (⟨S100000x384, .f32⟩ : BufTy).Contents (Elt F) → (⟨S384x1, .f32⟩ : BufTy).Contents (Elt F) → (⟨S100000x1, .f32⟩ : BufTy).Contents (Elt F)),
    StableHlo.unary main_arg7 main_v112 (broadcastInDim S1x1 ![1] bcast_S1_S1x1_1 : (⟨S1, .f32⟩ : BufTy).Contents (Elt F) → (⟨S1x1, .f32⟩ : BufTy).Contents (Elt F)),
    StableHlo.unary main_v112 main_v113 (broadcastInDim S100000x1 ![0, 1] bcast_S1x1_S100000x1_0_1 : (⟨S1x1, .f32⟩ : BufTy).Contents (Elt F) → (⟨S100000x1, .f32⟩ : BufTy).Contents (Elt F)),
    StableHlo.binary main_v111 main_v113 main_v114 (addf : (⟨S100000x1, .f32⟩ : BufTy).Contents (Elt F) → (⟨S100000x1, .f32⟩ : BufTy).Contents (Elt F) → (⟨S100000x1, .f32⟩ : BufTy).Contents (Elt F)) ]

/-- The references `rt3` writes, in order. -/
abbrev rt3_w : List (Ref sig .tc) :=
  [main_v110, main_v111, main_v112, main_v113, main_v114]

theorem rt3_sub : ∀ op ∈ (rt3 : List (HloOp τ sig (Elt F))), op.bufs ⊆ tcRefs τ sig :=
  List.forall_iff_forall_mem.mp
    ⟨binary_bufs_sub .., binary_bufs_sub .., unary_bufs_sub .., unary_bufs_sub .., binary_bufs_sub ..⟩

theorem rt3_fresh : ∀ op ∈ (rt3 : List (HloOp τ sig (Elt F))), op.fresh = ∅ :=
  List.forall_iff_forall_mem.mp
    ⟨rfl, rfl, rfl, rfl, rfl⟩

theorem rt3_writes : ∀ op ∈ (rt3 : List (HloOp τ sig (Elt F))), op.writes ⊆ refSet τ rt3_w :=
  List.forall_iff_forall_mem.mp
    ⟨writes_sub_of rfl (by decide), writes_sub_of rfl (by decide), writes_sub_of rfl (by decide), writes_sub_of rfl (by decide),
     writes_sub_of rfl (by decide)⟩

/-- A reference `rt3` does not write keeps its contents across it. -/
theorem rt3_keep (V : Valuation τ sig (Elt F)) {r : Ref sig .tc} (hr : r ∉ rt3_w) :
    after rt3 V (Proc.devRef .tc r) = V (Proc.devRef .tc r) :=
  after_keep rt3_writes V hr

/-- 27 operations: the negative score, the same computation over the negative pairs (main_v137). -/
abbrev rt4 : List (HloOp τ sig (Elt F)) :=
  [ StableHlo.unary main_arg3 main_v115 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v115 main_v116 rfl shapeCasts_S1x100000_S100000,
    StableHlo.nullary main_c_17 (constantI S_ 32 0#32),
    StableHlo.unary main_c_17 main_v117 (broadcastInDim S100000 ![] bcast_S_S100000 : (⟨S_, .i32⟩ : BufTy).Contents (Elt F) → (⟨S100000, .i32⟩ : BufTy).Contents (Elt F)),
    StableHlo.binary main_v116 main_v117 main_v118 (cmpi .slt : (⟨S100000, .i32⟩ : BufTy).Contents (Elt F) → (⟨S100000, .i32⟩ : BufTy).Contents (Elt F) → (⟨S100000, .i1⟩ : BufTy).Contents (Elt F)),
    StableHlo.nullary main_c_18 (constantI S_ 32 50000#32),
    StableHlo.unary main_c_18 main_v119 (broadcastInDim S100000 ![] bcast_S_S100000 : (⟨S_, .i32⟩ : BufTy).Contents (Elt F) → (⟨S100000, .i32⟩ : BufTy).Contents (Elt F)),
    StableHlo.binary main_v116 main_v119 main_v120 (addi : (⟨S100000, .i32⟩ : BufTy).Contents (Elt F) → (⟨S100000, .i32⟩ : BufTy).Contents (Elt F) → (⟨S100000, .i32⟩ : BufTy).Contents (Elt F)),
    StableHlo.ternary main_v118 main_v120 main_v116 main_v121 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v121 main_v122 (broadcastInDim S100000x1 ![0] bcast_S100000_S100000x1_0 : (⟨S100000, .i32⟩ : BufTy).Contents (Elt F) → (⟨S100000x1, .i32⟩ : BufTy).Contents (Elt F)),
    StableHlo.binary main_v91 main_v122 main_v123 ((fun x i => Host.gather gather_S50000x384_S100000x1_S100000x384_1_0_n_n_0_1_1384 x i) : (⟨S50000x384, .f32⟩ : BufTy).Contents (Elt F) → (⟨S100000x1, .i32⟩ : BufTy).Contents (Elt F) → (⟨S100000x384, .f32⟩ : BufTy).Contents (Elt F)),
    StableHlo.unary main_arg3 main_v124 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v124 main_v125 rfl shapeCasts_S1x100000_S100000,
    StableHlo.nullary main_c_19 (constantI S_ 32 0#32),
    StableHlo.unary main_c_19 main_v126 (broadcastInDim S100000 ![] bcast_S_S100000 : (⟨S_, .i32⟩ : BufTy).Contents (Elt F) → (⟨S100000, .i32⟩ : BufTy).Contents (Elt F)),
    StableHlo.binary main_v125 main_v126 main_v127 (cmpi .slt : (⟨S100000, .i32⟩ : BufTy).Contents (Elt F) → (⟨S100000, .i32⟩ : BufTy).Contents (Elt F) → (⟨S100000, .i1⟩ : BufTy).Contents (Elt F)),
    StableHlo.nullary main_c_20 (constantI S_ 32 50000#32),
    StableHlo.unary main_c_20 main_v128 (broadcastInDim S100000 ![] bcast_S_S100000 : (⟨S_, .i32⟩ : BufTy).Contents (Elt F) → (⟨S100000, .i32⟩ : BufTy).Contents (Elt F)),
    StableHlo.binary main_v125 main_v128 main_v129 (addi : (⟨S100000, .i32⟩ : BufTy).Contents (Elt F) → (⟨S100000, .i32⟩ : BufTy).Contents (Elt F) → (⟨S100000, .i32⟩ : BufTy).Contents (Elt F)),
    StableHlo.ternary main_v127 main_v129 main_v125 main_v130 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v130 main_v131 (broadcastInDim S100000x1 ![0] bcast_S100000_S100000x1_0 : (⟨S100000, .i32⟩ : BufTy).Contents (Elt F) → (⟨S100000x1, .i32⟩ : BufTy).Contents (Elt F)),
    StableHlo.binary main_v91 main_v131 main_v132 ((fun x i => Host.gather gather_S50000x384_S100000x1_S100000x384_1_0_n_n_0_1_1384 x i) : (⟨S50000x384, .f32⟩ : BufTy).Contents (Elt F) → (⟨S100000x1, .i32⟩ : BufTy).Contents (Elt F) → (⟨S100000x384, .f32⟩ : BufTy).Contents (Elt F)),
    StableHlo.binary main_v123 main_v132 main_v133 (mulf : (⟨S100000x384, .f32⟩ : BufTy).Contents (Elt F) → (⟨S100000x384, .f32⟩ : BufTy).Contents (Elt F) → (⟨S100000x384, .f32⟩ : BufTy).Contents (Elt F)),
    StableHlo.binary main_v133 main_arg6 main_v134 ((fun l r => Host.dotGeneral dot_S100000x384_S384x1_S100000x1_1_0_0_1_n_n none l r) : (⟨S100000x384, .f32⟩ : BufTy).Contents (Elt F) → (⟨S384x1, .f32⟩ : BufTy).Contents (Elt F) → (⟨S100000x1, .f32⟩ : BufTy).Contents (Elt F)),
    StableHlo.unary main_arg7 main_v135 (broadcastInDim S1x1 ![1] bcast_S1_S1x1_1 : (⟨S1, .f32⟩ : BufTy).Contents (Elt F) → (⟨S1x1, .f32⟩ : BufTy).Contents (Elt F)),
    StableHlo.unary main_v135 main_v136 (broadcastInDim S100000x1 ![0, 1] bcast_S1x1_S100000x1_0_1 : (⟨S1x1, .f32⟩ : BufTy).Contents (Elt F) → (⟨S100000x1, .f32⟩ : BufTy).Contents (Elt F)),
    StableHlo.binary main_v134 main_v136 main_v137 (addf : (⟨S100000x1, .f32⟩ : BufTy).Contents (Elt F) → (⟨S100000x1, .f32⟩ : BufTy).Contents (Elt F) → (⟨S100000x1, .f32⟩ : BufTy).Contents (Elt F)) ]

/-- The references `rt4` writes, in order. -/
abbrev rt4_w : List (Ref sig .tc) :=
  [main_v115, main_v116, main_c_17, main_v117, main_v118, main_c_18, main_v119, main_v120,
   main_v121, main_v122, main_v123, main_v124, main_v125, main_c_19, main_v126, main_v127,
   main_c_20, main_v128, main_v129, main_v130, main_v131, main_v132, main_v133, main_v134,
   main_v135, main_v136, main_v137]

theorem rt4_sub : ∀ op ∈ (rt4 : List (HloOp τ sig (Elt F))), op.bufs ⊆ tcRefs τ sig :=
  List.forall_iff_forall_mem.mp
    ⟨unary_bufs_sub .., reshape_bufs_sub .., nullary_bufs_sub .., unary_bufs_sub .., binary_bufs_sub .., nullary_bufs_sub ..,
     unary_bufs_sub .., binary_bufs_sub .., ternary_bufs_sub .., unary_bufs_sub .., binary_bufs_sub .., unary_bufs_sub ..,
     reshape_bufs_sub .., nullary_bufs_sub .., unary_bufs_sub .., binary_bufs_sub .., nullary_bufs_sub .., unary_bufs_sub ..,
     binary_bufs_sub .., ternary_bufs_sub .., unary_bufs_sub .., binary_bufs_sub .., binary_bufs_sub .., binary_bufs_sub ..,
     unary_bufs_sub .., unary_bufs_sub .., binary_bufs_sub ..⟩

theorem rt4_fresh : ∀ op ∈ (rt4 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl,
     rfl, rfl, rfl, rfl, rfl, rfl, rfl⟩

theorem rt4_writes : ∀ op ∈ (rt4 : List (HloOp τ sig (Elt F))), op.writes ⊆ refSet τ rt4_w :=
  List.forall_iff_forall_mem.mp
    ⟨writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide)⟩

/-- A reference `rt4` does not write keeps its contents across it. -/
theorem rt4_keep (V : Valuation τ sig (Elt F)) {r : Ref sig .tc} (hr : r ∉ rt4_w) :
    after rt4 V (Proc.devRef .tc r) = V (Proc.devRef .tc r) :=
  after_keep rt4_writes V hr

/-- 19 operations: the log-sigmoid of the positive score (its function's operations, the softplus inside it inlined in turn), negated and summed (main_v140). -/
abbrev rt5 : List (HloOp τ sig (Elt F)) :=
  [ StableHlo.TRef.unary (.of main_v114 : StableHlo.TRef sig ⟨S100000x1, .f32⟩) main_call3.v0 Host.negf,
    StableHlo.TRef.nullary main_call3.call0.cst (constant S_ .f32 0x00000000#32),
    StableHlo.TRef.unary main_call3.call0.cst main_call3.call0.v0 (broadcastInDim S100000x1 ![] bcast_S_S100000x1),
    StableHlo.TRef.binary main_call3.v0 main_call3.call0.v0 main_call3.call0.v1 maximumf,
    StableHlo.TRef.unary main_call3.call0.cst main_call3.call0.v2 (broadcastInDim S100000x1 ![] bcast_S_S100000x1),
    StableHlo.TRef.binary main_call3.v0 main_call3.call0.v2 main_call3.call0.v3 subf,
    StableHlo.TRef.binary main_call3.call0.v3 main_call3.call0.v3 main_call3.call0.v4 (cmpf .une),
    StableHlo.TRef.unary main_call3.call0.cst main_call3.call0.v5 (broadcastInDim S100000x1 ![] bcast_S_S100000x1),
    StableHlo.TRef.binary main_call3.v0 main_call3.call0.v5 main_call3.call0.v6 addf,
    StableHlo.TRef.unary main_call3.call0.v3 main_call3.call0.v7 Host.absf,
    StableHlo.TRef.unary main_call3.call0.v7 main_call3.call0.v8 Host.negf,
    StableHlo.TRef.unary main_call3.call0.v8 main_call3.call0.v9 Host.exp,
    StableHlo.TRef.unary main_call3.call0.v9 main_call3.call0.v10 Host.log1p,
    StableHlo.TRef.binary main_call3.call0.v1 main_call3.call0.v10 main_call3.call0.v11 addf,
    StableHlo.TRef.ternary main_call3.call0.v4 main_call3.call0.v6 main_call3.call0.v11 main_call3.call0.v12 select,
    StableHlo.TRef.unary main_call3.call0.v12 main_call3.v2 Host.negf,
    StableHlo.unary main_v138 main_v139 (Host.negf : (⟨S100000x1, .f32⟩ : BufTy).Contents (Elt F) → (⟨S100000x1, .f32⟩ : BufTy).Contents (Elt F)),
    StableHlo.nullary main_cst_21 (constant S_ .f32 0x00000000#32),
    StableHlo.binary main_v139 main_cst_21 main_v140 ((fun x v => Host.reduceAdd x v reducesTo_S100000x1_S_d0_1 h_S_) : (⟨S100000x1, .f32⟩ : BufTy).Contents (Elt F) → (⟨S_, .f32⟩ : BufTy).Contents (Elt F) → (⟨S_, .f32⟩ : BufTy).Contents (Elt F)) ]

/-- The references `rt5` writes, in order. -/
abbrev rt5_w : List (Ref sig .tc) :=
  [main_call3_v0, main_call3_call0_cst, main_call3_call0_v0, main_call3_call0_v1, main_call3_call0_v2, main_call3_call0_v3, main_call3_call0_v4, main_call3_call0_v5,
   main_call3_call0_v6, main_call3_call0_v7, main_call3_call0_v8, main_call3_call0_v9, main_call3_call0_v10, main_call3_call0_v11, main_call3_v1, main_v138,
   main_v139, main_cst_21, main_v140]

theorem rt5_sub : ∀ op ∈ (rt5 : List (HloOp τ sig (Elt F))), op.bufs ⊆ tcRefs τ sig :=
  List.forall_iff_forall_mem.mp
    ⟨unary_bufs_sub .., nullary_bufs_sub .., unary_bufs_sub .., binary_bufs_sub .., unary_bufs_sub .., binary_bufs_sub ..,
     binary_bufs_sub .., unary_bufs_sub .., binary_bufs_sub .., unary_bufs_sub .., unary_bufs_sub .., unary_bufs_sub ..,
     unary_bufs_sub .., binary_bufs_sub .., ternary_bufs_sub .., unary_bufs_sub .., unary_bufs_sub .., nullary_bufs_sub ..,
     binary_bufs_sub ..⟩

theorem rt5_fresh : ∀ op ∈ (rt5 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl⟩

theorem rt5_writes : ∀ op ∈ (rt5 : List (HloOp τ sig (Elt F))), op.writes ⊆ refSet τ rt5_w :=
  List.forall_iff_forall_mem.mp
    ⟨writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide)⟩

/-- A reference `rt5` does not write keeps its contents across it. -/
theorem rt5_keep (V : Valuation τ sig (Elt F)) {r : Ref sig .tc} (hr : r ∉ rt5_w) :
    after rt5 V (Proc.devRef .tc r) = V (Proc.devRef .tc r) :=
  after_keep rt5_writes V hr

/-- 23 operations: the log-sigmoid of the negated negative score, negated and summed (main_v144), the two sums added and divided by the number of pairs (main_v146). -/
abbrev rt6 : List (HloOp τ sig (Elt F)) :=
  [ StableHlo.unary main_v137 main_v141 (Host.negf : (⟨S100000x1, .f32⟩ : BufTy).Contents (Elt F) → (⟨S100000x1, .f32⟩ : BufTy).Contents (Elt F)),
    StableHlo.TRef.unary (.of main_v141 : StableHlo.TRef sig ⟨S100000x1, .f32⟩) main_call4.v0 Host.negf,
    StableHlo.TRef.nullary main_call4.call0.cst (constant S_ .f32 0x00000000#32),
    StableHlo.TRef.unary main_call4.call0.cst main_call4.call0.v0 (broadcastInDim S100000x1 ![] bcast_S_S100000x1),
    StableHlo.TRef.binary main_call4.v0 main_call4.call0.v0 main_call4.call0.v1 maximumf,
    StableHlo.TRef.unary main_call4.call0.cst main_call4.call0.v2 (broadcastInDim S100000x1 ![] bcast_S_S100000x1),
    StableHlo.TRef.binary main_call4.v0 main_call4.call0.v2 main_call4.call0.v3 subf,
    StableHlo.TRef.binary main_call4.call0.v3 main_call4.call0.v3 main_call4.call0.v4 (cmpf .une),
    StableHlo.TRef.unary main_call4.call0.cst main_call4.call0.v5 (broadcastInDim S100000x1 ![] bcast_S_S100000x1),
    StableHlo.TRef.binary main_call4.v0 main_call4.call0.v5 main_call4.call0.v6 addf,
    StableHlo.TRef.unary main_call4.call0.v3 main_call4.call0.v7 Host.absf,
    StableHlo.TRef.unary main_call4.call0.v7 main_call4.call0.v8 Host.negf,
    StableHlo.TRef.unary main_call4.call0.v8 main_call4.call0.v9 Host.exp,
    StableHlo.TRef.unary main_call4.call0.v9 main_call4.call0.v10 Host.log1p,
    StableHlo.TRef.binary main_call4.call0.v1 main_call4.call0.v10 main_call4.call0.v11 addf,
    StableHlo.TRef.ternary main_call4.call0.v4 main_call4.call0.v6 main_call4.call0.v11 main_call4.call0.v12 select,
    StableHlo.TRef.unary main_call4.call0.v12 main_call4.v2 Host.negf,
    StableHlo.unary main_v142 main_v143 (Host.negf : (⟨S100000x1, .f32⟩ : BufTy).Contents (Elt F) → (⟨S100000x1, .f32⟩ : BufTy).Contents (Elt F)),
    StableHlo.nullary main_cst_22 (constant S_ .f32 0x00000000#32),
    StableHlo.binary main_v143 main_cst_22 main_v144 ((fun x v => Host.reduceAdd x v reducesTo_S100000x1_S_d0_1 h_S_) : (⟨S100000x1, .f32⟩ : BufTy).Contents (Elt F) → (⟨S_, .f32⟩ : BufTy).Contents (Elt F) → (⟨S_, .f32⟩ : BufTy).Contents (Elt F)),
    StableHlo.binary main_v140 main_v144 main_v145 (addf : (⟨S_, .f32⟩ : BufTy).Contents (Elt F) → (⟨S_, .f32⟩ : BufTy).Contents (Elt F) → (⟨S_, .f32⟩ : BufTy).Contents (Elt F)),
    StableHlo.nullary main_cst_23 (constant S_ .f32 0x48435000#32),
    StableHlo.binary main_v145 main_cst_23 main_v146 (Host.divf : (⟨S_, .f32⟩ : BufTy).Contents (Elt F) → (⟨S_, .f32⟩ : BufTy).Contents (Elt F) → (⟨S_, .f32⟩ : BufTy).Contents (Elt F)) ]

/-- The references `rt6` writes, in order. -/
abbrev rt6_w : List (Ref sig .tc) :=
  [main_v141, main_call4_v0, main_call4_call0_cst, main_call4_call0_v0, main_call4_call0_v1, main_call4_call0_v2, main_call4_call0_v3, main_call4_call0_v4,
   main_call4_call0_v5, main_call4_call0_v6, main_call4_call0_v7, main_call4_call0_v8, main_call4_call0_v9, main_call4_call0_v10, main_call4_call0_v11, main_call4_v1,
   main_v142, main_v143, main_cst_22, main_v144, main_v145, main_cst_23, main_v146]

theorem rt6_sub : ∀ op ∈ (rt6 : List (HloOp τ sig (Elt F))), op.bufs ⊆ tcRefs τ sig :=
  List.forall_iff_forall_mem.mp
    ⟨unary_bufs_sub .., unary_bufs_sub .., nullary_bufs_sub .., unary_bufs_sub .., binary_bufs_sub .., unary_bufs_sub ..,
     binary_bufs_sub .., binary_bufs_sub .., unary_bufs_sub .., binary_bufs_sub .., unary_bufs_sub .., unary_bufs_sub ..,
     unary_bufs_sub .., unary_bufs_sub .., binary_bufs_sub .., ternary_bufs_sub .., unary_bufs_sub .., unary_bufs_sub ..,
     nullary_bufs_sub .., binary_bufs_sub .., binary_bufs_sub .., nullary_bufs_sub .., binary_bufs_sub ..⟩

theorem rt6_fresh : ∀ op ∈ (rt6 : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl,
     rfl, rfl, rfl⟩

theorem rt6_writes : ∀ op ∈ (rt6 : List (HloOp τ sig (Elt F))), op.writes ⊆ refSet τ rt6_w :=
  List.forall_iff_forall_mem.mp
    ⟨writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide), writes_sub_of rfl (by decide),
     writes_sub_of rfl (by decide), writes_sub_of rfl (by decide), writes_sub_of rfl (by decide)⟩

/-- A reference `rt6` does not write keeps its contents across it. -/
theorem rt6_keep (V : Valuation τ sig (Elt F)) {r : Ref sig .tc} (hr : r ∉ rt6_w) :
    after rt6 V (Proc.devRef .tc r) = V (Proc.devRef .tc r) :=
  after_keep rt6_writes V hr

/-- Window 2: its stretches in order. -/
abbrev ops2 : List (HloOp τ sig (Elt F)) := rt2b ++ rt3 ++ rt4 ++ rt5 ++ rt6

/-- The window is that straight line: with the callees' definitions unfolded at their calls, both sides are one
    chain of host steps. -/
theorem part2_eq (c : Dev nD) : main_part2 (F := F) c = seq ops2 := rfl

end Cert.ReferenceIdeal.RefRun

end
-- ==== Proof.RefRun.lean ====
/- The reference program's run. Its @main is the straight line `ops` of 209 host operations — the three printed
   windows in order, calls replaced by their callees' operations — stated as the concatenation of named stretches
   cut where the graph-convolution layers begin and end. From any memory with zero counters every weakly fair
   execution terminates; every buffer then holds the fold of the operations' results over its launch contents
   (`run_all`), in particular the result buffer (`run`), and the eight arguments hold what they held. -/
import proofs.«150805_j37804302139719_1_alg».proof.Proof.RefRun.Ops0
import proofs.«150805_j37804302139719_1_alg».proof.Proof.RefRun.Ops1
import proofs.«150805_j37804302139719_1_alg».proof.Proof.RefRun.Ops2

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Everything from the concatenation of the layers' outputs to the loss: 97 operations, its stages in order. -/
abbrev rtail : List (HloOp τ sig (Elt F)) := rt0 ++ rt1 ++ rt2a ++ rt2b ++ rt3 ++ rt4 ++ rt5 ++ rt6

/-- The references `rtail` writes, in order. -/
abbrev rtail_w : List (Ref sig .tc) := rt0_w ++ rt1_w ++ rt2a_w ++ rt2b_w ++ rt3_w ++ rt4_w ++ rt5_w ++ rt6_w

/-- @main's 209 operations, in program order. -/
abbrev ops : List (HloOp τ sig (Elt F)) := r0 ++ rdot0 ++ r1 ++ r1c ++ r1w ++ rdot1 ++ r2 ++ r2c ++ r2w ++ rdot2 ++ r3 ++ r3c ++ rtail

/-- The references @main writes, in program order: every buffer but the eight arguments. -/
abbrev ops_w : List (Ref sig .tc) := r0_w ++ rdot0_w ++ r1_w ++ r1c_w ++ r1w_w ++ rdot1_w ++ r2_w ++ r2c_w ++ r2w_w ++ rdot2_w ++ r3_w ++ r3c_w ++ rtail_w

/-- The three windows in order are `ops`: concatenation is associative. -/
theorem ops_flat_eq : (ops0 ++ (ops1 ++ ops2) : List (HloOp τ sig (Elt F))) = ops := by
  simp only [ops, ops0, ops1, ops2, rtail, List.append_assoc]

/-- @main is that straight line: it runs its three windows in order, each the line of its own operations. -/
theorem main_eq (c : Dev nD) : main (F := F) c = seq ops := by
  rw [← ops_flat_eq, seq_append ops0 (ops1 ++ ops2), seq_append ops1 ops2, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem rtail_sub : ∀ op ∈ (rtail : List (HloOp τ sig (Elt F))), op.bufs ⊆ tcRefs τ sig :=
  forall_append (forall_append (forall_append (forall_append (forall_append (forall_append (forall_append (rt0_sub) rt1_sub) rt2a_sub) rt2b_sub) rt3_sub) rt4_sub) rt5_sub) rt6_sub

theorem rtail_fresh : ∀ op ∈ (rtail : List (HloOp τ sig (Elt F))), op.fresh = ∅ :=
  forall_append (forall_append (forall_append (forall_append (forall_append (forall_append (forall_append (rt0_fresh) rt1_fresh) rt2a_fresh) rt2b_fresh) rt3_fresh) rt4_fresh) rt5_fresh) rt6_fresh

theorem rtail_writes : ∀ op ∈ (rtail : List (HloOp τ sig (Elt F))), op.writes ⊆ refSet τ rtail_w :=
  writes_append (writes_append (writes_append (writes_append (writes_append (writes_append (writes_append (rt0_writes) rt1_writes) rt2a_writes) rt2b_writes) rt3_writes) rt4_writes) rt5_writes) rt6_writes

/-- A reference `rtail` does not write keeps its contents across it. -/
theorem rtail_keep (V : Valuation τ sig (Elt F)) {r : Ref sig .tc} (hr : r ∉ rtail_w) :
    after rtail V (Proc.devRef .tc r) = V (Proc.devRef .tc r) :=
  after_keep rtail_writes V hr

/-- Every operation of @main touches TensorCore references only. -/
theorem ops_sub : ∀ op ∈ (ops : List (HloOp τ sig (Elt F))), op.bufs ⊆ tcRefs τ sig :=
  forall_append (forall_append (forall_append (forall_append (forall_append (forall_append (forall_append (forall_append (forall_append (forall_append (forall_append (forall_append (r0_sub) rdot0_sub) r1_sub) r1c_sub) r1w_sub) rdot1_sub) r2_sub) r2c_sub) r2w_sub) rdot2_sub) r3_sub) r3c_sub) rtail_sub

/-- Every operation of @main determines what it writes. -/
theorem ops_fresh : ∀ op ∈ (ops : List (HloOp τ sig (Elt F))), op.fresh = ∅ :=
  forall_append (forall_append (forall_append (forall_append (forall_append (forall_append (forall_append (forall_append (forall_append (forall_append (forall_append (forall_append (r0_fresh) rdot0_fresh) r1_fresh) r1c_fresh) r1w_fresh) rdot1_fresh) r2_fresh) r2c_fresh) r2w_fresh) rdot2_fresh) r3_fresh) r3c_fresh) rtail_fresh

/-- Every operation of @main writes one of `ops_w`. -/
theorem ops_writes : ∀ op ∈ (ops : List (HloOp τ sig (Elt F))), op.writes ⊆ refSet τ ops_w :=
  writes_append (writes_append (writes_append (writes_append (writes_append (writes_append (writes_append (writes_append (writes_append (writes_append (writes_append (writes_append (r0_writes) rdot0_writes) r1_writes) r1c_writes) r1w_writes) rdot1_writes) r2_writes) r2c_writes) r2w_writes) rdot2_writes) r3_writes) r3c_writes) rtail_writes

/-- A reference @main does not write — an argument — keeps its contents across the whole line. -/
theorem ops_keep (V : Valuation τ sig (Elt F)) {r : Ref sig .tc} (hr : r ∉ ops_w) :
    after ops V (Proc.devRef .tc r) = V (Proc.devRef .tc r) :=
  after_keep ops_writes V hr

/-- On every device, for any float values, from any memory with zero counters: every weakly fair execution of
    @main terminates, and every final state has each TensorCore buffer at the operations' fold over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq
    (fun _ => List.forall_iff_forall_mem.mpr ops_sub) m ρ (fun _ => ops_fresh)

/-- The same run read at the result and the arguments: the result buffer ends at the fold of the operations over
    the launch contents, and each of the eight arguments ends holding what it held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v146) = after ops (launchContents m c) (Proc.devRef .tc main_v146)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v146,
      (h c main_arg0).trans (ops_keep (launchContents m c) (by decide)),
      (h c main_arg1).trans (ops_keep (launchContents m c) (by decide)),
      (h c main_arg2).trans (ops_keep (launchContents m c) (by decide)),
      (h c main_arg3).trans (ops_keep (launchContents m c) (by decide)),
      (h c main_arg4).trans (ops_keep (launchContents m c) (by decide)),
      (h c main_arg5).trans (ops_keep (launchContents m c) (by decide)),
      (h c main_arg6).trans (ops_keep (launchContents m c) (by decide)),
      (h c main_arg7).trans (ops_keep (launchContents m c) (by decide))⟩)
    (run_all m ρ)

end Cert.ReferenceIdeal.RefRun

end
-- ==== Proof.RefRun.Frame.lean ====
/- The reference's frame claim: it runs to completion from any memory with zero counters and leaves its eight
   arguments as they were — the reference's run, read at the arguments only. -/
import proofs.«150805_j37804302139719_1_alg».proof.Proof.RefRun
import proofs.«150805_j37804302139719_1_alg».proof.Defs
import proofs.«150805_j37804302139719_1_alg».proof.Proof.Gen.Pre_finite_inputs

noncomputable section

namespace Cert.Proof.Hand

open Idealize.ShloMosaic Idealize.SL.Sem

/-- The reference terminates and changes none of its arguments: the run's conjunction with the result dropped
    (the precondition on the inputs is not needed for it). -/
theorem frame_ri : Cert.frame_ReferenceIdeal := fun m g _ =>
  (θ_run _ _ _).mono (fun _ h c => (h c).2) (Cert.ReferenceIdeal.RefRun.run (F := Ideal) m g)

end Cert.Proof.Hand

end
-- ==== Proof.KI.Result.lean ====
/- The kernel program's result read at the ideal values: its last stretch reshapes the two predictor regions' one-entry
   outputs to scalars, adds them and divides by 200000, and each region's output is what its accumulator holds after the
   last grid point. -/
import proofs.«150805_j37804302139719_1_alg».proof.Proof.KI.Chain
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
variable (m : (ℓ : Loc nD τ sig) → Buf (Elt Ideal) ℓ)

/-- After region 3 its output array holds the accumulated sum over the positive pairs. -/
theorem B14_out (c : Dev nD) : B14 m c (Proc.devRef .tc main_v130) = acc3 (E13 m) c 49 :=
  (B14_arr m c 4).trans (final3 (E13 m) c)
/-- After region 4 its output array holds the accumulated sum over the negative pairs. -/
theorem B16_out (c : Dev nD) : B16 m c (Proc.devRef .tc main_v132) = acc4 (E15 m) c 49 :=
  (B16_arr m c 4).trans (final4 (E15 m) c)

/-- The two accumulated sums, as one-entry arrays. -/
abbrev sumPos (c : Dev nD) : FVec Ideal S1x1 .f32 := acc3 (E13 m) c 49
abbrev sumNeg (c : Dev nD) : FVec Ideal S1x1 .f32 := acc4 (E15 m) c 49

/-- The result is the sum of the two accumulated sums divided by 200000. -/
theorem result_read (c : Dev nD) : (B17 m c (Proc.devRef .tc main_v135) : FVec Ideal S_ .f32) ix0
    = Ideal.div (sumPos m c (ix2 0 0) + sumNeg m c (ix2 0 0)) (Ideal.ofBits .f32 0x48435000#32) := by
  dsimp only [B17, hostOps5]
  after_results
  rw [B16_of_ne m c main_v131 (by decide)]
  dsimp only [B15, hostOps4]
  after_results
  rw [B14_out, B16_out]
  show Ideal.div (shapeCast S_ (sumPos m c) shapeCasts_S1x1_S_ ix0 + shapeCast S_ (sumNeg m c) shapeCasts_S1x1_S_ ix0) _ = _
  rw [shapeCast_apply (sumPos m c) shapeCasts_S1x1_S_ ix0 (ix2 0 0) (by decide), shapeCast_apply (sumNeg m c) shapeCasts_S1x1_S_ ix0 (ix2 0 0) (by decide)]
  rfl

end Cert.KernelIdeal.Hand

end
-- ==== Proof.RefRun.Val0.lean ====
/- What window 0's stretches compute, as named pure functions of the contents they start from. Each function's body is
   the chain of the printed operations' functions; each lemma says: whatever the buffers hold before the stretch,
   after it the stretch's live-out buffer holds that function of the live-in buffers' contents. -/
import proofs.«150805_j37804302139719_1_alg».proof.Proof.RefRun.Ops0

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edges' source ends followed by every node (the self loops): row 0 of the edge table, then 0 … 49999. -/
def srcIdx (e : (⟨S2x640000, .i32⟩ : BufTy).Contents (Elt F)) :
    (⟨S690000, .i32⟩ : BufTy).Contents (Elt F) :=
  ((((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F))) (shapeCast S640000 ((((extractStridedSlice S1x640000 ![0, 0] · slices_S2x640000_S1x640000_0_0) : (⟨S2x640000, .i32⟩ : BufTy).Contents (Elt F) → (⟨S1x640000, .i32⟩ : BufTy).Contents (Elt F))) e) shapeCasts_S1x640000_S640000 : (⟨S640000, .i32⟩ : BufTy).Contents (Elt F)) ((iotaInDim S50000 32 0)))

/-- The edges' target ends followed by every node: row 1 of the edge table, then 0 … 49999. -/
def dstIdx (e : (⟨S2x640000, .i32⟩ : BufTy).Contents (Elt F)) :
    (⟨S690000, .i32⟩ : BufTy).Contents (Elt F) :=
  ((((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F))) (shapeCast S640000 ((((extractStridedSlice S1x640000 ![1, 0] · slices_S2x640000_S1x640000_1_0) : (⟨S2x640000, .i32⟩ : BufTy).Contents (Elt F) → (⟨S1x640000, .i32⟩ : BufTy).Contents (Elt F))) e) shapeCasts_S1x640000_S640000 : (⟨S640000, .i32⟩ : BufTy).Contents (Elt F)) ((iotaInDim S50000 32 0)))

/-- A gather's index normalisation over the 690000 edges: a negative index counts from the end (+50000). -/
def wrapIdx (x : (⟨S690000, .i32⟩ : BufTy).Contents (Elt F)) :
    (⟨S690000, .i32⟩ : BufTy).Contents (Elt F) :=
  (((select : (⟨S690000, .i1⟩ : BufTy).Contents (Elt F) → (⟨S690000, .i32⟩ : BufTy).Contents (Elt F) → (⟨S690000, .i32⟩ : BufTy).Contents (Elt F) → (⟨S690000, .i32⟩ : BufTy).Contents (Elt F))) (((cmpi .slt : (⟨S690000, .i32⟩ : BufTy).Contents (Elt F) → (⟨S690000, .i32⟩ : BufTy).Contents (Elt F) → (⟨S690000, .i1⟩ : BufTy).Contents (Elt F))) x (((broadcastInDim S690000 ![] bcast_S_S690000 : (⟨S_, .i32⟩ : BufTy).Contents (Elt F) → (⟨S690000, .i32⟩ : BufTy).Contents (Elt F))) ((constantI S_ 32 0#32)))) (((addi : (⟨S690000, .i32⟩ : BufTy).Contents (Elt F) → (⟨S690000, .i32⟩ : BufTy).Contents (Elt F) → (⟨S690000, .i32⟩ : BufTy).Contents (Elt F))) x (((broadcastInDim S690000 ![] bcast_S_S690000 : (⟨S_, .i32⟩ : BufTy).Contents (Elt F) → (⟨S690000, .i32⟩ : BufTy).Contents (Elt F))) ((constantI S_ 32 50000#32)))) x)

/-- Each node's in-degree (a one scatter-added per edge at its target) to the power -1/2. -/
def dinv (dst : (⟨S690000, .i32⟩ : BufTy).Contents (Elt F)) :
    (⟨S50000, .f32⟩ : BufTy).Contents (Elt F) :=
  (((Host.rsqrt : (⟨S50000, .f32⟩ : BufTy).Contents (Elt F) → (⟨S50000, .f32⟩ : BufTy).Contents (Elt F))) ((((fun x i u => Host.scatterAdd scatter_S50000_S690000x1_S690000_n_0_0_1 x i u) : (⟨S50000, .f32⟩ : BufTy).Contents (Elt F) → (⟨S690000x1, .i32⟩ : BufTy).Contents (Elt F) → (⟨S690000, .f32⟩ : BufTy).Contents (Elt F) → (⟨S50000, .f32⟩ : BufTy).Contents (Elt F))) (((broadcastInDim S50000 ![] bcast_S_S50000 : (⟨S_, .f32⟩ : BufTy).Contents (Elt F) → (⟨S50000, .f32⟩ : BufTy).Contents (Elt F))) ((constant S_ .f32 0x00000000#32))) (((broadcastInDim S690000x1 ![0] bcast_S690000_S690000x1_0 : (⟨S690000, .i32⟩ : BufTy).Contents (Elt F) → (⟨S690000x1, .i32⟩ : BufTy).Contents (Elt F))) dst) (((broadcastInDim S690000 ![] bcast_S_S690000 : (⟨S_, .f32⟩ : BufTy).Contents (Elt F) → (⟨S690000, .f32⟩ : BufTy).Contents (Elt F))) ((constant S_ .f32 0x3F800000#32)))))

/-- Each edge's coefficient: the product of `dinv` at its two ends, as a column. -/
def edgeCoef (src : (⟨S690000, .i32⟩ : BufTy).Contents (Elt F)) (dst : (⟨S690000, .i32⟩ : BufTy).Contents (Elt F)) :
    (⟨S690000x1, .f32⟩ : BufTy).Contents (Elt F) :=
  (((broadcastInDim S690000x1 ![0] bcast_S690000_S690000x1_0 : (⟨S690000, .f32⟩ : BufTy).Contents (Elt F) → (⟨S690000x1, .f32⟩ : BufTy).Contents (Elt F))) (((mulf : (⟨S690000, .f32⟩ : BufTy).Contents (Elt F) → (⟨S690000, .f32⟩ : BufTy).Contents (Elt F) → (⟨S690000, .f32⟩ : BufTy).Contents (Elt F))) ((((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F))) (dinv dst) (((broadcastInDim S690000x1 ![0] bcast_S690000_S690000x1_0 : (⟨S690000, .i32⟩ : BufTy).Contents (Elt F) → (⟨S690000x1, .i32⟩ : BufTy).Contents (Elt F))) (wrapIdx src))) ((((fun x i => Host.gather gather_S50000_S690000x1_S690000_n_0_n_n_0_1_1 x i) : (⟨S50000, .f32⟩ : BufTy).Contents (Elt F) → (⟨S690000x1, .i32⟩ : BufTy).Contents (Elt F) → (⟨S690000, .f32⟩ : BufTy).Contents (Elt F))) (dinv dst) (((broadcastInDim S690000x1 ![0] bcast_S690000_S690000x1_0 : (⟨S690000, .i32⟩ : BufTy).Contents (Elt F) → (⟨S690000x1, .i32⟩ : BufTy).Contents (Elt F))) (wrapIdx dst)))))

/-- The first layer's weight matrix: slice 0 of the stacked weights. -/
def weight0 (w : (⟨S3x128x128, .f32⟩ : BufTy).Contents (Elt F)) :
    (⟨S128x128, .f32⟩ : BufTy).Contents (Elt F) :=
  (shapeCast S128x128 ((((extractStridedSlice S1x128x128 ![0, 0, 0] · slices_S3x128x128_S1x128x128_0_0_0) : (⟨S3x128x128, .f32⟩ : BufTy).Contents (Elt F) → (⟨S1x128x128, .f32⟩ : BufTy).Contents (Elt F))) w) shapeCasts_S1x128x128_S128x128 : (⟨S128x128, .f32⟩ : BufTy).Contents (Elt F))

/-- The first layer's bias: row 0 of the stacked biases. -/
def biasRow0 (b : (⟨S3x128, .f32⟩ : BufTy).Contents (Elt F)) :
    (⟨S128, .f32⟩ : BufTy).Contents (Elt F) :=
  (shapeCast S128 ((((extractStridedSlice S1x128 ![0, 0] · slices_S3x128_S1x128_0_0) : (⟨S3x128, .f32⟩ : BufTy).Contents (Elt F) → (⟨S1x128, .f32⟩ : BufTy).Contents (Elt F))) b) shapeCasts_S1x128_S128 : (⟨S128, .f32⟩ : BufTy).Contents (Elt F))

/-- A layer after its matrix product `h`: rows gathered at the edges' sources, scaled by the edge coefficient, scatter-added at the targets onto zero, the bias added to every row. -/
def gcnPost (h : (⟨S50000x128, .f32⟩ : BufTy).Contents (Elt F)) (src : (⟨S690000, .i32⟩ : BufTy).Contents (Elt F)) (dst : (⟨S690000, .i32⟩ : BufTy).Contents (Elt F)) (coef : (⟨S690000x1, .f32⟩ : BufTy).Contents (Elt F)) (bias : (⟨S128, .f32⟩ : BufTy).Contents (Elt F)) :
    (⟨S50000x128, .f32⟩ : BufTy).Contents (Elt F) :=
  (((addf : (⟨S50000x128, .f32⟩ : BufTy).Contents (Elt F) → (⟨S50000x128, .f32⟩ : BufTy).Contents (Elt F) → (⟨S50000x128, .f32⟩ : BufTy).Contents (Elt F))) ((((fun x i u => Host.scatterAdd scatter_S50000x128_S690000x1_S690000x128_1_0_0_1 x i u) : (⟨S50000x128, .f32⟩ : BufTy).Contents (Elt F) → (⟨S690000x1, .i32⟩ : BufTy).Contents (Elt F) → (⟨S690000x128, .f32⟩ : BufTy).Contents (Elt F) → (⟨S50000x128, .f32⟩ : BufTy).Contents (Elt F))) (((broadcastInDim S50000x128 ![] bcast_S_S50000x128 : (⟨S_, .f32⟩ : BufTy).Contents (Elt F) → (⟨S50000x128, .f32⟩ : BufTy).Contents (Elt F))) ((constant S_ .f32 0x00000000#32))) (((broadcastInDim S690000x1 ![0] bcast_S690000_S690000x1_0 : (⟨S690000, .i32⟩ : BufTy).Contents (Elt F) → (⟨S690000x1, .i32⟩ : BufTy).Contents (Elt F))) dst) (((mulf : (⟨S690000x128, .f32⟩ : BufTy).Contents (Elt F) → (⟨S690000x128, .f32⟩ : BufTy).Contents (Elt F) → (⟨S690000x128, .f32⟩ : BufTy).Contents (Elt F))) ((((fun x i => Host.gather gather_S50000x128_S690000x1_S690000x128_1_0_n_n_0_1_1128 x i) : (⟨S50000x128, .f32⟩ : BufTy).Contents (Elt F) → (⟨S690000x1, .i32⟩ : BufTy).Contents (Elt F) → (⟨S690000x128, .f32⟩ : BufTy).Contents (Elt F))) h (((broadcastInDim S690000x1 ![0] bcast_S690000_S690000x1_0 : (⟨S690000, .i32⟩ : BufTy).Contents (Elt F) → (⟨S690000x1, .i32⟩ : BufTy).Contents (Elt F))) (wrapIdx src))) (((broadcastInDim S690000x128 ![0, 1] bcast_S690000x1_S690000x128_0_1 : (⟨S690000x1, .f32⟩ : BufTy).Contents (Elt F) → (⟨S690000x128, .f32⟩ : BufTy).Contents (Elt F))) coef))) (((broadcastInDim S50000x128 ![0, 1] bcast_S1x128_S50000x128_0_1 : (⟨S1x128, .f32⟩ : BufTy).Contents (Elt F) → (⟨S50000x128, .f32⟩ : BufTy).Contents (Elt F))) (((broadcastInDim S1x128 ![1] bcast_S128_S1x128_1 : (⟨S128, .f32⟩ : BufTy).Contents (Elt F) → (⟨S1x128, .f32⟩ : BufTy).Contents (Elt F))) bias)))

/-- The maximum with zero, element by element. -/
def relu (x : (⟨S50000x128, .f32⟩ : BufTy).Contents (Elt F)) :
    (⟨S50000x128, .f32⟩ : BufTy).Contents (Elt F) :=
  ((maximumf) x (((broadcastInDim S50000x128 ![] bcast_S_S50000x128)) ((constant S_ .f32 0x00000000#32))))

/-- The second layer's weight matrix: slice 1 of the stacked weights. -/
def weight1 (w : (⟨S3x128x128, .f32⟩ : BufTy).Contents (Elt F)) :
    (⟨S128x128, .f32⟩ : BufTy).Contents (Elt F) :=
  (shapeCast S128x128 ((((extractStridedSlice S1x128x128 ![1, 0, 0] · slices_S3x128x128_S1x128x128_1_0_0) : (⟨S3x128x128, .f32⟩ : BufTy).Contents (Elt F) → (⟨S1x128x128, .f32⟩ : BufTy).Contents (Elt F))) w) shapeCasts_S1x128x128_S128x128 : (⟨S128x128, .f32⟩ : BufTy).Contents (Elt F))

/-! ## What each stretch leaves in its live-out buffers -/

theorem r0_v3 (W : Valuation τ sig (Elt F)) :
    after r0 W (Proc.devRef .tc main_v3) = srcIdx (W (Proc.devRef .tc main_arg1)) := by
  after_results_simp <;> rfl

theorem r0_v6 (W : Valuation τ sig (Elt F)) :
    after r0 W (Proc.devRef .tc main_v6) = dstIdx (W (Proc.devRef .tc main_arg1)) := by
  after_results_simp <;> rfl

theorem r0_v27 (W : Valuation τ sig (Elt F)) :
    after r0 W (Proc.devRef .tc main_v27) = edgeCoef (srcIdx (W (Proc.devRef .tc main_arg1))) (dstIdx (W (Proc.devRef .tc main_arg1))) := by
  after_results_simp <;> rfl

theorem r0_v29 (W : Valuation τ sig (Elt F)) :
    after r0 W (Proc.devRef .tc main_v29) = weight0 (W (Proc.devRef .tc main_arg4)) := by
  after_results_simp <;> rfl

theorem rdot0_v30 (W : Valuation τ sig (Elt F)) :
    after rdot0 W (Proc.devRef .tc main_v30) = Host.dotGeneral dot_S50000x128_S128x128_S50000x128_1_0_0_1_n_n none (W (Proc.devRef .tc main_arg0)) (W (Proc.devRef .tc main_v29)) := by
  after_results_simp <;> rfl

theorem r1_v47 (W : Valuation τ sig (Elt F)) :
    after r1 W (Proc.devRef .tc main_v47) = gcnPost (W (Proc.devRef .tc main_v30)) (W (Proc.devRef .tc main_v3)) (W (Proc.devRef .tc main_v6)) (W (Proc.devRef .tc main_v27)) (biasRow0 (W (Proc.devRef .tc main_arg5))) := by
  after_results_simp <;> rfl

theorem r1c_v48 (W : Valuation τ sig (Elt F)) :
    after r1c W (Proc.devRef .tc main_v48) = relu (W (Proc.devRef .tc main_v47)) := by
  after_results_simp <;> rfl

theorem r1w_v50 (W : Valuation τ sig (Elt F)) :
    after r1w W (Proc.devRef .tc main_v50) = weight1 (W (Proc.devRef .tc main_arg4)) := by
  after_results_simp <;> rfl

end Cert.ReferenceIdeal.RefRun

end
-- ==== Proof.RefRun.Val1.lean ====
/- What window 1's stretches compute, as named pure functions of the contents they start from: the second and third
   layers (the same functions as the first, at their own weights and biases), the concatenation of the three layers'
   outputs, and the rows gathered at the positive pairs' first ends. -/
import proofs.«150805_j37804302139719_1_alg».proof.Proof.RefRun.Ops1
import proofs.«150805_j37804302139719_1_alg».proof.Proof.RefRun.Val0

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The second layer's bias: row 1 of the stacked biases. -/
def biasRow1 (b : (⟨S3x128, .f32⟩ : BufTy).Contents (Elt F)) :
    (⟨S128, .f32⟩ : BufTy).Contents (Elt F) :=
  (shapeCast S128 ((((extractStridedSlice S1x128 ![1, 0] · slices_S3x128_S1x128_1_0) : (⟨S3x128, .f32⟩ : BufTy).Contents (Elt F) → (⟨S1x128, .f32⟩ : BufTy).Contents (Elt F))) b) shapeCasts_S1x128_S128 : (⟨S128, .f32⟩ : BufTy).Contents (Elt F))

/-- The third layer's weight matrix: slice 2 of the stacked weights. -/
def weight2 (w : (⟨S3x128x128, .f32⟩ : BufTy).Contents (Elt F)) :
    (⟨S128x128, .f32⟩ : BufTy).Contents (Elt F) :=
  (shapeCast S128x128 ((((extractStridedSlice S1x128x128 ![2, 0, 0] · slices_S3x128x128_S1x128x128_2_0_0) : (⟨S3x128x128, .f32⟩ : BufTy).Contents (Elt F) → (⟨S1x128x128, .f32⟩ : BufTy).Contents (Elt F))) w) shapeCasts_S1x128x128_S128x128 : (⟨S128x128, .f32⟩ : BufTy).Contents (Elt F))

/-- The third layer's bias: row 2 of the stacked biases. -/
def biasRow2 (b : (⟨S3x128, .f32⟩ : BufTy).Contents (Elt F)) :
    (⟨S128, .f32⟩ : BufTy).Contents (Elt F) :=
  (shapeCast S128 ((((extractStridedSlice S1x128 ![2, 0] · slices_S3x128_S1x128_2_0) : (⟨S3x128, .f32⟩ : BufTy).Contents (Elt F) → (⟨S1x128, .f32⟩ : BufTy).Contents (Elt F))) b) shapeCasts_S1x128_S128 : (⟨S128, .f32⟩ : BufTy).Contents (Elt F))

/-- Three layers' outputs side by side: 384 features per node. -/
def concat3 (a : (⟨S50000x128, .f32⟩ : BufTy).Contents (Elt F)) (b : (⟨S50000x128, .f32⟩ : BufTy).Contents (Elt F)) (c : (⟨S50000x128, .f32⟩ : BufTy).Contents (Elt F)) :
    (⟨S50000x384, .f32⟩ : BufTy).Contents (Elt F) :=
  (concatenate S50000x384 1 [⟨S50000x128, a⟩, ⟨S50000x128, b⟩, ⟨S50000x128, c⟩] concatenates_S50000x128_S50000x128_S50000x128_S50000x384_d1)

/-- The first ends of a table of 100000 node pairs: its row 0. -/
def pairRow0 (p : (⟨S2x100000, .i32⟩ : BufTy).Contents (Elt F)) :
    (⟨S100000, .i32⟩ : BufTy).Contents (Elt F) :=
  (shapeCast S100000 ((((extractStridedSlice S1x100000 ![0, 0] · slices_S2x100000_S1x100000_0_0) : (⟨S2x100000, .i32⟩ : BufTy).Contents (Elt F) → (⟨S1x100000, .i32⟩ : BufTy).Contents (Elt F))) p) shapeCasts_S1x100000_S100000 : (⟨S100000, .i32⟩ : BufTy).Contents (Elt F))

/-- The second ends of a table of 100000 node pairs: its row 1. -/
def pairRow1 (p : (⟨S2x100000, .i32⟩ : BufTy).Contents (Elt F)) :
    (⟨S100000, .i32⟩ : BufTy).Contents (Elt F) :=
  (shapeCast S100000 ((((extractStridedSlice S1x100000 ![1, 0] · slices_S2x100000_S1x100000_1_0) : (⟨S2x100000, .i32⟩ : BufTy).Contents (Elt F) → (⟨S1x100000, .i32⟩ : BufTy).Contents (Elt F))) p) shapeCasts_S1x100000_S100000 : (⟨S100000, .i32⟩ : BufTy).Contents (Elt F))

/-- A gather's index normalisation over 100000 pairs: a negative index counts from the end (+50000). -/
def wrapIdxP (x : (⟨S100000, .i32⟩ : BufTy).Contents (Elt F)) :
    (⟨S100000, .i32⟩ : BufTy).Contents (Elt F) :=
  (((select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))) (((cmpi .slt : (⟨S100000, .i32⟩ : BufTy).Contents (Elt F) → (⟨S100000, .i32⟩ : BufTy).Contents (Elt F) → (⟨S100000, .i1⟩ : BufTy).Contents (Elt F))) x (((broadcastInDim S100000 ![] bcast_S_S100000 : (⟨S_, .i32⟩ : BufTy).Contents (Elt F) → (⟨S100000, .i32⟩ : BufTy).Contents (Elt F))) ((constantI S_ 32 0#32)))) (((addi : (⟨S100000, .i32⟩ : BufTy).Contents (Elt F) → (⟨S100000, .i32⟩ : BufTy).Contents (Elt F) → (⟨S100000, .i32⟩ : BufTy).Contents (Elt F))) x (((broadcastInDim S100000 ![] bcast_S_S100000 : (⟨S_, .i32⟩ : BufTy).Contents (Elt F) → (⟨S100000, .i32⟩ : BufTy).Contents (Elt F))) ((constantI S_ 32 50000#32)))) x)

/-- The rows of the node features at 100000 node indices. -/
def gatherRows (z : (⟨S50000x384, .f32⟩ : BufTy).Contents (Elt F)) (idx : (⟨S100000, .i32⟩ : BufTy).Contents (Elt F)) :
    (⟨S100000x384, .f32⟩ : BufTy).Contents (Elt F) :=
  ((((fun x i => Host.gather gather_S50000x384_S100000x1_S100000x384_1_0_n_n_0_1_1384 x i) : (⟨S50000x384, .f32⟩ : BufTy).Contents (Elt F) → (⟨S100000x1, .i32⟩ : BufTy).Contents (Elt F) → (⟨S100000x384, .f32⟩ : BufTy).Contents (Elt F))) z (((broadcastInDim S100000x1 ![0] bcast_S100000_S100000x1_0 : (⟨S100000, .i32⟩ : BufTy).Contents (Elt F) → (⟨S100000x1, .i32⟩ : BufTy).Contents (Elt F))) (wrapIdxP idx)))

/-! ## What each stretch leaves in its live-out buffers -/

theorem rdot1_v51 (W : Valuation τ sig (Elt F)) :
    after rdot1 W (Proc.devRef .tc main_v51) = Host.dotGeneral dot_S50000x128_S128x128_S50000x128_1_0_0_1_n_n none (W (Proc.devRef .tc main_v48)) (W (Proc.devRef .tc main_v50)) := by
  after_results_simp <;> rfl

theorem r2_v68 (W : Valuation τ sig (Elt F)) :
    after r2 W (Proc.devRef .tc main_v68) = gcnPost (W (Proc.devRef .tc main_v51)) (W (Proc.devRef .tc main_v3)) (W (Proc.devRef .tc main_v6)) (W (Proc.devRef .tc main_v27)) (biasRow1 (W (Proc.devRef .tc main_arg5))) := by
  after_results_simp <;> rfl

theorem r2c_v69 (W : Valuation τ sig (Elt F)) :
    after r2c W (Proc.devRef .tc main_v69) = relu (W (Proc.devRef .tc main_v68)) := by
  after_results_simp <;> rfl

theorem r2w_v71 (W : Valuation τ sig (Elt F)) :
    after r2w W (Proc.devRef .tc main_v71) = weight2 (W (Proc.devRef .tc main_arg4)) := by
  after_results_simp <;> rfl

theorem rdot2_v72 (W : Valuation τ sig (Elt F)) :
    after rdot2 W (Proc.devRef .tc main_v72) = Host.dotGeneral dot_S50000x128_S128x128_S50000x128_1_0_0_1_n_n none (W (Proc.devRef .tc main_v69)) (W (Proc.devRef .tc main_v71)) := by
  after_results_simp <;> rfl

theorem r3_v89 (W : Valuation τ sig (Elt F)) :
    after r3 W (Proc.devRef .tc main_v89) = gcnPost (W (Proc.devRef .tc main_v72)) (W (Proc.devRef .tc main_v3)) (W (Proc.devRef .tc main_v6)) (W (Proc.devRef .tc main_v27)) (biasRow2 (W (Proc.devRef .tc main_arg5))) := by
  after_results_simp <;> rfl

theorem r3c_v90 (W : Valuation τ sig (Elt F)) :
    after r3c W (Proc.devRef .tc main_v90) = relu (W (Proc.devRef .tc main_v89)) := by
  after_results_simp <;> rfl

theorem rt0_v91 (W : Valuation τ sig (Elt F)) :
    after rt0 W (Proc.devRef .tc main_v91) = concat3 (W (Proc.devRef .tc main_v48)) (W (Proc.devRef .tc main_v69)) (W (Proc.devRef .tc main_v90)) := by
  after_results_simp <;> rfl

theorem rt1_v100 (W : Valuation τ sig (Elt F)) :
    after rt1 W (Proc.devRef .tc main_v100) = gatherRows (W (Proc.devRef .tc main_v91)) (pairRow0 (W (Proc.devRef .tc main_arg2))) := by
  after_results_simp <;> rfl

theorem rt2a_v102 (W : Valuation τ sig (Elt F)) :
    after rt2a W (Proc.devRef .tc main_v102) = pairRow1 (W (Proc.devRef .tc main_arg2)) := by
  after_results_simp <;> rfl

end Cert.ReferenceIdeal.RefRun

end
-- ==== Proof.RefRun.Val2.lean ====
/- What window 2's stretches compute, as named pure functions of the contents they start from: the rows gathered at
   the pairs' second ends, the score of a pair of rows against the output weights, the softplus and log-sigmoid (their
   functions' printed chains), the sum of the negated log-sigmoid, and the mean of the two sums over the 200000 pairs. -/
import proofs.«150805_j37804302139719_1_alg».proof.Proof.RefRun.Ops2
import proofs.«150805_j37804302139719_1_alg».proof.Proof.RefRun.Val1

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A pair's score: the element-wise product of its two rows against the output weights (384 → 1), the output bias added. -/
def score (a : (⟨S100000x384, .f32⟩ : BufTy).Contents (Elt F)) (b : (⟨S100000x384, .f32⟩ : BufTy).Contents (Elt F)) (w : (⟨S384x1, .f32⟩ : BufTy).Contents (Elt F)) (b0 : (⟨S1, .f32⟩ : BufTy).Contents (Elt F)) :
    (⟨S100000x1, .f32⟩ : BufTy).Contents (Elt F) :=
  (((addf : (⟨S100000x1, .f32⟩ : BufTy).Contents (Elt F) → (⟨S100000x1, .f32⟩ : BufTy).Contents (Elt F) → (⟨S100000x1, .f32⟩ : BufTy).Contents (Elt F))) ((((fun l r => Host.dotGeneral dot_S100000x384_S384x1_S100000x1_1_0_0_1_n_n none l r) : (⟨S100000x384, .f32⟩ : BufTy).Contents (Elt F) → (⟨S384x1, .f32⟩ : BufTy).Contents (Elt F) → (⟨S100000x1, .f32⟩ : BufTy).Contents (Elt F))) (((mulf : (⟨S100000x384, .f32⟩ : BufTy).Contents (Elt F) → (⟨S100000x384, .f32⟩ : BufTy).Contents (Elt F) → (⟨S100000x384, .f32⟩ : BufTy).Contents (Elt F))) a b) w) (((broadcastInDim S100000x1 ![0, 1] bcast_S1x1_S100000x1_0_1 : (⟨S1x1, .f32⟩ : BufTy).Contents (Elt F) → (⟨S100000x1, .f32⟩ : BufTy).Contents (Elt F))) (((broadcastInDim S1x1 ![1] bcast_S1_S1x1_1 : (⟨S1, .f32⟩ : BufTy).Contents (Elt F) → (⟨S1x1, .f32⟩ : BufTy).Contents (Elt F))) b0)))

/-- The softplus as its function states it: max(x, 0) + log1p(exp(-|x - 0|)), and x + 0 where x - 0 is not equal to itself. -/
def softplus (x : (⟨S100000x1, .f32⟩ : BufTy).Contents (Elt F)) :
    (⟨S100000x1, .f32⟩ : BufTy).Contents (Elt F) :=
  ((select) (((cmpf .une)) ((subf) x (((broadcastInDim S100000x1 ![] bcast_S_S100000x1)) ((constant S_ .f32 0x00000000#32)))) ((subf) x (((broadcastInDim S100000x1 ![] bcast_S_S100000x1)) ((constant S_ .f32 0x00000000#32))))) ((addf) x (((broadcastInDim S100000x1 ![] bcast_S_S100000x1)) ((constant S_ .f32 0x00000000#32)))) ((addf) ((maximumf) x (((broadcastInDim S100000x1 ![] bcast_S_S100000x1)) ((constant S_ .f32 0x00000000#32)))) ((Host.log1p) ((Host.exp) ((Host.negf) ((Host.absf) ((subf) x (((broadcastInDim S100000x1 ![] bcast_S_S100000x1)) ((constant S_ .f32 0x00000000#32))))))))))

/-- The log-sigmoid as its function states it: minus the softplus of minus x. -/
def logSigmoid (x : (⟨S100000x1, .f32⟩ : BufTy).Contents (Elt F)) :
    (⟨S100000x1, .f32⟩ : BufTy).Contents (Elt F) :=
  ((Host.negf) (softplus ((Host.negf) x)))

/-- The sum over the 100000 pairs of minus the log-sigmoid, from zero. -/
def negLogSigSum (x : (⟨S100000x1, .f32⟩ : BufTy).Contents (Elt F)) :
    (⟨S_, .f32⟩ : BufTy).Contents (Elt F) :=
  ((((fun x v => Host.reduceAdd x v reducesTo_S100000x1_S_d0_1 h_S_) : (⟨S100000x1, .f32⟩ : BufTy).Contents (Elt F) → (⟨S_, .f32⟩ : BufTy).Contents (Elt F) → (⟨S_, .f32⟩ : BufTy).Contents (Elt F))) (((Host.negf : (⟨S100000x1, .f32⟩ : BufTy).Contents (Elt F) → (⟨S100000x1, .f32⟩ : BufTy).Contents (Elt F))) (logSigmoid x)) ((constant S_ .f32 0x00000000#32)))

/-- The loss: the positive pairs' sum `s` plus the sum of minus the log-sigmoid of minus the negative scores `y`, divided by 200000. -/
def meanLoss (s : (⟨S_, .f32⟩ : BufTy).Contents (Elt F)) (y : (⟨S100000x1, .f32⟩ : BufTy).Contents (Elt F)) :
    (⟨S_, .f32⟩ : BufTy).Contents (Elt F) :=
  (((Host.divf : (⟨S_, .f32⟩ : BufTy).Contents (Elt F) → (⟨S_, .f32⟩ : BufTy).Contents (Elt F) → (⟨S_, .f32⟩ : BufTy).Contents (Elt F))) (((addf : (⟨S_, .f32⟩ : BufTy).Contents (Elt F) → (⟨S_, .f32⟩ : BufTy).Contents (Elt F) → (⟨S_, .f32⟩ : BufTy).Contents (Elt F))) s (negLogSigSum (((Host.negf : (⟨S100000x1, .f32⟩ : BufTy).Contents (Elt F) → (⟨S100000x1, .f32⟩ : BufTy).Contents (Elt F))) y))) ((constant S_ .f32 0x48435000#32)))

/-! ## What each stretch leaves in its live-out buffers -/

theorem rt2b_v109 (W : Valuation τ sig (Elt F)) :
    after rt2b W (Proc.devRef .tc main_v109) = gatherRows (W (Proc.devRef .tc main_v91)) (W (Proc.devRef .tc main_v102)) := by
  after_results_simp <;> rfl

theorem rt3_v114 (W : Valuation τ sig (Elt F)) :
    after rt3 W (Proc.devRef .tc main_v114) = score (W (Proc.devRef .tc main_v100)) (W (Proc.devRef .tc main_v109)) (W (Proc.devRef .tc main_arg6)) (W (Proc.devRef .tc main_arg7)) := by
  after_results_simp <;> rfl

theorem rt4_v137 (W : Valuation τ sig (Elt F)) :
    after rt4 W (Proc.devRef .tc main_v137) = score (gatherRows (W (Proc.devRef .tc main_v91)) (pairRow0 (W (Proc.devRef .tc main_arg3)))) (gatherRows (W (Proc.devRef .tc main_v91)) (pairRow1 (W (Proc.devRef .tc main_arg3)))) (W (Proc.devRef .tc main_arg6)) (W (Proc.devRef .tc main_arg7)) := by
  after_results_simp <;> rfl

theorem rt5_v140 (W : Valuation τ sig (Elt F)) :
    after rt5 W (Proc.devRef .tc main_v140) = negLogSigSum (W (Proc.devRef .tc main_v114)) := by
  after_results_simp <;> rfl

theorem rt6_v146 (W : Valuation τ sig (Elt F)) :
    after rt6 W (Proc.devRef .tc main_v146) = meanLoss (W (Proc.devRef .tc main_v140)) (W (Proc.devRef .tc main_v137)) := by
  after_results_simp <;> rfl

end Cert.ReferenceIdeal.RefRun

end
-- ==== Proof.RefDot.lean ====
/- The reference's two matrix products on the host, read at an index at the ideal values: a `dot_general`
   contracting the left operand's columns with the right operand's rows has no accumulator and no rounding there,
   so entry (r, q) is the plain sum `∑ k, L (r, k) · R (k, q)` — the contraction index, a one-axis multi-index,
   re-indexed by its one coordinate. -/
import proofs.«150805_j37804302139719_1_alg».proof.Proof.Gen.ReferenceIdeal
import Idealize.ShloMosaic.Lib.ValueIdx
import Idealize.ShloMosaic.Lib.ValueIdxCoords
import Idealize.ShloMosaic.PureOps.Ideal.Laws

noncomputable section

namespace Cert.ReferenceIdeal.RefDot

open Cert.ReferenceIdeal Cert.ReferenceIdeal.Gen
open Idealize.ShloMosaic Idealize.ShloMosaic.ValueIdx
open scoped BigOperators

/-- A graph-convolution layer's product of the 50000×128 features with the 128×128 weights: entry (r, q) is `∑ k, X (r, k) · W (k, q)`. -/
theorem dotLayer_apply (X : FVec Ideal S50000x128 .f32) (W : FVec Ideal S128x128 .f32) (r : Fin 50000) (q : Fin 128) :
    Host.dotGeneral (F := Ideal) dot_S50000x128_S128x128_S50000x128_1_0_0_1_n_n none X W (ix2 r q)
      = ∑ k : Fin 128, X (ix2 r k) * W (ix2 k q) := by
  show FloatOps.dotGeneral dot_S50000x128_S128x128_S50000x128_1_0_0_1_n_n none _ X W (ix2 r q) = _
  rw [Ideal.dotGeneral_apply, ← Equiv.sum_comp (contrEquiv1 dot_S50000x128_S128x128_S50000x128_1_0_0_1_n_n 128 rfl rfl).symm]
  refine Finset.sum_congr rfl fun k _ => ?_
  have ck := contrEquiv1_symm_val dot_S50000x128_S128x128_S50000x128_1_0_0_1_n_n 128 rfl rfl k
  have hl : dot_S50000x128_S128x128_S50000x128_1_0_0_1_n_n.lhsIdx (ix2 r q) ((contrEquiv1 _ 128 rfl rfl).symm k) = ix2 r k := by
    funext ax; apply Fin.ext
    match ax with
    | ⟨0, _⟩ => simp [DotDims.lhsIdx, dot_S50000x128_S128x128_S50000x128_1_0_0_1_n_n]; rfl
    | ⟨1, _⟩ => simp [DotDims.lhsIdx, dot_S50000x128_S128x128_S50000x128_1_0_0_1_n_n]; exact ck
  have hr : dot_S50000x128_S128x128_S50000x128_1_0_0_1_n_n.rhsIdx (ix2 r q) ((contrEquiv1 _ 128 rfl rfl).symm k) = ix2 k q := by
    funext ax; apply Fin.ext
    match ax with
    | ⟨0, _⟩ => simp [DotDims.rhsIdx, dot_S50000x128_S128x128_S50000x128_1_0_0_1_n_n]; exact ck
    | ⟨1, _⟩ => simp [DotDims.rhsIdx, dot_S50000x128_S128x128_S50000x128_1_0_0_1_n_n]; rfl
  rw [hl, hr]

/-- The predictor's product of the 100000×384 pair features with the 384×1 weight column: entry (ρ, 0) is `∑ k, L (ρ, k) · R (k, 0)`. -/
theorem dotScore_apply (L : FVec Ideal S100000x384 .f32) (R : FVec Ideal S384x1 .f32) (ρ : Fin 100000) :
    Host.dotGeneral (F := Ideal) dot_S100000x384_S384x1_S100000x1_1_0_0_1_n_n none L R (ix2 ρ (0 : Fin 1))
      = ∑ k : Fin 384, L (ix2 ρ k) * R (ix2 k (0 : Fin 1)) := by
  show FloatOps.dotGeneral dot_S100000x384_S384x1_S100000x1_1_0_0_1_n_n none _ L R (ix2 ρ (0 : Fin 1)) = _
  rw [Ideal.dotGeneral_apply, ← Equiv.sum_comp (contrEquiv1 dot_S100000x384_S384x1_S100000x1_1_0_0_1_n_n 384 rfl rfl).symm]
  refine Finset.sum_congr rfl fun k _ => ?_
  have ck := contrEquiv1_symm_val dot_S100000x384_S384x1_S100000x1_1_0_0_1_n_n 384 rfl rfl k
  have hl : dot_S100000x384_S384x1_S100000x1_1_0_0_1_n_n.lhsIdx (ix2 ρ (0 : Fin 1)) ((contrEquiv1 _ 384 rfl rfl).symm k) = ix2 ρ k := by
    funext ax; apply Fin.ext
    match ax with
    | ⟨0, _⟩ => simp [DotDims.lhsIdx, dot_S100000x384_S384x1_S100000x1_1_0_0_1_n_n]; rfl
    | ⟨1, _⟩ => simp [DotDims.lhsIdx, dot_S100000x384_S384x1_S100000x1_1_0_0_1_n_n]; exact ck
  have hr : dot_S100000x384_S384x1_S100000x1_1_0_0_1_n_n.rhsIdx (ix2 ρ (0 : Fin 1)) ((contrEquiv1 _ 384 rfl rfl).symm k) = ix2 k (0 : Fin 1) := by
    funext ax; apply Fin.ext
    match ax with
    | ⟨0, _⟩ => simp [DotDims.rhsIdx, dot_S100000x384_S384x1_S100000x1_1_0_0_1_n_n]; exact ck
    | ⟨1, _⟩ => simp [DotDims.rhsIdx, dot_S100000x384_S384x1_S100000x1_1_0_0_1_n_n]
  rw [hl, hr]

end Cert.ReferenceIdeal.RefDot

end
-- ==== Proof.Sums.lean ====
/- Sums over the extended reals, regrouped. Addition on the extended reals is commutative and associative (no
   cancellation is used), so a sum over the rows of a tall one-column array is the sum over blocks of rows of the
   sums within each block. -/
import Idealize.ShloMosaic.PureOps.Ideal
import Idealize.ShloMosaic.PureOps.Ideal.Laws
import Idealize.ShloMosaic.Lib.ValueIdx
import Mathlib

noncomputable section

namespace Cert.Sums

open Idealize.ShloMosaic Idealize.ShloMosaic.ValueIdx
open scoped BigOperators

/-- A sum over the indices of an `[N, 1]` array is the sum over its rows. -/
theorem sum_col {M : Type*} [AddCommMonoid M] {N : Nat} (f : (⟨2, ![N, 1]⟩ : Shape).Idx → M) :
    ∑ j : (⟨2, ![N, 1]⟩ : Shape).Idx, f j = ∑ r : Fin N, f (ix2 r (0 : Fin 1)) := by
  rw [sum_idx2]
  refine Finset.sum_congr rfl fun r _ => ?_
  rw [Fin.sum_univ_one]

/-- Row `b * t + r` of `a * b` rows, for block `t` of `a` and row `r` of `b` within it. -/
def blockRow {a b : Nat} (t : Fin a) (r : Fin b) : Fin (a * b) :=
  ⟨b * t.val + r.val, by
    have ht := t.isLt; have hr := r.isLt
    calc b * t.val + r.val < b * t.val + b := by omega
      _ = b * (t.val + 1) := by ring
      _ ≤ b * a := Nat.mul_le_mul_left b ht
      _ = a * b := Nat.mul_comm b a⟩

/-- A sum over `a * b` rows is the sum over the `a` blocks of the sums over each block's `b` rows. -/
theorem sum_blocks {M : Type*} [AddCommMonoid M] (a b : Nat) (g : Fin (a * b) → M) :
    ∑ ρ : Fin (a * b), g ρ = ∑ t : Fin a, ∑ r : Fin b, g (blockRow t r) := by
  rw [← Fintype.sum_prod_type', ← Equiv.sum_comp (finProdFinEquiv (m := a) (n := b))]
  refine Finset.sum_congr rfl fun x _ => congrArg g (Fin.ext ?_)
  simp [blockRow, finProdFinEquiv, Nat.add_comm]

end Cert.Sums

end
-- ==== Proof.Loss.lean ====
import proofs.«150805_j37804302139719_1_alg».proof.Proof.KI.Pred3Final
import proofs.«150805_j37804302139719_1_alg».proof.Proof.KI.Pred4Final
import proofs.«150805_j37804302139719_1_alg».proof.Proof.RefRun.Val2
import proofs.«150805_j37804302139719_1_alg».proof.Proof.RefDot
import proofs.«150805_j37804302139719_1_alg».proof.Proof.Sums

set_option maxRecDepth 16384

noncomputable section

namespace Cert.Proof.Hand

open Cert.KernelIdeal Cert.KernelIdeal.Gen Cert.KernelIdeal.Hand
open Idealize.ShloMosaic Idealize.ShloMosaic.TcCoe Idealize.SL.Sem
open Idealize.ShloMosaic.ValueIdx
open scoped BigOperators

/-! # The loss, at the ideal values: the reference's terms and the kernel's accumulations in one form

Both sides are sums, over the 100000 pairs of a kind, of the softplus of a signed score. The reference sums
`-logσ(±s) = softplus(∓s)` over all pairs at once; the kernel sums block by block (50 blocks of 2000 rows), scaling
the score by the constant `∓1`. Over the extended reals the two sums agree by re-grouping alone. -/

/-! ## The softplus -/

/-- A value is never different from itself, whichever of the two "not equal" predicates asks. -/
theorem cmp_une_self (y : EReal) : Ideal.cmp .une y y = 0#1 := by simp [Ideal.cmp]
theorem cmp_one_self (y : EReal) : Ideal.cmp .one y y = 0#1 := by simp [Ideal.cmp]

/-- The printed softplus of an extended real, with the guard decided and the zeros absorbed:
    `max y 0 + log1p (exp (-|y|))`. -/
theorem softplusF_eq (y : EReal) :
    softplusF (F := Ideal) y = max y 0 + Ideal.log1p (Ideal.exp (-(max y (-y)))) := by
  unfold softplusF
  rw [Ideal.cmpf_def, Ideal.ofBits_def, Ideal.ofBits_zero_f32, cmp_one_self, select_zero]
  simp only [Ideal.addf_def, Ideal.subf_def, Ideal.maximumf_def, Ideal.log1p_def, Ideal.exp_def, Ideal.absf_def,
    sub_zero, zero_sub]

/-- The reference's softplus at an index is the same function of the element there. -/
theorem softplus_apply (x : FVec Ideal Cert.ReferenceIdeal.S100000x1 .f32) (j : Cert.ReferenceIdeal.S100000x1.Idx) :
    Cert.ReferenceIdeal.RefRun.softplus (F := Ideal) x j = softplusF (F := Ideal) (x j) := by
  rw [softplusF_eq]
  show Scalar.select (FloatOps.cmpf .une (FloatOps.subf (x j) (FloatOps.ofBits .f32 0x00000000#32)) (FloatOps.subf (x j) (FloatOps.ofBits .f32 0x00000000#32)))
      (FloatOps.addf (x j) (FloatOps.ofBits .f32 0x00000000#32))
      (FloatOps.addf (FloatOps.maximumf (x j) (FloatOps.ofBits .f32 0x00000000#32))
        (FloatOps.hostUnary .log1p (FloatOps.hostUnary .exp (FloatOps.hostNegf (FloatOps.hostAbsf
          (FloatOps.subf (x j) (FloatOps.ofBits .f32 0x00000000#32))))))) = _
  rw [Ideal.cmpf_def, Ideal.ofBits_def, Ideal.ofBits_zero_f32, cmp_une_self, select_zero]
  simp only [Ideal.addf_def, Ideal.subf_def, Ideal.maximumf_def, Ideal.hostUnary_log1p_def, Ideal.hostUnary_exp_def,
    Ideal.hostNegf_def, Ideal.hostAbsf_def, Ideal.negf_def, Ideal.absf_def, sub_zero]

/-! ## The sign constants -/

/-- The word `0xBF800000` denotes `-1`, and `0x3F800000` denotes `1`. -/
theorem sigma3_eq : σ3 = -1 := by
  simp [Ideal.ofBits, Ideal.ieee, -EReal.coe_mul]; norm_num
theorem sigma4_eq : σ4 = 1 := by
  simp [Ideal.ofBits, Ideal.ieee, -EReal.coe_mul]; norm_num

theorem sigma3_mul (x : EReal) : σ3 * x = -x := by rw [sigma3_eq, neg_one_mul]
theorem sigma4_mul (x : EReal) : σ4 * x = x := by rw [sigma4_eq, one_mul]

/-! ## The mean -/

/-- The loss at its one index: the two sums added, divided by the constant 200000. -/
theorem meanLoss_apply (s : FVec Ideal Cert.ReferenceIdeal.S_ .f32) (y : FVec Ideal Cert.ReferenceIdeal.S100000x1 .f32) :
    Cert.ReferenceIdeal.RefRun.meanLoss (F := Ideal) s y ix0
      = Ideal.div (s ix0 + Cert.ReferenceIdeal.RefRun.negLogSigSum (F := Ideal) (Host.negf y) ix0) (Ideal.ofBits .f32 0x48435000#32) := rfl

/-! ## The kernel's accumulations as double sums over the argument arrays -/

theorem pt3_fin (t : Fin 50) : (pt3 t.val).val = t.val := by
  show t.val % 50 = t.val
  exact Nat.mod_eq_of_lt t.isLt

/-- Row `r` of block `t`, as the window's index map spells it, is row `2000 t + r` of the 100000. -/
theorem row3_eq (t : Fin 50) (r : Fin 2000) (h : 2000 * (pt3 t.val).val + r.val < 100000) :
    (⟨2000 * (pt3 t.val).val + r.val, h⟩ : Fin 100000) = Cert.Sums.blockRow t r :=
  Fin.ext (by show 2000 * (pt3 t.val).val + r.val = 2000 * t.val + r.val; rw [pt3_fin])

/-- Region 3's accumulated output, over the entries of its four argument arrays `A0 … A3` (the contents the region
    is entered with): block by block, row by row. -/
theorem acc3_sum (VI : (c : Dev nD) → (b : Ref sig .tc) → Buf (Elt Ideal) ((c : Thread nD τ).loc b)) (c : Dev nD)
    (A0 A1 : FVec Ideal S100000x384 .f32) (A2 : FVec Ideal S1x384 .f32) (A3 : FVec Ideal S1x1 .f32)
    (h0 : A0 = VI c (Pipeline.arrRef spec3 0)) (h1 : A1 = VI c (Pipeline.arrRef spec3 1))
    (h2 : A2 = VI c (Pipeline.arrRef spec3 2)) (h3 : A3 = VI c (Pipeline.arrRef spec3 3)) :
    acc3 (F := Ideal) VI c 49 (ix2 0 0) = ∑ t : Fin 50, ∑ r : Fin 2000, sp3 (σ3 * ((∑ k : Fin 384,
        A0 (ix2 (Cert.Sums.blockRow t r) k) * A1 (ix2 (Cert.Sums.blockRow t r) k) * A2 (ix2 0 k)) + A3 (ix2 0 0))) := by
  subst h0 h1 h2 h3
  rw [acc3_eq]
  refine Finset.sum_congr rfl fun t _ => ?_
  show partial3 (F := Ideal) (iblk3 VI c 0 (pt3 t.val)) (iblk3 VI c 1 (pt3 t.val)) (iblk3 VI c 2 (pt3 t.val))
    (iblk3 VI c 3 (pt3 t.val)) (ix2 0 0) = _
  rw [partial3_apply]
  refine Finset.sum_congr rfl fun r _ => ?_
  refine congrArg (fun y => sp3 (σ3 * y)) ?_
  refine congrArg₂ (· + ·) (Finset.sum_congr rfl fun k _ => ?_) (iblk3_3_apply VI c (pt3 t.val))
  rw [iblk3_0_apply, iblk3_1_apply, iblk3_2_apply, row3_eq]

theorem pt4_fin (t : Fin 50) : (pt4 t.val).val = t.val := by
  show t.val % 50 = t.val
  exact Nat.mod_eq_of_lt t.isLt

/-- Row `r` of block `t`, as the window's index map spells it, is row `2000 t + r` of the 100000. -/
theorem row4_eq (t : Fin 50) (r : Fin 2000) (h : 2000 * (pt4 t.val).val + r.val < 100000) :
    (⟨2000 * (pt4 t.val).val + r.val, h⟩ : Fin 100000) = Cert.Sums.blockRow t r :=
  Fin.ext (by show 2000 * (pt4 t.val).val + r.val = 2000 * t.val + r.val; rw [pt4_fin])

/-- Region 4's accumulated output, over the entries of its four argument arrays `A0 … A3` (the contents the region
    is entered with): block by block, row by row. -/
theorem acc4_sum (VI : (c : Dev nD) → (b : Ref sig .tc) → Buf (Elt Ideal) ((c : Thread nD τ).loc b)) (c : Dev nD)
    (A0 A1 : FVec Ideal S100000x384 .f32) (A2 : FVec Ideal S1x384 .f32) (A3 : FVec Ideal S1x1 .f32)
    (h0 : A0 = VI c (Pipeline.arrRef spec4 0)) (h1 : A1 = VI c (Pipeline.arrRef spec4 1))
    (h2 : A2 = VI c (Pipeline.arrRef spec4 2)) (h3 : A3 = VI c (Pipeline.arrRef spec4 3)) :
    acc4 (F := Ideal) VI c 49 (ix2 0 0) = ∑ t : Fin 50, ∑ r : Fin 2000, sp4 (σ4 * ((∑ k : Fin 384,
        A0 (ix2 (Cert.Sums.blockRow t r) k) * A1 (ix2 (Cert.Sums.blockRow t r) k) * A2 (ix2 0 k)) + A3 (ix2 0 0))) := by
  subst h0 h1 h2 h3
  rw [acc4_eq]
  refine Finset.sum_congr rfl fun t _ => ?_
  show partial4 (F := Ideal) (iblk4 VI c 0 (pt4 t.val)) (iblk4 VI c 1 (pt4 t.val)) (iblk4 VI c 2 (pt4 t.val))
    (iblk4 VI c 3 (pt4 t.val)) (ix2 0 0) = _
  rw [partial4_apply]
  refine Finset.sum_congr rfl fun r _ => ?_
  refine congrArg (fun y => sp4 (σ4 * y)) ?_
  refine congrArg₂ (· + ·) (Finset.sum_congr rfl fun k _ => ?_) (iblk4_3_apply VI c (pt4 t.val))
  rw [iblk4_0_apply, iblk4_1_apply, iblk4_2_apply, row4_eq]

/-! ## The reference's score and its sums -/

/-- A pair's score at row `ρ`: the two rows' element-wise product against the weight column, plus the bias. -/
theorem score_apply (za zb : FVec Ideal Cert.ReferenceIdeal.S100000x384 .f32) (a6 : FVec Ideal Cert.ReferenceIdeal.S384x1 .f32)
    (a7 : FVec Ideal Cert.ReferenceIdeal.S1 .f32) (ρ : Fin 100000) :
    Cert.ReferenceIdeal.RefRun.score (F := Ideal) za zb a6 a7 (ix2 ρ (0 : Fin 1))
      = (∑ k : Fin 384, za (ix2 ρ k) * zb (ix2 ρ k) * a6 (ix2 k (0 : Fin 1))) + a7 (ix1 (0 : Fin 1)) := by
  show Host.dotGeneral (F := Ideal) Cert.ReferenceIdeal.dot_S100000x384_S384x1_S100000x1_1_0_0_1_n_n none (mulf za zb) a6 (ix2 ρ (0 : Fin 1))
      + broadcastInDim Cert.ReferenceIdeal.S100000x1 ![0, 1] Cert.ReferenceIdeal.Gen.bcast_S1x1_S100000x1_0_1
          (broadcastInDim Cert.ReferenceIdeal.S1x1 ![1] Cert.ReferenceIdeal.Gen.bcast_S1_S1x1_1 a7) (ix2 ρ (0 : Fin 1)) = _
  refine congrArg₂ (· + ·) (Cert.ReferenceIdeal.RefDot.dotScore_apply (mulf za zb) a6 ρ) ?_
  refine (broadcastInDim_apply _ _ _ (ix2 ρ (0 : Fin 1)) (ix2 (0 : Fin 1) (0 : Fin 1)) fun a => ?_).trans
    (broadcastInDim_apply _ _ a7 (ix2 (0 : Fin 1) (0 : Fin 1)) (ix1 (0 : Fin 1)) fun a => ?_)
  · match a with
    | ⟨0, _⟩ => rfl
    | ⟨1, _⟩ => rfl
  · match a with
    | ⟨0, _⟩ => rfl

/-- The sum of minus the log-sigmoid over the 100000 pairs, block by block: `-logσ(x) = softplus(-x)`, the zero it
    starts from is the extended real 0, and the rows re-group into 50 blocks of 2000. -/
theorem negLogSigSum_apply (X : FVec Ideal Cert.ReferenceIdeal.S100000x1 .f32) :
    Cert.ReferenceIdeal.RefRun.negLogSigSum (F := Ideal) X ix0
      = ∑ t : Fin 50, ∑ r : Fin 2000, softplusF (F := Ideal) (-(X (ix2 (Cert.Sums.blockRow t r) (0 : Fin 1)))) := by
  show Ideal.hostReduceAdd Cert.ReferenceIdeal.Gen.reducesTo_S100000x1_S_d0_1
      (Host.negf (F := Ideal) (Cert.ReferenceIdeal.RefRun.logSigmoid (F := Ideal) X)) (Ideal.ofBits .f32 0x00000000#32) ix0 = _
  rw [Ideal.hostReduceAdd_total _ (fun b => b.elim0), Ideal.ofBits_zero_f32, zero_add]
  refine (Cert.Sums.sum_col (N := 100000) _).trans ?_
  refine (Cert.Sums.sum_blocks 50 2000 (fun ρ : Fin (50 * 2000) =>
    Host.negf (F := Ideal) (Cert.ReferenceIdeal.RefRun.logSigmoid (F := Ideal) X) (ix2 (ρ : Fin 100000) (0 : Fin 1)))).trans ?_
  refine Finset.sum_congr rfl fun t _ => Finset.sum_congr rfl fun r _ => ?_
  show -(-(Cert.ReferenceIdeal.RefRun.softplus (F := Ideal) (Host.negf (F := Ideal) X) (ix2 (Cert.Sums.blockRow t r : Fin 100000) (0 : Fin 1)))) = _
  rw [neg_neg, softplus_apply]
  rfl

/-! ## The two halves of the loss -/

/-- THE POSITIVE PAIRS: the block-by-block sum of the softplus of the score scaled by `-1`, over weights and bias that
    agree with the reference's, is the reference's sum of minus the log-sigmoid of the scores. -/
theorem loss_pos (zaP zbP : FVec Ideal Cert.ReferenceIdeal.S100000x384 .f32) (a6 : FVec Ideal Cert.ReferenceIdeal.S384x1 .f32)
    (a7 : FVec Ideal Cert.ReferenceIdeal.S1 .f32) (pw : FVec Ideal S1x384 .f32) (pb : FVec Ideal S1x1 .f32)
    (hpw : ∀ k : Fin 384, pw (ix2 0 k) = a6 (ix2 k 0)) (hpb : pb (ix2 0 0) = a7 (ix1 0)) :
    (∑ t : Fin 50, ∑ r : Fin 2000, sp3 (σ3 * ((∑ k : Fin 384, zaP (ix2 (Cert.Sums.blockRow t r) k) * zbP (ix2 (Cert.Sums.blockRow t r) k) * pw (ix2 0 k)) + pb (ix2 0 0))))
      = Cert.ReferenceIdeal.RefRun.negLogSigSum (F := Ideal) (Cert.ReferenceIdeal.RefRun.score zaP zbP a6 a7) ix0 := by
  rw [negLogSigSum_apply]
  refine Finset.sum_congr rfl fun t _ => Finset.sum_congr rfl fun r _ => ?_
  rw [sigma3_mul, hpb]
  refine congrArg (fun y => softplusF (F := Ideal) (-y)) ?_
  refine ((score_apply zaP zbP a6 a7 (Cert.Sums.blockRow t r)).trans ?_).symm
  refine congrArg₂ (· + ·) (Finset.sum_congr rfl fun k _ => ?_) rfl
  rw [hpw]

/-- THE NEGATIVE PAIRS: the same with the score scaled by `+1`, against the reference's sum of minus the log-sigmoid
    of minus the scores. -/
theorem loss_neg (zaN zbN : FVec Ideal Cert.ReferenceIdeal.S100000x384 .f32) (a6 : FVec Ideal Cert.ReferenceIdeal.S384x1 .f32)
    (a7 : FVec Ideal Cert.ReferenceIdeal.S1 .f32) (pw : FVec Ideal S1x384 .f32) (pb : FVec Ideal S1x1 .f32)
    (hpw : ∀ k : Fin 384, pw (ix2 0 k) = a6 (ix2 k 0)) (hpb : pb (ix2 0 0) = a7 (ix1 0)) :
    (∑ t : Fin 50, ∑ r : Fin 2000, sp4 (σ4 * ((∑ k : Fin 384, zaN (ix2 (Cert.Sums.blockRow t r) k) * zbN (ix2 (Cert.Sums.blockRow t r) k) * pw (ix2 0 k)) + pb (ix2 0 0))))
      = Cert.ReferenceIdeal.RefRun.negLogSigSum (F := Ideal) (Host.negf (F := Ideal) (s := Cert.ReferenceIdeal.S100000x1) (φ := .f32) (Cert.ReferenceIdeal.RefRun.score (F := Ideal) zaN zbN a6 a7)) ix0 := by
  rw [negLogSigSum_apply]
  refine Finset.sum_congr rfl fun t _ => Finset.sum_congr rfl fun r _ => ?_
  rw [sigma4_mul, hpb]
  show _ = softplusF (F := Ideal) (-(-(Cert.ReferenceIdeal.RefRun.score (F := Ideal) zaN zbN a6 a7 (ix2 (Cert.Sums.blockRow t r : Fin 100000) (0 : Fin 1)))))
  rw [neg_neg]
  refine congrArg (fun y => softplusF (F := Ideal) y) ?_
  refine ((score_apply zaN zbN a6 a7 (Cert.Sums.blockRow t r)).trans ?_).symm
  refine congrArg₂ (· + ·) (Finset.sum_congr rfl fun k _ => ?_) rfl
  rw [hpw]

end Cert.Proof.Hand

end
-- ==== Proof.MatBridge.lean ====
/- The kernel's three matrix-product regions against the reference's three host products, at the ideal values:
   each region's whole output array, as a function of its two input arrays, is the reference's `dot_general` of
   them — both sides are the plain sum over the contracted coordinate at every index. -/
import proofs.«150805_j37804302139719_1_alg».proof.Proof.KI.Mat0
import proofs.«150805_j37804302139719_1_alg».proof.Proof.KI.Mat1
import proofs.«150805_j37804302139719_1_alg».proof.Proof.KI.Mat2
import proofs.«150805_j37804302139719_1_alg».proof.Proof.RefDot

noncomputable section

namespace Cert.MatBridge

open Idealize.ShloMosaic Idealize.ShloMosaic.ValueIdx
open scoped BigOperators

/-- Region 0's whole output array, at the ideal values, is the reference's product of the same two arrays: both are
    `∑ k, X (r, k) · W (k, q)` at every index (r, q). -/
theorem G0_eq_dot (X : FVec Ideal Cert.ReferenceIdeal.S50000x128 .f32) (W : FVec Ideal Cert.ReferenceIdeal.S128x128 .f32) :
    Cert.KernelIdeal.Hand.G0 (F := Ideal) X W
      = Host.dotGeneral (F := Ideal) Cert.ReferenceIdeal.dot_S50000x128_S128x128_S50000x128_1_0_0_1_n_n none X W := by
  funext i
  obtain ⟨r, q, rfl⟩ : ∃ (r : Fin 50000) (q : Fin 128), i = ix2 r q := ⟨i 0, i 1, eq_ix2 i⟩
  rw [Cert.KernelIdeal.Hand.G0_apply, Cert.ReferenceIdeal.RefDot.dotLayer_apply]

/-- Region 1's whole output array, at the ideal values, is the reference's product of the same two arrays: both are
    `∑ k, X (r, k) · W (k, q)` at every index (r, q). -/
theorem G1_eq_dot (X : FVec Ideal Cert.ReferenceIdeal.S50000x128 .f32) (W : FVec Ideal Cert.ReferenceIdeal.S128x128 .f32) :
    Cert.KernelIdeal.Hand.G1 (F := Ideal) X W
      = Host.dotGeneral (F := Ideal) Cert.ReferenceIdeal.dot_S50000x128_S128x128_S50000x128_1_0_0_1_n_n none X W := by
  funext i
  obtain ⟨r, q, rfl⟩ : ∃ (r : Fin 50000) (q : Fin 128), i = ix2 r q := ⟨i 0, i 1, eq_ix2 i⟩
  rw [Cert.KernelIdeal.Hand.G1_apply, Cert.ReferenceIdeal.RefDot.dotLayer_apply]

/-- Region 2's whole output array, at the ideal values, is the reference's product of the same two arrays: both are
    `∑ k, X (r, k) · W (k, q)` at every index (r, q). -/
theorem G2_eq_dot (X : FVec Ideal Cert.ReferenceIdeal.S50000x128 .f32) (W : FVec Ideal Cert.ReferenceIdeal.S128x128 .f32) :
    Cert.KernelIdeal.Hand.G2 (F := Ideal) X W
      = Host.dotGeneral (F := Ideal) Cert.ReferenceIdeal.dot_S50000x128_S128x128_S50000x128_1_0_0_1_n_n none X W := by
  funext i
  obtain ⟨r, q, rfl⟩ : ∃ (r : Fin 50000) (q : Fin 128), i = ix2 r q := ⟨i 0, i 1, eq_ix2 i⟩
  rw [Cert.KernelIdeal.Hand.G2_apply, Cert.ReferenceIdeal.RefDot.dotLayer_apply]

end Cert.MatBridge

end
-- ==== Proof.RefRun.Val.lean ====
/- The reference's value, stage by stage, over the whole line: what @main's run leaves in the buffers the layers and
   the loss pass through, each as a named pure function of the arguments' contents and of the stage before it. A stage
   is read off its own stretch (the value lemmas of the three windows); the stretches before it are what its inputs
   hold, the stretches after it do not write it. The shared index, degree and coefficient chain never has to be
   opened: it is `srcIdx`, `dstIdx`, `edgeCoef` of the edge table. -/
import proofs.«150805_j37804302139719_1_alg».proof.Proof.RefRun
import proofs.«150805_j37804302139719_1_alg».proof.Proof.RefRun.Val2

set_option synthInstance.maxSize 4096

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stretches' lemmas restated for one rewriting pass

The buffer a lemma reads is written `Proc.devRef .tc r`, which unfolds to a record of `r`'s fields; an index of rewrite
rules keyed on that record never finds a rule stated for a variable `r`. The same statements with that argument left
out of the index, so that a rule is tried wherever its stretch occurs and the references are compared afterwards. -/

theorem r0_keep' (V : Valuation τ sig (Elt F)) {r : Ref sig .tc} (hr : r ∉ r0_w) :
    after r0 V (no_index (Proc.devRef .tc r)) = V (Proc.devRef .tc r) := r0_keep V hr
theorem rdot0_keep' (V : Valuation τ sig (Elt F)) {r : Ref sig .tc} (hr : r ∉ rdot0_w) :
    after rdot0 V (no_index (Proc.devRef .tc r)) = V (Proc.devRef .tc r) := rdot0_keep V hr
theorem r1_keep' (V : Valuation τ sig (Elt F)) {r : Ref sig .tc} (hr : r ∉ r1_w) :
    after r1 V (no_index (Proc.devRef .tc r)) = V (Proc.devRef .tc r) := r1_keep V hr
theorem r1c_keep' (V : Valuation τ sig (Elt F)) {r : Ref sig .tc} (hr : r ∉ r1c_w) :
    after r1c V (no_index (Proc.devRef .tc r)) = V (Proc.devRef .tc r) := r1c_keep V hr
theorem r1w_keep' (V : Valuation τ sig (Elt F)) {r : Ref sig .tc} (hr : r ∉ r1w_w) :
    after r1w V (no_index (Proc.devRef .tc r)) = V (Proc.devRef .tc r) := r1w_keep V hr
theorem rdot1_keep' (V : Valuation τ sig (Elt F)) {r : Ref sig .tc} (hr : r ∉ rdot1_w) :
    after rdot1 V (no_index (Proc.devRef .tc r)) = V (Proc.devRef .tc r) := rdot1_keep V hr
theorem r2_keep' (V : Valuation τ sig (Elt F)) {r : Ref sig .tc} (hr : r ∉ r2_w) :
    after r2 V (no_index (Proc.devRef .tc r)) = V (Proc.devRef .tc r) := r2_keep V hr
theorem r2c_keep' (V : Valuation τ sig (Elt F)) {r : Ref sig .tc} (hr : r ∉ r2c_w) :
    after r2c V (no_index (Proc.devRef .tc r)) = V (Proc.devRef .tc r) := r2c_keep V hr
theorem r2w_keep' (V : Valuation τ sig (Elt F)) {r : Ref sig .tc} (hr : r ∉ r2w_w) :
    after r2w V (no_index (Proc.devRef .tc r)) = V (Proc.devRef .tc r) := r2w_keep V hr
theorem rdot2_keep' (V : Valuation τ sig (Elt F)) {r : Ref sig .tc} (hr : r ∉ rdot2_w) :
    after rdot2 V (no_index (Proc.devRef .tc r)) = V (Proc.devRef .tc r) := rdot2_keep V hr
theorem r3_keep' (V : Valuation τ sig (Elt F)) {r : Ref sig .tc} (hr : r ∉ r3_w) :
    after r3 V (no_index (Proc.devRef .tc r)) = V (Proc.devRef .tc r) := r3_keep V hr
theorem r3c_keep' (V : Valuation τ sig (Elt F)) {r : Ref sig .tc} (hr : r ∉ r3c_w) :
    after r3c V (no_index (Proc.devRef .tc r)) = V (Proc.devRef .tc r) := r3c_keep V hr
theorem rt0_keep' (V : Valuation τ sig (Elt F)) {r : Ref sig .tc} (hr : r ∉ rt0_w) :
    after rt0 V (no_index (Proc.devRef .tc r)) = V (Proc.devRef .tc r) := rt0_keep V hr
theorem rt1_keep' (V : Valuation τ sig (Elt F)) {r : Ref sig .tc} (hr : r ∉ rt1_w) :
    after rt1 V (no_index (Proc.devRef .tc r)) = V (Proc.devRef .tc r) := rt1_keep V hr
theorem rt2a_keep' (V : Valuation τ sig (Elt F)) {r : Ref sig .tc} (hr : r ∉ rt2a_w) :
    after rt2a V (no_index (Proc.devRef .tc r)) = V (Proc.devRef .tc r) := rt2a_keep V hr
theorem rt2b_keep' (V : Valuation τ sig (Elt F)) {r : Ref sig .tc} (hr : r ∉ rt2b_w) :
    after rt2b V (no_index (Proc.devRef .tc r)) = V (Proc.devRef .tc r) := rt2b_keep V hr
theorem rt3_keep' (V : Valuation τ sig (Elt F)) {r : Ref sig .tc} (hr : r ∉ rt3_w) :
    after rt3 V (no_index (Proc.devRef .tc r)) = V (Proc.devRef .tc r) := rt3_keep V hr
theorem rt4_keep' (V : Valuation τ sig (Elt F)) {r : Ref sig .tc} (hr : r ∉ rt4_w) :
    after rt4 V (no_index (Proc.devRef .tc r)) = V (Proc.devRef .tc r) := rt4_keep V hr
theorem rt5_keep' (V : Valuation τ sig (Elt F)) {r : Ref sig .tc} (hr : r ∉ rt5_w) :
    after rt5 V (no_index (Proc.devRef .tc r)) = V (Proc.devRef .tc r) := rt5_keep V hr
theorem rt6_keep' (V : Valuation τ sig (Elt F)) {r : Ref sig .tc} (hr : r ∉ rt6_w) :
    after rt6 V (no_index (Proc.devRef .tc r)) = V (Proc.devRef .tc r) := rt6_keep V hr

theorem r0_v3' (W : Valuation τ sig (Elt F)) :
    after r0 W (no_index (Proc.devRef .tc main_v3)) = srcIdx (W (Proc.devRef .tc main_arg1)) := r0_v3 W
theorem r0_v6' (W : Valuation τ sig (Elt F)) :
    after r0 W (no_index (Proc.devRef .tc main_v6)) = dstIdx (W (Proc.devRef .tc main_arg1)) := r0_v6 W
theorem r0_v27' (W : Valuation τ sig (Elt F)) :
    after r0 W (no_index (Proc.devRef .tc main_v27)) = edgeCoef (srcIdx (W (Proc.devRef .tc main_arg1))) (dstIdx (W (Proc.devRef .tc main_arg1))) := r0_v27 W
theorem r0_v29' (W : Valuation τ sig (Elt F)) :
    after r0 W (no_index (Proc.devRef .tc main_v29)) = weight0 (W (Proc.devRef .tc main_arg4)) := r0_v29 W
theorem rdot0_v30' (W : Valuation τ sig (Elt F)) :
    after rdot0 W (no_index (Proc.devRef .tc main_v30)) = Host.dotGeneral dot_S50000x128_S128x128_S50000x128_1_0_0_1_n_n none (W (Proc.devRef .tc main_arg0)) (W (Proc.devRef .tc main_v29)) := rdot0_v30 W
theorem r1_v47' (W : Valuation τ sig (Elt F)) :
    after r1 W (no_index (Proc.devRef .tc main_v47)) = gcnPost (W (Proc.devRef .tc main_v30)) (W (Proc.devRef .tc main_v3)) (W (Proc.devRef .tc main_v6)) (W (Proc.devRef .tc main_v27)) (biasRow0 (W (Proc.devRef .tc main_arg5))) := r1_v47 W
theorem r1c_v48' (W : Valuation τ sig (Elt F)) :
    after r1c W (no_index (Proc.devRef .tc main_v48)) = relu (W (Proc.devRef .tc main_v47)) := r1c_v48 W
theorem r1w_v50' (W : Valuation τ sig (Elt F)) :
    after r1w W (no_index (Proc.devRef .tc main_v50)) = weight1 (W (Proc.devRef .tc main_arg4)) := r1w_v50 W
theorem rdot1_v51' (W : Valuation τ sig (Elt F)) :
    after rdot1 W (no_index (Proc.devRef .tc main_v51)) = Host.dotGeneral dot_S50000x128_S128x128_S50000x128_1_0_0_1_n_n none (W (Proc.devRef .tc main_v48)) (W (Proc.devRef .tc main_v50)) := rdot1_v51 W
theorem r2_v68' (W : Valuation τ sig (Elt F)) :
    after r2 W (no_index (Proc.devRef .tc main_v68)) = gcnPost (W (Proc.devRef .tc main_v51)) (W (Proc.devRef .tc main_v3)) (W (Proc.devRef .tc main_v6)) (W (Proc.devRef .tc main_v27)) (biasRow1 (W (Proc.devRef .tc main_arg5))) := r2_v68 W
theorem r2c_v69' (W : Valuation τ sig (Elt F)) :
    after r2c W (no_index (Proc.devRef .tc main_v69)) = relu (W (Proc.devRef .tc main_v68)) := r2c_v69 W
theorem r2w_v71' (W : Valuation τ sig (Elt F)) :
    after r2w W (no_index (Proc.devRef .tc main_v71)) = weight2 (W (Proc.devRef .tc main_arg4)) := r2w_v71 W
theorem rdot2_v72' (W : Valuation τ sig (Elt F)) :
    after rdot2 W (no_index (Proc.devRef .tc main_v72)) = Host.dotGeneral dot_S50000x128_S128x128_S50000x128_1_0_0_1_n_n none (W (Proc.devRef .tc main_v69)) (W (Proc.devRef .tc main_v71)) := rdot2_v72 W
theorem r3_v89' (W : Valuation τ sig (Elt F)) :
    after r3 W (no_index (Proc.devRef .tc main_v89)) = gcnPost (W (Proc.devRef .tc main_v72)) (W (Proc.devRef .tc main_v3)) (W (Proc.devRef .tc main_v6)) (W (Proc.devRef .tc main_v27)) (biasRow2 (W (Proc.devRef .tc main_arg5))) := r3_v89 W
theorem r3c_v90' (W : Valuation τ sig (Elt F)) :
    after r3c W (no_index (Proc.devRef .tc main_v90)) = relu (W (Proc.devRef .tc main_v89)) := r3c_v90 W
theorem rt0_v91' (W : Valuation τ sig (Elt F)) :
    after rt0 W (no_index (Proc.devRef .tc main_v91)) = concat3 (W (Proc.devRef .tc main_v48)) (W (Proc.devRef .tc main_v69)) (W (Proc.devRef .tc main_v90)) := rt0_v91 W
theorem rt1_v100' (W : Valuation τ sig (Elt F)) :
    after rt1 W (no_index (Proc.devRef .tc main_v100)) = gatherRows (W (Proc.devRef .tc main_v91)) (pairRow0 (W (Proc.devRef .tc main_arg2))) := rt1_v100 W
theorem rt2a_v102' (W : Valuation τ sig (Elt F)) :
    after rt2a W (no_index (Proc.devRef .tc main_v102)) = pairRow1 (W (Proc.devRef .tc main_arg2)) := rt2a_v102 W
theorem rt2b_v109' (W : Valuation τ sig (Elt F)) :
    after rt2b W (no_index (Proc.devRef .tc main_v109)) = gatherRows (W (Proc.devRef .tc main_v91)) (W (Proc.devRef .tc main_v102)) := rt2b_v109 W
theorem rt3_v114' (W : Valuation τ sig (Elt F)) :
    after rt3 W (no_index (Proc.devRef .tc main_v114)) = score (W (Proc.devRef .tc main_v100)) (W (Proc.devRef .tc main_v109)) (W (Proc.devRef .tc main_arg6)) (W (Proc.devRef .tc main_arg7)) := rt3_v114 W
theorem rt4_v137' (W : Valuation τ sig (Elt F)) :
    after rt4 W (no_index (Proc.devRef .tc main_v137)) = score (gatherRows (W (Proc.devRef .tc main_v91)) (pairRow0 (W (Proc.devRef .tc main_arg3)))) (gatherRows (W (Proc.devRef .tc main_v91)) (pairRow1 (W (Proc.devRef .tc main_arg3)))) (W (Proc.devRef .tc main_arg6)) (W (Proc.devRef .tc main_arg7)) := rt4_v137 W
theorem rt5_v140' (W : Valuation τ sig (Elt F)) :
    after rt5 W (no_index (Proc.devRef .tc main_v140)) = negLogSigSum (W (Proc.devRef .tc main_v114)) := rt5_v140 W
theorem rt6_v146' (W : Valuation τ sig (Elt F)) :
    after rt6 W (no_index (Proc.devRef .tc main_v146)) = meanLoss (W (Proc.devRef .tc main_v140)) (W (Proc.devRef .tc main_v137)) := rt6_v146 W

/-! ## The stages over the whole line -/

/-- The sources with self loops. -/
theorem ops_v3 (V : Valuation τ sig (Elt F)) :
    after ops V (Proc.devRef .tc main_v3) = srcIdx (V (Proc.devRef .tc main_arg1)) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The targets with self loops. -/
theorem ops_v6 (V : Valuation τ sig (Elt F)) :
    after ops V (Proc.devRef .tc main_v6) = dstIdx (V (Proc.devRef .tc main_arg1)) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The edge coefficients. -/
theorem ops_v27 (V : Valuation τ sig (Elt F)) :
    after ops V (Proc.devRef .tc main_v27) = edgeCoef (srcIdx (V (Proc.devRef .tc main_arg1))) (dstIdx (V (Proc.devRef .tc main_arg1))) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The first layer's weights. -/
theorem ops_v29 (V : Valuation τ sig (Elt F)) :
    after ops V (Proc.devRef .tc main_v29) = weight0 (V (Proc.devRef .tc main_arg4)) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The first matrix product: the node features against the first layer's weights. -/
theorem ops_v30 (V : Valuation τ sig (Elt F)) :
    after ops V (Proc.devRef .tc main_v30) = Host.dotGeneral dot_S50000x128_S128x128_S50000x128_1_0_0_1_n_n none (V (Proc.devRef .tc main_arg0)) (weight0 (V (Proc.devRef .tc main_arg4))) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The first layer before its maximum with zero. -/
theorem ops_v47 (V : Valuation τ sig (Elt F)) :
    after ops V (Proc.devRef .tc main_v47) = gcnPost (after ops V (Proc.devRef .tc main_v30)) (srcIdx (V (Proc.devRef .tc main_arg1))) (dstIdx (V (Proc.devRef .tc main_arg1))) (edgeCoef (srcIdx (V (Proc.devRef .tc main_arg1))) (dstIdx (V (Proc.devRef .tc main_arg1)))) (biasRow0 (V (Proc.devRef .tc main_arg5))) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The first layer's output. -/
theorem ops_v48 (V : Valuation τ sig (Elt F)) :
    after ops V (Proc.devRef .tc main_v48) = relu (after ops V (Proc.devRef .tc main_v47)) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The second matrix product. -/
theorem ops_v51 (V : Valuation τ sig (Elt F)) :
    after ops V (Proc.devRef .tc main_v51) = Host.dotGeneral dot_S50000x128_S128x128_S50000x128_1_0_0_1_n_n none (after ops V (Proc.devRef .tc main_v48)) (weight1 (V (Proc.devRef .tc main_arg4))) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The second layer before its maximum with zero. -/
theorem ops_v68 (V : Valuation τ sig (Elt F)) :
    after ops V (Proc.devRef .tc main_v68) = gcnPost (after ops V (Proc.devRef .tc main_v51)) (srcIdx (V (Proc.devRef .tc main_arg1))) (dstIdx (V (Proc.devRef .tc main_arg1))) (edgeCoef (srcIdx (V (Proc.devRef .tc main_arg1))) (dstIdx (V (Proc.devRef .tc main_arg1)))) (biasRow1 (V (Proc.devRef .tc main_arg5))) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The second layer's output. -/
theorem ops_v69 (V : Valuation τ sig (Elt F)) :
    after ops V (Proc.devRef .tc main_v69) = relu (after ops V (Proc.devRef .tc main_v68)) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The third matrix product. -/
theorem ops_v72 (V : Valuation τ sig (Elt F)) :
    after ops V (Proc.devRef .tc main_v72) = Host.dotGeneral dot_S50000x128_S128x128_S50000x128_1_0_0_1_n_n none (after ops V (Proc.devRef .tc main_v69)) (weight2 (V (Proc.devRef .tc main_arg4))) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The third layer before its maximum with zero. -/
theorem ops_v89 (V : Valuation τ sig (Elt F)) :
    after ops V (Proc.devRef .tc main_v89) = gcnPost (after ops V (Proc.devRef .tc main_v72)) (srcIdx (V (Proc.devRef .tc main_arg1))) (dstIdx (V (Proc.devRef .tc main_arg1))) (edgeCoef (srcIdx (V (Proc.devRef .tc main_arg1))) (dstIdx (V (Proc.devRef .tc main_arg1)))) (biasRow2 (V (Proc.devRef .tc main_arg5))) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The third layer's output. -/
theorem ops_v90 (V : Valuation τ sig (Elt F)) :
    after ops V (Proc.devRef .tc main_v90) = relu (after ops V (Proc.devRef .tc main_v89)) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The three outputs side by side. -/
theorem ops_v91 (V : Valuation τ sig (Elt F)) :
    after ops V (Proc.devRef .tc main_v91) = concat3 (after ops V (Proc.devRef .tc main_v48)) (after ops V (Proc.devRef .tc main_v69)) (after ops V (Proc.devRef .tc main_v90)) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The positive pairs' scores. -/
theorem ops_v114 (V : Valuation τ sig (Elt F)) :
    after ops V (Proc.devRef .tc main_v114) = score (gatherRows (after ops V (Proc.devRef .tc main_v91)) (pairRow0 (V (Proc.devRef .tc main_arg2)))) (gatherRows (after ops V (Proc.devRef .tc main_v91)) (pairRow1 (V (Proc.devRef .tc main_arg2)))) (V (Proc.devRef .tc main_arg6)) (V (Proc.devRef .tc main_arg7)) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The negative pairs' scores. -/
theorem ops_v137 (V : Valuation τ sig (Elt F)) :
    after ops V (Proc.devRef .tc main_v137) = score (gatherRows (after ops V (Proc.devRef .tc main_v91)) (pairRow0 (V (Proc.devRef .tc main_arg3)))) (gatherRows (after ops V (Proc.devRef .tc main_v91)) (pairRow1 (V (Proc.devRef .tc main_arg3)))) (V (Proc.devRef .tc main_arg6)) (V (Proc.devRef .tc main_arg7)) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-- The loss. -/
theorem ops_v146 (V : Valuation τ sig (Elt F)) :
    after ops V (Proc.devRef .tc main_v146) = meanLoss (negLogSigSum (after ops V (Proc.devRef .tc main_v114))) (after ops V (Proc.devRef .tc main_v137)) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']

/-! ## The whole reference as one function of its arguments -/

/-- One graph-convolution layer after its matrix product `h`, over the edge table `e` with bias `b`: aggregate along the
    edges with the symmetric degree normalisation, add the bias, take the maximum with zero. -/
def layer (h : (⟨S50000x128, .f32⟩ : BufTy).Contents (Elt F)) (e : (⟨S2x640000, .i32⟩ : BufTy).Contents (Elt F)) (b : (⟨S128, .f32⟩ : BufTy).Contents (Elt F)) :
    (⟨S50000x128, .f32⟩ : BufTy).Contents (Elt F) :=
  relu (gcnPost h (srcIdx e) (dstIdx e) (edgeCoef (srcIdx e) (dstIdx e)) b)

/-- The node embedding: the three layers' outputs side by side, each layer fed the one before it. -/
def embed (x : (⟨S50000x128, .f32⟩ : BufTy).Contents (Elt F)) (e : (⟨S2x640000, .i32⟩ : BufTy).Contents (Elt F)) (w : (⟨S3x128x128, .f32⟩ : BufTy).Contents (Elt F))
    (b : (⟨S3x128, .f32⟩ : BufTy).Contents (Elt F)) : (⟨S50000x384, .f32⟩ : BufTy).Contents (Elt F) :=
  concat3 (layer (Host.dotGeneral dot_S50000x128_S128x128_S50000x128_1_0_0_1_n_n none x (weight0 w)) e (biasRow0 b))
    (layer (Host.dotGeneral dot_S50000x128_S128x128_S50000x128_1_0_0_1_n_n none (layer (Host.dotGeneral dot_S50000x128_S128x128_S50000x128_1_0_0_1_n_n none x (weight0 w)) e (biasRow0 b)) (weight1 w)) e (biasRow1 b))
    (layer (Host.dotGeneral dot_S50000x128_S128x128_S50000x128_1_0_0_1_n_n none (layer (Host.dotGeneral dot_S50000x128_S128x128_S50000x128_1_0_0_1_n_n none (layer (Host.dotGeneral dot_S50000x128_S128x128_S50000x128_1_0_0_1_n_n none x (weight0 w)) e (biasRow0 b)) (weight1 w)) e (biasRow1 b)) (weight2 w)) e (biasRow2 b))

/-- The scores of a table of node pairs: the embedding's rows at the two ends, multiplied and projected. -/
def pairScores (z : (⟨S50000x384, .f32⟩ : BufTy).Contents (Elt F)) (p : (⟨S2x100000, .i32⟩ : BufTy).Contents (Elt F)) (wo : (⟨S384x1, .f32⟩ : BufTy).Contents (Elt F))
    (bo : (⟨S1, .f32⟩ : BufTy).Contents (Elt F)) : (⟨S100000x1, .f32⟩ : BufTy).Contents (Elt F) :=
  score (gatherRows z (pairRow0 p)) (gatherRows z (pairRow1 p)) wo bo

/-- The reference's result as a function of its eight arguments: the link-prediction loss of the embedding over the
    positive pairs `p` and the negative pairs `n`. -/
def refLoss (x : (⟨S50000x128, .f32⟩ : BufTy).Contents (Elt F)) (e : (⟨S2x640000, .i32⟩ : BufTy).Contents (Elt F)) (p n : (⟨S2x100000, .i32⟩ : BufTy).Contents (Elt F))
    (w : (⟨S3x128x128, .f32⟩ : BufTy).Contents (Elt F)) (b : (⟨S3x128, .f32⟩ : BufTy).Contents (Elt F)) (wo : (⟨S384x1, .f32⟩ : BufTy).Contents (Elt F)) (bo : (⟨S1, .f32⟩ : BufTy).Contents (Elt F)) :
    (⟨S_, .f32⟩ : BufTy).Contents (Elt F) :=
  meanLoss (negLogSigSum (pairScores (embed x e w b) p wo bo)) (pairScores (embed x e w b) n wo bo)

/-- After the whole line the result buffer holds `refLoss` of the arguments' launch contents. -/
theorem ops_out (V : Valuation τ sig (Elt F)) :
    after ops V (Proc.devRef .tc main_v146)
      = refLoss (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  simp (disch := decide) only [ops, rtail, after_append,
    r0_v3', r0_v6', r0_v27', r0_v29', rdot0_v30', r1_v47', r1c_v48', r1w_v50', rdot1_v51', r2_v68',
    r2c_v69', r2w_v71', rdot2_v72', r3_v89', r3c_v90', rt0_v91', rt1_v100', rt2a_v102', rt2b_v109', rt3_v114',
    rt4_v137', rt5_v140', rt6_v146',
    r0_keep', rdot0_keep', r1_keep', r1c_keep', r1w_keep', rdot1_keep', r2_keep', r2c_keep', r2w_keep', rdot2_keep',
    r3_keep', r3c_keep', rt0_keep', rt1_keep', rt2a_keep', rt2b_keep', rt3_keep', rt4_keep', rt5_keep', rt6_keep']
  rfl

end Cert.ReferenceIdeal.RefRun

end
-- ==== Proof.KHost.Stretch.lean ====
/- The kernel program's host stretches read through the reference's named functions. Between its kernel regions the
   kernel program runs the same host operations as the reference, over its own buffers: each stretch leaves in its
   live-out buffer the same named function of its live-in buffers' contents, whatever the buffers hold before it. The
   last stretch before the scoring regions also lays out the output weights as a row and the output bias as a 1×1
   array, the form the scoring regions read them in. -/
import proofs.«150805_j37804302139719_1_alg».proof.Proof.Gen.KernelIdeal.Launch
import proofs.«150805_j37804302139719_1_alg».proof.Proof.RefRun.Val
import Idealize.ShloMosaic.Lib.Pipeline.Value
import Idealize.ShloMosaic.Lib.ValueIdx

set_option synthInstance.maxSize 4096

noncomputable section

namespace Cert.Proof.Hand

open Cert.KernelIdeal Cert.KernelIdeal.Gen
open Idealize.ShloMosaic Idealize.ShloMosaic.TcCoe Idealize.SL.Sem Idealize.ShloMosaic.StableHlo Idealize.ShloMosaic.ValueIdx
open Cert.ReferenceIdeal.RefRun (srcIdx dstIdx edgeCoef weight0 weight1 weight2 biasRow0 biasRow1 biasRow2 gcnPost relu concat3 pairRow0 pairRow1 gatherRows)

variable {F : FTy → Type} [FloatOps F]

/-- The results still standing inside the pieces of a concatenation, rewritten one at a time. -/
macro "stretch_results_rw" : tactic =>
  `(tactic| repeat (first
     | rw [nullary_result] | rw [unary_result] | rw [binary_result] | rw [ternary_result] | rw [reshape_result] | rw [nary_result]
     | (rw [nullary_result_ne]; rotate_left; decide) | (rw [unary_result_ne]; rotate_left; decide)
     | (rw [binary_result_ne]; rotate_left; decide) | (rw [ternary_result_ne]; rotate_left; decide)
     | (rw [reshape_result_ne]; rotate_left; decide) | (rw [nary_result_ne]; rotate_left; decide)))

/-! ## The output weights and bias as the scoring regions read them -/

/-- The output weights as a row: the 384×1 column transposed. -/
def outRow (a6 : (⟨S384x1, .f32⟩ : BufTy).Contents (Elt F)) : (⟨S1x384, .f32⟩ : BufTy).Contents (Elt F) :=
  (((transpose S1x384 [1, 0] · transposes_S384x1_S1x384_1_0) : (⟨S384x1, .f32⟩ : BufTy).Contents (Elt F) → (⟨S1x384, .f32⟩ : BufTy).Contents (Elt F))) a6

/-- The output bias as a 1×1 array. -/
def outBias (a7 : (⟨S1, .f32⟩ : BufTy).Contents (Elt F)) : (⟨S1x1, .f32⟩ : BufTy).Contents (Elt F) :=
  (shapeCast S1x1 a7 shapeCasts_S1_S1x1 : (⟨S1x1, .f32⟩ : BufTy).Contents (Elt F))

/-- The row's entry `k` is the column's entry `k`. -/
theorem outRow_apply (a6 : (⟨S384x1, .f32⟩ : BufTy).Contents (Elt F)) (k : Fin 384) : outRow a6 (ix2 0 k) = a6 (ix2 k 0) :=
  transpose_apply [1, 0] a6 transposes_S384x1_S1x384_1_0 (ix2 0 k) (ix2 k 0)
    (by intro b; match b with | ⟨0, _⟩ => rfl | ⟨1, _⟩ => rfl)

/-- The 1×1 array's entry is the bias. -/
theorem outBias_apply (a7 : (⟨S1, .f32⟩ : BufTy).Contents (Elt F)) : outBias a7 (ix2 0 0) = a7 (ix1 0) :=
  shapeCast_apply a7 shapeCasts_S1_S1x1 (ix2 0 0) (ix1 0) (by decide)

/-! ## What each host stretch leaves in its live-out buffers -/

/-- The sources with self loops. -/
theorem hostOps0_v3 (W : Valuation τ sig (Elt F)) :
    after hostOps0 W (Proc.devRef .tc main_v3) = srcIdx (W (Proc.devRef .tc main_arg1)) := by
  after_results_simp
  all_goals (try stretch_results_rw)
  all_goals rfl

/-- The targets with self loops. -/
theorem hostOps0_v6 (W : Valuation τ sig (Elt F)) :
    after hostOps0 W (Proc.devRef .tc main_v6) = dstIdx (W (Proc.devRef .tc main_arg1)) := by
  after_results_simp
  all_goals (try stretch_results_rw)
  all_goals rfl

/-- The edge coefficients. -/
theorem hostOps0_v27 (W : Valuation τ sig (Elt F)) :
    after hostOps0 W (Proc.devRef .tc main_v27) = edgeCoef (srcIdx (W (Proc.devRef .tc main_arg1))) (dstIdx (W (Proc.devRef .tc main_arg1))) := by
  after_results_simp
  all_goals (try stretch_results_rw)
  all_goals rfl

/-- The first layer's weights. -/
theorem hostOps0_v29 (W : Valuation τ sig (Elt F)) :
    after hostOps0 W (Proc.devRef .tc main_v29) = weight0 (W (Proc.devRef .tc main_arg4)) := by
  after_results_simp
  all_goals (try stretch_results_rw)
  all_goals rfl

/-- The first layer after its matrix product. -/
theorem hostOps1_v47 (W : Valuation τ sig (Elt F)) :
    after hostOps1 W (Proc.devRef .tc main_v47) = gcnPost (W (Proc.devRef .tc main_v30)) (W (Proc.devRef .tc main_v3)) (W (Proc.devRef .tc main_v6)) (W (Proc.devRef .tc main_v27)) (biasRow0 (W (Proc.devRef .tc main_arg5))) := by
  after_results_simp
  all_goals (try stretch_results_rw)
  all_goals rfl

/-- The first layer's output. -/
theorem hostOps1_1_v48 (W : Valuation τ sig (Elt F)) :
    after hostOps1_1 W (Proc.devRef .tc main_v48) = relu (W (Proc.devRef .tc main_v47)) := by
  after_results_simp
  all_goals (try stretch_results_rw)
  all_goals rfl

/-- The second layer's weights. -/
theorem hostOps1_2_v50 (W : Valuation τ sig (Elt F)) :
    after hostOps1_2 W (Proc.devRef .tc main_v50) = weight1 (W (Proc.devRef .tc main_arg4)) := by
  after_results_simp
  all_goals (try stretch_results_rw)
  all_goals rfl

/-- The second layer after its matrix product. -/
theorem hostOps2_v68 (W : Valuation τ sig (Elt F)) :
    after hostOps2 W (Proc.devRef .tc main_v68) = gcnPost (W (Proc.devRef .tc main_v51)) (W (Proc.devRef .tc main_v3)) (W (Proc.devRef .tc main_v6)) (W (Proc.devRef .tc main_v27)) (biasRow1 (W (Proc.devRef .tc main_arg5))) := by
  after_results_simp
  all_goals (try stretch_results_rw)
  all_goals rfl

/-- The second layer's output. -/
theorem hostOps2_1_v69 (W : Valuation τ sig (Elt F)) :
    after hostOps2_1 W (Proc.devRef .tc main_v69) = relu (W (Proc.devRef .tc main_v68)) := by
  after_results_simp
  all_goals (try stretch_results_rw)
  all_goals rfl

/-- The third layer's weights. -/
theorem hostOps2_2_v71 (W : Valuation τ sig (Elt F)) :
    after hostOps2_2 W (Proc.devRef .tc main_v71) = weight2 (W (Proc.devRef .tc main_arg4)) := by
  after_results_simp
  all_goals (try stretch_results_rw)
  all_goals rfl

/-- The third layer after its matrix product. -/
theorem hostOps3_v89 (W : Valuation τ sig (Elt F)) :
    after hostOps3 W (Proc.devRef .tc main_v89) = gcnPost (W (Proc.devRef .tc main_v72)) (W (Proc.devRef .tc main_v3)) (W (Proc.devRef .tc main_v6)) (W (Proc.devRef .tc main_v27)) (biasRow2 (W (Proc.devRef .tc main_arg5))) := by
  after_results_simp
  all_goals (try stretch_results_rw)
  all_goals rfl

/-- The third layer's output. -/
theorem hostOps3_1_v90 (W : Valuation τ sig (Elt F)) :
    after hostOps3_1 W (Proc.devRef .tc main_v90) = relu (W (Proc.devRef .tc main_v89)) := by
  after_results_simp
  all_goals (try stretch_results_rw)
  all_goals rfl

/-- The three layers' outputs side by side. -/
theorem hostOps3_2_v91 (W : Valuation τ sig (Elt F)) :
    after hostOps3_2 W (Proc.devRef .tc main_v91) = concat3 (W (Proc.devRef .tc main_v48)) (W (Proc.devRef .tc main_v69)) (W (Proc.devRef .tc main_v90)) := by
  after_results_simp
  all_goals (try stretch_results_rw)
  all_goals rfl

/-- The output weights as a row. -/
theorem hostOps3_2_v92 (W : Valuation τ sig (Elt F)) :
    after hostOps3_2 W (Proc.devRef .tc main_v92) = outRow (W (Proc.devRef .tc main_arg6)) := by
  after_results_simp
  all_goals (try stretch_results_rw)
  all_goals rfl

/-- The output bias as a 1×1 array. -/
theorem hostOps3_2_v93 (W : Valuation τ sig (Elt F)) :
    after hostOps3_2 W (Proc.devRef .tc main_v93) = outBias (W (Proc.devRef .tc main_arg7)) := by
  after_results_simp
  all_goals (try stretch_results_rw)
  all_goals rfl

/-- The embedding's rows at the positive pairs' first ends. -/
theorem hostOps3_2_v102 (W : Valuation τ sig (Elt F)) :
    after hostOps3_2 W (Proc.devRef .tc main_v102) = gatherRows (concat3 (W (Proc.devRef .tc main_v48)) (W (Proc.devRef .tc main_v69)) (W (Proc.devRef .tc main_v90))) (pairRow0 (W (Proc.devRef .tc main_arg2))) := by
  after_results_simp
  all_goals (try stretch_results_rw)
  all_goals rfl

/-- The embedding's rows at the positive pairs' second ends. -/
theorem hostOps3_2_v111 (W : Valuation τ sig (Elt F)) :
    after hostOps3_2 W (Proc.devRef .tc main_v111) = gatherRows (concat3 (W (Proc.devRef .tc main_v48)) (W (Proc.devRef .tc main_v69)) (W (Proc.devRef .tc main_v90))) (pairRow1 (W (Proc.devRef .tc main_arg2))) := by
  after_results_simp
  all_goals (try stretch_results_rw)
  all_goals rfl

/-- The embedding's rows at the negative pairs' first ends. -/
theorem hostOps3_2_v120 (W : Valuation τ sig (Elt F)) :
    after hostOps3_2 W (Proc.devRef .tc main_v120) = gatherRows (concat3 (W (Proc.devRef .tc main_v48)) (W (Proc.devRef .tc main_v69)) (W (Proc.devRef .tc main_v90))) (pairRow0 (W (Proc.devRef .tc main_arg3))) := by
  after_results_simp
  all_goals (try stretch_results_rw)
  all_goals rfl

/-- The embedding's rows at the negative pairs' second ends. -/
theorem hostOps3_2_v129 (W : Valuation τ sig (Elt F)) :
    after hostOps3_2 W (Proc.devRef .tc main_v129) = gatherRows (concat3 (W (Proc.devRef .tc main_v48)) (W (Proc.devRef .tc main_v69)) (W (Proc.devRef .tc main_v90))) (pairRow1 (W (Proc.devRef .tc main_arg3))) := by
  after_results_simp
  all_goals (try stretch_results_rw)
  all_goals rfl

end Cert.Proof.Hand

end
-- ==== Proof.KHost.lean ====
/- The kernel program's host side, walked from the launch memory to what its two scoring regions find. At the ideal
   values each matrix-product region leaves the reference's `dot_general` of its two input arrays, every host
   stretch computes the reference's named function of what it finds, an input window's array is left as found and an
   untouched buffer keeps its contents; so the three layers' outputs are the reference's `layer`s, their concatenation
   is the reference's `embed` of the kernel's own argument arrays, and the scoring regions' input arrays are that
   embedding's rows at the pairs' ends, the output weights as a row and the output bias as a 1×1 array. -/
import proofs.«150805_j37804302139719_1_alg».proof.Proof.KI.Bounds
import proofs.«150805_j37804302139719_1_alg».proof.Proof.MatBridge
import proofs.«150805_j37804302139719_1_alg».proof.Proof.KHost.Stretch

set_option synthInstance.maxSize 4096
set_option maxRecDepth 16384

noncomputable section

namespace Cert.Proof.Hand

open Cert.KernelIdeal Cert.KernelIdeal.Gen Cert.KernelIdeal.Hand
open Idealize.ShloMosaic Idealize.ShloMosaic.TcCoe Idealize.SL.Sem Idealize.ShloMosaic.StableHlo
open Cert.ReferenceIdeal.RefRun (srcIdx dstIdx edgeCoef weight0 weight1 weight2 biasRow0 biasRow1 biasRow2 gcnPost relu concat3 pairRow0 pairRow1 gatherRows layer embed)

-- the regions' output functions are only ever rewritten by their lemmas, never opened
attribute [local irreducible] G0 G1 G2

variable (m : (ℓ : Loc nD τ sig) → Buf (Elt Ideal) ℓ) (c : Dev nD)

/-! ## The walk, boundary by boundary -/

/-- No host operation writes an argument array and no region stages arguments 1 to 7: each holds its launch contents at every boundary up to the scoring regions. -/
theorem B1_arg0 : B1 m c (Proc.devRef .tc main_arg0) = (m ((c.tc : Thread nD τ).loc main_arg0)) :=
  (B1_of m c main_arg0 (by decide)).trans rfl

theorem B1_arg1 : B1 m c (Proc.devRef .tc main_arg1) = (m ((c.tc : Thread nD τ).loc main_arg1)) :=
  (B1_of m c main_arg1 (by decide)).trans rfl

theorem B2_arg1 : B2 m c (Proc.devRef .tc main_arg1) = (m ((c.tc : Thread nD τ).loc main_arg1)) :=
  (B2_of_ne m c main_arg1 (by decide)).trans (B1_arg1 m c)

theorem B3_arg1 : B3 m c (Proc.devRef .tc main_arg1) = (m ((c.tc : Thread nD τ).loc main_arg1)) :=
  (B3_of m c main_arg1 (by decide)).trans (B2_arg1 m c)

theorem B4_arg1 : B4 m c (Proc.devRef .tc main_arg1) = (m ((c.tc : Thread nD τ).loc main_arg1)) :=
  (B4_of m c main_arg1 (by decide)).trans (B3_arg1 m c)

theorem B5_arg1 : B5 m c (Proc.devRef .tc main_arg1) = (m ((c.tc : Thread nD τ).loc main_arg1)) :=
  (B5_of m c main_arg1 (by decide)).trans (B4_arg1 m c)

theorem B6_arg1 : B6 m c (Proc.devRef .tc main_arg1) = (m ((c.tc : Thread nD τ).loc main_arg1)) :=
  (B6_of_ne m c main_arg1 (by decide)).trans (B5_arg1 m c)

theorem B7_arg1 : B7 m c (Proc.devRef .tc main_arg1) = (m ((c.tc : Thread nD τ).loc main_arg1)) :=
  (B7_of m c main_arg1 (by decide)).trans (B6_arg1 m c)

theorem B8_arg1 : B8 m c (Proc.devRef .tc main_arg1) = (m ((c.tc : Thread nD τ).loc main_arg1)) :=
  (B8_of m c main_arg1 (by decide)).trans (B7_arg1 m c)

theorem B9_arg1 : B9 m c (Proc.devRef .tc main_arg1) = (m ((c.tc : Thread nD τ).loc main_arg1)) :=
  (B9_of m c main_arg1 (by decide)).trans (B8_arg1 m c)

theorem B10_arg1 : B10 m c (Proc.devRef .tc main_arg1) = (m ((c.tc : Thread nD τ).loc main_arg1)) :=
  (B10_of_ne m c main_arg1 (by decide)).trans (B9_arg1 m c)

theorem B11_arg1 : B11 m c (Proc.devRef .tc main_arg1) = (m ((c.tc : Thread nD τ).loc main_arg1)) :=
  (B11_of m c main_arg1 (by decide)).trans (B10_arg1 m c)

theorem B12_arg1 : B12 m c (Proc.devRef .tc main_arg1) = (m ((c.tc : Thread nD τ).loc main_arg1)) :=
  (B12_of m c main_arg1 (by decide)).trans (B11_arg1 m c)

theorem B13_arg1 : B13 m c (Proc.devRef .tc main_arg1) = (m ((c.tc : Thread nD τ).loc main_arg1)) :=
  (B13_of m c main_arg1 (by decide)).trans (B12_arg1 m c)

theorem B1_arg2 : B1 m c (Proc.devRef .tc main_arg2) = (m ((c.tc : Thread nD τ).loc main_arg2)) :=
  (B1_of m c main_arg2 (by decide)).trans rfl

theorem B2_arg2 : B2 m c (Proc.devRef .tc main_arg2) = (m ((c.tc : Thread nD τ).loc main_arg2)) :=
  (B2_of_ne m c main_arg2 (by decide)).trans (B1_arg2 m c)

theorem B3_arg2 : B3 m c (Proc.devRef .tc main_arg2) = (m ((c.tc : Thread nD τ).loc main_arg2)) :=
  (B3_of m c main_arg2 (by decide)).trans (B2_arg2 m c)

theorem B4_arg2 : B4 m c (Proc.devRef .tc main_arg2) = (m ((c.tc : Thread nD τ).loc main_arg2)) :=
  (B4_of m c main_arg2 (by decide)).trans (B3_arg2 m c)

theorem B5_arg2 : B5 m c (Proc.devRef .tc main_arg2) = (m ((c.tc : Thread nD τ).loc main_arg2)) :=
  (B5_of m c main_arg2 (by decide)).trans (B4_arg2 m c)

theorem B6_arg2 : B6 m c (Proc.devRef .tc main_arg2) = (m ((c.tc : Thread nD τ).loc main_arg2)) :=
  (B6_of_ne m c main_arg2 (by decide)).trans (B5_arg2 m c)

theorem B7_arg2 : B7 m c (Proc.devRef .tc main_arg2) = (m ((c.tc : Thread nD τ).loc main_arg2)) :=
  (B7_of m c main_arg2 (by decide)).trans (B6_arg2 m c)

theorem B8_arg2 : B8 m c (Proc.devRef .tc main_arg2) = (m ((c.tc : Thread nD τ).loc main_arg2)) :=
  (B8_of m c main_arg2 (by decide)).trans (B7_arg2 m c)

theorem B9_arg2 : B9 m c (Proc.devRef .tc main_arg2) = (m ((c.tc : Thread nD τ).loc main_arg2)) :=
  (B9_of m c main_arg2 (by decide)).trans (B8_arg2 m c)

theorem B10_arg2 : B10 m c (Proc.devRef .tc main_arg2) = (m ((c.tc : Thread nD τ).loc main_arg2)) :=
  (B10_of_ne m c main_arg2 (by decide)).trans (B9_arg2 m c)

theorem B11_arg2 : B11 m c (Proc.devRef .tc main_arg2) = (m ((c.tc : Thread nD τ).loc main_arg2)) :=
  (B11_of m c main_arg2 (by decide)).trans (B10_arg2 m c)

theorem B12_arg2 : B12 m c (Proc.devRef .tc main_arg2) = (m ((c.tc : Thread nD τ).loc main_arg2)) :=
  (B12_of m c main_arg2 (by decide)).trans (B11_arg2 m c)

theorem B13_arg2 : B13 m c (Proc.devRef .tc main_arg2) = (m ((c.tc : Thread nD τ).loc main_arg2)) :=
  (B13_of m c main_arg2 (by decide)).trans (B12_arg2 m c)

theorem B1_arg3 : B1 m c (Proc.devRef .tc main_arg3) = (m ((c.tc : Thread nD τ).loc main_arg3)) :=
  (B1_of m c main_arg3 (by decide)).trans rfl

theorem B2_arg3 : B2 m c (Proc.devRef .tc main_arg3) = (m ((c.tc : Thread nD τ).loc main_arg3)) :=
  (B2_of_ne m c main_arg3 (by decide)).trans (B1_arg3 m c)

theorem B3_arg3 : B3 m c (Proc.devRef .tc main_arg3) = (m ((c.tc : Thread nD τ).loc main_arg3)) :=
  (B3_of m c main_arg3 (by decide)).trans (B2_arg3 m c)

theorem B4_arg3 : B4 m c (Proc.devRef .tc main_arg3) = (m ((c.tc : Thread nD τ).loc main_arg3)) :=
  (B4_of m c main_arg3 (by decide)).trans (B3_arg3 m c)

theorem B5_arg3 : B5 m c (Proc.devRef .tc main_arg3) = (m ((c.tc : Thread nD τ).loc main_arg3)) :=
  (B5_of m c main_arg3 (by decide)).trans (B4_arg3 m c)

theorem B6_arg3 : B6 m c (Proc.devRef .tc main_arg3) = (m ((c.tc : Thread nD τ).loc main_arg3)) :=
  (B6_of_ne m c main_arg3 (by decide)).trans (B5_arg3 m c)

theorem B7_arg3 : B7 m c (Proc.devRef .tc main_arg3) = (m ((c.tc : Thread nD τ).loc main_arg3)) :=
  (B7_of m c main_arg3 (by decide)).trans (B6_arg3 m c)

theorem B8_arg3 : B8 m c (Proc.devRef .tc main_arg3) = (m ((c.tc : Thread nD τ).loc main_arg3)) :=
  (B8_of m c main_arg3 (by decide)).trans (B7_arg3 m c)

theorem B9_arg3 : B9 m c (Proc.devRef .tc main_arg3) = (m ((c.tc : Thread nD τ).loc main_arg3)) :=
  (B9_of m c main_arg3 (by decide)).trans (B8_arg3 m c)

theorem B10_arg3 : B10 m c (Proc.devRef .tc main_arg3) = (m ((c.tc : Thread nD τ).loc main_arg3)) :=
  (B10_of_ne m c main_arg3 (by decide)).trans (B9_arg3 m c)

theorem B11_arg3 : B11 m c (Proc.devRef .tc main_arg3) = (m ((c.tc : Thread nD τ).loc main_arg3)) :=
  (B11_of m c main_arg3 (by decide)).trans (B10_arg3 m c)

theorem B12_arg3 : B12 m c (Proc.devRef .tc main_arg3) = (m ((c.tc : Thread nD τ).loc main_arg3)) :=
  (B12_of m c main_arg3 (by decide)).trans (B11_arg3 m c)

theorem B13_arg3 : B13 m c (Proc.devRef .tc main_arg3) = (m ((c.tc : Thread nD τ).loc main_arg3)) :=
  (B13_of m c main_arg3 (by decide)).trans (B12_arg3 m c)

theorem B1_arg4 : B1 m c (Proc.devRef .tc main_arg4) = (m ((c.tc : Thread nD τ).loc main_arg4)) :=
  (B1_of m c main_arg4 (by decide)).trans rfl

theorem B2_arg4 : B2 m c (Proc.devRef .tc main_arg4) = (m ((c.tc : Thread nD τ).loc main_arg4)) :=
  (B2_of_ne m c main_arg4 (by decide)).trans (B1_arg4 m c)

theorem B3_arg4 : B3 m c (Proc.devRef .tc main_arg4) = (m ((c.tc : Thread nD τ).loc main_arg4)) :=
  (B3_of m c main_arg4 (by decide)).trans (B2_arg4 m c)

theorem B4_arg4 : B4 m c (Proc.devRef .tc main_arg4) = (m ((c.tc : Thread nD τ).loc main_arg4)) :=
  (B4_of m c main_arg4 (by decide)).trans (B3_arg4 m c)

theorem B5_arg4 : B5 m c (Proc.devRef .tc main_arg4) = (m ((c.tc : Thread nD τ).loc main_arg4)) :=
  (B5_of m c main_arg4 (by decide)).trans (B4_arg4 m c)

theorem B6_arg4 : B6 m c (Proc.devRef .tc main_arg4) = (m ((c.tc : Thread nD τ).loc main_arg4)) :=
  (B6_of_ne m c main_arg4 (by decide)).trans (B5_arg4 m c)

theorem B7_arg4 : B7 m c (Proc.devRef .tc main_arg4) = (m ((c.tc : Thread nD τ).loc main_arg4)) :=
  (B7_of m c main_arg4 (by decide)).trans (B6_arg4 m c)

theorem B8_arg4 : B8 m c (Proc.devRef .tc main_arg4) = (m ((c.tc : Thread nD τ).loc main_arg4)) :=
  (B8_of m c main_arg4 (by decide)).trans (B7_arg4 m c)

theorem B9_arg4 : B9 m c (Proc.devRef .tc main_arg4) = (m ((c.tc : Thread nD τ).loc main_arg4)) :=
  (B9_of m c main_arg4 (by decide)).trans (B8_arg4 m c)

theorem B10_arg4 : B10 m c (Proc.devRef .tc main_arg4) = (m ((c.tc : Thread nD τ).loc main_arg4)) :=
  (B10_of_ne m c main_arg4 (by decide)).trans (B9_arg4 m c)

theorem B11_arg4 : B11 m c (Proc.devRef .tc main_arg4) = (m ((c.tc : Thread nD τ).loc main_arg4)) :=
  (B11_of m c main_arg4 (by decide)).trans (B10_arg4 m c)

theorem B12_arg4 : B12 m c (Proc.devRef .tc main_arg4) = (m ((c.tc : Thread nD τ).loc main_arg4)) :=
  (B12_of m c main_arg4 (by decide)).trans (B11_arg4 m c)

theorem B13_arg4 : B13 m c (Proc.devRef .tc main_arg4) = (m ((c.tc : Thread nD τ).loc main_arg4)) :=
  (B13_of m c main_arg4 (by decide)).trans (B12_arg4 m c)

theorem B1_arg5 : B1 m c (Proc.devRef .tc main_arg5) = (m ((c.tc : Thread nD τ).loc main_arg5)) :=
  (B1_of m c main_arg5 (by decide)).trans rfl

theorem B2_arg5 : B2 m c (Proc.devRef .tc main_arg5) = (m ((c.tc : Thread nD τ).loc main_arg5)) :=
  (B2_of_ne m c main_arg5 (by decide)).trans (B1_arg5 m c)

theorem B3_arg5 : B3 m c (Proc.devRef .tc main_arg5) = (m ((c.tc : Thread nD τ).loc main_arg5)) :=
  (B3_of m c main_arg5 (by decide)).trans (B2_arg5 m c)

theorem B4_arg5 : B4 m c (Proc.devRef .tc main_arg5) = (m ((c.tc : Thread nD τ).loc main_arg5)) :=
  (B4_of m c main_arg5 (by decide)).trans (B3_arg5 m c)

theorem B5_arg5 : B5 m c (Proc.devRef .tc main_arg5) = (m ((c.tc : Thread nD τ).loc main_arg5)) :=
  (B5_of m c main_arg5 (by decide)).trans (B4_arg5 m c)

theorem B6_arg5 : B6 m c (Proc.devRef .tc main_arg5) = (m ((c.tc : Thread nD τ).loc main_arg5)) :=
  (B6_of_ne m c main_arg5 (by decide)).trans (B5_arg5 m c)

theorem B7_arg5 : B7 m c (Proc.devRef .tc main_arg5) = (m ((c.tc : Thread nD τ).loc main_arg5)) :=
  (B7_of m c main_arg5 (by decide)).trans (B6_arg5 m c)

theorem B8_arg5 : B8 m c (Proc.devRef .tc main_arg5) = (m ((c.tc : Thread nD τ).loc main_arg5)) :=
  (B8_of m c main_arg5 (by decide)).trans (B7_arg5 m c)

theorem B9_arg5 : B9 m c (Proc.devRef .tc main_arg5) = (m ((c.tc : Thread nD τ).loc main_arg5)) :=
  (B9_of m c main_arg5 (by decide)).trans (B8_arg5 m c)

theorem B10_arg5 : B10 m c (Proc.devRef .tc main_arg5) = (m ((c.tc : Thread nD τ).loc main_arg5)) :=
  (B10_of_ne m c main_arg5 (by decide)).trans (B9_arg5 m c)

theorem B11_arg5 : B11 m c (Proc.devRef .tc main_arg5) = (m ((c.tc : Thread nD τ).loc main_arg5)) :=
  (B11_of m c main_arg5 (by decide)).trans (B10_arg5 m c)

theorem B12_arg5 : B12 m c (Proc.devRef .tc main_arg5) = (m ((c.tc : Thread nD τ).loc main_arg5)) :=
  (B12_of m c main_arg5 (by decide)).trans (B11_arg5 m c)

theorem B13_arg5 : B13 m c (Proc.devRef .tc main_arg5) = (m ((c.tc : Thread nD τ).loc main_arg5)) :=
  (B13_of m c main_arg5 (by decide)).trans (B12_arg5 m c)

theorem B1_arg6 : B1 m c (Proc.devRef .tc main_arg6) = (m ((c.tc : Thread nD τ).loc main_arg6)) :=
  (B1_of m c main_arg6 (by decide)).trans rfl

theorem B2_arg6 : B2 m c (Proc.devRef .tc main_arg6) = (m ((c.tc : Thread nD τ).loc main_arg6)) :=
  (B2_of_ne m c main_arg6 (by decide)).trans (B1_arg6 m c)

theorem B3_arg6 : B3 m c (Proc.devRef .tc main_arg6) = (m ((c.tc : Thread nD τ).loc main_arg6)) :=
  (B3_of m c main_arg6 (by decide)).trans (B2_arg6 m c)

theorem B4_arg6 : B4 m c (Proc.devRef .tc main_arg6) = (m ((c.tc : Thread nD τ).loc main_arg6)) :=
  (B4_of m c main_arg6 (by decide)).trans (B3_arg6 m c)

theorem B5_arg6 : B5 m c (Proc.devRef .tc main_arg6) = (m ((c.tc : Thread nD τ).loc main_arg6)) :=
  (B5_of m c main_arg6 (by decide)).trans (B4_arg6 m c)

theorem B6_arg6 : B6 m c (Proc.devRef .tc main_arg6) = (m ((c.tc : Thread nD τ).loc main_arg6)) :=
  (B6_of_ne m c main_arg6 (by decide)).trans (B5_arg6 m c)

theorem B7_arg6 : B7 m c (Proc.devRef .tc main_arg6) = (m ((c.tc : Thread nD τ).loc main_arg6)) :=
  (B7_of m c main_arg6 (by decide)).trans (B6_arg6 m c)

theorem B8_arg6 : B8 m c (Proc.devRef .tc main_arg6) = (m ((c.tc : Thread nD τ).loc main_arg6)) :=
  (B8_of m c main_arg6 (by decide)).trans (B7_arg6 m c)

theorem B9_arg6 : B9 m c (Proc.devRef .tc main_arg6) = (m ((c.tc : Thread nD τ).loc main_arg6)) :=
  (B9_of m c main_arg6 (by decide)).trans (B8_arg6 m c)

theorem B10_arg6 : B10 m c (Proc.devRef .tc main_arg6) = (m ((c.tc : Thread nD τ).loc main_arg6)) :=
  (B10_of_ne m c main_arg6 (by decide)).trans (B9_arg6 m c)

theorem B11_arg6 : B11 m c (Proc.devRef .tc main_arg6) = (m ((c.tc : Thread nD τ).loc main_arg6)) :=
  (B11_of m c main_arg6 (by decide)).trans (B10_arg6 m c)

theorem B12_arg6 : B12 m c (Proc.devRef .tc main_arg6) = (m ((c.tc : Thread nD τ).loc main_arg6)) :=
  (B12_of m c main_arg6 (by decide)).trans (B11_arg6 m c)

theorem B13_arg6 : B13 m c (Proc.devRef .tc main_arg6) = (m ((c.tc : Thread nD τ).loc main_arg6)) :=
  (B13_of m c main_arg6 (by decide)).trans (B12_arg6 m c)

theorem B1_arg7 : B1 m c (Proc.devRef .tc main_arg7) = (m ((c.tc : Thread nD τ).loc main_arg7)) :=
  (B1_of m c main_arg7 (by decide)).trans rfl

theorem B2_arg7 : B2 m c (Proc.devRef .tc main_arg7) = (m ((c.tc : Thread nD τ).loc main_arg7)) :=
  (B2_of_ne m c main_arg7 (by decide)).trans (B1_arg7 m c)

theorem B3_arg7 : B3 m c (Proc.devRef .tc main_arg7) = (m ((c.tc : Thread nD τ).loc main_arg7)) :=
  (B3_of m c main_arg7 (by decide)).trans (B2_arg7 m c)

theorem B4_arg7 : B4 m c (Proc.devRef .tc main_arg7) = (m ((c.tc : Thread nD τ).loc main_arg7)) :=
  (B4_of m c main_arg7 (by decide)).trans (B3_arg7 m c)

theorem B5_arg7 : B5 m c (Proc.devRef .tc main_arg7) = (m ((c.tc : Thread nD τ).loc main_arg7)) :=
  (B5_of m c main_arg7 (by decide)).trans (B4_arg7 m c)

theorem B6_arg7 : B6 m c (Proc.devRef .tc main_arg7) = (m ((c.tc : Thread nD τ).loc main_arg7)) :=
  (B6_of_ne m c main_arg7 (by decide)).trans (B5_arg7 m c)

theorem B7_arg7 : B7 m c (Proc.devRef .tc main_arg7) = (m ((c.tc : Thread nD τ).loc main_arg7)) :=
  (B7_of m c main_arg7 (by decide)).trans (B6_arg7 m c)

theorem B8_arg7 : B8 m c (Proc.devRef .tc main_arg7) = (m ((c.tc : Thread nD τ).loc main_arg7)) :=
  (B8_of m c main_arg7 (by decide)).trans (B7_arg7 m c)

theorem B9_arg7 : B9 m c (Proc.devRef .tc main_arg7) = (m ((c.tc : Thread nD τ).loc main_arg7)) :=
  (B9_of m c main_arg7 (by decide)).trans (B8_arg7 m c)

theorem B10_arg7 : B10 m c (Proc.devRef .tc main_arg7) = (m ((c.tc : Thread nD τ).loc main_arg7)) :=
  (B10_of_ne m c main_arg7 (by decide)).trans (B9_arg7 m c)

theorem B11_arg7 : B11 m c (Proc.devRef .tc main_arg7) = (m ((c.tc : Thread nD τ).loc main_arg7)) :=
  (B11_of m c main_arg7 (by decide)).trans (B10_arg7 m c)

theorem B12_arg7 : B12 m c (Proc.devRef .tc main_arg7) = (m ((c.tc : Thread nD τ).loc main_arg7)) :=
  (B12_of m c main_arg7 (by decide)).trans (B11_arg7 m c)

theorem B13_arg7 : B13 m c (Proc.devRef .tc main_arg7) = (m ((c.tc : Thread nD τ).loc main_arg7)) :=
  (B13_of m c main_arg7 (by decide)).trans (B12_arg7 m c)

/-- After the opening stretch: the edge ends with self loops, the edge coefficients, the first weights. -/
theorem B1_v3 : B1 m c (Proc.devRef .tc main_v3) = srcIdx (m ((c.tc : Thread nD τ).loc main_arg1)) :=
  (hostOps0_v3 (B0 m c)).trans (by rw [show B0 m c (Proc.devRef .tc main_arg1) = (m ((c.tc : Thread nD τ).loc main_arg1)) from rfl])

theorem B1_v6 : B1 m c (Proc.devRef .tc main_v6) = dstIdx (m ((c.tc : Thread nD τ).loc main_arg1)) :=
  (hostOps0_v6 (B0 m c)).trans (by rw [show B0 m c (Proc.devRef .tc main_arg1) = (m ((c.tc : Thread nD τ).loc main_arg1)) from rfl])

theorem B1_v27 : B1 m c (Proc.devRef .tc main_v27) = edgeCoef (srcIdx (m ((c.tc : Thread nD τ).loc main_arg1))) (dstIdx (m ((c.tc : Thread nD τ).loc main_arg1))) :=
  (hostOps0_v27 (B0 m c)).trans (by rw [show B0 m c (Proc.devRef .tc main_arg1) = (m ((c.tc : Thread nD τ).loc main_arg1)) from rfl])

theorem B1_v29 : B1 m c (Proc.devRef .tc main_v29) = weight0 (m ((c.tc : Thread nD τ).loc main_arg4)) :=
  (hostOps0_v29 (B0 m c)).trans (by rw [show B0 m c (Proc.devRef .tc main_arg4) = (m ((c.tc : Thread nD τ).loc main_arg4)) from rfl])

theorem B2_v3 : B2 m c (Proc.devRef .tc main_v3) = srcIdx (m ((c.tc : Thread nD τ).loc main_arg1)) :=
  (B2_of_ne m c main_v3 (by decide)).trans (B1_v3 m c)

theorem B3_v3 : B3 m c (Proc.devRef .tc main_v3) = srcIdx (m ((c.tc : Thread nD τ).loc main_arg1)) :=
  (B3_of m c main_v3 (by decide)).trans (B2_v3 m c)

theorem B4_v3 : B4 m c (Proc.devRef .tc main_v3) = srcIdx (m ((c.tc : Thread nD τ).loc main_arg1)) :=
  (B4_of m c main_v3 (by decide)).trans (B3_v3 m c)

theorem B5_v3 : B5 m c (Proc.devRef .tc main_v3) = srcIdx (m ((c.tc : Thread nD τ).loc main_arg1)) :=
  (B5_of m c main_v3 (by decide)).trans (B4_v3 m c)

theorem B6_v3 : B6 m c (Proc.devRef .tc main_v3) = srcIdx (m ((c.tc : Thread nD τ).loc main_arg1)) :=
  (B6_of_ne m c main_v3 (by decide)).trans (B5_v3 m c)

theorem B7_v3 : B7 m c (Proc.devRef .tc main_v3) = srcIdx (m ((c.tc : Thread nD τ).loc main_arg1)) :=
  (B7_of m c main_v3 (by decide)).trans (B6_v3 m c)

theorem B8_v3 : B8 m c (Proc.devRef .tc main_v3) = srcIdx (m ((c.tc : Thread nD τ).loc main_arg1)) :=
  (B8_of m c main_v3 (by decide)).trans (B7_v3 m c)

theorem B9_v3 : B9 m c (Proc.devRef .tc main_v3) = srcIdx (m ((c.tc : Thread nD τ).loc main_arg1)) :=
  (B9_of m c main_v3 (by decide)).trans (B8_v3 m c)

theorem B10_v3 : B10 m c (Proc.devRef .tc main_v3) = srcIdx (m ((c.tc : Thread nD τ).loc main_arg1)) :=
  (B10_of_ne m c main_v3 (by decide)).trans (B9_v3 m c)

theorem B2_v6 : B2 m c (Proc.devRef .tc main_v6) = dstIdx (m ((c.tc : Thread nD τ).loc main_arg1)) :=
  (B2_of_ne m c main_v6 (by decide)).trans (B1_v6 m c)

theorem B3_v6 : B3 m c (Proc.devRef .tc main_v6) = dstIdx (m ((c.tc : Thread nD τ).loc main_arg1)) :=
  (B3_of m c main_v6 (by decide)).trans (B2_v6 m c)

theorem B4_v6 : B4 m c (Proc.devRef .tc main_v6) = dstIdx (m ((c.tc : Thread nD τ).loc main_arg1)) :=
  (B4_of m c main_v6 (by decide)).trans (B3_v6 m c)

theorem B5_v6 : B5 m c (Proc.devRef .tc main_v6) = dstIdx (m ((c.tc : Thread nD τ).loc main_arg1)) :=
  (B5_of m c main_v6 (by decide)).trans (B4_v6 m c)

theorem B6_v6 : B6 m c (Proc.devRef .tc main_v6) = dstIdx (m ((c.tc : Thread nD τ).loc main_arg1)) :=
  (B6_of_ne m c main_v6 (by decide)).trans (B5_v6 m c)

theorem B7_v6 : B7 m c (Proc.devRef .tc main_v6) = dstIdx (m ((c.tc : Thread nD τ).loc main_arg1)) :=
  (B7_of m c main_v6 (by decide)).trans (B6_v6 m c)

theorem B8_v6 : B8 m c (Proc.devRef .tc main_v6) = dstIdx (m ((c.tc : Thread nD τ).loc main_arg1)) :=
  (B8_of m c main_v6 (by decide)).trans (B7_v6 m c)

theorem B9_v6 : B9 m c (Proc.devRef .tc main_v6) = dstIdx (m ((c.tc : Thread nD τ).loc main_arg1)) :=
  (B9_of m c main_v6 (by decide)).trans (B8_v6 m c)

theorem B10_v6 : B10 m c (Proc.devRef .tc main_v6) = dstIdx (m ((c.tc : Thread nD τ).loc main_arg1)) :=
  (B10_of_ne m c main_v6 (by decide)).trans (B9_v6 m c)

theorem B2_v27 : B2 m c (Proc.devRef .tc main_v27) = edgeCoef (srcIdx (m ((c.tc : Thread nD τ).loc main_arg1))) (dstIdx (m ((c.tc : Thread nD τ).loc main_arg1))) :=
  (B2_of_ne m c main_v27 (by decide)).trans (B1_v27 m c)

theorem B3_v27 : B3 m c (Proc.devRef .tc main_v27) = edgeCoef (srcIdx (m ((c.tc : Thread nD τ).loc main_arg1))) (dstIdx (m ((c.tc : Thread nD τ).loc main_arg1))) :=
  (B3_of m c main_v27 (by decide)).trans (B2_v27 m c)

theorem B4_v27 : B4 m c (Proc.devRef .tc main_v27) = edgeCoef (srcIdx (m ((c.tc : Thread nD τ).loc main_arg1))) (dstIdx (m ((c.tc : Thread nD τ).loc main_arg1))) :=
  (B4_of m c main_v27 (by decide)).trans (B3_v27 m c)

theorem B5_v27 : B5 m c (Proc.devRef .tc main_v27) = edgeCoef (srcIdx (m ((c.tc : Thread nD τ).loc main_arg1))) (dstIdx (m ((c.tc : Thread nD τ).loc main_arg1))) :=
  (B5_of m c main_v27 (by decide)).trans (B4_v27 m c)

theorem B6_v27 : B6 m c (Proc.devRef .tc main_v27) = edgeCoef (srcIdx (m ((c.tc : Thread nD τ).loc main_arg1))) (dstIdx (m ((c.tc : Thread nD τ).loc main_arg1))) :=
  (B6_of_ne m c main_v27 (by decide)).trans (B5_v27 m c)

theorem B7_v27 : B7 m c (Proc.devRef .tc main_v27) = edgeCoef (srcIdx (m ((c.tc : Thread nD τ).loc main_arg1))) (dstIdx (m ((c.tc : Thread nD τ).loc main_arg1))) :=
  (B7_of m c main_v27 (by decide)).trans (B6_v27 m c)

theorem B8_v27 : B8 m c (Proc.devRef .tc main_v27) = edgeCoef (srcIdx (m ((c.tc : Thread nD τ).loc main_arg1))) (dstIdx (m ((c.tc : Thread nD τ).loc main_arg1))) :=
  (B8_of m c main_v27 (by decide)).trans (B7_v27 m c)

theorem B9_v27 : B9 m c (Proc.devRef .tc main_v27) = edgeCoef (srcIdx (m ((c.tc : Thread nD τ).loc main_arg1))) (dstIdx (m ((c.tc : Thread nD τ).loc main_arg1))) :=
  (B9_of m c main_v27 (by decide)).trans (B8_v27 m c)

theorem B10_v27 : B10 m c (Proc.devRef .tc main_v27) = edgeCoef (srcIdx (m ((c.tc : Thread nD τ).loc main_arg1))) (dstIdx (m ((c.tc : Thread nD τ).loc main_arg1))) :=
  (B10_of_ne m c main_v27 (by decide)).trans (B9_v27 m c)

/-- Region 0 leaves the first matrix product: its output array is the product of its two input arrays, which at the ideal values is the reference's `dot_general`. -/
theorem B2_v30 : B2 m c (Proc.devRef .tc main_v30) = Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4))) :=
  (B2_arr m c 2).trans ((final0 (E1 m) c).trans
    ((congrArg₂ (G0 (F := Ideal)) (B1_arg0 m c) (B1_v29 m c)).trans (Cert.MatBridge.G0_eq_dot _ _)))

/-- The first layer before its maximum with zero. -/
theorem B3_v47 : B3 m c (Proc.devRef .tc main_v47) = gcnPost (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (srcIdx (m ((c.tc : Thread nD τ).loc main_arg1))) (dstIdx (m ((c.tc : Thread nD τ).loc main_arg1))) (edgeCoef (srcIdx (m ((c.tc : Thread nD τ).loc main_arg1))) (dstIdx (m ((c.tc : Thread nD τ).loc main_arg1)))) (biasRow0 (m ((c.tc : Thread nD τ).loc main_arg5))) :=
  (hostOps1_v47 (B2 m c)).trans (by rw [B2_v30, B2_v3, B2_v6, B2_v27, B2_arg5])

/-- The first layer's output. -/
theorem B4_v48 : B4 m c (Proc.devRef .tc main_v48) = layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5))) :=
  (hostOps1_1_v48 (B3 m c)).trans (by rw [B3_v47]; all_goals rfl)

theorem B5_v50 : B5 m c (Proc.devRef .tc main_v50) = weight1 (m ((c.tc : Thread nD τ).loc main_arg4)) :=
  (hostOps1_2_v50 (B4 m c)).trans (by rw [B4_arg4])

theorem B5_v48 : B5 m c (Proc.devRef .tc main_v48) = layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5))) :=
  (B5_of m c main_v48 (by decide)).trans (B4_v48 m c)

/-- Region 1 leaves the second matrix product. -/
theorem B6_v51 : B6 m c (Proc.devRef .tc main_v51) = Host.dotGeneral (F := Ideal) (φ₁ := .f32) (φ₂ := .f32) Cert.ReferenceIdeal.dot_S50000x128_S128x128_S50000x128_1_0_0_1_n_n none (layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5)))) (weight1 (m ((c.tc : Thread nD τ).loc main_arg4))) :=
  (B6_arr m c 2).trans ((final1 (E5 m) c).trans
    ((congrArg₂ (G1 (F := Ideal)) (B5_v48 m c) (B5_v50 m c)).trans (Cert.MatBridge.G1_eq_dot _ _)))

/-- An input window's array is left as the region found it. -/
theorem B6_v48 : B6 m c (Proc.devRef .tc main_v48) = layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5))) :=
  (B6_arr m c 0).trans ((arr1_0 (E5 m) c).trans (B5_v48 m c))

/-- The second layer before its maximum with zero. -/
theorem B7_v68 : B7 m c (Proc.devRef .tc main_v68) = gcnPost (Host.dotGeneral (F := Ideal) (φ₁ := .f32) (φ₂ := .f32) Cert.ReferenceIdeal.dot_S50000x128_S128x128_S50000x128_1_0_0_1_n_n none (layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5)))) (weight1 (m ((c.tc : Thread nD τ).loc main_arg4)))) (srcIdx (m ((c.tc : Thread nD τ).loc main_arg1))) (dstIdx (m ((c.tc : Thread nD τ).loc main_arg1))) (edgeCoef (srcIdx (m ((c.tc : Thread nD τ).loc main_arg1))) (dstIdx (m ((c.tc : Thread nD τ).loc main_arg1)))) (biasRow1 (m ((c.tc : Thread nD τ).loc main_arg5))) :=
  (hostOps2_v68 (B6 m c)).trans (by rw [B6_v51, B6_v3, B6_v6, B6_v27, B6_arg5])

/-- The second layer's output. -/
theorem B8_v69 : B8 m c (Proc.devRef .tc main_v69) = layer (Host.dotGeneral (F := Ideal) (φ₁ := .f32) (φ₂ := .f32) Cert.ReferenceIdeal.dot_S50000x128_S128x128_S50000x128_1_0_0_1_n_n none (layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5)))) (weight1 (m ((c.tc : Thread nD τ).loc main_arg4)))) (m ((c.tc : Thread nD τ).loc main_arg1)) (biasRow1 (m ((c.tc : Thread nD τ).loc main_arg5))) :=
  (hostOps2_1_v69 (B7 m c)).trans (by rw [B7_v68]; all_goals rfl)

theorem B9_v71 : B9 m c (Proc.devRef .tc main_v71) = weight2 (m ((c.tc : Thread nD τ).loc main_arg4)) :=
  (hostOps2_2_v71 (B8 m c)).trans (by rw [B8_arg4])

theorem B7_v48 : B7 m c (Proc.devRef .tc main_v48) = layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5))) :=
  (B7_of m c main_v48 (by decide)).trans (B6_v48 m c)

theorem B8_v48 : B8 m c (Proc.devRef .tc main_v48) = layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5))) :=
  (B8_of m c main_v48 (by decide)).trans (B7_v48 m c)

theorem B9_v48 : B9 m c (Proc.devRef .tc main_v48) = layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5))) :=
  (B9_of m c main_v48 (by decide)).trans (B8_v48 m c)

theorem B10_v48 : B10 m c (Proc.devRef .tc main_v48) = layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5))) :=
  (B10_of_ne m c main_v48 (by decide)).trans (B9_v48 m c)

theorem B11_v48 : B11 m c (Proc.devRef .tc main_v48) = layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5))) :=
  (B11_of m c main_v48 (by decide)).trans (B10_v48 m c)

theorem B12_v48 : B12 m c (Proc.devRef .tc main_v48) = layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5))) :=
  (B12_of m c main_v48 (by decide)).trans (B11_v48 m c)

theorem B9_v69 : B9 m c (Proc.devRef .tc main_v69) = layer (Host.dotGeneral (F := Ideal) (φ₁ := .f32) (φ₂ := .f32) Cert.ReferenceIdeal.dot_S50000x128_S128x128_S50000x128_1_0_0_1_n_n none (layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5)))) (weight1 (m ((c.tc : Thread nD τ).loc main_arg4)))) (m ((c.tc : Thread nD τ).loc main_arg1)) (biasRow1 (m ((c.tc : Thread nD τ).loc main_arg5))) :=
  (B9_of m c main_v69 (by decide)).trans (B8_v69 m c)

/-- Region 2 leaves the third matrix product. -/
theorem B10_v72 : B10 m c (Proc.devRef .tc main_v72) = Host.dotGeneral (F := Ideal) (φ₁ := .f32) (φ₂ := .f32) Cert.ReferenceIdeal.dot_S50000x128_S128x128_S50000x128_1_0_0_1_n_n none (layer (Host.dotGeneral (F := Ideal) (φ₁ := .f32) (φ₂ := .f32) Cert.ReferenceIdeal.dot_S50000x128_S128x128_S50000x128_1_0_0_1_n_n none (layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5)))) (weight1 (m ((c.tc : Thread nD τ).loc main_arg4)))) (m ((c.tc : Thread nD τ).loc main_arg1)) (biasRow1 (m ((c.tc : Thread nD τ).loc main_arg5)))) (weight2 (m ((c.tc : Thread nD τ).loc main_arg4))) :=
  (B10_arr m c 2).trans ((final2 (E9 m) c).trans
    ((congrArg₂ (G2 (F := Ideal)) (B9_v69 m c) (B9_v71 m c)).trans (Cert.MatBridge.G2_eq_dot _ _)))

theorem B10_v69 : B10 m c (Proc.devRef .tc main_v69) = layer (Host.dotGeneral (F := Ideal) (φ₁ := .f32) (φ₂ := .f32) Cert.ReferenceIdeal.dot_S50000x128_S128x128_S50000x128_1_0_0_1_n_n none (layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5)))) (weight1 (m ((c.tc : Thread nD τ).loc main_arg4)))) (m ((c.tc : Thread nD τ).loc main_arg1)) (biasRow1 (m ((c.tc : Thread nD τ).loc main_arg5))) :=
  (B10_arr m c 0).trans ((arr2_0 (E9 m) c).trans (B9_v69 m c))

/-- The third layer before its maximum with zero. -/
theorem B11_v89 : B11 m c (Proc.devRef .tc main_v89) = gcnPost (Host.dotGeneral (F := Ideal) (φ₁ := .f32) (φ₂ := .f32) Cert.ReferenceIdeal.dot_S50000x128_S128x128_S50000x128_1_0_0_1_n_n none (layer (Host.dotGeneral (F := Ideal) (φ₁ := .f32) (φ₂ := .f32) Cert.ReferenceIdeal.dot_S50000x128_S128x128_S50000x128_1_0_0_1_n_n none (layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5)))) (weight1 (m ((c.tc : Thread nD τ).loc main_arg4)))) (m ((c.tc : Thread nD τ).loc main_arg1)) (biasRow1 (m ((c.tc : Thread nD τ).loc main_arg5)))) (weight2 (m ((c.tc : Thread nD τ).loc main_arg4)))) (srcIdx (m ((c.tc : Thread nD τ).loc main_arg1))) (dstIdx (m ((c.tc : Thread nD τ).loc main_arg1))) (edgeCoef (srcIdx (m ((c.tc : Thread nD τ).loc main_arg1))) (dstIdx (m ((c.tc : Thread nD τ).loc main_arg1)))) (biasRow2 (m ((c.tc : Thread nD τ).loc main_arg5))) :=
  (hostOps3_v89 (B10 m c)).trans (by rw [B10_v72, B10_v3, B10_v6, B10_v27, B10_arg5])

/-- The third layer's output. -/
theorem B12_v90 : B12 m c (Proc.devRef .tc main_v90) = layer (Host.dotGeneral (F := Ideal) (φ₁ := .f32) (φ₂ := .f32) Cert.ReferenceIdeal.dot_S50000x128_S128x128_S50000x128_1_0_0_1_n_n none (layer (Host.dotGeneral (F := Ideal) (φ₁ := .f32) (φ₂ := .f32) Cert.ReferenceIdeal.dot_S50000x128_S128x128_S50000x128_1_0_0_1_n_n none (layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5)))) (weight1 (m ((c.tc : Thread nD τ).loc main_arg4)))) (m ((c.tc : Thread nD τ).loc main_arg1)) (biasRow1 (m ((c.tc : Thread nD τ).loc main_arg5)))) (weight2 (m ((c.tc : Thread nD τ).loc main_arg4)))) (m ((c.tc : Thread nD τ).loc main_arg1)) (biasRow2 (m ((c.tc : Thread nD τ).loc main_arg5))) :=
  (hostOps3_1_v90 (B11 m c)).trans (by rw [B11_v89]; all_goals rfl)

theorem B11_v69 : B11 m c (Proc.devRef .tc main_v69) = layer (Host.dotGeneral (F := Ideal) (φ₁ := .f32) (φ₂ := .f32) Cert.ReferenceIdeal.dot_S50000x128_S128x128_S50000x128_1_0_0_1_n_n none (layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5)))) (weight1 (m ((c.tc : Thread nD τ).loc main_arg4)))) (m ((c.tc : Thread nD τ).loc main_arg1)) (biasRow1 (m ((c.tc : Thread nD τ).loc main_arg5))) :=
  (B11_of m c main_v69 (by decide)).trans (B10_v69 m c)

theorem B12_v69 : B12 m c (Proc.devRef .tc main_v69) = layer (Host.dotGeneral (F := Ideal) (φ₁ := .f32) (φ₂ := .f32) Cert.ReferenceIdeal.dot_S50000x128_S128x128_S50000x128_1_0_0_1_n_n none (layer (Host.dotGeneral (F := Ideal) (φ₁ := .f32) (φ₂ := .f32) Cert.ReferenceIdeal.dot_S50000x128_S128x128_S50000x128_1_0_0_1_n_n none (m ((c.tc : Thread nD τ).loc main_arg0)) (weight0 (m ((c.tc : Thread nD τ).loc main_arg4)))) (m ((c.tc : Thread nD τ).loc main_arg1)) (biasRow0 (m ((c.tc : Thread nD τ).loc main_arg5)))) (weight1 (m ((c.tc : Thread nD τ).loc main_arg4)))) (m ((c.tc : Thread nD τ).loc main_arg1)) (biasRow1 (m ((c.tc : Thread nD τ).loc main_arg5))) :=
  (B12_of m c main_v69 (by decide)).trans (B11_v69 m c)

/-- The embedding: the three layers' outputs side by side, which is `embed` of the arguments by its definition. -/
theorem B13_v91 : B13 m c (Proc.devRef .tc main_v91) = embed (m ((c.tc : Thread nD τ).loc main_arg0)) (m ((c.tc : Thread nD τ).loc main_arg1)) (m ((c.tc : Thread nD τ).loc main_arg4)) (m ((c.tc : Thread nD τ).loc main_arg5)) :=
  (hostOps3_2_v91 (B12 m c)).trans (by rw [B12_v48, B12_v69, B12_v90]; all_goals rfl)

theorem B13_v92 : B13 m c (Proc.devRef .tc main_v92) = outRow (m ((c.tc : Thread nD τ).loc main_arg6)) :=
  (hostOps3_2_v92 (B12 m c)).trans (by rw [B12_arg6])

theorem B13_v93 : B13 m c (Proc.devRef .tc main_v93) = outBias (m ((c.tc : Thread nD τ).loc main_arg7)) :=
  (hostOps3_2_v93 (B12 m c)).trans (by rw [B12_arg7])

theorem B13_v102 : B13 m c (Proc.devRef .tc main_v102) = gatherRows (embed (m ((c.tc : Thread nD τ).loc main_arg0)) (m ((c.tc : Thread nD τ).loc main_arg1)) (m ((c.tc : Thread nD τ).loc main_arg4)) (m ((c.tc : Thread nD τ).loc main_arg5))) (pairRow0 (m ((c.tc : Thread nD τ).loc main_arg2))) :=
  (hostOps3_2_v102 (B12 m c)).trans (by rw [B12_v48, B12_v69, B12_v90, B12_arg2]; all_goals rfl)

theorem B13_v111 : B13 m c (Proc.devRef .tc main_v111) = gatherRows (embed (m ((c.tc : Thread nD τ).loc main_arg0)) (m ((c.tc : Thread nD τ).loc main_arg1)) (m ((c.tc : Thread nD τ).loc main_arg4)) (m ((c.tc : Thread nD τ).loc main_arg5))) (pairRow1 (m ((c.tc : Thread nD τ).loc main_arg2))) :=
  (hostOps3_2_v111 (B12 m c)).trans (by rw [B12_v48, B12_v69, B12_v90, B12_arg2]; all_goals rfl)

theorem B13_v120 : B13 m c (Proc.devRef .tc main_v120) = gatherRows (embed (m ((c.tc : Thread nD τ).loc main_arg0)) (m ((c.tc : Thread nD τ).loc main_arg1)) (m ((c.tc : Thread nD τ).loc main_arg4)) (m ((c.tc : Thread nD τ).loc main_arg5))) (pairRow0 (m ((c.tc : Thread nD τ).loc main_arg3))) :=
  (hostOps3_2_v120 (B12 m c)).trans (by rw [B12_v48, B12_v69, B12_v90, B12_arg3]; all_goals rfl)

theorem B13_v129 : B13 m c (Proc.devRef .tc main_v129) = gatherRows (embed (m ((c.tc : Thread nD τ).loc main_arg0)) (m ((c.tc : Thread nD τ).loc main_arg1)) (m ((c.tc : Thread nD τ).loc main_arg4)) (m ((c.tc : Thread nD τ).loc main_arg5))) (pairRow1 (m ((c.tc : Thread nD τ).loc main_arg3))) :=
  (hostOps3_2_v129 (B12 m c)).trans (by rw [B12_v48, B12_v69, B12_v90, B12_arg3]; all_goals rfl)

/-! ## What the scoring regions find -/

/-- Region 3 finds in its first window's array the embedding's rows at the positive pairs' first ends. -/
theorem k_zaP : E13 m c (Pipeline.arrRef spec3 0) = gatherRows (embed (m ((c.tc : Thread nD τ).loc main_arg0)) (m ((c.tc : Thread nD τ).loc main_arg1)) (m ((c.tc : Thread nD τ).loc main_arg4)) (m ((c.tc : Thread nD τ).loc main_arg5))) (pairRow0 (m ((c.tc : Thread nD τ).loc main_arg2))) :=
  B13_v102 m c

/-- … in its second window's array the rows at the positive pairs' second ends. -/
theorem k_zbP : E13 m c (Pipeline.arrRef spec3 1) = gatherRows (embed (m ((c.tc : Thread nD τ).loc main_arg0)) (m ((c.tc : Thread nD τ).loc main_arg1)) (m ((c.tc : Thread nD τ).loc main_arg4)) (m ((c.tc : Thread nD τ).loc main_arg5))) (pairRow1 (m ((c.tc : Thread nD τ).loc main_arg2))) :=
  B13_v111 m c

/-- … in its third the output weights as a row. -/
theorem k_pw3 : E13 m c (Pipeline.arrRef spec3 2) = outRow (m ((c.tc : Thread nD τ).loc main_arg6)) :=
  B13_v92 m c

/-- … in its fourth the output bias as a 1×1 array. -/
theorem k_pb3 : E13 m c (Pipeline.arrRef spec3 3) = outBias (m ((c.tc : Thread nD τ).loc main_arg7)) :=
  B13_v93 m c

/-- Region 4 finds the rows at the negative pairs' first ends: region 3 and the stretch after it do not touch that array. -/
theorem k_zaN : E15 m c (Pipeline.arrRef spec4 0) = gatherRows (embed (m ((c.tc : Thread nD τ).loc main_arg0)) (m ((c.tc : Thread nD τ).loc main_arg1)) (m ((c.tc : Thread nD τ).loc main_arg4)) (m ((c.tc : Thread nD τ).loc main_arg5))) (pairRow0 (m ((c.tc : Thread nD τ).loc main_arg3))) :=
  (B15_of m c main_v120 (by decide)).trans ((B14_of_ne m c main_v120 (by decide)).trans (B13_v120 m c))

/-- … and the rows at the negative pairs' second ends. -/
theorem k_zbN : E15 m c (Pipeline.arrRef spec4 1) = gatherRows (embed (m ((c.tc : Thread nD τ).loc main_arg0)) (m ((c.tc : Thread nD τ).loc main_arg1)) (m ((c.tc : Thread nD τ).loc main_arg4)) (m ((c.tc : Thread nD τ).loc main_arg5))) (pairRow1 (m ((c.tc : Thread nD τ).loc main_arg3))) :=
  (B15_of m c main_v129 (by decide)).trans ((B14_of_ne m c main_v129 (by decide)).trans (B13_v129 m c))

/-- The output weights were region 3's third input window: an input window's array is left as found. -/
theorem k_pw4 : E15 m c (Pipeline.arrRef spec4 2) = outRow (m ((c.tc : Thread nD τ).loc main_arg6)) :=
  (B15_of m c main_v92 (by decide)).trans ((B14_arr m c 2).trans ((arr3_2 (E13 m) c).trans (B13_v92 m c)))

/-- The output bias was region 3's fourth input window. -/
theorem k_pb4 : E15 m c (Pipeline.arrRef spec4 3) = outBias (m ((c.tc : Thread nD τ).loc main_arg7)) :=
  (B15_of m c main_v93 (by decide)).trans ((B14_arr m c 3).trans ((arr3_3 (E13 m) c).trans (B13_v93 m c)))

end Cert.Proof.Hand

end
-- ==== Proof.Final.lean ====
/- The two idealized programs compute one number. Read at the extended reals, the kernel program's three matrix-product
   regions leave exactly the reference's three products, so the node embeddings agree and with them the rows gathered at
   the ends of every positive and negative pair; each predictor region's accumulator ends at the sum, over fifty blocks of
   two thousand pairs, of the softplus of the signed score, which is the reference's sum of minus the log-sigmoid over all
   hundred thousand pairs regrouped (addition on the extended reals is commutative and associative; minus one times a
   score is its negation, and the guards against a value unequal to itself never fire); both programs then add the two
   sums and divide by 200000. -/
import proofs.«150805_j37804302139719_1_alg».proof.Defs
import proofs.«150805_j37804302139719_1_alg».proof.Proof.Gen.Pre_finite_inputs
import proofs.«150805_j37804302139719_1_alg».proof.Proof.Gen.KernelIdeal
import proofs.«150805_j37804302139719_1_alg».proof.Proof.Gen.ReferenceIdeal
import proofs.«150805_j37804302139719_1_alg».proof.Proof.KI.Result
import proofs.«150805_j37804302139719_1_alg».proof.Proof.Loss
import proofs.«150805_j37804302139719_1_alg».proof.Proof.KHost
import proofs.«150805_j37804302139719_1_alg».proof.Proof.RefRun.Val

set_option maxRecDepth 16384

noncomputable section

namespace Cert.Proof.Hand

open Idealize.ShloMosaic Idealize.ShloMosaic.TcCoe Idealize.SL.Sem Idealize.ShloMosaic.ValueIdx
open Cert.KernelIdeal.Hand
open Cert.ReferenceIdeal.RefRun (refLoss embed pairScores score negLogSigSum meanLoss gatherRows pairRow0 pairRow1)

variable (m : (ℓ : Loc Cert.KernelIdeal.nD Cert.KernelIdeal.τ Cert.KernelIdeal.sig) → Buf (Elt Ideal) ℓ)

/-- The kernel program's result buffer ends at the reference's loss of the kernel program's own argument arrays. -/
theorem kernel_loss (c : Dev Cert.KernelIdeal.nD) :
    (B17 m c (Proc.devRef .tc Cert.KernelIdeal.main_v135) : FVec Ideal Cert.KernelIdeal.S_ .f32)
      = refLoss (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
  funext i
  rw [eq_ix0 i, result_read m c]
  unfold refLoss
  rw [meanLoss_apply]
  refine congrArg₂ (fun x y : EReal => Ideal.div (x + y) (Ideal.ofBits .f32 0x48435000#32)) ?_ ?_
  · exact (acc3_sum (E13 m) c _ _ _ _ (k_zaP m c).symm (k_zbP m c).symm (k_pw3 m c).symm (k_pb3 m c).symm).trans
      (loss_pos _ _ _ _ _ _ (outRow_apply _) (outBias_apply _))
  · exact (acc4_sum (E15 m) c _ _ _ _ (k_zaN m c).symm (k_zbN m c).symm (k_pw4 m c).symm (k_pb4 m c).symm).trans
      (loss_neg _ _ _ _ _ _ (outRow_apply _) (outBias_apply _))

/-- At the ideal values the kernel program and the reference, run from memories agreeing on the eight arguments, both
    terminate with the same result and unchanged arguments. -/
theorem algebraic : Cert.algebraic_KernelIdeal_ReferenceIdeal := by
  intro m g m' g' _ hagree
  refine ⟨fun c => B17 m c (Proc.devRef .tc Cert.KernelIdeal.main_v135), run_result m g, ?_⟩
  refine (θ_run Cert.ReferenceIdeal.defs _ _).mono (fun r h c => ⟨(h c).1.trans ?_, (h c).2⟩)
    (Cert.ReferenceIdeal.RefRun.run (F := Ideal) m' g')
  rw [Cert.ReferenceIdeal.RefRun.ops_out]
  show refLoss (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (kernel_loss m c).symm

end Cert.Proof.Hand

end
-- ==== Proof.lean ====
/- A three-layer graph convolution with a link predictor, as a program of five kernel regions among host operations,
   against its plain reference. The three frames: each program terminates, faults nowhere and leaves its eight argument
   arrays as launched — for the two kernel programs by running @main as seventeen segments with every unscoped buffer's
   contents named at each boundary, for the reference by its straight line of host operations. The idealization rewrote
   no operation, so it preserves nothing beyond the text. At the extended reals the two idealized programs end with the
   same loss: the matrix-product regions are the reference's products, the host operations between them are the
   reference's own, and the predictor regions' accumulated sums are the reference's sums regrouped. -/
import proofs.«150805_j37804302139719_1_alg».proof.Defs
import proofs.«150805_j37804302139719_1_alg».proof.Proof.Gen.Kernel
import proofs.«150805_j37804302139719_1_alg».proof.Proof.Gen.KernelIdeal
import proofs.«150805_j37804302139719_1_alg».proof.Proof.Gen.ReferenceIdeal
import proofs.«150805_j37804302139719_1_alg».proof.Proof.Gen.Pre_finite_inputs
import proofs.«150805_j37804302139719_1_alg».proof.Proof.K.Chain
import proofs.«150805_j37804302139719_1_alg».proof.Proof.KI.Chain
import proofs.«150805_j37804302139719_1_alg».proof.Proof.RefRun.Frame
import proofs.«150805_j37804302139719_1_alg».proof.Proof.Final

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ, fun m ρ _ => Cert.KernelIdeal.Hand.frame m ρ, Cert.Proof.Hand.frame_ri, trivial,
  Cert.Proof.Hand.algebraic⟩

end Cert.Proof

end
